-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_arg2)) (v4 : (c : Dev Cert.KernelIdeal.nD) → Buf (Elt Ideal) ((c.tc : Thread Cert.KernelIdeal.nD Cert.KernelIdeal.τ).loc Cert.KernelIdeal.main_arg3)) (v5 : (c : Dev Cert.KernelIdeal.nD) → Buf (Elt Ideal) ((c.tc : Thread Cert.KernelIdeal.nD Cert.KernelIdeal.τ).loc Cert.KernelIdeal.main_arg4)) (v6 : (c : Dev Cert.KernelIdeal.nD) → Buf (Elt Ideal) ((c.tc : Thread Cert.KernelIdeal.nD Cert.KernelIdeal.τ).loc Cert.KernelIdeal.main_arg5)) (v7 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg3) = v4 c
          ∧ r.2.mem ((c.tc : Thread Cert.KernelIdeal.nD Cert.KernelIdeal.τ).loc Cert.KernelIdeal.main_arg4) = v5 c
          ∧ r.2.mem ((c.tc : Thread Cert.KernelIdeal.nD Cert.KernelIdeal.τ).loc Cert.KernelIdeal.main_arg5) = v6 c
          ∧ r.2.mem ((c.tc : Thread Cert.KernelIdeal.nD Cert.KernelIdeal.τ).loc Cert.KernelIdeal.main_arg6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg3) = v4 c
          ∧ r.2.mem ((c.tc : Thread Cert.ReferenceIdeal.nD Cert.ReferenceIdeal.τ).loc Cert.ReferenceIdeal.main_arg4) = v5 c
          ∧ r.2.mem ((c.tc : Thread Cert.ReferenceIdeal.nD Cert.ReferenceIdeal.τ).loc Cert.ReferenceIdeal.main_arg5) = v6 c
          ∧ r.2.mem ((c.tc : Thread Cert.ReferenceIdeal.nD Cert.ReferenceIdeal.τ).loc Cert.ReferenceIdeal.main_arg6) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000 : Shape := ⟨1, ![100000]⟩
abbrev S100000x3 : Shape := ⟨2, ![100000, 3]⟩
abbrev S2x1600000 : Shape := ⟨2, ![2, 1600000]⟩
abbrev S64x3x3 : Shape := ⟨3, ![64, 3, 3]⟩
abbrev S1600000x3 : Shape := ⟨2, ![1600000, 3]⟩
abbrev S64 : Shape := ⟨1, ![64]⟩
abbrev S100x128 : Shape := ⟨2, ![100, 128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S64x3x3 : S_.BroadcastsInDim S64x3x3 (![] : Fin 0 → Fin S64x3x3.rank)
  reducesTo_S64x3x3_S_d0_1_2 : S64x3x3.ReducesTo [0, 1, 2] S_
  bcast_S_S1600000x3 : S_.BroadcastsInDim S1600000x3 (![] : Fin 0 → Fin S1600000x3.rank)
  reducesTo_S1600000x3_S_d0_1 : S1600000x3.ReducesTo [0, 1] S_
  bcast_S_S100x128 : S_.BroadcastsInDim S100x128 (![] : Fin 0 → Fin S100x128.rank)
  reducesTo_S100x128_S_d0_1 : S100x128.ReducesTo [0, 1] S_
  bcast_S_S100000 : S_.BroadcastsInDim S100000 (![] : Fin 0 → Fin S100000.rank)
  reducesTo_S100000_S_d0 : S100000.ReducesTo [0] S_
  bcast_S_S2x1600000 : S_.BroadcastsInDim S2x1600000 (![] : Fin 0 → Fin S2x1600000.rank)
  reducesTo_S2x1600000_S_d0_1 : S2x1600000.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg3 : IVec S2x1600000 32) (main_arg6 : IVec S64 32) (main_v32 : IVec S_ 1) (main_c_12 : IVec S_ 32) : IVec S_ 1 :=
  let main_v33 : IVec S2x1600000 32 := broadcastInDim S2x1600000 ![] bcast_S_S2x1600000 main_c_12
  let main_v34 : IVec S2x1600000 1 := cmpi .sge main_arg3 main_v33
  let main_c_13 : IVec S_ 32 := constantI S_ 32 99999#32
  let main_v35 : IVec S2x1600000 32 := broadcastInDim S2x1600000 ![] bcast_S_S2x1600000 main_c_13
  let main_v36 : IVec S2x1600000 1 := cmpi .sle main_arg3 main_v35
  let main_v37 : IVec S2x1600000 1 := andi main_v34 main_v36
  let main_c_14 : IVec S_ 1 := constantI S_ 1 1#1
  let main_v38 : IVec S_ 1 := (fun x v => Host.reduce IntOp.andi x v reducesTo_S2x1600000_S_d0_1 h_S_) main_v37 main_c_14
  let main_v39 : IVec S_ 1 := andi main_v32 main_v38
  let main_c_15 : IVec S_ 32 := constantI S_ 32 0#32
  let main_v40 : IVec S64 32 := broadcastInDim S64 ![] bcast_S_S64 main_c_15
  let main_v41 : IVec S64 1 := cmpi .sge main_arg6 main_v40
  let main_c_16 : IVec S_ 32 := constantI S_ 32 999#32
  let main_v42 : IVec S64 32 := broadcastInDim S64 ![] bcast_S_S64 main_c_16
  let main_v43 : IVec S64 1 := cmpi .sle main_arg6 main_v42
  let main_v44 : IVec S64 1 := andi main_v41 main_v43
  let main_c_17 : IVec S_ 1 := constantI S_ 1 1#1
  let main_v45 : IVec S_ 1 := (fun x v => Host.reduce IntOp.andi x v reducesTo_S64_S_d0 h_S_) main_v44 main_c_17
  let main_v46 : IVec S_ 1 := andi main_v39 main_v45
  main_v46

def fn_part1 {F : FTy → Type} [FloatOps F] (main_arg0 : IVec S100000 32) (main_arg2 : IVec S100000 32) (main_arg3 : IVec S2x1600000 32) (main_arg6 : IVec S64 32) (main_v13 : IVec S_ 1) (main_v16 : IVec S100x128 1) : IVec S_ 1 :=
  let main_c_5 : IVec S_ 1 := constantI S_ 1 1#1
  let main_v17 : IVec S_ 1 := (fun x v => Host.reduce IntOp.andi x v reducesTo_S100x128_S_d0_1 h_S_) main_v16 main_c_5
  let main_v18 : IVec S_ 1 := andi main_v13 main_v17
  let main_c_6 : IVec S_ 32 := constantI S_ 32 0#32
  let main_v19 : IVec S100000 32 := broadcastInDim S100000 ![] bcast_S_S100000 main_c_6
  let main_v20 : IVec S100000 1 := cmpi .sge main_arg0 main_v19
  let main_c_7 : IVec S_ 32 := constantI S_ 32 99#32
  let main_v21 : IVec S100000 32 := broadcastInDim S100000 ![] bcast_S_S100000 main_c_7
  let main_v22 : IVec S100000 1 := cmpi .sle main_arg0 main_v21
  let main_v23 : IVec S100000 1 := andi main_v20 main_v22
  let main_c_8 : IVec S_ 1 := constantI S_ 1 1#1
  let main_v24 : IVec S_ 1 := (fun x v => Host.reduce IntOp.andi x v reducesTo_S100000_S_d0 h_S_) main_v23 main_c_8
  let main_v25 : IVec S_ 1 := andi main_v18 main_v24
  let main_c_9 : IVec S_ 32 := constantI S_ 32 0#32
  let main_v26 : IVec S100000 32 := broadcastInDim S100000 ![] bcast_S_S100000 main_c_9
  let main_v27 : IVec S100000 1 := cmpi .sge main_arg2 main_v26
  let main_c_10 : IVec S_ 32 := constantI S_ 32 63#32
  let main_v28 : IVec S100000 32 := broadcastInDim S100000 ![] bcast_S_S100000 main_c_10
  let main_v29 : IVec S100000 1 := cmpi .sle main_arg2 main_v28
  let main_v30 : IVec S100000 1 := andi main_v27 main_v29
  let main_c_11 : IVec S_ 1 := constantI S_ 1 1#1
  let main_v31 : IVec S_ 1 := (fun x v => Host.reduce IntOp.andi x v reducesTo_S100000_S_d0 h_S_) main_v30 main_c_11
  let main_v32 : IVec S_ 1 := andi main_v25 main_v31
  let main_c_12 : IVec S_ 32 := constantI S_ 32 0#32
  fn_part2 (F := F) main_arg3 main_arg6 main_v32 main_c_12

def fn {F : FTy → Type} [FloatOps F] (main_arg0 : IVec S100000 32) (main_arg1 : FVec F S100000x3 .f32) (main_arg2 : IVec S100000 32) (main_arg3 : IVec S2x1600000 32) (main_arg4 : FVec F S64x3x3 .f32) (main_arg5 : FVec F S1600000x3 .f32) (main_arg6 : IVec S64 32) (main_arg7 : FVec F S100x128 .f32) : IVec S_ 1 :=
  let main_v0 : FVec F S100000x3 .f32 := Host.absf main_arg1
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S64x3x3 .f32 := Host.absf main_arg4
  let main_cst_0 : FVec F S_ .f32 := constant S_ .f32 0x7F800000#32
  let main_v5 : FVec F S64x3x3 .f32 := broadcastInDim S64x3x3 ![] bcast_S_S64x3x3 main_cst_0
  let main_v6 : IVec S64x3x3 1 := cmpf .olt main_v4 main_v5
  let main_c_1 : IVec S_ 1 := constantI S_ 1 1#1
  let main_v7 : IVec S_ 1 := (fun x v => Host.reduce IntOp.andi x v reducesTo_S64x3x3_S_d0_1_2 h_S_) main_v6 main_c_1
  let main_v8 : IVec S_ 1 := andi main_v3 main_v7
  let main_v9 : FVec F S1600000x3 .f32 := Host.absf main_arg5
  let main_cst_2 : FVec F S_ .f32 := constant S_ .f32 0x7F800000#32
  let main_v10 : FVec F S1600000x3 .f32 := broadcastInDim S1600000x3 ![] bcast_S_S1600000x3 main_cst_2
  let main_v11 : IVec S1600000x3 1 := cmpf .olt main_v9 main_v10
  let main_c_3 : IVec S_ 1 := constantI S_ 1 1#1
  let main_v12 : IVec S_ 1 := (fun x v => Host.reduce IntOp.andi x v reducesTo_S1600000x3_S_d0_1 h_S_) main_v11 main_c_3
  let main_v13 : IVec S_ 1 := andi main_v8 main_v12
  let main_v14 : FVec F S100x128 .f32 := Host.absf main_arg7
  let main_cst_4 : FVec F S_ .f32 := constant S_ .f32 0x7F800000#32
  let main_v15 : FVec F S100x128 .f32 := broadcastInDim S100x128 ![] bcast_S_S100x128 main_cst_4
  let main_v16 : IVec S100x128 1 := cmpf .olt main_v14 main_v15
  fn_part1 (F := F) main_arg0 main_arg2 main_arg3 main_arg6 main_v13 main_v16
-- ==== Kernel.lean ====
abbrev S100000 : Shape := ⟨1, ![100000]⟩
abbrev S100000x3 : Shape := ⟨2, ![100000, 3]⟩
abbrev S2x1600000 : Shape := ⟨2, ![2, 1600000]⟩
abbrev S64x3x3 : Shape := ⟨3, ![64, 3, 3]⟩
abbrev S1600000x3 : Shape := ⟨2, ![1600000, 3]⟩
abbrev S64 : Shape := ⟨1, ![64]⟩
abbrev S100x128 : Shape := ⟨2, ![100, 128]⟩
abbrev S100000x128 : Shape := ⟨2, ![100000, 128]⟩
abbrev S25x128 : Shape := ⟨2, ![25, 128]⟩
abbrev S7x128x128 : Shape := ⟨3, ![7, 128, 128]⟩
abbrev S_ : Shape := ⟨0, ![]⟩
abbrev S7 : Shape := ⟨1, ![7]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1 : Shape := ⟨1, ![1]⟩

abbrev nBuf : Table → Nat
  | .hbm => 9
  | .shared => 1
  | .local .scVector .vmem => 2
  | _ => 0

abbrev bufTy : (tb : Table) → Fin (nBuf tb) → BufTy
  | .hbm, ⟨0, _⟩ => ⟨S100000, .i32⟩
  | .hbm, ⟨1, _⟩ => ⟨S100000x3, .f32⟩
  | .hbm, ⟨2, _⟩ => ⟨S100000, .i32⟩
  | .hbm, ⟨3, _⟩ => ⟨S2x1600000, .i32⟩
  | .hbm, ⟨4, _⟩ => ⟨S64x3x3, .f32⟩
  | .hbm, ⟨5, _⟩ => ⟨S1600000x3, .f32⟩
  | .hbm, ⟨6, _⟩ => ⟨S64, .i32⟩
  | .hbm, ⟨7, _⟩ => ⟨S100x128, .f32⟩
  | .hbm, ⟨8, _⟩ => ⟨S100000x128, .f32⟩
  | .shared, ⟨0, _⟩ => ⟨S100x128, .f32⟩
  | .local .scVector .vmem, ⟨0, _⟩ => ⟨S25x128, .i32⟩
  | .local .scVector .vmem, ⟨1, _⟩ => ⟨S7x128x128, .f32⟩
  | _, _ => ⟨S100000, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 5 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_arg0_scv : Ref sig .scVector := ⟨.hbm, 0, rfl⟩
abbrev main_arg7_scv : Ref sig .scVector := ⟨.hbm, 7, rfl⟩
abbrev main_v0_scv : Ref sig .scVector := ⟨.hbm, 8, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c25_i32 : BitVec 32 := 25#32
  let v5 : BitVec 32 := Scalar.addi c0_i32_2 c25_i32
  let c1_i32 : BitVec 32 := 1#32
  ⟨c0_i32_2, v5, c1_i32⟩
def k0_off1 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c0_i32_23 : BitVec 32 := 0#32
  ![arg12.toNat, 0]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c1_i32 : BitVec 32 := 1#32
  let arg12 : BitVec 32 := Scf.iv c0_i32_2 c1_i32 k0_t1
  let c32_i32 : BitVec 32 := 32#32
  let v13 : BitVec 32 := Scalar.muli arg12 c32_i32
  let v14 : BitVec 32 := Scalar.addi v1 v13
  let c128_i32 : BitVec 32 := 128#32
  let v15 : BitVec 32 := Scalar.muli v14 c128_i32
  let c99872_i32 : BitVec 32 := 99872#32
  let v16 : BitVec 32 := Scalar.minsi v15 c99872_i32
  ![v16.toNat]
@[reducible] def k0_t2_loop : Scf.Loop 32 :=
  let c0_i32_5 : BitVec 32 := 0#32
  let c25_i32_6 : BitVec 32 := 25#32
  let v6 : BitVec 32 := Scalar.addi c0_i32_5 c25_i32_6
  let c1_i32_7 : BitVec 32 := 1#32
  ⟨c0_i32_5, v6, c1_i32_7⟩
@[reducible] def k0_t3_loop : Scf.Loop 32 :=
  let c0_i32_12 : BitVec 32 := 0#32
  let c25_i32_13 : BitVec 32 := 25#32
  let v10 : BitVec 32 := Scalar.addi c0_i32_12 c25_i32_13
  let c1_i32_14 : BitVec 32 := 1#32
  ⟨c0_i32_12, v10, c1_i32_14⟩
def k0_cond3 (k0_t3 : Fin k0_t3_loop.trips) : BitVec 1 :=
  let c0_i32_12 : BitVec 32 := 0#32
  let c1_i32_14 : BitVec 32 := 1#32
  let arg12 : BitVec 32 := Scf.iv c0_i32_12 c1_i32_14 k0_t3
  let c7_i32_24 : BitVec 32 := 7#32
  let v14 : BitVec 1 := Scalar.cmpi .sge arg12 c7_i32_24
  let v15 : BitVec 32 := Scalar.extui v14
  let c0_i32_25 : BitVec 32 := 0#32
  let v16 : BitVec 1 := Scalar.cmpi .ne v15 c0_i32_25
  v16

def k0_off3 (k0_t3 : Fin k0_t3_loop.trips) : Fin 3 → Nat :=
  let c0_i32_12 : BitVec 32 := 0#32
  let c1_i32_14 : BitVec 32 := 1#32
  let arg12 : BitVec 32 := Scf.iv c0_i32_12 c1_i32_14 k0_t3
  let c7_i32_23 : BitVec 32 := 7#32
  let v13 : BitVec 32 := Scalar.remsi arg12 c7_i32_23
  let c0_i32_33 : BitVec 32 := 0#32
  let c0_i32_34 : BitVec 32 := 0#32
  ![v13.toNat, 0, 0]
def k0_off4 (k0_t3 : Fin k0_t3_loop.trips) : Fin 1 → Nat :=
  let c0_i32_12 : BitVec 32 := 0#32
  let c1_i32_14 : BitVec 32 := 1#32
  let arg12 : BitVec 32 := Scf.iv c0_i32_12 c1_i32_14 k0_t3
  let c7_i32_23 : BitVec 32 := 7#32
  let v13 : BitVec 32 := Scalar.remsi arg12 c7_i32_23
  ![v13.toNat]
def k0_off5 (k0_t3 : Fin k0_t3_loop.trips) : Fin 3 → Nat :=
  let c0_i32_12 : BitVec 32 := 0#32
  let c1_i32_14 : BitVec 32 := 1#32
  let arg12 : BitVec 32 := Scf.iv c0_i32_12 c1_i32_14 k0_t3
  let c7_i32_23 : BitVec 32 := 7#32
  let v13 : BitVec 32 := Scalar.remsi arg12 c7_i32_23
  let c0_i32_26 : BitVec 32 := 0#32
  let c0_i32_27 : BitVec 32 := 0#32
  ![v13.toNat, 0, 0]
def k0_off6 (k0_t3 : Fin k0_t3_loop.trips) : Fin 2 → Nat :=
  let c0_i32_12 : BitVec 32 := 0#32
  let c1_i32_14 : BitVec 32 := 1#32
  let arg12 : BitVec 32 := Scf.iv c0_i32_12 c1_i32_14 k0_t3
  let c0_i32_28 : BitVec 32 := 0#32
  ![arg12.toNat, 0]
def k0_off7 (k0_t3 : Fin k0_t3_loop.trips) : Fin 1 → Nat :=
  let c0_i32_12 : BitVec 32 := 0#32
  let c1_i32_14 : BitVec 32 := 1#32
  let arg12 : BitVec 32 := Scf.iv c0_i32_12 c1_i32_14 k0_t3
  let c7_i32_23 : BitVec 32 := 7#32
  let v13 : BitVec 32 := Scalar.remsi arg12 c7_i32_23
  ![v13.toNat]
def k0_cond4 (k0_t3 : Fin k0_t3_loop.trips) : BitVec 1 :=
  let c0_i32_12 : BitVec 32 := 0#32
  let c1_i32_14 : BitVec 32 := 1#32
  let arg12 : BitVec 32 := Scf.iv c0_i32_12 c1_i32_14 k0_t3
  let c2_i32_31 : BitVec 32 := 2#32
  let v24 : BitVec 1 := Scalar.cmpi .sge arg12 c2_i32_31
  let v25 : BitVec 32 := Scalar.extui v24
  let c0_i32_32 : BitVec 32 := 0#32
  let v26 : BitVec 1 := Scalar.cmpi .ne v25 c0_i32_32
  v26

def k0_off8 (k0_t3 : Fin k0_t3_loop.trips) : Fin 3 → Nat :=
  let c0_i32_12 : BitVec 32 := 0#32
  let c1_i32_14 : BitVec 32 := 1#32
  let arg12 : BitVec 32 := Scf.iv c0_i32_12 c1_i32_14 k0_t3
  let c2_i32_33 : BitVec 32 := 2#32
  let v27 : BitVec 32 := Scalar.subi arg12 c2_i32_33
  let c7_i32_34 : BitVec 32 := 7#32
  let v28 : BitVec 32 := Scalar.remsi v27 c7_i32_34
  let c0_i32_36 : BitVec 32 := 0#32
  let c0_i32_37 : BitVec 32 := 0#32
  ![v28.toNat, 0, 0]
def k0_off9 (k0_t3 : Fin k0_t3_loop.trips) : Fin 1 → Nat :=
  let c0_i32_12 : BitVec 32 := 0#32
  let c1_i32_14 : BitVec 32 := 1#32
  let arg12 : BitVec 32 := Scf.iv c0_i32_12 c1_i32_14 k0_t3
  let c2_i32_33 : BitVec 32 := 2#32
  let v27 : BitVec 32 := Scalar.subi arg12 c2_i32_33
  let c7_i32_34 : BitVec 32 := 7#32
  let v28 : BitVec 32 := Scalar.remsi v27 c7_i32_34
  ![v28.toNat]
def k0_off10 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c1_i32_14 : BitVec 32 := 1#32
  let arg12 : BitVec 32 := Scf.iv c0_i32_12 c1_i32_14 k0_t3
  let c2_i32_41 : BitVec 32 := 2#32
  let v36 : BitVec 32 := Scalar.subi arg12 c2_i32_41
  let c32_i32 : BitVec 32 := 32#32
  let v37 : BitVec 32 := Scalar.muli v36 c32_i32
  let v38 : BitVec 32 := Scalar.addi v1 v37
  let c128_i32 : BitVec 32 := 128#32
  let v39 : BitVec 32 := Scalar.muli v38 c128_i32
  let c99872_i32 : BitVec 32 := 99872#32
  let v40 : BitVec 32 := Scalar.minsi v39 c99872_i32
  let c0_i32_44 : BitVec 32 := 0#32
  ![v40.toNat, 0]
@[reducible] def k0_t4_loop : Scf.Loop 32 :=
  let c23_i32 : BitVec 32 := 23#32
  let c2_i32_17 : BitVec 32 := 2#32
  let v11 : BitVec 32 := Scalar.addi c23_i32 c2_i32_17
  let c1_i32_18 : BitVec 32 := 1#32
  ⟨c23_i32, v11, c1_i32_18⟩
def k0_off11 (k0_t4 : Fin k0_t4_loop.trips) : Fin 3 → Nat :=
  let c23_i32 : BitVec 32 := 23#32
  let c1_i32_18 : BitVec 32 := 1#32
  let arg12 : BitVec 32 := Scf.iv c23_i32 c1_i32_18 k0_t4
  let c7_i32_23 : BitVec 32 := 7#32
  let v13 : BitVec 32 := Scalar.remsi arg12 c7_i32_23
  let c0_i32_25 : BitVec 32 := 0#32
  let c0_i32_26 : BitVec 32 := 0#32
  ![v13.toNat, 0, 0]
def k0_off12 (k0_t4 : Fin k0_t4_loop.trips) : Fin 1 → Nat :=
  let c23_i32 : BitVec 32 := 23#32
  let c1_i32_18 : BitVec 32 := 1#32
  let arg12 : BitVec 32 := Scf.iv c23_i32 c1_i32_18 k0_t4
  let c7_i32_23 : BitVec 32 := 7#32
  let v13 : BitVec 32 := Scalar.remsi arg12 c7_i32_23
  ![v13.toNat]
def k0_off13 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c23_i32 : BitVec 32 := 23#32
  let c1_i32_18 : BitVec 32 := 1#32
  let arg12 : BitVec 32 := Scf.iv c23_i32 c1_i32_18 k0_t4
  let c32_i32 : BitVec 32 := 32#32
  let v21 : BitVec 32 := Scalar.muli arg12 c32_i32
  let v22 : BitVec 32 := Scalar.addi v1 v21
  let c128_i32 : BitVec 32 := 128#32
  let v23 : BitVec 32 := Scalar.muli v22 c128_i32
  let c99872_i32 : BitVec 32 := 99872#32
  let v24 : BitVec 32 := Scalar.minsi v23 c99872_i32
  let c0_i32_32 : BitVec 32 := 0#32
  ![v24.toNat, 0]
@[reducible] def k0_t5_loop : Scf.Loop 32 :=
  let c18_i32 : BitVec 32 := 18#32
  let c7_i32 : BitVec 32 := 7#32
  let v12 : BitVec 32 := Scalar.addi c18_i32 c7_i32
  let c1_i32_21 : BitVec 32 := 1#32
  ⟨c18_i32, v12, c1_i32_21⟩
def k0_off14 (k0_t5 : Fin k0_t5_loop.trips) : Fin 3 → Nat :=
  let c18_i32 : BitVec 32 := 18#32
  let c1_i32_21 : BitVec 32 := 1#32
  let arg12 : BitVec 32 := Scf.iv c18_i32 c1_i32_21 k0_t5
  let c7_i32_23 : BitVec 32 := 7#32
  let v13 : BitVec 32 := Scalar.remsi arg12 c7_i32_23
  let c0_i32_24 : BitVec 32 := 0#32
  let c0_i32_25 : BitVec 32 := 0#32
  ![v13.toNat, 0, 0]
def k0_off15 (k0_t5 : Fin k0_t5_loop.trips) : Fin 1 → Nat :=
  let c18_i32 : BitVec 32 := 18#32
  let c1_i32_21 : BitVec 32 := 1#32
  let arg12 : BitVec 32 := Scf.iv c18_i32 c1_i32_21 k0_t5
  let c7_i32_23 : BitVec 32 := 7#32
  let v13 : BitVec 32 := Scalar.remsi arg12 c7_i32_23
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x128_S128 : S1x128.Squeezes S128
  inb_S25x128_S1x128_0_0 : ∀ a, (![0, 0] : Fin 2 → Nat) a + S1x128.size a ≤ S25x128.size a
  inb_S100000_S128_0 : ∀ a, (![0] : Fin 1 → Nat) a + S128.size a ≤ S100000.size a
  squeezes_S1x128x128_S128x128 : S1x128x128.Squeezes S128x128
  inb_S100000x128_S128x128_0_0 : ∀ a, (![0, 0] : Fin 2 → Nat) a + S128x128.size a ≤ S100000x128.size a
  squeezes_S1_S_ : S1.Squeezes S_
  inb_S100x128_S100x128_0_0 : ∀ a, (![0, 0] : Fin 2 → Nat) a + S100x128.size a ≤ S100x128.size a
  gathers_S100x128_S128x128 : S100x128.Gathers 0 S128x128
  hcc0_scratch3 : 0 + S_.numel ≤ 16
  hcc0_scratch4 : 1 + S_.numel ≤ 16
  hcc0_scratch5 : 2 + S7.numel ≤ 16
  hcc0_scratch6 : 9 + S7.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x128.size a ≤ S25x128.size a
  k0_off2_inb : ∀ (i : grid0.Coords) (k0_t1 : Fin k0_t1_loop.trips), ∀ a, (k0_off2 i k0_t1) a + S128.size a ≤ S100000.size a
  k0_t2_ok : k0_t2_loop.OK
  k0_t3_ok : k0_t3_loop.OK
  k0_off3_inb : ∀ k0_t3 : Fin k0_t3_loop.trips, ∀ (k0_h3 : k0_cond3 k0_t3 = 1#1), ∀ a, (k0_off3 k0_t3) a + S1x128x128.size a ≤ S7x128x128.size a
  k0_off4_inb : ∀ k0_t3 : Fin k0_t3_loop.trips, ∀ (k0_h3 : k0_cond3 k0_t3 = 1#1), ∀ a, (k0_off4 k0_t3) a + S1.size a ≤ S7.size a
  k0_off5_inb : ∀ k0_t3 : Fin k0_t3_loop.trips, ∀ a, (k0_off5 k0_t3) a + S1x128x128.size a ≤ S7x128x128.size a
  k0_off6_inb : ∀ k0_t3 : Fin k0_t3_loop.trips, ∀ a, (k0_off6 k0_t3) a + S1x128.size a ≤ S25x128.size a
  k0_off7_inb : ∀ k0_t3 : Fin k0_t3_loop.trips, ∀ a, (k0_off7 k0_t3) a + S1.size a ≤ S7.size a
  k0_off8_inb : ∀ k0_t3 : Fin k0_t3_loop.trips, ∀ (k0_h4 : k0_cond4 k0_t3 = 1#1), ∀ a, (k0_off8 k0_t3) a + S1x128x128.size a ≤ S7x128x128.size a
  k0_off9_inb : ∀ k0_t3 : Fin k0_t3_loop.trips, ∀ (k0_h4 : k0_cond4 k0_t3 = 1#1), ∀ a, (k0_off9 k0_t3) a + S1.size a ≤ S7.size a
  k0_off10_inb : ∀ (i : grid0.Coords) (k0_t3 : Fin k0_t3_loop.trips), ∀ (k0_h4 : k0_cond4 k0_t3 = 1#1), ∀ a, (k0_off10 i k0_t3) a + S128x128.size a ≤ S100000x128.size a
  k0_t4_ok : k0_t4_loop.OK
  k0_off11_inb : ∀ k0_t4 : Fin k0_t4_loop.trips, ∀ a, (k0_off11 k0_t4) a + S1x128x128.size a ≤ S7x128x128.size a
  k0_off12_inb : ∀ k0_t4 : Fin k0_t4_loop.trips, ∀ a, (k0_off12 k0_t4) a + S1.size a ≤ S7.size a
  k0_off13_inb : ∀ (i : grid0.Coords) (k0_t4 : Fin k0_t4_loop.trips), ∀ a, (k0_off13 i k0_t4) a + S128x128.size a ≤ S100000x128.size a
  k0_t5_ok : k0_t5_loop.OK
  k0_off14_inb : ∀ k0_t5 : Fin k0_t5_loop.trips, ∀ a, (k0_off14 k0_t5) a + S1x128x128.size a ≤ S7x128x128.size a
  k0_off15_inb : ∀ k0_t5 : Fin k0_t5_loop.trips, ∀ a, (k0_off15 k0_t5) a + S1.size a ≤ S7.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S7 := SemArray.consecutive 2 S7 hcc0_scratch5
abbrev cc0_scratch6 : DmaSems sig S7 := SemArray.consecutive 9 S7 hcc0_scratch6

class Facts : Prop extends Facts₀ where

variable [Facts]
-- ==== ReferenceIdeal.lean ====
abbrev S100000 : Shape := ⟨1, ![100000]⟩
abbrev S100000x3 : Shape := ⟨2, ![100000, 3]⟩
abbrev S2x1600000 : Shape := ⟨2, ![2, 1600000]⟩
abbrev S64x3x3 : Shape := ⟨3, ![64, 3, 3]⟩
abbrev S1600000x3 : Shape := ⟨2, ![1600000, 3]⟩
abbrev S64 : Shape := ⟨1, ![64]⟩
abbrev S100x128 : Shape := ⟨2, ![100, 128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x128 : Shape := ⟨2, ![100000, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x3, .f32⟩
  | .hbm, ⟨2, _⟩ => ⟨S100000, .i32⟩
  | .hbm, ⟨3, _⟩ => ⟨S2x1600000, .i32⟩
  | .hbm, ⟨4, _⟩ => ⟨S64x3x3, .f32⟩
  | .hbm, ⟨5, _⟩ => ⟨S1600000x3, .f32⟩
  | .hbm, ⟨6, _⟩ => ⟨S64, .i32⟩
  | .hbm, ⟨7, _⟩ => ⟨S100x128, .f32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S1, .i32⟩
  | .hbm, ⟨17, _⟩ => ⟨S_, .i32⟩
  | .hbm, ⟨18, _⟩ => ⟨S100000x1, .i32⟩
  | .hbm, ⟨19, _⟩ => ⟨S100000x1, .i1⟩
  | .hbm, ⟨20, _⟩ => ⟨S1x1, .i32⟩
  | .hbm, ⟨21, _⟩ => ⟨S100000x1, .i32⟩
  | .hbm, ⟨22, _⟩ => ⟨S100000x1, .i1⟩
  | .hbm, ⟨23, _⟩ => ⟨S100000x1, .i1⟩
  | .hbm, ⟨24, _⟩ => ⟨S_, .i1⟩
  | .hbm, ⟨25, _⟩ => ⟨S100000, .i1⟩
  | .hbm, ⟨26, _⟩ => ⟨S100000x128, .f32⟩
  | .hbm, ⟨27, _⟩ => ⟨S100000x128, .i1⟩
  | .hbm, ⟨28, _⟩ => ⟨S_, .f32⟩
  | .hbm, ⟨29, _⟩ => ⟨S100000x128, .f32⟩
  | .hbm, ⟨30, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  gather_S100x128_S100000x1_S100000x128_1_0_n_n_0_1_1128_wf : GatherDims.WF S100x128 S100000x1 S100000x128 [1] [0] [] [0] [] 1 ![1, 128]

variable [Facts₀]

def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf

class Facts : Prop extends Facts₀ where

variable [Facts]
-- ==== Proof.LibIndexRanges.lean ====
/- Index ranges out of a printed precondition, and through host layout operations — nothing here names a program.

   A precondition that bounds an integer input array is printed as `all((lo ≤ a) & (a ≤ hi))`: two signed comparisons of
   the array against broadcast constants, their elementwise `and`, and a reduction by `and` from 1 over every axis. From the
   reduction's value being 1 the lemmas below give the bounds at every index, as signed values and as unsigned ones.
   A predicate that holds of every entry of an array still holds of every entry after the host's layout operations — a
   reshape, a transposition, a padding with a value that satisfies it, a broadcast of an array of one repeated value.
   Last, the closed form of an index list a program builds as iota → broadcast along a new axis → reshape → pad: entry
   `p` is `p / k` below the original length and the padding value after it. -/
import Idealize.ShloMosaic.Lib.ReduceAll
import Idealize.ShloMosaic.Lib.ValueIdx
import Idealize.ShloMosaic.Lib.IdealHost
import Idealize.ShloMosaic.Lib.Pipeline.Value
import Idealize.ShloMosaic.Lib.KernelVsHost

noncomputable section

namespace Cert.Lib

open Idealize.ShloMosaic Idealize.ShloMosaic.ValueIdx

/-! ## Words -/

/-- The rank-zero shape has one index (what `Host.reduce_andi_all` asks of a reduction over every axis). -/
instance subsingleton_scalar_idx : Subsingleton (⟨0, ![]⟩ : Shape).Idx := ⟨fun a b => funext fun d => d.elim0⟩

/-- A word between 0 and `n` read signed is at most `n` read unsigned. -/
theorem toNat_le_of_toInt (x : BitVec 32) (n : Nat) (h0 : 0 ≤ x.toInt) (h1 : x.toInt ≤ (n : Int)) : x.toNat ≤ n := by
  have := x.isLt
  unfold BitVec.toInt at h0 h1
  split at h0 <;> omega

/-- A word at least 0 read signed is its unsigned value. -/
theorem toInt_eq_toNat_of_nonneg (x : BitVec 32) (h0 : 0 ≤ x.toInt) : x.toInt = (x.toNat : Int) := by
  have := x.isLt
  unfold BitVec.toInt at h0 ⊢
  split at h0 <;> split <;> omega

/-! ## A predicate on every entry, through the layout operations -/

/-- A broadcast of an array whose every element is `c` reads `c` everywhere. -/
theorem bcast_const {s T : Shape} {α : Type} (dims : Fin s.rank → Fin T.rank) (h : s.BroadcastsInDim T dims)
    (x : s.Idx → α) (c : α) (hx : ∀ k, x k = c) (j : T.Idx) : broadcastInDim T dims h x j = c := by
  unfold broadcastInDim; exact hx _

/-- A broadcast only repeats entries: what holds of every entry of the operand holds of every entry of the result. -/
theorem bcast_forall {s T : Shape} {α : Type} (P : α → Prop) (dims : Fin s.rank → Fin T.rank) (h : s.BroadcastsInDim T dims)
    (x : s.Idx → α) (hx : ∀ k, P (x k)) (j : T.Idx) : P (broadcastInDim T dims h x j) := by
  unfold broadcastInDim; exact hx _

/-- A shape cast only moves entries. -/
theorem shapeCast_forall {s t : Shape} {α : Type} (P : α → Prop) (x : s.Idx → α) (h : s.ShapeCasts t)
    (hx : ∀ k, P (x k)) (j : t.Idx) : P (shapeCast t x h j) := by
  unfold shapeCast; exact hx _

/-- A transposition only moves entries. -/
theorem transpose_forall {s t : Shape} {α : Type} (P : α → Prop) (perm : List (Fin s.rank)) (x : s.Idx → α)
    (h : s.Transposes perm t) (hx : ∀ k, P (x k)) (j : t.Idx) : P (transpose t perm x h j) := by
  unfold transpose; exact hx _

/-- Every entry of a padded array is an entry of the operand or the padding value. -/
theorem pad_forall {s t u : Shape} {α : Type} (P : α → Prop) (lo hi interior : Fin s.rank → Nat) (x : s.Idx → α)
    (v : u.Idx → α) (h : s.Pads lo hi interior t) (hu : 0 < u.numel) (hx : ∀ k, P (x k))
    (hv : P (v (Shape.Idx.first hu))) (j : t.Idx) : P (pad t lo hi interior x v h hu j) := by
  unfold pad
  split
  · exact hx _
  · exact hv

/-! ## The precondition's `all`, read back -/

/-- A conjunction of two one-bit arrays is 1 at an index exactly when both are. -/
theorem andi_at {s : Shape} (X Y : IVec s 1) (i : s.Idx) : andi X Y i = 1#1 ↔ X i = 1#1 ∧ Y i = 1#1 :=
  IntOp.andi_eq_one

/-- A reduction by `and` over every axis that is 1 had a 1 at every index of its operand. -/
theorem all_one {s : Shape} {axes : List (Fin s.rank)} (x : IVec s 1) (init : IVec ⟨0, ![]⟩ 1)
    (red : s.ReducesTo axes ⟨0, ![]⟩) (hu : 0 < (⟨0, ![]⟩ : Shape).numel)
    (h : Host.reduce IntOp.andi x init red hu ix0 = 1#1) (i : s.Idx) : x i = 1#1 :=
  Host.reduce_andi_all x init red hu ix0 h i

/-- `all((lo ≤ a) & (a ≤ hi))` being 1 gives the range, read signed, at every index. -/
theorem range_of_all {s : Shape} {axes : List (Fin s.rank)} (a : IVec s 32) (lo hi : BitVec 32)
    (hb : (⟨0, ![]⟩ : Shape).BroadcastsInDim s ![]) (red : s.ReducesTo axes ⟨0, ![]⟩) (hu : 0 < (⟨0, ![]⟩ : Shape).numel)
    (h : Host.reduce IntOp.andi
        (andi (cmpi .sge a (broadcastInDim s ![] hb (constantI ⟨0, ![]⟩ 32 lo)))
          (cmpi .sle a (broadcastInDim s ![] hb (constantI ⟨0, ![]⟩ 32 hi))))
        (constantI ⟨0, ![]⟩ 1 1#1) red hu ix0 = 1#1) (i : s.Idx) :
    lo.toInt ≤ (a i).toInt ∧ (a i).toInt ≤ hi.toInt := by
  have e := Host.reduce_andi_all _ _ red hu ix0 h i
  change IntOp.andi (IntOp.cmpi .sge (a i) (broadcastInDim s ![] hb (constantI ⟨0, ![]⟩ 32 lo) i))
      (IntOp.cmpi .sle (a i) (broadcastInDim s ![] hb (constantI ⟨0, ![]⟩ 32 hi) i)) = 1#1 at e
  rw [bcast_const _ hb (constantI ⟨0, ![]⟩ 32 lo) lo (fun _ => rfl), bcast_const _ hb (constantI ⟨0, ![]⟩ 32 hi) hi (fun _ => rfl),
    IntOp.andi_eq_one, IntOp.cmpi_sge, IntOp.cmpi_sle] at e
  exact e

/-- The same for a range `[0, c]` with `c` a literal below `2 ^ 31`, as an unsigned bound. -/
theorem toNat_le_of_all {s : Shape} {axes : List (Fin s.rank)} (a : IVec s 32) (c : Nat) (hc : c < 2 ^ 31)
    (hb : (⟨0, ![]⟩ : Shape).BroadcastsInDim s ![]) (red : s.ReducesTo axes ⟨0, ![]⟩) (hu : 0 < (⟨0, ![]⟩ : Shape).numel)
    (h : Host.reduce IntOp.andi
        (andi (cmpi .sge a (broadcastInDim s ![] hb (constantI ⟨0, ![]⟩ 32 0#32)))
          (cmpi .sle a (broadcastInDim s ![] hb (constantI ⟨0, ![]⟩ 32 (BitVec.ofNat 32 c)))))
        (constantI ⟨0, ![]⟩ 1 1#1) red hu ix0 = 1#1) (i : s.Idx) :
    (a i).toNat ≤ c := by
  obtain ⟨h0, h1⟩ := range_of_all a 0#32 (BitVec.ofNat 32 c) hb red hu h i
  have z : (0#32 : BitVec 32).toInt = 0 := by decide
  have hcI : (BitVec.ofNat 32 c).toInt = (c : Int) := by
    rw [BitVec.toInt_eq_toNat_of_lt (by rw [BitVec.toNat_ofNat]; omega), BitVec.toNat_ofNat]
    omega
  rw [z] at h0; rw [hcI] at h1
  exact toNat_le_of_toInt _ c h0 h1

/-! ## An index list built as iota → broadcast along a new axis → reshape → pad -/

/-- Entry `p` of the list `[0, 0, …, 0, 1, 1, …]` (each of `n` numbers `k` times over) padded with `c` to `N` entries:
    `p / k` below `n k`, `c` from there on. -/
theorem iota_rep_pad_toNat {n k N : Nat} (hk : 0 < k) (hn : n * k < 2 ^ 32) (c : BitVec 32)
    (hb : (⟨1, ![n]⟩ : Shape).BroadcastsInDim ⟨2, ![n, k]⟩ ![0])
    (hc : (⟨2, ![n, k]⟩ : Shape).ShapeCasts ⟨1, ![n * k]⟩)
    (hp : (⟨1, ![n * k]⟩ : Shape).Pads (![0] : Fin 1 → Nat) ![N - n * k] ![0] ⟨1, ![N]⟩)
    (hu : 0 < (⟨0, ![]⟩ : Shape).numel) (hn1 : n ≠ 1) (p : Fin N) :
    (pad ⟨1, ![N]⟩ ![0] ![N - n * k] ![0]
        (shapeCast ⟨1, ![n * k]⟩ (broadcastInDim ⟨2, ![n, k]⟩ ![0] hb (iotaInDim ⟨1, ![n]⟩ 32 0)) hc)
        (constantI ⟨0, ![]⟩ 32 c) hp hu (ix1 p)).toNat
      = if p.val < n * k then p.val / k else c.toNat := by
  by_cases hlt : p.val < n * k
  · rw [if_pos hlt]
    have hq : p.val / k < n := Nat.div_lt_of_lt_mul (by rwa [Nat.mul_comm] at hlt)
    rw [pad_apply_of_inside _ _ _ _ _ hp hu (ix1 p) (ix1 ⟨p.val, hlt⟩) (by
      intro a
      obtain rfl : a = 0 := Subsingleton.elim _ _
      show p.val = 0 + p.val * (0 + 1)
      omega)]
    rw [shapeCast_apply _ hc (ix1 ⟨p.val, hlt⟩) (ix2 ⟨p.val / k, hq⟩ ⟨p.val % k, Nat.mod_lt _ hk⟩) (by
      rw [Shape.rowMajor_val_two, Shape.rowMajor_val_one]
      show (p.val / k) * k + p.val % k = p.val
      exact Nat.div_add_mod' _ _)]
    rw [broadcastInDim_apply _ hb _ (ix2 ⟨p.val / k, hq⟩ ⟨p.val % k, Nat.mod_lt _ hk⟩) (ix1 ⟨p.val / k, hq⟩) (by
      intro a
      obtain rfl : a = 0 := Subsingleton.elim _ _
      show p.val / k = if n = 1 then 0 else p.val / k
      rw [if_neg hn1])]
    rw [iotaInDim_apply]
    show (BitVec.ofNat 32 (p.val / k)).toNat = _
    rw [BitVec.toNat_ofNat]
    have : p.val / k ≤ p.val := Nat.div_le_self _ _
    exact Nat.mod_eq_of_lt (by omega)
  · rw [if_neg hlt]
    rw [pad_apply_of_not_inside _ _ _ _ _ hp hu (ix1 p) 0 (by
      show ¬(0 ≤ p.val ∧ (p.val - 0) % (0 + 1) = 0 ∧ (p.val - 0) / (0 + 1) < n * k)
      omega)]
    rfl

end Cert.Lib

end
-- ==== Proof.Range.lean ====
/-
  The index words of the lookup are in range. The precondition on the index array is printed as
  `all((0 ≤ a) & (a ≤ 99))`, signed, one conjunct of a chain of `and`s of one-bit scalars; from the chain being 1 the
  conjunct is 1, and from the reduction by `and` being 1 every entry lies in [0, 99], so its unsigned value is below 100.
-/
import proofs.«206633_g8486855377485_cont_9to1_m_27_20_alg».proof.Pre_input_domain
import proofs.«206633_g8486855377485_cont_9to1_m_27_20_alg».proof.Proof.LibIndexRanges

noncomputable section

namespace Cert.RefSide

open Idealize.ShloMosaic Idealize.ShloMosaic.ValueIdx

/-- Every index word is below the number of rows of the table. -/
theorem z_range {F : FTy → Type} [FloatOps F] [Cert.Pre_input_domain.Facts]
    (a0 : IVec Cert.Pre_input_domain.S100000 32) (a1 : FVec F Cert.Pre_input_domain.S100000x3 .f32)
    (a2 : IVec Cert.Pre_input_domain.S100000 32) (a3 : IVec Cert.Pre_input_domain.S2x1600000 32)
    (a4 : FVec F Cert.Pre_input_domain.S64x3x3 .f32) (a5 : FVec F Cert.Pre_input_domain.S1600000x3 .f32)
    (a6 : IVec Cert.Pre_input_domain.S64 32) (a7 : FVec F Cert.Pre_input_domain.S100x128 .f32)
    (h : Cert.Pre_input_domain.fn (F := F) a0 a1 a2 a3 a4 a5 a6 a7 = fun _ => 1#1) :
    ∀ i, (a0 i).toNat < 100 := by
  intro i
  have e := congrFun h ix0
  dsimp only [Cert.Pre_input_domain.fn, Cert.Pre_input_domain.fn_part1, Cert.Pre_input_domain.fn_part2] at e
  -- the chain of conjunctions: ((((… ∧ all(a0 in range)) ∧ …) ∧ …) ∧ …)
  have e1 := ((Cert.Lib.andi_at _ _ _).1 e).1
  have e2 := ((Cert.Lib.andi_at _ _ _).1 e1).1
  have e3 := ((Cert.Lib.andi_at _ _ _).1 e2).1
  have e4 := ((Cert.Lib.andi_at _ _ _).1 e3).2
  have hle := Cert.Lib.toNat_le_of_all a0 99 (by decide) _ _ _ e4 i
  omega

end Cert.RefSide

end
-- ==== Proof.Spec.lean ====
/-
  The function both programs compute: an embedding lookup. Row `r` of the result is the row of the table that the
  `r`-th index word names (read unsigned and reduced modulo the number of rows, which changes nothing for an index in
  range). Stated over any element type, so that it serves the word-level reading and the extended-real one alike.
-/
import Idealize.ShloMosaic.Lib.ValueIdx

namespace Cert.Spec

open Idealize.ShloMosaic Idealize.ShloMosaic.ValueIdx

/-- The row an index word names. -/
def rowOf (x : BitVec 32) : Fin 100 := ⟨x.toNat % 100, Nat.mod_lt _ (by decide)⟩

theorem rowOf_val_of_lt {x : BitVec 32} (h : x.toNat < 100) : (rowOf x).val = x.toNat := Nat.mod_eq_of_lt h

/-- The lookup: entry `(r, k)` of the result is entry `(z r, k)` of the table. -/
def G {V : Type} (W : (⟨2, ![100, 128]⟩ : Shape).Idx → V) (z : (⟨1, ![100000]⟩ : Shape).Idx → BitVec 32) :
    (⟨2, ![100000, 128]⟩ : Shape).Idx → V :=
  fun i => W (ix2 (rowOf (z (ix1 (i 0)))) (i 1))

theorem G_apply {V : Type} (W : (⟨2, ![100, 128]⟩ : Shape).Idx → V) (z : (⟨1, ![100000]⟩ : Shape).Idx → BitVec 32)
    (r : Fin 100000) (k : Fin 128) : G W z (ix2 r k) = W (ix2 (rowOf (z (ix1 r))) k) := rfl

end Cert.Spec
-- ==== Proof.RefPure.lean ====
/-
  Facts about the host operations an embedding lookup is made of, none naming a program.

  * A gather of whole rows: operand `[R, C]`, start indices `[N, 1]` (one row number per result row), result `[N, C]`,
    the row axis collapsed and named by the start index, the column axis the offset axis, slice sizes `[1, C]`. Entry
    `(r, k)` of the result is the operand at column `k` of the row the start index at `(r, 0)` denotes, read as a signed
    integer and clamped into `[0, R - 1]`.
  * A reduction by `and` from 1 of an array whose every entry is 1 is 1 at every index.
  * A 32-bit word whose unsigned value is below 100: it is not negative read signed, it lies in `[0, 99]` read signed,
    and clamping its signed value into `[0, 99]` gives back its unsigned value.
-/
import Idealize.ShloMosaic.Lib.ReduceAll
import Idealize.ShloMosaic.Lib.ValueIdx

noncomputable section

namespace Cert.RefSide

open Idealize.ShloMosaic Idealize.ShloMosaic.ValueIdx

/-! ## The gather of whole rows, read at an index -/

section Rows
variable {α : Type}

/-- Those dimension numbers; their side conditions `wf` are decided on literal extents. -/
abbrev rowsDims (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row the start index at `(r, 0)` denotes, read signed and clamped. -/
theorem gather_rows_apply {R C N w : Nat} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (r : Fin N) (k : Fin C) :
    Host.gather (rowsDims R C N wf) x idx (ix2 r k)
      = x (ix2 ⟨min (idx (ix2 r 0)).toInt.toNat (R - 1), by omega⟩ k) := by
  unfold Host.gather
  congr 1
  funext a
  refine Fin.ext ?_
  match a with
  | ⟨0, _⟩ =>
    show (rowsDims R C N wf).start (ix2 r k) idx 0 + (rowsDims R C N wf).batchCoord (ix2 r k) 0
        + (rowsDims R C N wf).offCoord (ix2 r k) 0 = min (idx (ix2 r 0)).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims R C N wf).startIndexMap from List.mem_singleton.mpr rfl)]
    have hsi : (rowsDims R C N wf).siIdx (ix2 r k) ⟨List.idxOf (0 : Fin 2) (rowsDims R C N wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowsDims R C N wf).start (ix2 r k) idx 1 + (rowsDims R C N wf).batchCoord (ix2 r k) 1
        + (rowsDims R C N wf).offCoord (ix2 r k) 1 = k.val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr ⟨(show (1 : Fin 2) ∉ ([0] : List (Fin 2)) by decide), List.not_mem_nil⟩)]
    simp only [Nat.zero_add, Nat.add_zero]
    rfl

end Rows

/-! ## A reduction by `and` of an array of ones -/

/-- A left fold by `and` from 1 over entries that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_one f l _ (IntOp.andi_eq_one.2 ⟨hi, hl a (List.mem_cons_self ..)⟩) fun n hn => hl n (List.mem_cons_of_mem _ hn)

/-- A `stablehlo.reduce` by `and` from 1 of an array whose every entry is 1 is 1 at every index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_one x _ _ hinit fun i _ => hx i

/-! ## An index word below 100 -/

theorem toInt_of_lt {x : BitVec 32} (h : x.toNat < 100) : x.toInt = (x.toNat : Int) :=
  BitVec.toInt_eq_toNat_of_lt (by omega)

/-- It is not negative: the comparison "below 0, signed" is not 1. -/
theorem slt_zero_ne_one {x : BitVec 32} (h : x.toNat < 100) : ¬ IntOp.cmpi .slt x 0#32 = 1#1 := by
  rw [IntOp.cmpi_slt, toInt_of_lt h]
  have : (0#32 : BitVec 32).toInt = 0 := by decide
  omega

/-- "At least 0, signed" is 1. -/
theorem sge_zero_eq_one {x : BitVec 32} (h : x.toNat < 100) : IntOp.cmpi .sge x 0#32 = 1#1 := by
  rw [IntOp.cmpi_sge, toInt_of_lt h]
  have : (0#32 : BitVec 32).toInt = 0 := by decide
  omega

/-- "At most 99, signed" is 1. -/
theorem sle_99_eq_one {x : BitVec 32} (h : x.toNat < 100) : IntOp.cmpi .sle x 99#32 = 1#1 := by
  rw [IntOp.cmpi_sle, toInt_of_lt h]
  have : (99#32 : BitVec 32).toInt = 99 := by decide
  omega

/-- Clamping its signed value into `[0, 99]` gives its unsigned value. -/
theorem clamp_of_lt {x : BitVec 32} (h : x.toNat < 100) : min x.toInt.toNat 99 = x.toNat := by
  rw [toInt_of_lt h, Int.toNat_natCast]
  omega

end Cert.RefSide

end
-- ==== Proof.RefTerm.lean ====
/-
  The reference program's result as a function of the table and the index array, and what it is when every index lies
  in `[0, 100)`.

  The program first replaces a negative index `z` by `z + 100`, writes the indices as a column, gathers whole rows of
  the table at them (each start index read signed and clamped into `[0, 99]`), computes per row whether the index after
  the first step lies in `[0, 99]`, and returns the gathered row where it does and a fill value where it does not.
  When `0 ≤ z < 100` the first step keeps `z`, the range test is 1 on every row, and the clamp does nothing: entry
  `(r, k)` is the table at `(z r, k)`. The fill value is never read, and is left as the constant the program names.
-/
import proofs.«206633_g8486855377485_cont_9to1_m_27_20_alg».proof.ReferenceIdeal
import proofs.«206633_g8486855377485_cont_9to1_m_27_20_alg».proof.Proof.Spec
import proofs.«206633_g8486855377485_cont_9to1_m_27_20_alg».proof.Proof.RefPure
import Idealize.ShloMosaic.Lib.Pipeline.Value

noncomputable section

namespace Cert.RefSide

open Cert.ReferenceIdeal Idealize.ShloMosaic Idealize.ShloMosaic.ValueIdx

variable {F : FTy → Type} [FloatOps F] [Cert.ReferenceIdeal.Facts]
open Cert.ReferenceIdeal.Facts₀ Cert.ReferenceIdeal.Facts

/-- The indices after the first step: `z + 100` where `z` is negative, else `z`. -/
def wrapped (z : IVec S100000 32) : IVec S100000 32 :=
  select (cmpi .slt z (broadcastInDim S100000 ![] bcast_S_S100000 (constantI S_ 32 0#32)))
    (addi z (broadcastInDim S100000 ![] bcast_S_S100000 (constantI S_ 32 100#32))) z

/-- They as a column: the gather's start indices. -/
def column (z : IVec S100000 32) : IVec S100000x1 32 :=
  broadcastInDim S100000x1 ![0] bcast_S100000_S100000x1_0 (wrapped z)

/-- Per row, whether its index after the first step lies in `[0, 99]`. -/
def inRange (z : IVec S100000 32) : IVec S100000 1 :=
  Host.reduce IntOp.andi
    (andi (cmpi .sge (column z) (broadcastInDim S100000x1 ![] bcast_S_S100000x1 (constantI S_ 32 0#32)))
      (cmpi .sle (column z) (broadcastInDim S100000x1 ![0, 1] bcast_S1x1_S100000x1_0_1
        (broadcastInDim S1x1 ![1] bcast_S1_S1x1_1 (constantI S1 32 99#32)))))
    (constantI S_ 1 1#1) reducesTo_S100000x1_S100000_d1 h_S_

/-- The program's result: the gathered rows where the index is in range, the fill value elsewhere. -/
def out (W : FVec F S100x128 .f32) (z : IVec S100000 32) : FVec F S100000x128 .f32 :=
  select (broadcastInDim S100000x128 ![0] bcast_S100000_S100000x128_0 (inRange z))
    (Host.gather gather_S100x128_S100000x1_S100000x128_1_0_n_n_0_1_1128 W (column z))
    (broadcastInDim S100000x128 ![] bcast_S_S100000x128 (constant S_ .f32 0x7FC00000#32))

/-! ## With every index in `[0, 100)` -/

/-- An index that is not negative is kept by the first step. -/
theorem wrapped_apply (z : IVec S100000 32) (hz : ∀ i, (z i).toNat < 100) (i : S100000.Idx) : wrapped z i = z i := by
  show Scalar.select (IntOp.cmpi .slt (z i) 0#32) _ (z i) = z i
  rw [eq_zero_of_ne_one (slt_zero_ne_one (hz i)), select_zero]

/-- The column at `(r, 0)` is the index of row `r` after the first step. -/
theorem column_apply (z : IVec S100000 32) (r : Fin 100000) (u : Fin 1) : column z (ix2 r u) = wrapped z (ix1 r) := by
  unfold column
  exact broadcastInDim_apply _ _ _ (ix2 r u) (ix1 r) (by
    intro a
    obtain rfl : a = 0 := Subsingleton.elim _ _
    show r.val = if (100000 : Nat) = 1 then 0 else r.val
    rw [if_neg (by decide)])

/-- The range test is 1 on every row. -/
theorem inRange_apply (z : IVec S100000 32) (hz : ∀ i, (z i).toNat < 100) (j : S100000.Idx) : inRange z j = 1#1 := by
  unfold inRange
  refine reduce_andi_of_all _ _ _ _ rfl (fun i => ?_) j
  obtain ⟨r, u, rfl⟩ : ∃ r u, i = ix2 r u := ⟨i 0, i 1, eq_ix2 i⟩
  show IntOp.andi (IntOp.cmpi .sge (column z (ix2 r u)) 0#32) (IntOp.cmpi .sle (column z (ix2 r u)) 99#32) = 1#1
  rw [column_apply, wrapped_apply z hz, IntOp.andi_eq_one]
  exact ⟨sge_zero_eq_one (hz _), sle_99_eq_one (hz _)⟩

/-- The result is the lookup: entry `(r, k)` is the table at `(z r, k)`. -/
theorem out_eq_G (W : FVec F S100x128 .f32) (z : IVec S100000 32) (hz : ∀ i, (z i).toNat < 100) :
    out W z = Cert.Spec.G W z := by
  funext i
  obtain ⟨r, k, rfl⟩ : ∃ r k, i = ix2 r k := ⟨i 0, i 1, eq_ix2 i⟩
  unfold out
  rw [select_apply]
  rw [broadcastInDim_apply ![0] bcast_S100000_S100000x128_0 (inRange z) (ix2 r k) (ix1 r) (by
    intro a
    obtain rfl : a = 0 := Subsingleton.elim _ _
    show r.val = if (100000 : Nat) = 1 then 0 else r.val
    rw [if_neg (by decide)]), inRange_apply z hz, select_one]
  rw [show gather_S100x128_S100000x1_S100000x128_1_0_n_n_0_1_1128
      = rowsDims 100 128 100000 gather_S100x128_S100000x1_S100000x128_1_0_n_n_0_1_1128_wf from rfl,
    gather_rows_apply (by decide) _ W (column z) r k, Cert.Spec.G_apply]
  refine congrArg (fun a => W (ix2 a k)) (Fin.ext ?_)
  show min (column z (ix2 r 0)).toInt.toNat (100 - 1) = (Cert.Spec.rowOf (z (ix1 r))).val
  rw [column_apply, wrapped_apply z hz, Cert.Spec.rowOf_val_of_lt (hz _)]
  exact clamp_of_lt (hz _)

end Cert.RefSide

end
-- ==== Proof.RefRun.lean ====
/-
  The reference program's run, read back. The reference is a host program: a table lookup written as a call of a
  function that first replaces a negative index `z` by `z + 100` (through a second function, a select), broadcasts the
  indices to a column, gathers whole rows of the table at them, and last replaces by a fill value every row whose index,
  after the first step, was outside `[0, 99]`. Its operations are listed here in order, the two calls unfolded over the
  buffers each names; the run of such a straight line terminates with every buffer at the fold of the operations over
  the launch contents. At the result buffer that fold is the composed term of the table and the indices, which is the
  lookup when every index lies in `[0, 100)`; no operation writes an argument's buffer.
-/
import proofs.«206633_g8486855377485_cont_9to1_m_27_20_alg».proof.Defs
import proofs.«206633_g8486855377485_cont_9to1_m_27_20_alg».proof.Proof.Gen.ReferenceIdeal
import proofs.«206633_g8486855377485_cont_9to1_m_27_20_alg».proof.Proof.Spec
import proofs.«206633_g8486855377485_cont_9to1_m_27_20_alg».proof.Proof.RefTerm
import Idealize.ShloMosaic.Lib.StableHlo.Run

noncomputable section

namespace Cert.RefSide

open Cert.ReferenceIdeal Idealize.ShloMosaic Idealize.ShloMosaic.TcCoe Idealize.SL.Sem Idealize.ShloMosaic.StableHlo
open Idealize.ShloMosaic.ValueIdx

variable {F : FTy → Type} [FloatOps F] [Cert.ReferenceIdeal.Facts]
open Cert.ReferenceIdeal.Facts₀ Cert.ReferenceIdeal.Facts

/-! ## The program as a list of operations -/

/-- @main's twenty-three operations in order, the calls unfolded: the lookup function's six up to the sum `z + 100`, the
    select of the function it calls, then its remaining sixteen. -/
abbrev ops : List (HloOp τ sig (Elt F)) :=
  [ TRef.nullary main_call0.c (constantI S_ 32 0#32),
    TRef.unary main_call0.c main_call0.v0 (broadcastInDim S100000 ![] bcast_S_S100000),
    TRef.binary (.of main_arg0) main_call0.v0 main_call0.v1 (cmpi .slt),
    TRef.nullary main_call0.c_0 (constantI S_ 32 100#32),
    TRef.unary main_call0.c_0 main_call0.v2 (broadcastInDim S100000 ![] bcast_S_S100000),
    TRef.binary (.of main_arg0) main_call0.v2 main_call0.v3 addi,
    TRef.ternary main_call0.v1 main_call0.v3 (.of main_arg0) main_call0.call0.v0 select,
    TRef.unary main_call0.call0.v0 main_call0.v5 (broadcastInDim S100000x1 ![0] bcast_S100000_S100000x1_0),
    TRef.nullary main_call0.c_1 (constantI S1 32 99#32),
    TRef.nullary main_call0.c_2 (constantI S_ 32 0#32),
    TRef.unary main_call0.c_2 main_call0.v6 (broadcastInDim S100000x1 ![] bcast_S_S100000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S100000x1 ![0, 1] bcast_S1x1_S100000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100000x1_S100000_d1 h_S_),
    TRef.binary (.of main_arg7) main_call0.v5 main_call0.v13 (fun x i => Host.gather gather_S100x128_S100000x1_S100000x128_1_0_n_n_0_1_1128 x i),
    TRef.unary main_call0.v12 main_call0.v14 (broadcastInDim S100000x128 ![0] bcast_S100000_S100000x128_0),
    TRef.nullary main_call0.cst (constant S_ .f32 0x7FC00000#32),
    TRef.unary main_call0.cst main_call0.v15 (broadcastInDim S100000x128 ![] bcast_S_S100000x128),
    TRef.ternary main_call0.v14 main_call0.v13 main_call0.v15 main_call0.v16 select ]

set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## The fold at the result buffer -/

attribute [local irreducible] Host.reduce Host.gather in
set_option maxRecDepth 8192 in
set_option maxHeartbeats 1000000 in
/-- The fold of the operations at the result buffer is the composed term of the table's and the indices' buffers: each
    operation's result read at its own buffer and passed over at the others, the typed references' transports the
    identity. The reduction and the gather are kept folded meanwhile: the equation never looks inside them. -/
theorem out_eq (V : Valuation τ sig (Elt F)) :
    after ops V (main_v0 : DevRef τ sig) = out (F := F) (V (main_arg7 : DevRef τ sig)) (V (main_arg0 : DevRef τ sig)) := by
  after_results
  rfl

/-! ## The run -/

/-- On every device, from any memory with zero counters whose index array lies in `[0, 100)`: every weakly fair execution
    of the reference terminates with the result buffer at the lookup of the table at the indices, and the eight
    arguments unchanged. -/
theorem run (m' : (ℓ : Loc nD τ sig) → Buf (Elt Ideal) ℓ) (g' : Dev nD → PrngReg)
    (hz : ∀ (c : Dev nD) i, (m' ((c.tc : Thread nD τ).loc main_arg0) i).toNat < 100) :
    θ_run (defs (F := Ideal)) (onTc (τ := τ) (main (F := Ideal))) ⟨m', fun _ => 0, g'⟩ (fun r => ∀ c : Dev nD,
      r.2.mem ((c.tc : Thread nD τ).loc main_v0) = Cert.Spec.G (m' ((c.tc : Thread nD τ).loc main_arg7)) (m' ((c.tc : Thread nD τ).loc main_arg0))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run defs _ _).mono (fun _ h c => ⟨(h c main_v0).trans ((out_eq _).trans (out_eq_G _ _ (hz c))),
      (h c main_arg0).trans (by after_results),
      (h c main_arg1).trans (by after_results),
      (h c main_arg2).trans (by after_results),
      (h c main_arg3).trans (by after_results),
      (h c main_arg4).trans (by after_results),
      (h c main_arg5).trans (by after_results),
      (h c main_arg6).trans (by after_results),
      (h c main_arg7).trans (by after_results)⟩)
    (run_seq scopedRefs_eq scopedSems_eq defs main (fun _ => ops) main_eq (fun _ => ops_sub) m' g')

end Cert.RefSide

end
-- ==== Proof.Chunks.lean ====
/-
  Which rows of the result each vector subcore writes. Subcore `s` of core `c` takes the chunks numbered
  `2 s + c + 32 j`, `j < 25`, of 128 rows each; a chunk that would run past the last row is moved back to start at row
  99872, so that the last chunks overlap.
-/
import Idealize.ShloMosaic.Lib.ValueIdx

namespace Cert.Chunks

open Idealize.ShloMosaic

/-- The first row of chunk `j` of subcore `s` of core `c`. -/
def off (c s j : ℕ) : ℕ := min (256 * s + 128 * c + 4096 * j) 99872

/-- The entries of the result in the 128 rows from `off c s j` on. -/
def chunk (c s j : ℕ) : Finset (⟨2, ![100000, 128]⟩ : Shape).Idx :=
  Finset.univ.filter fun i => off c s j ≤ (i 0).val ∧ (i 0).val < off c s j + 128

/-- Everything subcore `s` of core `c` writes. -/
def tileMarks (c s : ℕ) : Finset (⟨2, ![100000, 128]⟩ : Shape).Idx := (Finset.range 25).biUnion (chunk c s)

/-- Everything core `c`'s subcores write. -/
def coreMarks (c : ℕ) : Finset (⟨2, ![100000, 128]⟩ : Shape).Idx := (Finset.range 16).biUnion (tileMarks c)

end Cert.Chunks
-- ==== Proof.Setup.lean ====
/-
  The protocol of the lookup kernel, as the launch of a SparseCore program needs it stated. Thirty-two vector subcores
  (two cores of sixteen) each fetch their index chunks, subcore 0 of each core fills the core's shared copy of the table,
  all sixteen meet at the subcore barrier — where subcore 0 hands every subcore a read share of the shared table — and then
  each gathers rows of the table by its indices and copies them out to its chunks of the result. The last chunks of the
  result overlap between subcores (they are moved back so as not to run past the last row, and carry equal values), so the
  result is held in write mode: every subcore has a share of the whole array with the one agreed target, the lookup itself,
  and marks the chunks it has written.
-/
import proofs.«206633_g8486855377485_cont_9to1_m_27_20_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.WriteMode
import proofs.«206633_g8486855377485_cont_9to1_m_27_20_alg».proof.Proof.Gen.KernelIdeal
import proofs.«206633_g8486855377485_cont_9to1_m_27_20_alg».proof.Proof.Gen.KernelIdeal.Skeleton
import proofs.«206633_g8486855377485_cont_9to1_m_27_20_alg».proof.Proof.Spec
import proofs.«206633_g8486855377485_cont_9to1_m_27_20_alg».proof.Proof.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, write mode, the transfers' counters -/

abbrev UH : Type := URounds (GSem nD τ sig) ℕ
abbrev UB : Type := URounds (GSem nD τ sig) ℕ
abbrev UW (F : FTy → Type) : Type := WmRA nD τ sig (Elt F)
abbrev UU (F : FTy → Type) : Type := UH × (UB × (UW F × Counters))

local notation "𝕄" => MT nD τ sig (HIx 1) (Elt F) ℕ (UU F) ℕ

abbrev EH : Emb UH (MT nD τ sig (HIx 1) (Elt F) ℕ (UU F) ℕ) := embL
/-- The barrier cells' rounds library. -/
def EB : Emb UB (MT nD τ sig (HIx 1) (Elt F) ℕ (UU F) ℕ) :=
  ((Emb.inl : Emb UB (UB × (UW F × Counters))).trans (Emb.inr : Emb (UB × (UW F × Counters)) (UU F))).trans
    (uEmb (nD := nD) (sig := sig) (Ix := HIx 1) (Val := Elt F) (Name := ℕ) (U := UU F) (Lvl := ℕ)).toEmb
instance EB_landsIn : (EB : Emb UB 𝕄).LandsIn (upEmb : UEmb _ 𝕄) := by unfold EB; infer_instance
/-- Write mode's algebra in the certificate's. -/
def EW : UEmb (UW F) (UU F) :=
  (UEmb.inl : UEmb (UW F) (UW F × Counters)).trans ((UEmb.inr : UEmb (UW F × Counters) (UB × (UW F × Counters))).trans (UEmb.inr : UEmb _ (UU F)))

/-! ## The launch memory and the buffers -/

variable (m : (ℓ : Loc nD τ sig) → Buf (Elt F) ℓ) (ρ : Dev nD → PrngReg)

abbrev zLoc (d : Dev nD) : Loc nD τ sig := (SparseCore.T d).loc main_arg0
abbrev wLoc (d : Dev nD) : Loc nD τ sig := (SparseCore.T d).loc main_arg7
abbrev oLoc (d : Dev nD) : Loc nD τ sig := (SparseCore.T d).loc main_v0
/-- SparseCore `c`'s shared copy of the table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The table, as the contents of a core's shared copy. -/
def tbl (d : Dev nD) (c : Fin τ.nSC) : Buf (Elt F) (shLoc d c) := m (wLoc d)

/-- The result: the lookup of the index array in the table. -/
def res (d : Dev nD) : Buf (Elt F) (oLoc d) := Cert.Spec.G (m (wLoc d)) (m (zLoc d))
/-- Its entries as the targets of write mode. -/
def tgt (d : Dev nD) : Tgt (Elt F) (oLoc d) := fun i => some (res m d i)

/-- Core `c`'s share of an array every core reads, and subcore `i`'s share of that. -/
abbrev qC (c : ℕ) : PosShare TreeShare := Transfers.shareTokN fullShare c
abbrev qT (c i : ℕ) : PosShare TreeShare := Transfers.shareTokN (qC c) i

/-- What subcore `s` of core `c` marks written, and core `c`'s subcores together. -/
def tMarks (d : Dev nD) (c s : ℕ) : Finset (Idx (oLoc d)) := Cert.Chunks.tileMarks c s
def cMarks (d : Dev nD) (c : ℕ) : Finset (Idx (oLoc d)) := Cert.Chunks.coreMarks c

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Subcore `j`'s read share of its core's shared table. -/
abbrev shTok (d : Dev nD) (c : Fin τ.nSC) (j : ℕ) : sProp 𝕄 := shLoc d c ↦{Transfers.shareTokN fullShare j} tbl m d c

/-- What a duty in tile `j`'s round hands over: subcore 0's, tile `j`'s read share of the shared table; the others', nothing. -/
def bPay (g : GSem nD τ sig) (n : ℕ) : sProp 𝕄 :=
  match g with
  | ((d, .scVector c j), _) => if n = 0 then shTok m d c j.val else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## What the launch deals a tile's proof -/

/-- Tile `(c, i)`'s kit: every tile's barrier cell invariant of its SparseCore and that each has reached round 0, its own
    position at the origin of round 0, its duty token in every tile's round 0, the credit for the sixteen units of its own
    round; and the write-mode invariant. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1))
    ∗ ∃ ιwm : ℕ, wmInv (Ix := HIx 1) (Name := ℕ) (Lvl := ℕ) (EW (F := F)) ιwm)

/-! ## What the handshakes carry -/

/-- The result array in write mode: share `q` of all of it, old contents the launch memory's, targets the lookup, marks `W`. -/
abbrev oWm (d : Dev nD) (q : PosShare TreeShare) (W : Finset (Idx (oLoc d))) : sProp 𝕄 :=
  willBeTo (Ix := HIx 1) (Name := ℕ) (Lvl := ℕ) (EW (F := F)) (oLoc d) Finset.univ q (m (oLoc d)) (tgt m d) W
abbrev zPts (d : Dev nD) (q : PosShare TreeShare) : sProp 𝕄 := zLoc d ↦{q} m (zLoc d)
abbrev wPts (d : Dev nD) (q : PosShare TreeShare) : sProp 𝕄 := wLoc d ↦{q} m (wLoc d)

/-- The one call takes, per core, a share of the indices, of the table and of the result in write mode; each task a share of
    the indices and of the result, subcore 0 also the core's share of the table and the core's shared scratch; each task
    brings back its shares, the result's marked with its chunks, and its read share of the shared table (subcore 0 also
    what is left of it). -/
def P : (K (F := F)).Pay (nD := nD) (Val := Elt F) (Name := ℕ) (U := UU F) where
  st := fun q d c => match q with | 0 => iprop(zPts m d (qC c.val) ∗ wPts m d (qC c.val) ∗ oWm m d (qC c.val) ∅)
  dn := fun q d c => match q with | 0 => iprop(zPts m d (qC c.val) ∗ wPts m d (qC c.val) ∗ oWm m d (qC c.val) (cMarks d c.val))
  go := fun q d c i => match q with
    | 0 => iprop(zPts m d (qT c.val i.val) ∗ oWm m d (qT c.val i.val) ∅
        ∗ if i.val = 0 then iprop(wPts m d (qC c.val) ∗ ∃ f, shLoc d (coreOf c) ↦{fullShare} f) else iprop(emp))
  td := fun q d c i => match q with
    | 0 => iprop(zPts m d (qT c.val i.val) ∗ oWm m d (qT c.val i.val) (tMarks d c.val i.val) ∗ shTok m d (coreOf c) i.val
        ∗ if i.val = 0 then iprop(wPts m d (qC c.val) ∗ shLoc d (coreOf c) ↦{Transfers.shareDrop fullShare 16} tbl m d (coreOf c)) else iprop(emp))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) iprop(zPts m d (qC c.val) ∗ wPts m d (qC c.val) ∗ oWm m d (qC c.val) ∅))
  dn q d c := match q with
    | 0 => (inferInstance : BI.Storable (upEmb : UEmb _ 𝕄) iprop(zPts m d (qC c.val) ∗ wPts m d (qC c.val) ∗ oWm m d (qC c.val) (cMarks d c.val)))
  go q d c i := match q with
    | 0 => by
      show BI.Storable (upEmb : UEmb _ 𝕄) iprop(zPts m d (qT c.val i.val) ∗ oWm m d (qT c.val i.val) ∅
        ∗ if i.val = 0 then iprop(wPts m d (qC c.val) ∗ ∃ f, shLoc d (coreOf c) ↦{fullShare} f) else iprop(emp))
      split <;> infer_instance
  td q d c i := match q with
    | 0 => by
      show BI.Storable (upEmb : UEmb _ 𝕄) iprop(zPts m d (qT c.val i.val) ∗ oWm m d (qT c.val i.val) (tMarks d c.val i.val) ∗ shTok m d (coreOf c) i.val
        ∗ if i.val = 0 then iprop(wPts m d (qC c.val) ∗ shLoc d (coreOf c) ↦{Transfers.shareDrop fullShare 16} tbl m d (coreOf c)) else iprop(emp))
      split <;> infer_instance

end Cert.Proof.KI

end
-- ==== Proof.LibWmDma.lean ====
/-
  General lemmas on elements held in write mode: splitting and joining the write-mode assertion along element sets and
  along the two halves of a share (marks joined), restating its marks where they agree on the held elements, and a local
  copy INTO elements held in write mode on a semaphore the thread holds at zero, as one transfer in flight: what the
  flight delivers at its wait is the assertion with the destination marked written, beside the source share it borrowed.
-/
import Idealize.ShloMosaic.Lib.WriteMode
import Idealize.ShloMosaic.Lib.Transfers

noncomputable section

namespace Cert.Lib

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA

section Assertion

variable {nD : Nat} {τ : Topo} {sig : RefSig} {Ix : Type} [DecidableEq Ix] {Val : EltTy → Type} {Name : Type} [DecidableEq Name]
variable {U : Type} [URA U] {Lvl : Type} {emb : UEmb (WmRA nD τ sig Val) U}

local notation "𝕄" => MT nD τ sig Ix Val Name U Lvl

variable {ℓ : Loc nD τ sig} {I S : Finset (Idx ℓ)} {q : PosShare TreeShare} {f : Buf Val ℓ} {g : Tgt Val ℓ} {W W' W₁ W₂ : Finset (Idx ℓ)}

/-- Marks matter on the held elements only. -/
theorem willBeTo_marks (hw : ∀ i ∈ I, i ∈ W ↔ i ∈ W') :
    (willBeTo (Ix := Ix) (Name := Name) (Lvl := Lvl) emb ℓ I q f g W : sProp 𝕄) = willBeTo emb ℓ I q f g W' :=
  BI.Region.willBe_congr (fun _ _ => rfl) (fun _ _ => rfl) hw

/-- Carving the elements `I ⊆ S` out of a write-mode assertion, and putting them back. -/
theorem willBeTo_split_subset (h : I ⊆ S) :
    (willBeTo (Ix := Ix) (Name := Name) (Lvl := Lvl) emb ℓ S q f g W : sProp 𝕄)
      ⊣⊢ iprop(willBeTo emb ℓ I q f g W ∗ willBeTo emb ℓ (S \ I) q f g W) :=
  BI.Region.held_split_subset h

/-- Along the two halves of the share: each half keeps marks of its own, and together they know the union written. -/
theorem willBeTo_halves :
    (willBeTo (Ix := Ix) (Name := Name) (Lvl := Lvl) emb ℓ I q f g (W₁ ∪ W₂) : sProp 𝕄)
      ⊣⊢ iprop(willBeTo emb ℓ I q.left f g W₁ ∗ willBeTo emb ℓ I q.right f g W₂) :=
  BI.Region.held_share (PosShare.mem_left_op_right q) fun i _ => by
    simp only [Finset.mem_union, Bool.decide_or]
    exact Region.WB.mem_mk_op_mk _ _ _ _

end Assertion

section Copy

variable {nD : Nat} {τ : Topo} {sig : RefSig} {Ix : Type} [DecidableEq Ix] {Val : EltTy → Type} {Name : Type} [DecidableEq Name]
variable {U : Type} [URA U] {Lvl : Type} [Preorder Lvl] {Λ : Labels} {emb : UEmb (WmRA nD τ sig Val) U}

local notation "𝕄" => MT nD τ sig Ix Val Name U Lvl

variable {defs : Defs nD τ sig Val Λ} (𝒱 : Variants) {ιwm : Name}
variable (EC : UEmb Counters (MT nD τ sig Ix Val Name U Lvl))

/-- A local copy into elements held in write mode, on a semaphore the thread holds at zero: the thread issues it and
    continues holding the transfer's `Flight`, which delivers at the wait the assertion with every destination element
    marked written, and the source share. The payload must be what the targets admit. -/
theorem wp_dmaLocal_willBeTo [Infinite Name] [EC.LandsIn (upEmb : UEmb _ 𝕄)] (c : Thread nD τ) (bd : Option 𝒱.V)
    {α : Type} {Q : α → sProp 𝕄} {sp sp' : Space} {s : Shape} {e : EltTy}
    {src : Memref sig c.2.kind sp s e} {dst : Memref sig c.2.kind sp' s e} {sm : SemLoc sig} {hsrc : src.view.WordExact} {hdst : dst.view.WordExact}
    {hsem : DmaTarget.Typed (nD := nD) sp sm (.here dst)}
    {k : PUnit → Prog (TpuEff nD τ sig Val Λ c.2) α} {q : PosShare TreeShare} {fs : Buf Val (src.view.loc c)}
    {qd : PosShare TreeShare} {fd : Buf Val (dst.view.loc c)} {g : Tgt Val (dst.view.loc c)} {W : Finset (Idx (dst.view.loc c))}
    (ι : Ix) (N : ℕ) (hN : dst.view.amount sm = N) (hN0 : 0 < N)
    (hadm : dst.view.Admitted Val g (src.view.read Val fs) Finset.univ) :
    iprop((src.view.loc c ↦[src.view.set]{q} fs) ∗ wmInv emb ιwm ∗ willBeTo emb (dst.view.loc c) dst.view.set qd fd g W ∗ semVal (c, sm) 0)
      ⊢ iprop((Transfers.Flight EC c sm ι N iprop(willBeTo emb (dst.view.loc c) dst.view.set qd fd g (W ∪ dst.view.set)
                                    ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hwm, Hd, Hv⟩ Hk
  imod (Transfers.flight_alloc EC hN0 iprop(willBeTo emb (dst.view.loc c) dst.view.set qd fd g (W ∪ dst.view.set)
      ∗ (src.view.loc c ↦[src.view.set]{q} fs)) (g := (c, sm))) $$ Hv with ⟨%γ, %δ, %κ, #Hinv, Hγ, Hδ⟩
  iapply (wp_enqueueDma_willBeTo (emb := emb) (ιwm := ιwm) 𝒱 c bd Set.univ ι N hN hadm) $$ [Hs Hwm Hd] [Hγ]
  · isplitl [Hs]; · iexact Hs
    isplitl [Hwm]; · iexact Hwm
    iexact Hd
  · iapply (Transfers.flight_creditUpdate EC (δ := δ))
    isplitr; · iexact Hinv
    iexact Hγ
  iintro Hcred
  iapply Hk
  iapply (Transfers.flight_intro EC c (κ := κ))
  isplitr; · iexact Hinv
  isplitl [Hδ] <;> iassumption

end Copy

end Cert.Lib

end
-- ==== Proof.LibWmShares.lean ====
/-
  General lemmas on elements held in write mode, along a share cut into tokens. A share `q` halved `k` times leaves a
  remainder (the left half each time) and `k` tokens (the right halves). The write-mode assertion at `q` is the
  assertion at the remainder beside one assertion per token, each with marks of its own: together they know the union of
  all the marks written. Also: putting a carved-out piece back beside the rest when the two carry different marks (the
  whole knows, on each part, what that part's holder knew), and leaving write mode at the full share once every element
  is marked and every target definite: the buffer then holds the targets.
-/
import Idealize.ShloMosaic.Lib.WriteMode
import Idealize.ShloMosaic.Lib.Transfers
import proofs.«206633_g8486855377485_cont_9to1_m_27_20_alg».proof.Proof.LibWmDma

noncomputable section

namespace Cert.Lib

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA

section Shares

variable {nD : Nat} {τ : Topo} {sig : RefSig} {Ix : Type} [DecidableEq Ix] {Val : EltTy → Type} {Name : Type} [DecidableEq Name]
variable {U : Type} [URA U] {Lvl : Type} {emb : UEmb (WmRA nD τ sig Val) U}

local notation "𝕄" => MT nD τ sig Ix Val Name U Lvl

variable {ℓ : Loc nD τ sig} {I S : Finset (Idx ℓ)} {f : Buf Val ℓ} {g : Tgt Val ℓ}

/-- The assertion at `q` with marks `W₀ ∪ ⋃ i < k, Wt i` is the remainder after `k` tokens with marks `W₀`, and the
    `k` tokens, the `i`-th with marks `Wt i`. -/
theorem willBeTo_toks_range (q : PosShare TreeShare) (k : ℕ) (W₀ : Finset (Idx ℓ)) (Wt : ℕ → Finset (Idx ℓ)) :
    (willBeTo (Ix := Ix) (Name := Name) (Lvl := Lvl) emb ℓ I q f g (W₀ ∪ (Finset.range k).biUnion Wt) : sProp 𝕄)
      ⊣⊢ iprop(willBeTo emb ℓ I (Transfers.shareDrop q k) f g W₀
          ∗ BI.bigSep (Finset.range k) (fun i => willBeTo emb ℓ I (Transfers.shareTokN q i) f g (Wt i))) := by
  induction k generalizing W₀ with
  | zero =>
    rw [Finset.range_zero, Finset.biUnion_empty, Finset.union_empty, BI.bigSep_empty]
    exact ⟨sep_emp.2, sep_emp.1⟩
  | succ k ih =>
    -- the marks of the first k tokens, then token k's beside the remainder's
    have hm : W₀ ∪ (Finset.range (k + 1)).biUnion Wt = (W₀ ∪ Wt k) ∪ (Finset.range k).biUnion Wt := by
      rw [Finset.range_add_one, Finset.biUnion_insert, Finset.union_assoc]
    -- the remainder after k tokens halves into the remainder after k + 1 (left, keeping W₀) and token k (right)
    have hs : (willBeTo (Ix := Ix) (Name := Name) (Lvl := Lvl) emb ℓ I (Transfers.shareDrop q k) f g (W₀ ∪ Wt k) : sProp 𝕄)
        ⊣⊢ iprop(willBeTo emb ℓ I (Transfers.shareDrop q (k + 1)) f g W₀
            ∗ willBeTo emb ℓ I (Transfers.shareTokN q k) f g (Wt k)) :=
      willBeTo_halves
    have hb : BI.bigSep (Finset.range (k + 1))
          (fun i => (willBeTo (Ix := Ix) (Name := Name) (Lvl := Lvl) emb ℓ I (Transfers.shareTokN q i) f g (Wt i) : sProp 𝕄))
        = iprop(willBeTo emb ℓ I (Transfers.shareTokN q k) f g (Wt k)
            ∗ BI.bigSep (Finset.range k) (fun i => willBeTo emb ℓ I (Transfers.shareTokN q i) f g (Wt i))) := by
      rw [Finset.range_add_one, BI.bigSep_insert Finset.notMem_range_self]; rfl
    rw [hm, hb]
    constructor
    · refine (ih (W₀ ∪ Wt k)).1.trans ((sep_mono_left hs.1).trans ?_)
      iintro ⟨⟨Hd, Ht⟩, Hts⟩
      isplitl [Hd]; · iexact Hd
      isplitl [Ht] <;> iassumption
    · refine Entails.trans ?_ ((sep_mono_left hs.2).trans (ih (W₀ ∪ Wt k)).2)
      iintro ⟨Hd, Ht, Hts⟩
      isplitl [Hd Ht]; · isplitl [Hd] <;> iassumption
      iexact Hts

/-- The same over the cells `Fin n`: the remainder with marks `W₀` and one token per cell, cell `i`'s with marks
    `Wt i`. -/
theorem willBeTo_toks (q : PosShare TreeShare) (n : ℕ) (W₀ : Finset (Idx ℓ)) (Wt : Fin n → Finset (Idx ℓ)) :
    (willBeTo (Ix := Ix) (Name := Name) (Lvl := Lvl) emb ℓ I q f g (W₀ ∪ Finset.univ.biUnion Wt) : sProp 𝕄)
      ⊣⊢ iprop(willBeTo emb ℓ I (Transfers.shareDrop q n) f g W₀
          ∗ BI.bigSep Finset.univ (fun i : Fin n => willBeTo emb ℓ I (Transfers.shareTok q n i) f g (Wt i))) := by
  -- the marks as a family over all naturals, empty from n on
  obtain ⟨Wt', hWt'⟩ : ∃ Wt' : ℕ → Finset (Idx ℓ), ∀ i : Fin n, Wt' i.val = Wt i :=
    ⟨fun i => if h : i < n then Wt ⟨i, h⟩ else ∅, fun i => by
      show (if h : i.val < n then Wt ⟨i.val, h⟩ else ∅) = Wt i
      rw [dif_pos i.isLt]⟩
  have hm : Finset.univ.biUnion Wt = (Finset.range n).biUnion Wt' := by
    ext x
    simp only [Finset.mem_biUnion, Finset.mem_univ, true_and, Finset.mem_range]
    constructor
    · rintro ⟨i, hi⟩; exact ⟨i.val, i.isLt, by rw [hWt' i]; exact hi⟩
    · rintro ⟨i, hi, hx⟩; exact ⟨⟨i, hi⟩, by rw [← hWt' ⟨i, hi⟩]; exact hx⟩
  have hb : BI.bigSep Finset.univ
        (fun i : Fin n => (willBeTo (Ix := Ix) (Name := Name) (Lvl := Lvl) emb ℓ I (Transfers.shareTok q n i) f g (Wt i) : sProp 𝕄))
      = BI.bigSep (Finset.range n) (fun i => willBeTo emb ℓ I (Transfers.shareTokN q i) f g (Wt' i)) := by
    rw [← Nat.Iio_eq_range, ← Fin.map_valEmbedding_univ, BI.bigSep_map]
    refine BI.bigSep_congr fun i _ => ?_
    show (willBeTo (Ix := Ix) (Name := Name) (Lvl := Lvl) emb ℓ I (Transfers.shareTokN q i.val) f g (Wt i) : sProp 𝕄)
      = willBeTo emb ℓ I (Transfers.shareTokN q i.val) f g (Wt' i.val)
    rw [hWt' i]
  rw [hm, hb]
  exact willBeTo_toks_range q n W₀ Wt'

/-- Split into the remainder and the tokens; -/
theorem willBeTo_toks_split (q : PosShare TreeShare) (n : ℕ) (W₀ : Finset (Idx ℓ)) (Wt : Fin n → Finset (Idx ℓ)) :
    (willBeTo (Ix := Ix) (Name := Name) (Lvl := Lvl) emb ℓ I q f g (W₀ ∪ Finset.univ.biUnion Wt) : sProp 𝕄)
      ⊢ iprop(willBeTo emb ℓ I (Transfers.shareDrop q n) f g W₀
          ∗ BI.bigSep Finset.univ (fun i : Fin n => willBeTo emb ℓ I (Transfers.shareTok q n i) f g (Wt i))) :=
  (willBeTo_toks q n W₀ Wt).1

/-- joined back, the marks joined. -/
theorem willBeTo_toks_join (q : PosShare TreeShare) (n : ℕ) (W₀ : Finset (Idx ℓ)) (Wt : Fin n → Finset (Idx ℓ)) :
    iprop(willBeTo (Ix := Ix) (Name := Name) (Lvl := Lvl) emb ℓ I (Transfers.shareDrop q n) f g W₀
        ∗ BI.bigSep Finset.univ (fun i : Fin n => willBeTo emb ℓ I (Transfers.shareTok q n i) f g (Wt i)))
      ⊢ (willBeTo emb ℓ I q f g (W₀ ∪ Finset.univ.biUnion Wt) : sProp 𝕄) :=
  (willBeTo_toks q n W₀ Wt).2

/-- Putting the elements `I ⊆ S` back beside the rest of `S` when the two parts carry marks of their own: the whole knows
    on `I` what `I`'s holder knew, and off `I` what the rest's holder knew. -/
theorem willBeTo_rejoin_piece {q : PosShare TreeShare} (h : I ⊆ S) (W₁ W₂ : Finset (Idx ℓ)) :
    iprop(willBeTo (Ix := Ix) (Name := Name) (Lvl := Lvl) emb ℓ I q f g W₁ ∗ willBeTo emb ℓ (S \ I) q f g W₂)
      ⊢ (willBeTo emb ℓ S q f g ((W₁ ∩ I) ∪ (W₂ \ I)) : sProp 𝕄) := by
  have h₁ : (willBeTo (Ix := Ix) (Name := Name) (Lvl := Lvl) emb ℓ I q f g W₁ : sProp 𝕄)
      = willBeTo emb ℓ I q f g ((W₁ ∩ I) ∪ (W₂ \ I)) :=
    willBeTo_marks fun i hi => by
      simp only [Finset.mem_union, Finset.mem_inter, Finset.mem_sdiff]; tauto
  have h₂ : (willBeTo (Ix := Ix) (Name := Name) (Lvl := Lvl) emb ℓ (S \ I) q f g W₂ : sProp 𝕄)
      = willBeTo emb ℓ (S \ I) q f g ((W₁ ∩ I) ∪ (W₂ \ I)) :=
    willBeTo_marks fun i hi => by
      have hi' : i ∉ I := (Finset.mem_sdiff.1 hi).2
      simp only [Finset.mem_union, Finset.mem_inter, Finset.mem_sdiff]; tauto
  rw [h₁, h₂]
  exact (willBeTo_split_subset h).2

end Shares

section Leave

variable {nD : Nat} {τ : Topo} {sig : RefSig} {Ix : Type} [DecidableEq Ix] {Val : EltTy → Type} {Name : Type} [DecidableEq Name]
variable {U : Type} [URA U] {Lvl : Type} [Preorder Lvl] {emb : UEmb (WmRA nD τ sig Val) U}

local notation "𝕄" => MT nD τ sig Ix Val Name U Lvl

variable {ιwm : Name} {E : Set Name}
variable {ℓ : Loc nD τ sig} {f : Buf Val ℓ}

/-- Leaving write mode with the whole buffer at the full share, every element marked and every target definite: the
    buffer holds the targets. -/
theorem castOut_all {G : Buf Val ℓ} {W : Finset (Idx ℓ)} (hW : W = Finset.univ) (hE : ιwm ∈ E) :
    (iprop(wmInv emb ιwm ∗ willBeTo emb ℓ Finset.univ fullShare f (fun i => some (G i)) W) : sProp 𝕄)
      ⊢ iprop(|={E}=> (ℓ ↦{fullShare} G)) := by
  subst hW
  have h := willBeTo_castOut_some (Ix := Ix) (Lvl := Lvl) (emb := emb) (ιwm := ιwm) (E := E) (ℓ := ℓ)
    (I := Finset.univ) (f := f) (g := G) (W := Finset.univ) hE
  rw [Finset.piecewise_univ] at h
  exact h

end Leave

end Cert.Lib

end
-- ==== Proof.ChunksCover.lean ====
/-
  The chunks cover the result. Every row `r < 100000` lies in a chunk: a row below 99968 lies in chunk number
  `g = r / 128`, which starts at row `128 g` (no clamping: `128 g ≤ 99840`) and belongs to core `g % 2`, subcore
  `(g % 32) / 2`, round `g / 32 ≤ 24`; a row from 99968 on lies in chunk number 781 (core 1, subcore 6, round 24),
  which is moved back to start at row 99872. Also: every chunk lies inside the result, and membership in a chunk, a
  subcore's marks and a core's marks spelled out.
-/
import proofs.«206633_g8486855377485_cont_9to1_m_27_20_alg».proof.Proof.Chunks

namespace Cert.Chunks

open Idealize.ShloMosaic

/-- Every chunk ends inside the result. -/
theorem off_le (c s j : ℕ) : off c s j + 128 ≤ 100000 := by
  unfold off; omega

/-- An entry lies in a chunk when its row is one of the chunk's 128 rows. -/
theorem mem_chunk (c s j : ℕ) (i : (⟨2, ![100000, 128]⟩ : Shape).Idx) :
    i ∈ chunk c s j ↔ off c s j ≤ (i 0).val ∧ (i 0).val < off c s j + 128 := by
  unfold chunk; rw [Finset.mem_filter]; exact and_iff_right (Finset.mem_univ i)

/-- An entry is written by subcore `s` of core `c` when it lies in one of its 25 chunks. -/
theorem mem_tileMarks (c s : ℕ) (i : (⟨2, ![100000, 128]⟩ : Shape).Idx) :
    i ∈ tileMarks c s ↔ ∃ j, j < 25 ∧ i ∈ chunk c s j := by
  unfold tileMarks; simp only [Finset.mem_biUnion, Finset.mem_range]

/-- An entry is written by core `c` when it lies in a chunk of one of its 16 subcores. -/
theorem mem_coreMarks (c : ℕ) (i : (⟨2, ![100000, 128]⟩ : Shape).Idx) :
    i ∈ coreMarks c ↔ ∃ s, s < 16 ∧ ∃ j, j < 25 ∧ i ∈ chunk c s j := by
  unfold coreMarks; simp only [Finset.mem_biUnion, Finset.mem_range, mem_tileMarks]

/-- The two cores' chunks cover the result. -/
theorem cover : coreMarks 0 ∪ coreMarks 1 = Finset.univ := by
  ext i
  simp only [Finset.mem_union, Finset.mem_univ, iff_true]
  have hr : (i 0).val < 100000 := ValueIdx.idx2_lt0 i
  by_cases h : (i 0).val < 99968
  · -- chunk number g = r / 128, starting at row 128 g
    rcases Nat.mod_two_eq_zero_or_one ((i 0).val / 128) with hc | hc
    · left
      rw [mem_coreMarks]
      refine ⟨(i 0).val / 128 % 32 / 2, by omega, (i 0).val / 128 / 32, by omega, ?_⟩
      rw [mem_chunk]; unfold off; omega
    · right
      rw [mem_coreMarks]
      refine ⟨(i 0).val / 128 % 32 / 2, by omega, (i 0).val / 128 / 32, by omega, ?_⟩
      rw [mem_chunk]; unfold off; omega
  · -- the last chunk, moved back to start at row 99872
    right
    rw [mem_coreMarks]
    refine ⟨6, by omega, 24, by omega, ?_⟩
    rw [mem_chunk]; unfold off; omega

end Cert.Chunks
-- ==== Proof.LaunchSplit.lean ====
/-
  How one core's operands go out to its sixteen subcores and come back. The core's read share of the index array is cut
  into sixteen read tokens and a remainder that waits; its share of the result in write mode likewise, every token
  unmarked on the way out and marked with its subcore's chunks on the way back, so that the core's share comes back marked
  with all of them; subcore 0 also carries the core's share of the table and the core's shared scratch, which comes back
  as sixteen read tokens and the remainder after them, all at the table's contents.
-/
import proofs.«206633_g8486855377485_cont_9to1_m_27_20_alg».proof.Proof.Setup
import proofs.«206633_g8486855377485_cont_9to1_m_27_20_alg».proof.Proof.LibWmShares
import proofs.«206633_g8486855377485_cont_9to1_m_27_20_alg».proof.Proof.ChunksCover

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)

variable [FloatOps F]

/-! ## Small regroupings -/

omit [FloatOps F] in
/-- What the first of sixteen holds alone. -/
theorem bigSep_first (A : sProp 𝕄) : (bigSep Finset.univ fun i : Fin 16 => if i.val = 0 then A else iprop(emp)) = A := by
  have hrest : (bigSep (Finset.univ.erase (0 : Fin 16)) fun i : Fin 16 => if i.val = 0 then A else iprop(emp)) = (iprop(emp) : sProp 𝕄) := by
    rw [bigSep_congr (s := Finset.univ.erase (0 : Fin 16)) (Φ := fun i : Fin 16 => if i.val = 0 then A else iprop(emp))
      (Ψ := fun _ => (iprop(emp) : sProp 𝕄)) fun i hi => if_neg fun h => Finset.ne_of_mem_erase hi (Fin.ext h)]
    exact bigSep_emp_const _
  rw [bigSep_univ_split (0 : Fin 16), hrest, if_pos (show ((0 : Fin 16).val = 0) from rfl)]
  exact equiv_iff.mp BI.sep_emp

omit [FloatOps F] in
/-- The sixteen subcores' marks are the core's. -/
theorem marks_core (d : Dev nD) (c : ℕ) : ∅ ∪ Finset.univ.biUnion (fun i : Fin 16 => tMarks d c i.val) = cMarks d c := by
  unfold tMarks cMarks Cert.Chunks.coreMarks
  ext x
  simp only [Finset.empty_union, Finset.mem_biUnion, Finset.mem_univ, true_and, Finset.mem_range]
  constructor
  · rintro ⟨i, hi⟩; exact ⟨i.val, i.isLt, hi⟩
  · rintro ⟨i, hi, hx⟩; exact ⟨⟨i, hi⟩, hx⟩

/-- The core's share of the result in write mode, unmarked, as sixteen unmarked tokens and the remainder. -/
theorem oWm_deal (d : Dev nD) (q : PosShare TreeShare) :
    oWm m d q ∅ ⊢ iprop(oWm m d (Transfers.shareDrop q 16) ∅ ∗ bigSep Finset.univ fun i : Fin 16 => oWm m d (Transfers.shareTokN q i.val) ∅) := by
  have h := Cert.Lib.willBeTo_toks_split (Ix := HIx 1) (Name := ℕ) (Lvl := ℕ) (emb := EW (F := F)) (ℓ := oLoc d) (I := Finset.univ)
    (f := m (oLoc d)) (g := tgt m d) q 16 ∅ (fun _ => ∅)
  rwa [show (∅ ∪ Finset.univ.biUnion fun _ : Fin 16 => (∅ : Finset (Idx (oLoc d)))) = ∅ from by ext x; simp] at h

/-- The tokens, each marked with its subcore's chunks, and the remainder are the core's share marked with the core's chunks. -/
theorem oWm_gather (d : Dev nD) (q : PosShare TreeShare) (c : ℕ) :
    iprop(oWm m d (Transfers.shareDrop q 16) ∅ ∗ bigSep Finset.univ fun i : Fin 16 => oWm m d (Transfers.shareTokN q i.val) (tMarks d c i.val))
      ⊢ oWm m d q (cMarks d c) := by
  have h := Cert.Lib.willBeTo_toks_join (Ix := HIx 1) (Name := ℕ) (Lvl := ℕ) (emb := EW (F := F)) (ℓ := oLoc d) (I := Finset.univ)
    (f := m (oLoc d)) (g := tgt m d) q 16 ∅ (fun i => tMarks d c i.val)
  rwa [marks_core] at h

omit [FloatOps F] in
/-- The shared scratch is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## The split -/

theorem vecSplit : (K (F := F)).VecSplit (P m) 0 := by
  intro d c
  show iprop(iprop(zPts m d (qC c.val) ∗ wPts m d (qC c.val) ∗ oWm m d (qC c.val) ∅) ∗ ownBufs (S d (coreOf c))) ⊢ |={Set.univ}=> iprop(
      (bigSep Finset.univ fun i : Fin 16 => iprop(zPts m d (qT c.val i.val) ∗ oWm m d (qT c.val i.val) ∅
        ∗ if i.val = 0 then iprop(wPts m d (qC c.val) ∗ ∃ f, shLoc d (coreOf c) ↦{fullShare} f) else iprop(emp)))
      ∗ ((bigSep Finset.univ fun i : Fin 16 => iprop(zPts m d (qT c.val i.val) ∗ oWm m d (qT c.val i.val) (tMarks d c.val i.val) ∗ shTok m d (coreOf c) i.val
          ∗ if i.val = 0 then iprop(wPts m d (qC c.val) ∗ shLoc d (coreOf c) ↦{Transfers.shareDrop fullShare 16} tbl m d (coreOf c)) else iprop(emp)))
          -∗ iprop(iprop(zPts m d (qC c.val) ∗ wPts m d (qC c.val) ∗ oWm m d (qC c.val) (cMarks d c.val)) ∗ ownBufs (S d (coreOf c)))))
  rw [bigSep_sep', bigSep_sep', bigSep_sep', bigSep_sep', bigSep_sep', bigSep_first, bigSep_first, ownBufs_S]
  iintro ⟨⟨Hz, Hw, Ho⟩, Hsh, Hrest⟩
  ihave Hz' := (Transfers.pointsTo_toks_split (qC c.val) 16) $$ Hz
  icases Hz' with ⟨Hzr, Hzt⟩
  ihave Ho' := (oWm_deal m d (qC c.val)) $$ Ho
  icases Ho' with ⟨Hor, Hot⟩
  imodintro
  isplitl [Hzt Hot Hw Hsh]
  · isplitl [Hzt]; · iexact Hzt
    isplitl [Hot]; · iexact Hot
    isplitl [Hw]; · iexact Hw
    iexact Hsh
  iintro ⟨Hzt, Hot, Hst, Hw, Hsd⟩
  isplitl [Hzr Hzt Hw Hor Hot]
  · isplitl [Hzr Hzt]
    · iapply (Transfers.pointsTo_toks_join (qC c.val) 16)
      isplitl [Hzr]; · iexact Hzr
      iexact Hzt
    isplitl [Hw]; · iexact Hw
    iapply (oWm_gather m d (qC c.val) c.val)
    isplitl [Hor]; · iexact Hor
    iexact Hot
  isplitl [Hst Hsd]
  · iexists (tbl m d (coreOf c))
    iapply (Transfers.pointsTo_toks_join fullShare 16)
    isplitl [Hsd]; · iexact Hsd
    iexact Hst
  iexact Hrest

end Cert.Proof.KI

end
-- ==== Proof.LaunchGhost.lean ====
/-
  The launch element of the ghost state and what it funds. The element has three parts beside the transfers' counters:
  the handshakes' rounds, the barrier cells' rounds, and write mode's algebra with nothing yet in write mode. The barrier
  part funds every barrier cell's round 0 (its state, that it is reached, the position at its origin, one duty token per
  pair of subcores of a core); the cells' invariants are allocated at once from the free barrier semaphores; the credit for
  what the subcores owe is regrouped per subcore; write mode's part becomes the write-mode invariant at some name. Every
  subcore is dealt its kit from those, the persistent parts duplicated; the TensorCore keeps the write-mode invariant too.
-/
import proofs.«206633_g8486855377485_cont_9to1_m_27_20_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)

variable [FloatOps F]

/-! ## The launch element -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a core. -/
def bToks : Finset (GSem nD τ sig × ℕ × ℕ) :=
  Finset.univ.image fun x : DCI × Fin (grid0.bound 1) => (bcell x.1.1 x.1.2.1 (x.2.castLE hsub0), 0, x.1.2.2.val)
def u₀ : UU F := (initOf (K (F := F)).hsCells (K (F := F)).hsToks, (initOf bCells bToks, (wm₀ nD τ sig (Elt F), 1)))

/-- What the TensorCore keeps of the launch element: the write-mode invariant, at some name. -/
abbrev GW : sProp 𝕄 := iprop(∃ ιwm : ℕ, wmInv (Ix := HIx 1) (Name := ℕ) (Lvl := ℕ) (EW (F := F)) ιwm)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element's three parts, each owned along its own embedding. -/
theorem ownU_split (a : UH) (b : UB) (w : UW F) :
    (ownU ((a, (b, (w, 1))) : UU F) : sProp 𝕄) ⊢ iprop(BI.own (EH a) ∗ BI.own (EB b) ∗ ownU (EW (F := F) w)) := by
  have h1 : (ownU ((a, (b, (w, 1))) : UU F) : sProp 𝕄)
      ⊢ iprop(BI.own (EH a) ∗ ownU (((1 : UH), (b, (w, (1 : Counters)))) : UU F)) :=
    BI.own_op_elim ((uEmb (nD := nD) (sig := sig) (Ix := HIx 1) (Val := Elt F) (Name := ℕ) (U := UU F) (Lvl := ℕ)).toEmb.op_of_mem
      (Prod.mk_mem_op (URA.mem_op_one a) (URA.mem_one_op (b, (w, (1 : Counters))))))
  have h2 : (ownU (((1 : UH), (b, (w, (1 : Counters)))) : UU F) : sProp 𝕄) ⊢ iprop(BI.own (EB b) ∗ ownU (EW (F := F) w)) :=
    BI.own_op_elim ((uEmb (nD := nD) (sig := sig) (Ix := HIx 1) (Val := Elt F) (Name := ℕ) (U := UU F) (Lvl := ℕ)).toEmb.op_of_mem
      (Prod.mk_mem_op (URA.mem_op_one (1 : UH)) (Prod.mk_mem_op (URA.mem_op_one b) (URA.mem_one_op (w, (1 : Counters))))))
  exact h1.trans (sep_mono_right h2)

/-- Write mode's part of the element becomes the write-mode invariant, at some name. -/
theorem wm_alloc (s : MemSt nD τ sig (Elt F)) : (ownU (EW (F := F) (wm₀ nD τ sig (Elt F))) : sProp 𝕄)
    ⊢ |={Set.univ}=> iprop(∃ ιwm : ℕ, wmInv (Ix := HIx 1) (Name := ℕ) (Lvl := ℕ) (EW (F := F)) ιwm) :=
  (wmInv_alloc (Ix := HIx 1) (Lvl := ℕ) (emb := EW (F := F)) s).trans (BI.fupd_mono (exists_mono fun _ => and_elim_r))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the subcores' own debts, regrouped: each subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
/-- A persistent resource, once for every member of a family. -/
theorem bigSep_dup {I : Type} [DecidableEq I] {R : sProp 𝕄} [BI.Persistent R] (s : Finset I) : R ⊢ bigSep s fun _ => R := by
  iintro #HR
  iapply (bigSep_mono_frame (R := R) (s := s) (Φ := fun _ => iprop(emp)) (Ψ := fun _ => R) fun _ _ => sep_elim_left)
  isplitr; · iexact HR
  rw [bigSep_emp']; iempintro

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, that each has reached round 0, and the write-mode
    invariant. -/
abbrev shared (ιwm : ℕ) : sProp 𝕄 :=
  iprop((∃ κ : GSem nD τ sig → ℕ, bigSep Finset.univ fun x : DCI => cellInv EB (bRd (F := F) m) (κ (bcell₃ x)) (bcell₃ x))
    ∗ (bigSep Finset.univ fun x : DCI => reached EB (bcell₃ x) 0)
    ∗ wmInv (Ix := HIx 1) (Name := ℕ) (Lvl := ℕ) (EW (F := F)) ιwm)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's kit out of those. -/
theorem kit_intro (ιwm : ℕ) (dci : DCI) : iprop(shared (F := F) m ιwm ∗ mine dci) ⊢ (bkit (F := F) m dci.1 dci.2.1 dci.2.2 : sProp 𝕄) := by
  obtain ⟨d, c, i⟩ := dci
  iintro ⟨⟨#Hinv, #Hr, #Hwm⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  isplitl [Hcred]; · iexact Hcred
  iexists ιwm; iexact Hwm

/-- Each subcore its kit. -/
theorem kits_deal (ιwm : ℕ) :
    iprop(shared (F := F) m ιwm ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m ιwm) (Φ := mine (F := F)) fun dci _ => kit_intro (F := F) m ιwm dci)
  isplitr; · iexact Hsh
  unfold mine
  rw [bigSep_sep', bigSep_sep']
  isplitl [Hat]; · iexact Hat
  isplitl [Htok]; · iexact Htok
  iexact Hcred

theorem hu₀ (ρ : Dev nD → PrngReg) : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => GW (F := F))
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HW⟩
  imod (wm_alloc (F := F) ⟨m, fun _ => 0, ρ⟩) $$ HW with ⟨%ιwm, #Hwm⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr
  · iapply (bigSep_dup (R := GW (F := F)) (Finset.univ : Finset (Dev nD)))
    iexists ιwm; iexact Hwm
  iapply (kits_deal m ιwm)
  isplitr
  · isplitl; · iexists κ; iexact Hinv'
    isplitl; · iexact Hr'
    iexact Hwm
  isplitl [Hat']; · iexact Hat'
  isplitl [Htok']; · iexact Htok'
  iexact Hcred'

end Cert.Proof.KI

end
-- ==== Proof.Launch.lean ====
/-
  @main on the TensorCore, how the final memory reads the claim, and the program's run. @main is the one call. Before it
  the TensorCore puts the result array in write mode, its targets the lookup, and cuts that, the index array and the table
  into a token per core and a remainder; after it the two cores' tokens come back, the result's marked with each core's
  chunks, which together are every row: the array leaves write mode holding the lookup, and the index array and the table
  are whole again at their launch contents. The other six arguments are never touched.
-/
import proofs.«206633_g8486855377485_cont_9to1_m_27_20_alg».proof.Proof.Setup
import proofs.«206633_g8486855377485_cont_9to1_m_27_20_alg».proof.Proof.LibWmShares
import proofs.«206633_g8486855377485_cont_9to1_m_27_20_alg».proof.Proof.ChunksCover
import proofs.«206633_g8486855377485_cont_9to1_m_27_20_alg».proof.Proof.LaunchSplit
import proofs.«206633_g8486855377485_cont_9to1_m_27_20_alg».proof.Proof.LaunchGhost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)

variable [FloatOps F]

/-! ## The two cores' tokens -/

omit [FloatOps F] in
/-- The two cores' marks are every entry of the result. -/
theorem marks_all (d : Dev nD) : ∅ ∪ Finset.univ.biUnion (fun c : Fin 2 => cMarks d c.val) = Finset.univ := by
  apply Finset.eq_univ_of_forall
  intro x
  have hx : x ∈ Cert.Chunks.coreMarks 0 ∪ Cert.Chunks.coreMarks 1 := by rw [Cert.Chunks.cover]; exact Finset.mem_univ x
  rcases Finset.mem_union.mp hx with h | h
  · exact Finset.mem_union_right _ (Finset.mem_biUnion.mpr ⟨(0 : Fin 2), Finset.mem_univ _, h⟩)
  · exact Finset.mem_union_right _ (Finset.mem_biUnion.mpr ⟨(1 : Fin 2), Finset.mem_univ _, h⟩)

/-- The result in write mode at the full share, unmarked, as a token per core and the remainder. -/
theorem oWm_deal₂ (d : Dev nD) :
    oWm m d fullShare ∅ ⊢ iprop(oWm m d (Transfers.shareDrop fullShare 2) ∅ ∗ bigSep Finset.univ fun c : Fin 2 => oWm m d (qC c.val) ∅) := by
  have h := Cert.Lib.willBeTo_toks_split (Ix := HIx 1) (Name := ℕ) (Lvl := ℕ) (emb := EW (F := F)) (ℓ := oLoc d) (I := Finset.univ)
    (f := m (oLoc d)) (g := tgt m d) fullShare 2 ∅ (fun _ => ∅)
  rwa [show (∅ ∪ Finset.univ.biUnion fun _ : Fin 2 => (∅ : Finset (Idx (oLoc d)))) = ∅ from by ext x; simp] at h

/-- The cores' tokens, each marked with its core's chunks, and the remainder: the full share, every entry marked. -/
theorem oWm_gather₂ (d : Dev nD) :
    iprop(oWm m d (Transfers.shareDrop fullShare 2) ∅ ∗ bigSep Finset.univ fun c : Fin 2 => oWm m d (qC c.val) (cMarks d c.val))
      ⊢ oWm m d fullShare Finset.univ := by
  have h := Cert.Lib.willBeTo_toks_join (Ix := HIx 1) (Name := ℕ) (Lvl := ℕ) (emb := EW (F := F)) (ℓ := oLoc d) (I := Finset.univ)
    (f := m (oLoc d)) (g := tgt m d) fullShare 2 ∅ (fun c => cMarks d c.val)
  rwa [marks_all] at h

/-- Every entry marked, the result leaves write mode holding the lookup. -/
theorem oWm_out (d : Dev nD) (ιwm : ℕ) :
    iprop(wmInv (Ix := HIx 1) (Name := ℕ) (Lvl := ℕ) (EW (F := F)) ιwm ∗ oWm m d fullShare Finset.univ)
      ⊢ iprop(|={Set.univ}=> (oLoc d ↦{fullShare} res m d) : sProp 𝕄) :=
  Cert.Lib.castOut_all (Ix := HIx 1) (Lvl := ℕ) (emb := EW (F := F)) (f := m (oLoc d)) (G := res m d) rfl (Set.mem_univ ιwm)

theorem st0_eq (d : Dev nD) : (bigSep Finset.univ fun c : Fin ((K (F := F)).nCore 0) => (P m).st 0 d c)
    = iprop((bigSep Finset.univ fun c : Fin 2 => zPts m d (qC c.val)) ∗ (bigSep Finset.univ fun c : Fin 2 => wPts m d (qC c.val))
        ∗ bigSep Finset.univ fun c : Fin 2 => oWm m d (qC c.val) ∅) := by
  show (bigSep Finset.univ fun c : Fin 2 => iprop(zPts m d (qC c.val) ∗ wPts m d (qC c.val) ∗ oWm m d (qC c.val) ∅)) = _
  rw [bigSep_sep', bigSep_sep']
theorem dn0_eq (d : Dev nD) : (bigSep Finset.univ fun c : Fin ((K (F := F)).nCore 0) => (P m).dn 0 d c)
    = iprop((bigSep Finset.univ fun c : Fin 2 => zPts m d (qC c.val)) ∗ (bigSep Finset.univ fun c : Fin 2 => wPts m d (qC c.val))
        ∗ bigSep Finset.univ fun c : Fin 2 => oWm m d (qC c.val) (cMarks d c.val)) := by
  show (bigSep Finset.univ fun c : Fin 2 => iprop(zPts m d (qC c.val) ∗ wPts m d (qC c.val) ∗ oWm m d (qC c.val) (cMarks d c.val))) = _
  rw [bigSep_sep', bigSep_sep']

/-! ## @main on the TensorCore -/

/-- An argument array whole, at its launch contents. -/
abbrev aPts (d : Dev nD) (b : Ref sig .tc) : sProp 𝕄 := (SparseCore.T d).loc b ↦{fullShare} m ((SparseCore.T d).loc b)

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_arg6 ↦{fullShare} W main_arg6)
      ∗ ((SparseCore.T d).loc main_arg7 ↦{fullShare} W main_arg7)
      ∗ oLoc d ↦{fullShare} W main_v0) := by
  unfold unscopedBufs
  rw [show (Finset.univ.filter fun b : Ref sig .tc => ¬ b.isScoped) = {main_arg0, main_arg1, main_arg2, main_arg3, main_arg4, main_arg5, main_arg6, main_arg7, main_v0} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What @main leaves: the eight arguments whole at their launch contents, the result whole at the lookup. -/
abbrev FIN (d : Dev nD) : sProp 𝕄 :=
  iprop(aPts m d main_arg0 ∗ aPts m d main_arg1 ∗ aPts m d main_arg2 ∗ aPts m d main_arg3 ∗ aPts m d main_arg4 ∗ aPts m d main_arg5 ∗ aPts m d main_arg6 ∗ aPts m d main_arg7
    ∗ oLoc d ↦{fullShare} res m d)

/-- @main on device `d`'s TensorCore: the one call, from the nine arrays and the write-mode invariant. -/
theorem hmain (κ : GSem nD τ sig → ℕ) (d : Dev nD) :
    iprop((K (F := F)).ctx EH (P m) κ ∗ (K (F := F)).tcSt EH d 0 ∗ (K (F := F)).tcRes m ρ d ∗ GW (F := F))
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hz, H1, H2, H3, H4, H5, H6, Hw, Ho⟩, -, -⟩, ⟨%ιwm, #Hwm⟩⟩
  -- the result enters write mode, its targets the lookup
  imod (pointsTo_castIn (Ix := HIx 1) (Lvl := ℕ) (emb := EW (F := F)) (ιwm := ιwm) (E := Set.univ) (tgt m d) (Set.mem_univ ιwm)) $$ [Ho] with Ho
  · isplitr; · iexact Hwm
    iexact Ho
  -- a token per core of the indices, the table and the result
  ihave Hz' := (Transfers.pointsTo_toks_split fullShare 2) $$ Hz
  icases Hz' with ⟨Hzr, Hzt⟩
  ihave Hw' := (Transfers.pointsTo_toks_split fullShare 2) $$ Hw
  icases Hw' with ⟨Hwr, Hwt⟩
  ihave Ho' := (oWm_deal₂ m d) $$ Ho
  icases Ho' with ⟨Hor, Hot⟩
  iapply ((K (F := F)).wp_run (D (F := F)) 𝒱 (EH := EH) (P := P m) κ d 0) $$ [Hst Hzt Hwt Hot Hzr Hwr Hor H1 H2 H3 H4 H5 H6]
  isplitr; · iexact Hctx
  isplitl [Hst]; · iexact Hst
  isplitl [Hzt Hwt Hot]
  · rw [st0_eq]
    isplitl [Hzt]; · iexact Hzt
    isplitl [Hwt]; · iexact Hwt
    iexact Hot
  iintro ⟨Hst, Hdn⟩
  ihave Hdn' := (Entails.of_eq (dn0_eq m d)) $$ Hdn
  icases Hdn' with ⟨Hzt, Hwt, Hot⟩
  ihave Hz := (Transfers.pointsTo_toks_join fullShare 2) $$ [Hzr Hzt]
  · isplitl [Hzr]; · iexact Hzr
    iexact Hzt
  ihave Hw := (Transfers.pointsTo_toks_join fullShare 2) $$ [Hwr Hwt]
  · isplitl [Hwr]; · iexact Hwr
    iexact Hwt
  ihave Ho := (oWm_gather₂ m d) $$ [Hor Hot]
  · isplitl [Hor]; · iexact Hor
    iexact Hot
  -- every entry marked: the result leaves write mode
  imod (oWm_out m d ιwm) $$ [Ho] with Ho
  · isplitr; · iexact Hwm
    iexact Ho
  imodintro
  isplitl [Hst]; · iexact Hst
  isplitl [Hz]; · iexact Hz
  isplitl [H1]; · iexact H1
  isplitl [H2]; · iexact H2
  isplitl [H3]; · iexact H3
  isplitl [H4]; · iexact H4
  isplitl [H5]; · iexact H5
  isplitl [H6]; · iexact H6
  isplitl [Hw]; · iexact Hw
  iexact Ho

/-! ## How the final memory reads the claim -/

/-- Device `d`'s part of the claim: the result is the lookup, the eight arguments are unchanged. -/
def fq (d : Dev nD) (s' : Phys nD τ sig (Elt F)) : Prop :=
  s'.mem.mem (oLoc d) = res m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)

theorem hfin (d : Dev nD) (s' : Phys nD τ sig (Elt F)) : iprop(FIN m d ∗ SI s') ⊢ (⌜fq m d s'⌝ : sProp 𝕄) := by
  iintro ⟨⟨H0, H1, H2, H3, H4, H5, H6, H7, Ho⟩, HSI⟩
  icombine HSI Ho gives %ho
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  ipureintro
  exact ⟨Buf.eq_of_forall_mem_univ ho, Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7⟩

/-! ## The program's run and the claim -/

/-- The strongest post: on every device the result is the lookup of the index array in the table, and the eight arguments
    are as they were. -/
def QC : PUnit × MemSt nD τ sig (Elt F) → Prop := fun r => ∀ c : Dev nD,
  r.2.mem (oLoc c) = res m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)

theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => vecSplit m)
    m ρ main (fun _ => GW (F := F)) (FIN m) (u₀ (F := F)) (hu₀ m ρ) (hmain m ρ) (fq m) (hfin m) (QC m) (fun _ h => h)

end Cert.Proof.KI

end
-- ==== Proof.K_Setup.lean ====
/-
  The protocol of the lookup kernel, as the launch of a SparseCore program needs it stated. Thirty-two vector subcores
  (two cores of sixteen) each fetch their index chunks, subcore 0 of each core fills the core's shared copy of the table,
  all sixteen meet at the subcore barrier — where subcore 0 hands every subcore a read share of the shared table — and then
  each gathers rows of the table by its indices and copies them out to its chunks of the result. The last chunks of the
  result overlap between subcores (they are moved back so as not to run past the last row, and carry equal values), so the
  result is held in write mode: every subcore has a share of the whole array with the one agreed target, the lookup itself,
  and marks the chunks it has written.
-/
import proofs.«206633_g8486855377485_cont_9to1_m_27_20_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.WriteMode
import proofs.«206633_g8486855377485_cont_9to1_m_27_20_alg».proof.Proof.Gen.Kernel
import proofs.«206633_g8486855377485_cont_9to1_m_27_20_alg».proof.Proof.Gen.Kernel.Skeleton
import proofs.«206633_g8486855377485_cont_9to1_m_27_20_alg».proof.Proof.Spec
import proofs.«206633_g8486855377485_cont_9to1_m_27_20_alg».proof.Proof.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, write mode, the transfers' counters -/

abbrev UH : Type := URounds (GSem nD τ sig) ℕ
abbrev UB : Type := URounds (GSem nD τ sig) ℕ
abbrev UW (F : FTy → Type) : Type := WmRA nD τ sig (Elt F)
abbrev UU (F : FTy → Type) : Type := UH × (UB × (UW F × Counters))

local notation "𝕄" => MT nD τ sig (HIx 1) (Elt F) ℕ (UU F) ℕ

abbrev EH : Emb UH (MT nD τ sig (HIx 1) (Elt F) ℕ (UU F) ℕ) := embL
/-- The barrier cells' rounds library. -/
def EB : Emb UB (MT nD τ sig (HIx 1) (Elt F) ℕ (UU F) ℕ) :=
  ((Emb.inl : Emb UB (UB × (UW F × Counters))).trans (Emb.inr : Emb (UB × (UW F × Counters)) (UU F))).trans
    (uEmb (nD := nD) (sig := sig) (Ix := HIx 1) (Val := Elt F) (Name := ℕ) (U := UU F) (Lvl := ℕ)).toEmb
instance EB_landsIn : (EB : Emb UB 𝕄).LandsIn (upEmb : UEmb _ 𝕄) := by unfold EB; infer_instance
/-- Write mode's algebra in the certificate's. -/
def EW : UEmb (UW F) (UU F) :=
  (UEmb.inl : UEmb (UW F) (UW F × Counters)).trans ((UEmb.inr : UEmb (UW F × Counters) (UB × (UW F × Counters))).trans (UEmb.inr : UEmb _ (UU F)))

/-! ## The launch memory and the buffers -/

variable (m : (ℓ : Loc nD τ sig) → Buf (Elt F) ℓ) (ρ : Dev nD → PrngReg)

abbrev zLoc (d : Dev nD) : Loc nD τ sig := (SparseCore.T d).loc main_arg0
abbrev wLoc (d : Dev nD) : Loc nD τ sig := (SparseCore.T d).loc main_arg7
abbrev oLoc (d : Dev nD) : Loc nD τ sig := (SparseCore.T d).loc main_v0
/-- SparseCore `c`'s shared copy of the table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The table, as the contents of a core's shared copy. -/
def tbl (d : Dev nD) (c : Fin τ.nSC) : Buf (Elt F) (shLoc d c) := m (wLoc d)

/-- The result: the lookup of the index array in the table. -/
def res (d : Dev nD) : Buf (Elt F) (oLoc d) := Cert.Spec.G (m (wLoc d)) (m (zLoc d))
/-- Its entries as the targets of write mode. -/
def tgt (d : Dev nD) : Tgt (Elt F) (oLoc d) := fun i => some (res m d i)

/-- Core `c`'s share of an array every core reads, and subcore `i`'s share of that. -/
abbrev qC (c : ℕ) : PosShare TreeShare := Transfers.shareTokN fullShare c
abbrev qT (c i : ℕ) : PosShare TreeShare := Transfers.shareTokN (qC c) i

/-- What subcore `s` of core `c` marks written, and core `c`'s subcores together. -/
def tMarks (d : Dev nD) (c s : ℕ) : Finset (Idx (oLoc d)) := Cert.Chunks.tileMarks c s
def cMarks (d : Dev nD) (c : ℕ) : Finset (Idx (oLoc d)) := Cert.Chunks.coreMarks c

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Subcore `j`'s read share of its core's shared table. -/
abbrev shTok (d : Dev nD) (c : Fin τ.nSC) (j : ℕ) : sProp 𝕄 := shLoc d c ↦{Transfers.shareTokN fullShare j} tbl m d c

/-- What a duty in tile `j`'s round hands over: subcore 0's, tile `j`'s read share of the shared table; the others', nothing. -/
def bPay (g : GSem nD τ sig) (n : ℕ) : sProp 𝕄 :=
  match g with
  | ((d, .scVector c j), _) => if n = 0 then shTok m d c j.val else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## What the launch deals a tile's proof -/

/-- Tile `(c, i)`'s kit: every tile's barrier cell invariant of its SparseCore and that each has reached round 0, its own
    position at the origin of round 0, its duty token in every tile's round 0, the credit for the sixteen units of its own
    round; and the write-mode invariant. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1))
    ∗ ∃ ιwm : ℕ, wmInv (Ix := HIx 1) (Name := ℕ) (Lvl := ℕ) (EW (F := F)) ιwm)

/-! ## What the handshakes carry -/

/-- The result array in write mode: share `q` of all of it, old contents the launch memory's, targets the lookup, marks `W`. -/
abbrev oWm (d : Dev nD) (q : PosShare TreeShare) (W : Finset (Idx (oLoc d))) : sProp 𝕄 :=
  willBeTo (Ix := HIx 1) (Name := ℕ) (Lvl := ℕ) (EW (F := F)) (oLoc d) Finset.univ q (m (oLoc d)) (tgt m d) W
abbrev zPts (d : Dev nD) (q : PosShare TreeShare) : sProp 𝕄 := zLoc d ↦{q} m (zLoc d)
abbrev wPts (d : Dev nD) (q : PosShare TreeShare) : sProp 𝕄 := wLoc d ↦{q} m (wLoc d)

/-- The one call takes, per core, a share of the indices, of the table and of the result in write mode; each task a share of
    the indices and of the result, subcore 0 also the core's share of the table and the core's shared scratch; each task
    brings back its shares, the result's marked with its chunks, and its read share of the shared table (subcore 0 also
    what is left of it). -/
def P : (K (F := F)).Pay (nD := nD) (Val := Elt F) (Name := ℕ) (U := UU F) where
  st := fun q d c => match q with | 0 => iprop(zPts m d (qC c.val) ∗ wPts m d (qC c.val) ∗ oWm m d (qC c.val) ∅)
  dn := fun q d c => match q with | 0 => iprop(zPts m d (qC c.val) ∗ wPts m d (qC c.val) ∗ oWm m d (qC c.val) (cMarks d c.val))
  go := fun q d c i => match q with
    | 0 => iprop(zPts m d (qT c.val i.val) ∗ oWm m d (qT c.val i.val) ∅
        ∗ if i.val = 0 then iprop(wPts m d (qC c.val) ∗ ∃ f, shLoc d (coreOf c) ↦{fullShare} f) else iprop(emp))
  td := fun q d c i => match q with
    | 0 => iprop(zPts m d (qT c.val i.val) ∗ oWm m d (qT c.val i.val) (tMarks d c.val i.val) ∗ shTok m d (coreOf c) i.val
        ∗ if i.val = 0 then iprop(wPts m d (qC c.val) ∗ shLoc d (coreOf c) ↦{Transfers.shareDrop fullShare 16} tbl m d (coreOf c)) else iprop(emp))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) iprop(zPts m d (qC c.val) ∗ wPts m d (qC c.val) ∗ oWm m d (qC c.val) ∅))
  dn q d c := match q with
    | 0 => (inferInstance : BI.Storable (upEmb : UEmb _ 𝕄) iprop(zPts m d (qC c.val) ∗ wPts m d (qC c.val) ∗ oWm m d (qC c.val) (cMarks d c.val)))
  go q d c i := match q with
    | 0 => by
      show BI.Storable (upEmb : UEmb _ 𝕄) iprop(zPts m d (qT c.val i.val) ∗ oWm m d (qT c.val i.val) ∅
        ∗ if i.val = 0 then iprop(wPts m d (qC c.val) ∗ ∃ f, shLoc d (coreOf c) ↦{fullShare} f) else iprop(emp))
      split <;> infer_instance
  td q d c i := match q with
    | 0 => by
      show BI.Storable (upEmb : UEmb _ 𝕄) iprop(zPts m d (qT c.val i.val) ∗ oWm m d (qT c.val i.val) (tMarks d c.val i.val) ∗ shTok m d (coreOf c) i.val
        ∗ if i.val = 0 then iprop(wPts m d (qC c.val) ∗ shLoc d (coreOf c) ↦{Transfers.shareDrop fullShare 16} tbl m d (coreOf c)) else iprop(emp))
      split <;> infer_instance

end Cert.Proof.KB

end
-- ==== Proof.K_LaunchSplit.lean ====
/-
  How one core's operands go out to its sixteen subcores and come back. The core's read share of the index array is cut
  into sixteen read tokens and a remainder that waits; its share of the result in write mode likewise, every token
  unmarked on the way out and marked with its subcore's chunks on the way back, so that the core's share comes back marked
  with all of them; subcore 0 also carries the core's share of the table and the core's shared scratch, which comes back
  as sixteen read tokens and the remainder after them, all at the table's contents.
-/
import proofs.«206633_g8486855377485_cont_9to1_m_27_20_alg».proof.Proof.K_Setup
import proofs.«206633_g8486855377485_cont_9to1_m_27_20_alg».proof.Proof.LibWmShares
import proofs.«206633_g8486855377485_cont_9to1_m_27_20_alg».proof.Proof.ChunksCover

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)

variable [FloatOps F]

/-! ## Small regroupings -/

omit [FloatOps F] in
/-- What the first of sixteen holds alone. -/
theorem bigSep_first (A : sProp 𝕄) : (bigSep Finset.univ fun i : Fin 16 => if i.val = 0 then A else iprop(emp)) = A := by
  have hrest : (bigSep (Finset.univ.erase (0 : Fin 16)) fun i : Fin 16 => if i.val = 0 then A else iprop(emp)) = (iprop(emp) : sProp 𝕄) := by
    rw [bigSep_congr (s := Finset.univ.erase (0 : Fin 16)) (Φ := fun i : Fin 16 => if i.val = 0 then A else iprop(emp))
      (Ψ := fun _ => (iprop(emp) : sProp 𝕄)) fun i hi => if_neg fun h => Finset.ne_of_mem_erase hi (Fin.ext h)]
    exact bigSep_emp_const _
  rw [bigSep_univ_split (0 : Fin 16), hrest, if_pos (show ((0 : Fin 16).val = 0) from rfl)]
  exact equiv_iff.mp BI.sep_emp

omit [FloatOps F] in
/-- The sixteen subcores' marks are the core's. -/
theorem marks_core (d : Dev nD) (c : ℕ) : ∅ ∪ Finset.univ.biUnion (fun i : Fin 16 => tMarks d c i.val) = cMarks d c := by
  unfold tMarks cMarks Cert.Chunks.coreMarks
  ext x
  simp only [Finset.empty_union, Finset.mem_biUnion, Finset.mem_univ, true_and, Finset.mem_range]
  constructor
  · rintro ⟨i, hi⟩; exact ⟨i.val, i.isLt, hi⟩
  · rintro ⟨i, hi, hx⟩; exact ⟨⟨i, hi⟩, hx⟩

/-- The core's share of the result in write mode, unmarked, as sixteen unmarked tokens and the remainder. -/
theorem oWm_deal (d : Dev nD) (q : PosShare TreeShare) :
    oWm m d q ∅ ⊢ iprop(oWm m d (Transfers.shareDrop q 16) ∅ ∗ bigSep Finset.univ fun i : Fin 16 => oWm m d (Transfers.shareTokN q i.val) ∅) := by
  have h := Cert.Lib.willBeTo_toks_split (Ix := HIx 1) (Name := ℕ) (Lvl := ℕ) (emb := EW (F := F)) (ℓ := oLoc d) (I := Finset.univ)
    (f := m (oLoc d)) (g := tgt m d) q 16 ∅ (fun _ => ∅)
  rwa [show (∅ ∪ Finset.univ.biUnion fun _ : Fin 16 => (∅ : Finset (Idx (oLoc d)))) = ∅ from by ext x; simp] at h

/-- The tokens, each marked with its subcore's chunks, and the remainder are the core's share marked with the core's chunks. -/
theorem oWm_gather (d : Dev nD) (q : PosShare TreeShare) (c : ℕ) :
    iprop(oWm m d (Transfers.shareDrop q 16) ∅ ∗ bigSep Finset.univ fun i : Fin 16 => oWm m d (Transfers.shareTokN q i.val) (tMarks d c i.val))
      ⊢ oWm m d q (cMarks d c) := by
  have h := Cert.Lib.willBeTo_toks_join (Ix := HIx 1) (Name := ℕ) (Lvl := ℕ) (emb := EW (F := F)) (ℓ := oLoc d) (I := Finset.univ)
    (f := m (oLoc d)) (g := tgt m d) q 16 ∅ (fun i => tMarks d c i.val)
  rwa [marks_core] at h

omit [FloatOps F] in
/-- The shared scratch is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## The split -/

theorem vecSplit : (K (F := F)).VecSplit (P m) 0 := by
  intro d c
  show iprop(iprop(zPts m d (qC c.val) ∗ wPts m d (qC c.val) ∗ oWm m d (qC c.val) ∅) ∗ ownBufs (S d (coreOf c))) ⊢ |={Set.univ}=> iprop(
      (bigSep Finset.univ fun i : Fin 16 => iprop(zPts m d (qT c.val i.val) ∗ oWm m d (qT c.val i.val) ∅
        ∗ if i.val = 0 then iprop(wPts m d (qC c.val) ∗ ∃ f, shLoc d (coreOf c) ↦{fullShare} f) else iprop(emp)))
      ∗ ((bigSep Finset.univ fun i : Fin 16 => iprop(zPts m d (qT c.val i.val) ∗ oWm m d (qT c.val i.val) (tMarks d c.val i.val) ∗ shTok m d (coreOf c) i.val
          ∗ if i.val = 0 then iprop(wPts m d (qC c.val) ∗ shLoc d (coreOf c) ↦{Transfers.shareDrop fullShare 16} tbl m d (coreOf c)) else iprop(emp)))
          -∗ iprop(iprop(zPts m d (qC c.val) ∗ wPts m d (qC c.val) ∗ oWm m d (qC c.val) (cMarks d c.val)) ∗ ownBufs (S d (coreOf c)))))
  rw [bigSep_sep', bigSep_sep', bigSep_sep', bigSep_sep', bigSep_sep', bigSep_first, bigSep_first, ownBufs_S]
  iintro ⟨⟨Hz, Hw, Ho⟩, Hsh, Hrest⟩
  ihave Hz' := (Transfers.pointsTo_toks_split (qC c.val) 16) $$ Hz
  icases Hz' with ⟨Hzr, Hzt⟩
  ihave Ho' := (oWm_deal m d (qC c.val)) $$ Ho
  icases Ho' with ⟨Hor, Hot⟩
  imodintro
  isplitl [Hzt Hot Hw Hsh]
  · isplitl [Hzt]; · iexact Hzt
    isplitl [Hot]; · iexact Hot
    isplitl [Hw]; · iexact Hw
    iexact Hsh
  iintro ⟨Hzt, Hot, Hst, Hw, Hsd⟩
  isplitl [Hzr Hzt Hw Hor Hot]
  · isplitl [Hzr Hzt]
    · iapply (Transfers.pointsTo_toks_join (qC c.val) 16)
      isplitl [Hzr]; · iexact Hzr
      iexact Hzt
    isplitl [Hw]; · iexact Hw
    iapply (oWm_gather m d (qC c.val) c.val)
    isplitl [Hor]; · iexact Hor
    iexact Hot
  isplitl [Hst Hsd]
  · iexists (tbl m d (coreOf c))
    iapply (Transfers.pointsTo_toks_join fullShare 16)
    isplitl [Hsd]; · iexact Hsd
    iexact Hst
  iexact Hrest

end Cert.Proof.KB

end
-- ==== Proof.K_LaunchGhost.lean ====
/-
  The launch element of the ghost state and what it funds. The element has three parts beside the transfers' counters:
  the handshakes' rounds, the barrier cells' rounds, and write mode's algebra with nothing yet in write mode. The barrier
  part funds every barrier cell's round 0 (its state, that it is reached, the position at its origin, one duty token per
  pair of subcores of a core); the cells' invariants are allocated at once from the free barrier semaphores; the credit for
  what the subcores owe is regrouped per subcore; write mode's part becomes the write-mode invariant at some name. Every
  subcore is dealt its kit from those, the persistent parts duplicated; the TensorCore keeps the write-mode invariant too.
-/
import proofs.«206633_g8486855377485_cont_9to1_m_27_20_alg».proof.Proof.K_Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)

variable [FloatOps F]

/-! ## The launch element -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a core. -/
def bToks : Finset (GSem nD τ sig × ℕ × ℕ) :=
  Finset.univ.image fun x : DCI × Fin (grid0.bound 1) => (bcell x.1.1 x.1.2.1 (x.2.castLE hsub0), 0, x.1.2.2.val)
def u₀ : UU F := (initOf (K (F := F)).hsCells (K (F := F)).hsToks, (initOf bCells bToks, (wm₀ nD τ sig (Elt F), 1)))

/-- What the TensorCore keeps of the launch element: the write-mode invariant, at some name. -/
abbrev GW : sProp 𝕄 := iprop(∃ ιwm : ℕ, wmInv (Ix := HIx 1) (Name := ℕ) (Lvl := ℕ) (EW (F := F)) ιwm)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element's three parts, each owned along its own embedding. -/
theorem ownU_split (a : UH) (b : UB) (w : UW F) :
    (ownU ((a, (b, (w, 1))) : UU F) : sProp 𝕄) ⊢ iprop(BI.own (EH a) ∗ BI.own (EB b) ∗ ownU (EW (F := F) w)) := by
  have h1 : (ownU ((a, (b, (w, 1))) : UU F) : sProp 𝕄)
      ⊢ iprop(BI.own (EH a) ∗ ownU (((1 : UH), (b, (w, (1 : Counters)))) : UU F)) :=
    BI.own_op_elim ((uEmb (nD := nD) (sig := sig) (Ix := HIx 1) (Val := Elt F) (Name := ℕ) (U := UU F) (Lvl := ℕ)).toEmb.op_of_mem
      (Prod.mk_mem_op (URA.mem_op_one a) (URA.mem_one_op (b, (w, (1 : Counters))))))
  have h2 : (ownU (((1 : UH), (b, (w, (1 : Counters)))) : UU F) : sProp 𝕄) ⊢ iprop(BI.own (EB b) ∗ ownU (EW (F := F) w)) :=
    BI.own_op_elim ((uEmb (nD := nD) (sig := sig) (Ix := HIx 1) (Val := Elt F) (Name := ℕ) (U := UU F) (Lvl := ℕ)).toEmb.op_of_mem
      (Prod.mk_mem_op (URA.mem_op_one (1 : UH)) (Prod.mk_mem_op (URA.mem_op_one b) (URA.mem_one_op (w, (1 : Counters))))))
  exact h1.trans (sep_mono_right h2)

/-- Write mode's part of the element becomes the write-mode invariant, at some name. -/
theorem wm_alloc (s : MemSt nD τ sig (Elt F)) : (ownU (EW (F := F) (wm₀ nD τ sig (Elt F))) : sProp 𝕄)
    ⊢ |={Set.univ}=> iprop(∃ ιwm : ℕ, wmInv (Ix := HIx 1) (Name := ℕ) (Lvl := ℕ) (EW (F := F)) ιwm) :=
  (wmInv_alloc (Ix := HIx 1) (Lvl := ℕ) (emb := EW (F := F)) s).trans (BI.fupd_mono (exists_mono fun _ => and_elim_r))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the subcores' own debts, regrouped: each subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
/-- A persistent resource, once for every member of a family. -/
theorem bigSep_dup {I : Type} [DecidableEq I] {R : sProp 𝕄} [BI.Persistent R] (s : Finset I) : R ⊢ bigSep s fun _ => R := by
  iintro #HR
  iapply (bigSep_mono_frame (R := R) (s := s) (Φ := fun _ => iprop(emp)) (Ψ := fun _ => R) fun _ _ => sep_elim_left)
  isplitr; · iexact HR
  rw [bigSep_emp']; iempintro

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, that each has reached round 0, and the write-mode
    invariant. -/
abbrev shared (ιwm : ℕ) : sProp 𝕄 :=
  iprop((∃ κ : GSem nD τ sig → ℕ, bigSep Finset.univ fun x : DCI => cellInv EB (bRd (F := F) m) (κ (bcell₃ x)) (bcell₃ x))
    ∗ (bigSep Finset.univ fun x : DCI => reached EB (bcell₃ x) 0)
    ∗ wmInv (Ix := HIx 1) (Name := ℕ) (Lvl := ℕ) (EW (F := F)) ιwm)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's kit out of those. -/
theorem kit_intro (ιwm : ℕ) (dci : DCI) : iprop(shared (F := F) m ιwm ∗ mine dci) ⊢ (bkit (F := F) m dci.1 dci.2.1 dci.2.2 : sProp 𝕄) := by
  obtain ⟨d, c, i⟩ := dci
  iintro ⟨⟨#Hinv, #Hr, #Hwm⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  isplitl [Hcred]; · iexact Hcred
  iexists ιwm; iexact Hwm

/-- Each subcore its kit. -/
theorem kits_deal (ιwm : ℕ) :
    iprop(shared (F := F) m ιwm ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m ιwm) (Φ := mine (F := F)) fun dci _ => kit_intro (F := F) m ιwm dci)
  isplitr; · iexact Hsh
  unfold mine
  rw [bigSep_sep', bigSep_sep']
  isplitl [Hat]; · iexact Hat
  isplitl [Htok]; · iexact Htok
  iexact Hcred

theorem hu₀ (ρ : Dev nD → PrngReg) : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => GW (F := F))
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HW⟩
  imod (wm_alloc (F := F) ⟨m, fun _ => 0, ρ⟩) $$ HW with ⟨%ιwm, #Hwm⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr
  · iapply (bigSep_dup (R := GW (F := F)) (Finset.univ : Finset (Dev nD)))
    iexists ιwm; iexact Hwm
  iapply (kits_deal m ιwm)
  isplitr
  · isplitl; · iexists κ; iexact Hinv'
    isplitl; · iexact Hr'
    iexact Hwm
  isplitl [Hat']; · iexact Hat'
  isplitl [Htok']; · iexact Htok'
  iexact Hcred'

end Cert.Proof.KB

end
-- ==== Proof.K_Launch.lean ====
/-
  @main on the TensorCore, how the final memory reads the claim, and the program's run. @main is the one call. Before it
  the TensorCore puts the result array in write mode, its targets the lookup, and cuts that, the index array and the table
  into a token per core and a remainder; after it the two cores' tokens come back, the result's marked with each core's
  chunks, which together are every row: the array leaves write mode holding the lookup, and the index array and the table
  are whole again at their launch contents. The other six arguments are never touched.
-/
import proofs.«206633_g8486855377485_cont_9to1_m_27_20_alg».proof.Proof.K_Setup
import proofs.«206633_g8486855377485_cont_9to1_m_27_20_alg».proof.Proof.LibWmShares
import proofs.«206633_g8486855377485_cont_9to1_m_27_20_alg».proof.Proof.ChunksCover
import proofs.«206633_g8486855377485_cont_9to1_m_27_20_alg».proof.Proof.K_LaunchSplit
import proofs.«206633_g8486855377485_cont_9to1_m_27_20_alg».proof.Proof.K_LaunchGhost

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)

variable [FloatOps F]

/-! ## The two cores' tokens -/

omit [FloatOps F] in
/-- The two cores' marks are every entry of the result. -/
theorem marks_all (d : Dev nD) : ∅ ∪ Finset.univ.biUnion (fun c : Fin 2 => cMarks d c.val) = Finset.univ := by
  apply Finset.eq_univ_of_forall
  intro x
  have hx : x ∈ Cert.Chunks.coreMarks 0 ∪ Cert.Chunks.coreMarks 1 := by rw [Cert.Chunks.cover]; exact Finset.mem_univ x
  rcases Finset.mem_union.mp hx with h | h
  · exact Finset.mem_union_right _ (Finset.mem_biUnion.mpr ⟨(0 : Fin 2), Finset.mem_univ _, h⟩)
  · exact Finset.mem_union_right _ (Finset.mem_biUnion.mpr ⟨(1 : Fin 2), Finset.mem_univ _, h⟩)

/-- The result in write mode at the full share, unmarked, as a token per core and the remainder. -/
theorem oWm_deal₂ (d : Dev nD) :
    oWm m d fullShare ∅ ⊢ iprop(oWm m d (Transfers.shareDrop fullShare 2) ∅ ∗ bigSep Finset.univ fun c : Fin 2 => oWm m d (qC c.val) ∅) := by
  have h := Cert.Lib.willBeTo_toks_split (Ix := HIx 1) (Name := ℕ) (Lvl := ℕ) (emb := EW (F := F)) (ℓ := oLoc d) (I := Finset.univ)
    (f := m (oLoc d)) (g := tgt m d) fullShare 2 ∅ (fun _ => ∅)
  rwa [show (∅ ∪ Finset.univ.biUnion fun _ : Fin 2 => (∅ : Finset (Idx (oLoc d)))) = ∅ from by ext x; simp] at h

/-- The cores' tokens, each marked with its core's chunks, and the remainder: the full share, every entry marked. -/
theorem oWm_gather₂ (d : Dev nD) :
    iprop(oWm m d (Transfers.shareDrop fullShare 2) ∅ ∗ bigSep Finset.univ fun c : Fin 2 => oWm m d (qC c.val) (cMarks d c.val))
      ⊢ oWm m d fullShare Finset.univ := by
  have h := Cert.Lib.willBeTo_toks_join (Ix := HIx 1) (Name := ℕ) (Lvl := ℕ) (emb := EW (F := F)) (ℓ := oLoc d) (I := Finset.univ)
    (f := m (oLoc d)) (g := tgt m d) fullShare 2 ∅ (fun c => cMarks d c.val)
  rwa [marks_all] at h

/-- Every entry marked, the result leaves write mode holding the lookup. -/
theorem oWm_out (d : Dev nD) (ιwm : ℕ) :
    iprop(wmInv (Ix := HIx 1) (Name := ℕ) (Lvl := ℕ) (EW (F := F)) ιwm ∗ oWm m d fullShare Finset.univ)
      ⊢ iprop(|={Set.univ}=> (oLoc d ↦{fullShare} res m d) : sProp 𝕄) :=
  Cert.Lib.castOut_all (Ix := HIx 1) (Lvl := ℕ) (emb := EW (F := F)) (f := m (oLoc d)) (G := res m d) rfl (Set.mem_univ ιwm)

theorem st0_eq (d : Dev nD) : (bigSep Finset.univ fun c : Fin ((K (F := F)).nCore 0) => (P m).st 0 d c)
    = iprop((bigSep Finset.univ fun c : Fin 2 => zPts m d (qC c.val)) ∗ (bigSep Finset.univ fun c : Fin 2 => wPts m d (qC c.val))
        ∗ bigSep Finset.univ fun c : Fin 2 => oWm m d (qC c.val) ∅) := by
  show (bigSep Finset.univ fun c : Fin 2 => iprop(zPts m d (qC c.val) ∗ wPts m d (qC c.val) ∗ oWm m d (qC c.val) ∅)) = _
  rw [bigSep_sep', bigSep_sep']
theorem dn0_eq (d : Dev nD) : (bigSep Finset.univ fun c : Fin ((K (F := F)).nCore 0) => (P m).dn 0 d c)
    = iprop((bigSep Finset.univ fun c : Fin 2 => zPts m d (qC c.val)) ∗ (bigSep Finset.univ fun c : Fin 2 => wPts m d (qC c.val))
        ∗ bigSep Finset.univ fun c : Fin 2 => oWm m d (qC c.val) (cMarks d c.val)) := by
  show (bigSep Finset.univ fun c : Fin 2 => iprop(zPts m d (qC c.val) ∗ wPts m d (qC c.val) ∗ oWm m d (qC c.val) (cMarks d c.val))) = _
  rw [bigSep_sep', bigSep_sep']

/-! ## @main on the TensorCore -/

/-- An argument array whole, at its launch contents. -/
abbrev aPts (d : Dev nD) (b : Ref sig .tc) : sProp 𝕄 := (SparseCore.T d).loc b ↦{fullShare} m ((SparseCore.T d).loc b)

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_arg6 ↦{fullShare} W main_arg6)
      ∗ ((SparseCore.T d).loc main_arg7 ↦{fullShare} W main_arg7)
      ∗ oLoc d ↦{fullShare} W main_v0) := by
  unfold unscopedBufs
  rw [show (Finset.univ.filter fun b : Ref sig .tc => ¬ b.isScoped) = {main_arg0, main_arg1, main_arg2, main_arg3, main_arg4, main_arg5, main_arg6, main_arg7, main_v0} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What @main leaves: the eight arguments whole at their launch contents, the result whole at the lookup. -/
abbrev FIN (d : Dev nD) : sProp 𝕄 :=
  iprop(aPts m d main_arg0 ∗ aPts m d main_arg1 ∗ aPts m d main_arg2 ∗ aPts m d main_arg3 ∗ aPts m d main_arg4 ∗ aPts m d main_arg5 ∗ aPts m d main_arg6 ∗ aPts m d main_arg7
    ∗ oLoc d ↦{fullShare} res m d)

/-- @main on device `d`'s TensorCore: the one call, from the nine arrays and the write-mode invariant. -/
theorem hmain (κ : GSem nD τ sig → ℕ) (d : Dev nD) :
    iprop((K (F := F)).ctx EH (P m) κ ∗ (K (F := F)).tcSt EH d 0 ∗ (K (F := F)).tcRes m ρ d ∗ GW (F := F))
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hz, H1, H2, H3, H4, H5, H6, Hw, Ho⟩, -, -⟩, ⟨%ιwm, #Hwm⟩⟩
  -- the result enters write mode, its targets the lookup
  imod (pointsTo_castIn (Ix := HIx 1) (Lvl := ℕ) (emb := EW (F := F)) (ιwm := ιwm) (E := Set.univ) (tgt m d) (Set.mem_univ ιwm)) $$ [Ho] with Ho
  · isplitr; · iexact Hwm
    iexact Ho
  -- a token per core of the indices, the table and the result
  ihave Hz' := (Transfers.pointsTo_toks_split fullShare 2) $$ Hz
  icases Hz' with ⟨Hzr, Hzt⟩
  ihave Hw' := (Transfers.pointsTo_toks_split fullShare 2) $$ Hw
  icases Hw' with ⟨Hwr, Hwt⟩
  ihave Ho' := (oWm_deal₂ m d) $$ Ho
  icases Ho' with ⟨Hor, Hot⟩
  iapply ((K (F := F)).wp_run (D (F := F)) 𝒱 (EH := EH) (P := P m) κ d 0) $$ [Hst Hzt Hwt Hot Hzr Hwr Hor H1 H2 H3 H4 H5 H6]
  isplitr; · iexact Hctx
  isplitl [Hst]; · iexact Hst
  isplitl [Hzt Hwt Hot]
  · rw [st0_eq]
    isplitl [Hzt]; · iexact Hzt
    isplitl [Hwt]; · iexact Hwt
    iexact Hot
  iintro ⟨Hst, Hdn⟩
  ihave Hdn' := (Entails.of_eq (dn0_eq m d)) $$ Hdn
  icases Hdn' with ⟨Hzt, Hwt, Hot⟩
  ihave Hz := (Transfers.pointsTo_toks_join fullShare 2) $$ [Hzr Hzt]
  · isplitl [Hzr]; · iexact Hzr
    iexact Hzt
  ihave Hw := (Transfers.pointsTo_toks_join fullShare 2) $$ [Hwr Hwt]
  · isplitl [Hwr]; · iexact Hwr
    iexact Hwt
  ihave Ho := (oWm_gather₂ m d) $$ [Hor Hot]
  · isplitl [Hor]; · iexact Hor
    iexact Hot
  -- every entry marked: the result leaves write mode
  imod (oWm_out m d ιwm) $$ [Ho] with Ho
  · isplitr; · iexact Hwm
    iexact Ho
  imodintro
  isplitl [Hst]; · iexact Hst
  isplitl [Hz]; · iexact Hz
  isplitl [H1]; · iexact H1
  isplitl [H2]; · iexact H2
  isplitl [H3]; · iexact H3
  isplitl [H4]; · iexact H4
  isplitl [H5]; · iexact H5
  isplitl [H6]; · iexact H6
  isplitl [Hw]; · iexact Hw
  iexact Ho

/-! ## How the final memory reads the claim -/

/-- Device `d`'s part of the claim: the result is the lookup, the eight arguments are unchanged. -/
def fq (d : Dev nD) (s' : Phys nD τ sig (Elt F)) : Prop :=
  s'.mem.mem (oLoc d) = res m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)

theorem hfin (d : Dev nD) (s' : Phys nD τ sig (Elt F)) : iprop(FIN m d ∗ SI s') ⊢ (⌜fq m d s'⌝ : sProp 𝕄) := by
  iintro ⟨⟨H0, H1, H2, H3, H4, H5, H6, H7, Ho⟩, HSI⟩
  icombine HSI Ho gives %ho
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  ipureintro
  exact ⟨Buf.eq_of_forall_mem_univ ho, Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7⟩

/-! ## The program's run and the claim -/

/-- The strongest post: on every device the result is the lookup of the index array in the table, and the eight arguments
    are as they were. -/
def QC : PUnit × MemSt nD τ sig (Elt F) → Prop := fun r => ∀ c : Dev nD,
  r.2.mem (oLoc c) = res m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)

theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => vecSplit m)
    m ρ main (fun _ => GW (F := F)) (FIN m) (u₀ (F := F)) (hu₀ m ρ) (hmain m ρ) (fq m) (hfin m) (QC m) (fun _ h => h)

end Cert.Proof.KB

end
-- ==== Proof.TileSetup.lean ====
/-
  One vector subcore's view of the lookup kernel: the arrays and scratch buffers as its task addresses them, its sixteen
  DMA semaphores, and its own storage taken apart into the index scratch, the row ring and the rest.
-/
import proofs.«206633_g8486855377485_cont_9to1_m_27_20_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

/-- The index array, the table and the result in HBM, and the task's scratch: the index chunks, the ring of row buffers,
    the core's shared copy of the table — as the kernel function's arguments. -/
abbrev zV : Memref sig .scVector .hbm S100000 .i32 := Memref.whole main_arg0_scv
abbrev wV : Memref sig .scVector .hbm S100x128 .f32 := Memref.whole main_arg7_scv
abbrev oV : Memref sig .scVector .hbm S100000x128 .f32 := Memref.whole main_v0_scv
abbrev iV : Memref sig .scVector .vmem S25x128 .i32 := Memref.whole cc0_scratch0
abbrev rV : Memref sig .scVector .vmem S7x128x128 .f32 := Memref.whole cc0_scratch1
abbrev shV : Memref sig .scVector .shared S100x128 .f32 := Memref.whole cc0_scratch2

abbrev cV (L : grid0.Coords) : Fin τ.nSC := (L 0).castLE hcore0
abbrev jV (L : grid0.Coords) : Fin τ.nSub := (L 1).castLE hsub0

variable (d : Dev nD) (L : grid0.Coords)

/-- The subcore's DMA semaphore number `k`: 0 the table copy's, 1 the index chunks', 2 + b the gather into ring slot `b`,
    9 + b the copy out of ring slot `b`. -/
abbrev dcell (k : Fin 16) : GSem nD τ sig := (V d (cV L) (jV L), .dma k)

theorem ownCells_V (c : Fin τ.nSC) (i : Fin τ.nSub) :
    ownCells (sig := sig) (V d c i) = Finset.univ.image fun k : Fin 16 => ((V d c i, SemLoc.dma k) : GSem nD τ sig) := by
  ext ⟨t, sm⟩
  simp only [mem_ownCells, Finset.mem_image, Finset.mem_univ, true_and]
  constructor
  · rintro ⟨h1, h⟩
    cases h1
    cases sm with
    | reg s =>
      have hs : ∀ s : Sem sig, (SemLoc.reg s : SemLoc sig).isScoped .scVector = false := by decide
      exact absurd (show (SemLoc.reg s : SemLoc sig).isScoped .scVector = true from h) (by rw [hs s]; exact Bool.false_ne_true)
    | dma k => exact ⟨k, rfl⟩
  · rintro ⟨k, hk⟩
    cases hk
    have hk : ∀ k : Fin 16, (SemLoc.dma k : SemLoc sig).isScoped .scVector = true := by decide
    exact ⟨rfl, hk k⟩

/-- The subcore's scoped semaphores at zero are its sixteen DMA semaphores at zero. -/
theorem ownSems0_V :
    (ownSems0 (V d (cV L) (jV L)) : sProp 𝕄) = bigSep Finset.univ fun k : Fin 16 => semVal (dcell d L k) 0 := by
  unfold SparseCore.Cfg.ownSems0
  rw [ownCells_V, SparseCore.bigSep_image_of_injOn (fun a _ b _ e => SemLoc.dma.inj (Prod.mk.inj e).2)]

/-- The index scratch and the row ring are among the subcore's own buffers: each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun h => by
        have h2 : (1 : ℕ) = 0 := congrArg (fun b : DevRef τ sig => b.idx.val) h
        exact absurd h2 (by decide), SparseCore.Cfg.mem_ownRefs_of_owner (p := Proc.scVector (cV L) (jV L)) (b := (Proc.scVector (cV L) (jV L)).devRef cc0_scratch1) rfl⟩)]

variable (m : (ℓ : Loc nD τ sig) → Buf (Elt F) ℓ)

/-- What the index scratch holds once the subcore's chunks of the index array have landed: row `j` is the 128 index words
    from the first row of chunk `j` on. -/
def idxOf (m : (ℓ : Loc nD τ sig) → Buf (Elt F) ℓ) (d : Dev nD) (L : grid0.Coords) : Buf (Elt F) ((V d (cV L) (jV L)).loc cc0_scratch0) :=
  fun y => m (zLoc d) (Idealize.ShloMosaic.ValueIdx.ix1 (⟨min (Cert.Chunks.off (L 0).val (L 1).val (y 0).val + (y 1).val) 99999, by omega⟩ : Fin 100000))

variable [FloatOps F]

/-- The task from the subcore barrier on: the barrier, the pipelined gathers and copies out, the last two copies out, the
    drain of the copies still in flight. -/
def progB : Prog (TpuEff nD τ sig (Elt F) Λ₀ (.scVector ((L 0).castLE hcore0) ((L 1).castLE hsub0))) PUnit := do
  SparseCore.subcoreBarrier sc_bar0 (grid0.bound 1) hsub0
  Scf.Loop.for k0_t3_loop k0_t3_ok ⟨⟩ (k0_t3_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  Scf.Loop.for k0_t4_loop k0_t4_ok ⟨⟩ (k0_t4_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  Scf.Loop.for k0_t5_loop k0_t5_ok ⟨⟩ (k0_t5_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  pure ⟨⟩

/-- The task up to the barrier: subcore 0 starts the table's copy into the shared scratch, every subcore starts its 25 index
    chunks' copies and waits for them, subcore 0 waits for the table's; then the rest. -/
def progA {α : Type} (kk : PUnit → Prog (TpuEff nD τ sig (Elt F) Λ₀ (.scVector ((L 0).castLE hcore0) ((L 1).castLE hsub0))) α) :
    Prog (TpuEff nD τ sig (Elt F) Λ₀ (.scVector ((L 0).castLE hcore0) ((L 1).castLE hsub0))) α := do
  let arg1 : BitVec 32 := BitVec.ofNat 32 (L 1).val
  let v2 : BitVec 1 := Scalar.cmpi .eq arg1 0#32
  let v3 : BitVec 32 := Scalar.extui v2
  let v4 : BitVec 1 := Scalar.cmpi .ne v3 0#32
  if k0_h1 : v4 = 1#1 then do
    Prog.lift (.enqueueDma wV (.here shV) (.dma cc0_scratch3.sem) (Memref.isWhole_whole _).wordExact (Memref.isWhole_whole _).wordExact ⟨Or.inl rfl, trivial⟩)
    pure ⟨⟩
  else do
    pure ⟨⟩
  Scf.Loop.for k0_t1_loop k0_t1_ok ⟨⟩ (k0_t1_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  Scf.Loop.for k0_t2_loop k0_t2_ok ⟨⟩ (k0_t2_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  let v7 : BitVec 1 := Scalar.cmpi .eq arg1 0#32
  let v8 : BitVec 32 := Scalar.extui v7
  let v9 : BitVec 1 := Scalar.cmpi .ne v8 0#32
  if k0_h2 : v9 = 1#1 then do
    Prog.lift (.waitDma2 cc0_scratch3.sem wV shV (Memref.isWhole_whole _).wordExact (Memref.isWhole_whole _).wordExact)
    pure ⟨⟩
  else do
    pure ⟨⟩
  kk ⟨⟩

set_option maxRecDepth 65536 in
/-- The kernel function is the first part followed by the second. -/
theorem cc0_k_eq_parts :
    cc0_k (F := F) L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6
      = progA L (fun _ => progB L) := rfl

end Cert.Proof.KI

end
-- ==== Proof.PhaseA.lean ====
/-
  The first half of one vector subcore's task, up to the subcore barrier. Subcore 0 of each core starts one copy of the
  whole table into the core's shared scratch; every subcore starts 25 copies on one DMA semaphore — copy `k` moves the 128
  index words of its chunk `k` into row `k` of its index scratch —, waits 25 times on that semaphore, and subcore 0 then
  waits for the table's copy. Nothing is read or written between the starts and the waits, so the 25 copies are counted
  together: the first 24 waits learn nothing, the last one learns that every copy has landed. The index array is read by all
  25 copies at once, each under a read token of the subcore's share; the rows of the index scratch are disjoint and cover it.
  What comes out: the shares as they went in, the shared scratch holding the table, the index scratch holding, at row `k`
  and lane `l`, the index word at row `off k + l` of the index array.
-/
import proofs.«206633_g8486855377485_cont_9to1_m_27_20_alg».proof.Proof.TileSetup
import Idealize.ShloMosaic.Lib.Batch
import Idealize.ShloMosaic.Lib.Ring
import proofs.«206633_g8486855377485_cont_9to1_m_27_20_alg».proof.Proof.ChunksCover

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (d : Dev nD) (L : grid0.Coords)

theorem v4_pos (h : (L 1).val = 0) :
    Scalar.cmpi .ne (Scalar.extui (Scalar.cmpi .eq (BitVec.ofNat 32 (L 1).val) 0#32) : BitVec 32) 0#32 = 1#1 := by
  rw [h]; decide

theorem v4_neg (h : (L 1).val ≠ 0) :
    ¬ (Scalar.cmpi .ne (Scalar.extui (Scalar.cmpi .eq (BitVec.ofNat 32 (L 1).val) 0#32) : BitVec 32) 0#32 = 1#1) := by
  have h16 : (L 1).val < 16 := (L 1).isLt
  generalize (L 1).val = n at h h16
  interval_cases n <;> first | exact absurd rfl h | decide

theorem t1_trips : k0_t1_loop.trips = 25 := by decide +kernel
theorem t2_trips : k0_t2_loop.trips = 25 := by decide +kernel

/-- Row `k` of the index scratch, as trip `k` of the issue loop addresses it. -/
def rowM (k : Fin k0_t1_loop.trips) : Memref sig .scVector .vmem S128 .i32 :=
  ((iV).slice (Rect.unit (s := S25x128) (k0_off1 k) S1x128.size (k0_off1_inb k)) (fun _ => rfl)).squeeze S128 squeezes_S1x128_S128
/-- Chunk `k` of the index array, as trip `k` addresses it. -/
def zM (k : Fin k0_t1_loop.trips) : Memref sig .scVector .hbm S128 .i32 :=
  (zV).slice (Rect.unit (s := S100000) (k0_off2 L k) S128.size (k0_off2_inb L k)) (fun _ => rfl)

/-- What one chunk's copy counts on its semaphore: the bits of 128 words. -/
abbrev NN : ℕ := 4096

variable (m : (ℓ : Loc nD τ sig) → Buf (Elt F) ℓ)

/-- Row `k` of the index scratch owned, at some contents. -/
abbrev rowOwn (k : Fin k0_t1_loop.trips) : sProp 𝕄 :=
  iprop(∃ g, (rowM k).view.loc (V d (cV L) (jV L)) ↦[(rowM k).view.set]{fullShare} g)
/-- Chunk `k` of the index array under read token `k` of the subcore's share. -/
abbrev zPiece (k : Fin k0_t1_loop.trips) : sProp 𝕄 :=
  (zM L k).view.loc (V d (cV L) (jV L)) ↦[(zM L k).view.set]{Transfers.shareTokN (qT (L 0).val (L 1).val) k.val}
    m ((zM L k).view.loc (V d (cV L) (jV L)))
/-- Row `k` with chunk `k` landed in it. -/
abbrev rowLanded (k : Fin k0_t1_loop.trips) : sProp 𝕄 :=
  (rowM k).view.loc (V d (cV L) (jV L)) ↦[(rowM k).view.set]{fullShare}
    (rowM k).view.writes (Elt F) (m ((rowM k).view.loc (V d (cV L) (jV L))))
      [⟨Rect.whole S128, ReadAs.same.apply ((zM L k).view.read (Elt F) (m ((zM L k).view.loc (V d (cV L) (jV L)))))⟩]
/-- What copy `k` delivers: row `k` landed, and its piece of the index array back. -/
abbrev DD (k : Fin k0_t1_loop.trips) : sProp 𝕄 := iprop(rowLanded d L m k ∗ zPiece d L m k)
/-- The 25 copies on the chunks' semaphore: `j` started, `u` units waited for. -/
abbrev batch (j u : ℕ) : sProp 𝕄 :=
  Transfers.Batch (countersEmb : UEmb Counters 𝕄) (V d (cV L) (jV L)) (.dma cc0_scratch4.sem) (none : HIx 1) NN (DD d L m) j u

/-- Before trip `k` of the issue loop: `k` copies started, the rows and the pieces from `k` on still in hand. -/
def issueAt (k : ℕ) (_ : Unit) : sProp 𝕄 :=
  iprop(batch d L m k 0 ∗ bigSep (Ring.rangeSet k0_t1_loop.trips k k0_t1_loop.trips) (rowOwn d L)
    ∗ bigSep (Ring.rangeSet k0_t1_loop.trips k k0_t1_loop.trips) (zPiece d L m))

instance DD_storable (k : Fin k0_t1_loop.trips) : BI.Storable (upEmb : UEmb _ 𝕄) (DD d L m k) := by
  unfold DD rowLanded zPiece; infer_instance

/-- Before trip `k` of the drain loop: the waits so far recorded; before the last trip has run, all 25 copies started and
    `k` of them waited for; after it, the semaphore at zero and every copy's delivery. -/
def drainInv (O' : CellTallies nD τ sig (HIx 1)) (W : Waits sig (HIx 1)) (k : ℕ) (_ : Unit) : sProp 𝕄 :=
  iprop(⌜k ≤ k0_t2_loop.trips⌝ ∗ Transfers.MayWaits (V d (cV L) (jV L)) (default : HIx 1) O'
    ∗ (∃ W', ⌜∀ p ∈ W', p ∈ W ∨ p.2 = none⌝ ∗ owes (V d (cV L) (jV L)) O' W')
    ∗ (if k < k0_t2_loop.trips then batch d L m k0_t1_loop.trips (k * NN)
       else iprop(semVal (V d (cV L) (jV L), SemLoc.dma cc0_scratch4.sem) 0 ∗ bigSep Finset.univ (DD d L m))))

/-! ### The rows of the index scratch -/

/-- Row `k`'s elements. -/
abbrev rset (k : Fin k0_t1_loop.trips) : Finset S25x128.Idx :=
  (Rect.unit (s := S25x128) (k0_off1 k) S1x128.size (k0_off1_inb k)).set

theorem rset_eq (k : Fin k0_t1_loop.trips) : (rowM k).view.set = rset k := by
  unfold rowM; exact (View.set_reshape _ _).trans (View.set_slice_whole _ _)

/-- Row `k`'s elements: the scratch's at leading index `k`. -/
theorem mem_rset (k : Fin k0_t1_loop.trips) (y : S25x128.Idx) : y ∈ rset k ↔ (y 0).val = k.val := by
  rw [Rect.mem_set_unit, k0_off1_eq k]
  have h1 : (y 1).val < 128 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 128; omega

theorem rset_disjoint : ∀ b b' : Fin k0_t1_loop.trips, b ≠ b' → Disjoint (rset b) (rset b') := fun b b' hne => by
  rw [Finset.disjoint_left]; intro y hy hy'
  rw [mem_rset] at hy hy'; exact hne (Fin.ext (by omega))

theorem rset_cover : (Finset.univ : Finset (Fin k0_t1_loop.trips)).biUnion rset = Finset.univ := by
  ext y; simp only [Finset.mem_biUnion, Finset.mem_univ, true_and, iff_true]
  have h0 : (y 0).val < 25 := (y 0).isLt
  exact ⟨⟨(y 0).val, by rw [t1_trips]; exact h0⟩, (mem_rset _ _).mpr rfl⟩

/-- Where element `j` of row `k` sits in the scratch. -/
theorem rowM_emb (k : Fin k0_t1_loop.trips) (j : S128.Idx) (y : S25x128.Idx) (hy : y = (rowM k).view.emb j) :
    (y 0).val = k.val ∧ (y 1).val = (j 0).val := by
  subst hy
  have e := k0_off1_eq k
  have hc := Shape.reshapeEquiv_cons_one (n := 1) (d := ![128]) squeezes_S1x128_S128.numel_eq j
  constructor
  · show (k0_off1 k) 0 + 1 * ((Shape.reshapeEquiv squeezes_S1x128_S128.numel_eq j) 0).val = k.val
    rw [hc, e]; show k.val + 1 * 0 = k.val; omega
  · show (k0_off1 k) 1 + 1 * ((Shape.reshapeEquiv squeezes_S1x128_S128.numel_eq j) 1).val = (j 0).val
    rw [hc, e]; show 0 + 1 * (j 0).val = (j 0).val; omega

/-- Where element `j` of chunk `k` sits in the index array. -/
theorem zM_emb (k : Fin k0_t1_loop.trips) (j : S128.Idx) (y : S100000.Idx) (hy : y = (zM L k).view.emb j) :
    (y 0).val = Cert.Chunks.off (L 0).val (L 1).val k.val + (j 0).val := by
  subst hy
  have e := k0_off2_eq L k
  show (k0_off2 L k) 0 + 1 * (j 0).val = _
  rw [e]; unfold Cert.Chunks.off
  show min (256 * (L 1).val + 128 * (L 0).val + 4096 * k.val) 99872 + 1 * (j 0).val
    = min (256 * (L 1).val + 128 * (L 0).val + 4096 * k.val) 99872 + (j 0).val
  omega

/-- The fetched indices at an element of row `k`: the index array's word at the matching place of chunk `k`. -/
theorem idx_eq (k : Fin k0_t1_loop.trips) (j : S128.Idx) (y : S25x128.Idx) (z : S100000.Idx)
    (hy0 : (y 0).val = k.val) (hy1 : (y 1).val = (j 0).val)
    (hz : (z 0).val = Cert.Chunks.off (L 0).val (L 1).val k.val + (j 0).val) :
    m (zLoc d) z = idxOf m d L y := by
  have hj : (j 0).val < 128 := (j 0).isLt
  have hle := Cert.Chunks.off_le (L 0).val (L 1).val k.val
  unfold idxOf
  refine congrArg (m (zLoc d)) ?_
  funext a
  obtain rfl : a = 0 := Subsingleton.elim _ _
  apply Fin.ext
  show (z 0).val = min (Cert.Chunks.off (L 0).val (L 1).val (y 0).val + (y 1).val) 99999
  rw [hy0, hy1, hz]; omega

/-- What lands in row `k` is row `k` of the fetched indices. -/
theorem row_value (k : Fin k0_t1_loop.trips) :
    ∀ i ∈ (rowM k).view.set, (rowM k).view.writes (Elt F) (m ((rowM k).view.loc (V d (cV L) (jV L))))
      [⟨Rect.whole S128, ReadAs.same.apply ((zM L k).view.read (Elt F) (m ((zM L k).view.loc (V d (cV L) (jV L)))))⟩] i
        = idxOf m d L i := by
  intro i hi
  obtain ⟨j, -, rfl⟩ := Finset.mem_map.mp hi
  have h := congrFun (View.read_writes_whole (rowM k).view (m ((rowM k).view.loc (V d (cV L) (jV L))))
    (ReadAs.same.apply ((zM L k).view.read (Elt F) (m ((zM L k).view.loc (V d (cV L) (jV L))))))) j
  refine ((cast_eq _ _).symm.trans h).trans ?_
  show (zM L k).view.read (Elt F) (m ((zM L k).view.loc (V d (cV L) (jV L)))) j = _
  refine (cast_eq _ _).trans ?_
  obtain ⟨h0, h1⟩ := rowM_emb k j _ rfl
  exact idx_eq d L m k j _ _ h0 h1 (zM_emb L k j _ rfl)

/-! ### The index scratch as its rows, the subcore's share of the index array as read tokens -/

/-- The index scratch held whole is its 25 rows held. -/
theorem iV_rows (f : Buf (Elt F) ((V d (cV L) (jV L)).loc cc0_scratch0)) :
    ((V d (cV L) (jV L)).loc cc0_scratch0 ↦{fullShare} f : sProp 𝕄)
      = bigSep Finset.univ (fun k : Fin k0_t1_loop.trips => ((V d (cV L) (jV L)).loc cc0_scratch0 ↦[rset k]{fullShare} f : sProp 𝕄)) :=
  Ring.pointsTo_blocks (ℓ := (V d (cV L) (jV L)).loc cc0_scratch0) (q := fullShare) rset rset_disjoint rset_cover f

theorem rows_own (f : Buf (Elt F) ((V d (cV L) (jV L)).loc cc0_scratch0)) :
    ((V d (cV L) (jV L)).loc cc0_scratch0 ↦{fullShare} f : sProp 𝕄) ⊢ bigSep Finset.univ (rowOwn d L) := by
  rw [iV_rows]
  refine BI.bigSep_mono fun k _ => ?_
  show ((V d (cV L) (jV L)).loc cc0_scratch0 ↦[rset k]{fullShare} f : sProp 𝕄) ⊢ rowOwn d L k
  unfold rowOwn; rw [rset_eq]; iintro H; iexists f; iexact H

/-- The rows with the chunks landed are the scratch holding the fetched indices. -/
theorem rows_back :
    (bigSep Finset.univ (rowLanded d L m) : sProp 𝕄) ⊢ (V d (cV L) (jV L)).loc cc0_scratch0 ↦{fullShare} idxOf m d L := by
  rw [iV_rows d L (idxOf m d L)]
  refine BI.bigSep_mono fun k _ => ?_
  show rowLanded d L m k ⊢ ((V d (cV L) (jV L)).loc cc0_scratch0 ↦[rset k]{fullShare} idxOf m d L : sProp 𝕄)
  unfold rowLanded
  refine (Entails.of_eq (pointsTo_congr (row_value d L m k))).trans ?_
  rw [rset_eq]; exact .rfl

/-- The rest of read token `k`: the index array outside chunk `k`. -/
abbrev zRestTok (k : Fin k0_t1_loop.trips) : sProp 𝕄 :=
  zLoc d ↦[Finset.univ \ (zM L k).view.set]{Transfers.shareTokN (qT (L 0).val (L 1).val) k.val} m (zLoc d)

/-- Read token `k` is its chunk's piece and the rest. -/
theorem z_tok (k : Fin k0_t1_loop.trips) :
    (zLoc d ↦{Transfers.shareTok (qT (L 0).val (L 1).val) k0_t1_loop.trips k} m (zLoc d) : sProp 𝕄)
      = iprop(zPiece d L m k ∗ zRestTok d L m k) :=
  have h := pointsTo_split_subset (Ix := HIx 1) (Name := ℕ) (U := UU F) (Lvl := ℕ) (ℓ := zLoc d) (I := (zM L k).view.set) (S := Finset.univ)
    (q := Transfers.shareTok (qT (L 0).val (L 1).val) k0_t1_loop.trips k) (f := m (zLoc d)) (Finset.subset_univ _)
  h.1.antisymm h.2

/-- The subcore's share of the index array: 25 read tokens, each its chunk's piece and the rest, and what is left. -/
theorem z_split :
    (zPts m d (qT (L 0).val (L 1).val) : sProp 𝕄)
      = iprop((zLoc d ↦{Transfers.shareDrop (qT (L 0).val (L 1).val) k0_t1_loop.trips} m (zLoc d))
          ∗ bigSep Finset.univ (zPiece d L m) ∗ bigSep Finset.univ (zRestTok d L m)) := by
  have h := Transfers.pointsTo_toks (Ix := HIx 1) (Name := ℕ) (U := UU F) (Lvl := ℕ) (ℓ := zLoc d) (S := Finset.univ) (f := m (zLoc d))
    (qT (L 0).val (L 1).val) k0_t1_loop.trips
  have e : (iprop(bigSep Finset.univ (zPiece d L m) ∗ bigSep Finset.univ (zRestTok d L m)) : sProp 𝕄)
      = bigSep Finset.univ (fun k : Fin k0_t1_loop.trips =>
          (zLoc d ↦{Transfers.shareTok (qT (L 0).val (L 1).val) k0_t1_loop.trips k} m (zLoc d) : sProp 𝕄)) :=
    ((BI.bigSep_sep _ _ _).symm).trans (BI.bigSep_congr (fun k _ => (z_tok d L m k).symm))
  rw [e]
  exact h.1.antisymm h.2

variable [FloatOps F]

set_option maxHeartbeats 2000000 in
/-- One trip of the issue loop: row `k` and piece `k` taken off the heads of their runs, copy `k` started. -/
theorem issue_step (k : Fin k0_t1_loop.trips) (acc : Unit) :
    issueAt d L m k acc ⊢ wp frame (wpE (defs₀ (F := F)) 𝒱₀ (V d (cV L) (jV L)) none) Set.univ
      (k0_t1_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
      (issueAt d L m (k.val + 1)) := by
  have hk := k.isLt
  unfold issueAt
  rw [Ring.bigSep_rangeSet_head (Φ := rowOwn d L) (by omega) (by omega), Ring.bigSep_rangeSet_head (Φ := zPiece d L m) (by omega) (by omega)]
  unfold rowOwn
  iintro ⟨HB, ⟨⟨%g, HR⟩, HRs⟩, HZ, HZs⟩
  sl_unfold [k0_t1_body]
  sl_exec
  sl_step
  isplitl [HB]; · iexact HB
  isplitl [HRs]; · iexact HRs
  iexact HZs

set_option maxHeartbeats 2000000 in
/-- One trip of the drain loop: a wait that hands back nothing, or — the last — the semaphore and every delivery. -/
theorem drain_step (O' : CellTallies nD τ sig (HIx 1)) (W : Waits sig (HIx 1)) (k : Fin k0_t2_loop.trips) (acc : Unit) :
    drainInv d L m O' W k acc ⊢ wp frame (wpE (defs₀ (F := F)) 𝒱₀ (V d (cV L) (jV L)) none) Set.univ
      (k0_t2_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
      (drainInv d L m O' W (k.val + 1)) := by
  have hk : k.val < k0_t2_loop.trips := k.isLt
  have e1 := t1_trips; have e2 := t2_trips
  unfold drainInv
  simp only [if_pos hk]
  rcases Nat.lt_or_ge (k.val + 1) k0_t2_loop.trips with h1 | h1
  · simp only [if_pos h1]
    iintro ⟨-, #Hmw, ⟨%W', %hW', HO⟩, HB⟩
    sl_unfold [k0_t2_body]
    sl_exec
    sl_step
    isplitr; · ipureintro; omega
    isplitr; · iexact Hmw
    isplitl [HO]
    · iexists _; isplitr
      swap; · iexact HO
      ipureintro; intro p hp
      rcases Finset.mem_insert.mp hp with hp | hp
      · exact .inr (hp ▸ rfl)
      · exact hW' p hp
    rw [Nat.succ_mul]
    iexact HB
  · simp only [if_neg (Nat.not_lt.mpr h1)]
    iintro ⟨-, #Hmw, ⟨%W', %hW', HO⟩, HB⟩
    sl_unfold [k0_t2_body]
    sl_exec
    sl_step
    isplitr; · ipureintro; omega
    isplitr; · iexact Hmw
    isplitl [HO]
    · iexists _; isplitr
      swap; · iexact HO
      ipureintro; intro p hp
      rcases Finset.mem_insert.mp hp with hp | hp
      · exact .inr (hp ▸ rfl)
      · exact hW' p hp
    isplitl [HB]; · iexact HB
    iexact HB_all

set_option maxHeartbeats 4000000 in
theorem phaseA_neg (hF : (K (F := F)).Facts) (O' : CellTallies nD τ sig (HIx 1)) (W : Waits sig (HIx 1)) (hO' : ∀ g, O' g none = 0)
    (h0 : (L 1).val ≠ 0)
    {α : Type} (kk : PUnit → Prog (TpuEff nD τ sig (Elt F) Λ₀ (.scVector ((L 0).castLE hcore0) ((L 1).castLE hsub0))) α) (Q : α → sProp 𝕄) :
    iprop(levAts (K (F := F)).L (K (F := F)).lev
        ∗ zPts m d (qT (L 0).val (L 1).val)
        ∗ (∃ f, (V d (cV L) (jV L)).loc cc0_scratch0 ↦{fullShare} f)
        ∗ semVal (dcell d L 0) 0 ∗ semVal (dcell d L 1) 0
        ∗ owes (V d (cV L) (jV L)) O' W)
      ⊢ iprop((iprop(zPts m d (qT (L 0).val (L 1).val)
              ∗ ((V d (cV L) (jV L)).loc cc0_scratch0 ↦{fullShare} idxOf m d L)
              ∗ semVal (dcell d L 0) 0 ∗ semVal (dcell d L 1) 0
              ∗ ∃ W', ⌜∀ p ∈ W', p ∈ W ∨ p.2 = none⌝ ∗ owes (V d (cV L) (jV L)) O' W')
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (progA L kk) Q) := by
  have e1 := t1_trips; have e2 := t2_trips
  iintro ⟨#Hlv, Hz, ⟨%fi, Hi⟩, Hc0, Hc1, HO⟩ Hk
  ihave Hmw := (show levAts (K (F := F)).L (K (F := F)).lev ⊢ Transfers.MayWaits (V d (cV L) (jV L)) (default : HIx 1) O' from
    (K (F := F)).mayWaits_none (thr := V d (cV L) (jV L)) hO') $$ Hlv
  ihave Hrows := (rows_own d L fi) $$ Hi
  ihave Hz' := (Entails.of_eq (z_split d L m)) $$ Hz
  icases Hz' with ⟨Hzd, Hzp, Hzr⟩
  ihave Hc1' := (show (semVal (dcell d L 1) 0 : sProp 𝕄) ⊢ semVal (V d (cV L) (jV L), SemLoc.dma cc0_scratch4.sem) 0 from Entails.of_eq rfl) $$ Hc1
  imod (Transfers.batch_alloc' (Lvl := ℕ) (countersEmb : UEmb Counters 𝕄) (V d (cV L) (jV L)) (none : HIx 1) NN (DD d L m)
    (sm := .dma cc0_scratch4.sem) (E := Set.univ)) $$ Hc1' with HB
  have hn := v4_neg L h0
  sl_unfold [progA]
  sl_exec

  sl_for (issueAt d L m) $$ [HB Hrows Hzp]
  · intro k acc; exact issue_step d L m k acc
  · unfold issueAt
    rw [Ring.rangeSet_univ]
    isplitl [HB]; · iexact HB
    isplitl [Hrows]; · iexact Hrows
    iexact Hzp
  iintro %acc HI
  ihave HB := (show issueAt d L m (Scf.trips k0_t1_loop.lb k0_t1_loop.ub k0_t1_loop.st) acc ⊢ batch d L m k0_t1_loop.trips 0 from by
      unfold issueAt
      rw [show Scf.trips k0_t1_loop.lb k0_t1_loop.ub k0_t1_loop.st = k0_t1_loop.trips from rfl,
        Ring.bigSep_rangeSet_empty le_rfl, Ring.bigSep_rangeSet_empty le_rfl]
      iintro ⟨H, -, -⟩; iexact H) $$ HI
  sl_for (drainInv d L m O' W) $$ [HB HO]
  · intro k acc; exact drain_step d L m O' W k acc
  · unfold drainInv
    rw [if_pos (show 0 < k0_t2_loop.trips by omega)]
    isplitr; · ipureintro; omega
    isplitr; · iexact Hmw
    isplitl [HO]
    · iexists W; isplitr
      · ipureintro; exact fun p hp => .inl hp
      · iexact HO
    rw [Nat.zero_mul]; iexact HB
  iintro %acc2 HL
  ihave HL' := (show drainInv d L m O' W (Scf.trips k0_t2_loop.lb k0_t2_loop.ub k0_t2_loop.st) acc2
      ⊢ iprop((∃ W', ⌜∀ p ∈ W', p ∈ W ∨ p.2 = none⌝ ∗ owes (V d (cV L) (jV L)) O' W')
          ∗ semVal (V d (cV L) (jV L), SemLoc.dma cc0_scratch4.sem) 0 ∗ bigSep Finset.univ (DD d L m)) from by
      unfold drainInv
      rw [if_neg (Nat.lt_irrefl _)]
      iintro ⟨-, -, HO, Hc, Hall⟩
      isplitl [HO]; · iexact HO
      isplitl [Hc] <;> iassumption) $$ HL
  icases HL' with ⟨⟨%W', %hW', HO⟩, Hc1, Hall⟩
  ihave Hd := (show bigSep Finset.univ (DD d L m) ⊢ iprop(bigSep Finset.univ (rowLanded d L m) ∗ bigSep Finset.univ (zPiece d L m))
    from Entails.of_eq (BI.bigSep_sep _ _ _)) $$ Hall
  icases Hd with ⟨Hrows, Hzp⟩
  ihave Hi := (rows_back d L m) $$ Hrows
  ihave Hz := (show iprop((zLoc d ↦{Transfers.shareDrop (qT (L 0).val (L 1).val) k0_t1_loop.trips} m (zLoc d))
          ∗ bigSep Finset.univ (zPiece d L m) ∗ bigSep Finset.univ (zRestTok d L m)) ⊢ zPts m d (qT (L 0).val (L 1).val)
    from Entails.of_eq (z_split d L m).symm) $$ [Hzd Hzp Hzr]
  · isplitl [Hzd]; · iexact Hzd
    isplitl [Hzp]; · iexact Hzp
    iexact Hzr
  ihave Hc1' := (show (semVal (V d (cV L) (jV L), SemLoc.dma cc0_scratch4.sem) 0 : sProp 𝕄) ⊢ semVal (dcell d L 1) 0 from Entails.of_eq rfl) $$ Hc1
  sl_exec
  iapply Hk
  isplitl [Hz]; · iexact Hz
  isplitl [Hi]; · iexact Hi
  isplitl [Hc0]; · iexact Hc0
  isplitl [Hc1']; · iexact Hc1'
  iexists W'; isplitr
  · ipureintro; exact hW'
  · iexact HO

set_option maxHeartbeats 4000000 in
theorem phaseA_pos (hF : (K (F := F)).Facts) (O' : CellTallies nD τ sig (HIx 1)) (W : Waits sig (HIx 1)) (hO' : ∀ g, O' g none = 0)
    (h0 : (L 1).val = 0)
    {α : Type} (kk : PUnit → Prog (TpuEff nD τ sig (Elt F) Λ₀ (.scVector ((L 0).castLE hcore0) ((L 1).castLE hsub0))) α) (Q : α → sProp 𝕄) :
    iprop(levAts (K (F := F)).L (K (F := F)).lev
        ∗ zPts m d (qT (L 0).val (L 1).val)
        ∗ (wPts m d (qC (L 0).val) ∗ ∃ f, shLoc d (cV L) ↦{fullShare} f)
        ∗ (∃ f, (V d (cV L) (jV L)).loc cc0_scratch0 ↦{fullShare} f)
        ∗ semVal (dcell d L 0) 0 ∗ semVal (dcell d L 1) 0
        ∗ owes (V d (cV L) (jV L)) O' W)
      ⊢ iprop((iprop(zPts m d (qT (L 0).val (L 1).val)
              ∗ (wPts m d (qC (L 0).val) ∗ shLoc d (cV L) ↦{fullShare} tbl m d (cV L))
              ∗ ((V d (cV L) (jV L)).loc cc0_scratch0 ↦{fullShare} idxOf m d L)
              ∗ semVal (dcell d L 0) 0 ∗ semVal (dcell d L 1) 0
              ∗ ∃ W', ⌜∀ p ∈ W', p ∈ W ∨ p.2 = none⌝ ∗ owes (V d (cV L) (jV L)) O' W')
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (progA L kk) Q) := by
  have e1 := t1_trips; have e2 := t2_trips
  iintro ⟨#Hlv, Hz, ⟨Hw, ⟨%fsh, Hsh⟩⟩, ⟨%fi, Hi⟩, Hc0, Hc1, HO⟩ Hk
  ihave Hmw := (show levAts (K (F := F)).L (K (F := F)).lev ⊢ Transfers.MayWaits (V d (cV L) (jV L)) (default : HIx 1) O' from
    (K (F := F)).mayWaits_none (thr := V d (cV L) (jV L)) hO') $$ Hlv
  ihave Hrows := (rows_own d L fi) $$ Hi
  ihave Hz' := (Entails.of_eq (z_split d L m)) $$ Hz
  icases Hz' with ⟨Hzd, Hzp, Hzr⟩
  ihave Hc1' := (show (semVal (dcell d L 1) 0 : sProp 𝕄) ⊢ semVal (V d (cV L) (jV L), SemLoc.dma cc0_scratch4.sem) 0 from Entails.of_eq rfl) $$ Hc1
  imod (Transfers.batch_alloc' (Lvl := ℕ) (countersEmb : UEmb Counters 𝕄) (V d (cV L) (jV L)) (none : HIx 1) NN (DD d L m)
    (sm := .dma cc0_scratch4.sem) (E := Set.univ)) $$ Hc1' with HB
  ihave Hw' := (show wPts m d (qC (L 0).val) ⊢ ((wV).view.loc (V d (cV L) (jV L)) ↦{qC (L 0).val} m (wLoc d) : sProp 𝕄) from .rfl) $$ Hw
  ihave Hsh' := (show (shLoc d (cV L) ↦{fullShare} fsh : sProp 𝕄) ⊢ ((shV).view.loc (V d (cV L) (jV L)) ↦{fullShare} fsh) from .rfl) $$ Hsh
  ihave Hc0' := (show (semVal (dcell d L 0) 0 : sProp 𝕄) ⊢ semVal (V d (cV L) (jV L), SemLoc.dma cc0_scratch3.sem) 0 from Entails.of_eq rfl) $$ Hc0
  have hp := v4_pos L h0
  sl_unfold [progA]
  sl_exec

  sl_for (issueAt d L m) $$ [HB Hrows Hzp]
  · intro k acc; exact issue_step d L m k acc
  · unfold issueAt
    rw [Ring.rangeSet_univ]
    isplitl [HB]; · iexact HB
    isplitl [Hrows]; · iexact Hrows
    iexact Hzp
  iintro %acc HI
  ihave HB := (show issueAt d L m (Scf.trips k0_t1_loop.lb k0_t1_loop.ub k0_t1_loop.st) acc ⊢ batch d L m k0_t1_loop.trips 0 from by
      unfold issueAt
      rw [show Scf.trips k0_t1_loop.lb k0_t1_loop.ub k0_t1_loop.st = k0_t1_loop.trips from rfl,
        Ring.bigSep_rangeSet_empty le_rfl, Ring.bigSep_rangeSet_empty le_rfl]
      iintro ⟨H, -, -⟩; iexact H) $$ HI
  sl_for (drainInv d L m O' W) $$ [HB HO]
  · intro k acc; exact drain_step d L m O' W k acc
  · unfold drainInv
    rw [if_pos (show 0 < k0_t2_loop.trips by omega)]
    isplitr; · ipureintro; omega
    isplitr; · iexact Hmw
    isplitl [HO]
    · iexists W; isplitr
      · ipureintro; exact fun p hp => .inl hp
      · iexact HO
    rw [Nat.zero_mul]; iexact HB
  iintro %acc2 HL
  ihave HL' := (show drainInv d L m O' W (Scf.trips k0_t2_loop.lb k0_t2_loop.ub k0_t2_loop.st) acc2
      ⊢ iprop((∃ W', ⌜∀ p ∈ W', p ∈ W ∨ p.2 = none⌝ ∗ owes (V d (cV L) (jV L)) O' W')
          ∗ semVal (V d (cV L) (jV L), SemLoc.dma cc0_scratch4.sem) 0 ∗ bigSep Finset.univ (DD d L m)) from by
      unfold drainInv
      rw [if_neg (Nat.lt_irrefl _)]
      iintro ⟨-, -, HO, Hc, Hall⟩
      isplitl [HO]; · iexact HO
      isplitl [Hc] <;> iassumption) $$ HL
  icases HL' with ⟨⟨%W', %hW', HO⟩, Hc1, Hall⟩
  ihave Hd := (show bigSep Finset.univ (DD d L m) ⊢ iprop(bigSep Finset.univ (rowLanded d L m) ∗ bigSep Finset.univ (zPiece d L m))
    from Entails.of_eq (BI.bigSep_sep _ _ _)) $$ Hall
  icases Hd with ⟨Hrows, Hzp⟩
  ihave Hi := (rows_back d L m) $$ Hrows
  ihave Hz := (show iprop((zLoc d ↦{Transfers.shareDrop (qT (L 0).val (L 1).val) k0_t1_loop.trips} m (zLoc d))
          ∗ bigSep Finset.univ (zPiece d L m) ∗ bigSep Finset.univ (zRestTok d L m)) ⊢ zPts m d (qT (L 0).val (L 1).val)
    from Entails.of_eq (z_split d L m).symm) $$ [Hzd Hzp Hzr]
  · isplitl [Hzd]; · iexact Hzd
    isplitl [Hzp]; · iexact Hzp
    iexact Hzr
  ihave Hc1' := (show (semVal (V d (cV L) (jV L), SemLoc.dma cc0_scratch4.sem) 0 : sProp 𝕄) ⊢ semVal (dcell d L 1) 0 from Entails.of_eq rfl) $$ Hc1
  sl_exec
  ihave Hsh := (show ((shV).view.loc (V d (cV L) (jV L)) ↦{fullShare} View.write (Elt F) (shV).view fsh (phaseA_pos.sl.dma0 d m) Finset.univ : sProp 𝕄)
      ⊢ shLoc d (cV L) ↦{fullShare} tbl m d (cV L) from Entails.of_eq (by rw [View.write_whole_univ]; rfl)) $$ Hsh'
  ihave Hw := (show ((wV).view.loc (V d (cV L) (jV L)) ↦{qC (L 0).val} m (wLoc d) : sProp 𝕄) ⊢ wPts m d (qC (L 0).val) from .rfl) $$ Hw'
  ihave Hc0 := (show (semVal (V d (cV L) (jV L), SemLoc.dma (⟨0, _⟩ : DmaSem sig)) 0 : sProp 𝕄) ⊢ semVal (dcell d L 0) 0 from Entails.of_eq rfl) $$ Hc0'
  iapply Hk
  isplitl [Hz]; · iexact Hz
  isplitl [Hw Hsh]
  · isplitl [Hw]; · iexact Hw
    iexact Hsh
  isplitl [Hi]; · iexact Hi
  isplitl [Hc0]; · iexact Hc0
  isplitl [Hc1']; · iexact Hc1'
  iexists _; isplitr
  swap; · iexact HO
  ipureintro; intro p hp
  rcases Finset.mem_insert.mp hp with hp | hp
  · exact .inr (hp ▸ rfl)
  · exact hW' p hp

set_option maxHeartbeats 4000000 in
/-- The task up to the barrier: from the levels, the subcore's share of the index array, for subcore 0 the core's share of the
    table and the core's shared scratch, the index scratch, the two semaphores at zero and what the subcore owes, the first
    half runs to: the shares as they were, the shared scratch holding the table, the index scratch holding the subcore's
    index chunks, the semaphores at zero again, the waits recorded at no handshake's index — and goes on with the rest. -/
theorem phaseA (hF : (K (F := F)).Facts) (O' : CellTallies nD τ sig (HIx 1)) (W : Waits sig (HIx 1)) (hO' : ∀ g, O' g none = 0)
    {α : Type} (kk : PUnit → Prog (TpuEff nD τ sig (Elt F) Λ₀ (.scVector ((L 0).castLE hcore0) ((L 1).castLE hsub0))) α) (Q : α → sProp 𝕄) :
    iprop(levAts (K (F := F)).L (K (F := F)).lev
        ∗ zPts m d (qT (L 0).val (L 1).val)
        ∗ (if (L 1).val = 0 then iprop(wPts m d (qC (L 0).val) ∗ ∃ f, shLoc d (cV L) ↦{fullShare} f) else iprop(emp))
        ∗ (∃ f, (V d (cV L) (jV L)).loc cc0_scratch0 ↦{fullShare} f)
        ∗ semVal (dcell d L 0) 0 ∗ semVal (dcell d L 1) 0
        ∗ owes (V d (cV L) (jV L)) O' W)
      ⊢ iprop((iprop(zPts m d (qT (L 0).val (L 1).val)
              ∗ (if (L 1).val = 0 then iprop(wPts m d (qC (L 0).val) ∗ shLoc d (cV L) ↦{fullShare} tbl m d (cV L)) else iprop(emp))
              ∗ ((V d (cV L) (jV L)).loc cc0_scratch0 ↦{fullShare} idxOf m d L)
              ∗ semVal (dcell d L 0) 0 ∗ semVal (dcell d L 1) 0
              ∗ ∃ W', ⌜∀ p ∈ W', p ∈ W ∨ p.2 = none⌝ ∗ owes (V d (cV L) (jV L)) O' W')
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (progA L kk) Q) := by
  by_cases h0 : (L 1).val = 0
  · simp only [if_pos h0]
    exact phaseA_pos d L m hF O' W hO' h0 kk Q
  · simp only [if_neg h0]
    iintro ⟨#Hlv, Hz, -, Hi, Hc0, Hc1, HO⟩ Hk
    iapply (phaseA_neg d L m hF O' W hO' h0 kk Q) $$ [Hz Hi Hc0 Hc1 HO]
    · isplitr; · iexact Hlv
      isplitl [Hz]; · iexact Hz
      isplitl [Hi]; · iexact Hi
      isplitl [Hc0]; · iexact Hc0
      isplitl [Hc1]; · iexact Hc1
      iexact HO
    iintro ⟨Hz, Hi, Hc0, Hc1, HO⟩
    iapply Hk
    isplitl [Hz]; · iexact Hz
    isplitr; · iempintro
    isplitl [Hi]; · iexact Hi
    isplitl [Hc0]; · iexact Hc0
    isplitl [Hc1]; · iexact Hc1
    iexact HO

end Cert.Proof.KI

end
-- ==== Proof.Canon.lean ====
/-
  The task's second half over canonical names. Ring slot `b` of the row buffers, row `j` of the index scratch, the 128 rows
  of the result from row `o` on, and the DMA semaphores of slot `b` (one for the gather into it, one for the copy out of
  it) are each named once, by a natural number; the three loops' bodies are then restated over these names with the trip
  as a natural number: trip `j` of the main loop waits for the copy out of slot `j mod 7` (from trip 7 on), starts the
  gather of chunk `j` into it, and (from trip 2 on) waits for the gather of chunk `j - 2` and starts its copy out.
-/
import proofs.«206633_g8486855377485_cont_9to1_m_27_20_alg».proof.Proof.TileSetup

noncomputable section

namespace Cert.Proof.KI

open Cert.KernelIdeal Cert.KernelIdeal.Gen

open Idealize.ShloMosaic Idealize.SL.Sem
open Idealize.ShloMosaic.SparseCore (S V T)

variable {F : FTy → Type}

/-! ## Canonical names -/

theorem slot_inb (b : ℕ) (hb : b < 7) : ∀ a, (![b, 0, 0] : Fin 3 → Nat) a + S1x128x128.size a ≤ S7x128x128.size a := by
  intro a; match a with
  | ⟨0, _⟩ => show b + 1 ≤ 7; omega
  | ⟨1, _⟩ => show 0 + 128 ≤ 128; omega
  | ⟨2, _⟩ => show 0 + 128 ≤ 128; omega
theorem idxRow_inb (j : ℕ) (hj : j < 25) : ∀ a, (![j, 0] : Fin 2 → Nat) a + S1x128.size a ≤ S25x128.size a := by
  intro a; match a with
  | ⟨0, _⟩ => show j + 1 ≤ 25; omega
  | ⟨1, _⟩ => show 0 + 128 ≤ 128; omega
theorem out_inb (o : ℕ) (ho : o + 128 ≤ 100000) : ∀ a, (![o, 0] : Fin 2 → Nat) a + S128x128.size a ≤ S100000x128.size a := by
  intro a; match a with
  | ⟨0, _⟩ => show o + 128 ≤ 100000; omega
  | ⟨1, _⟩ => show 0 + 128 ≤ 128; omega
theorem sem_inb (b : ℕ) (hb : b < 7) : ∀ a, (![b] : Fin 1 → Nat) a + S1.size a ≤ S7.size a := by
  intro a; match a with
  | ⟨0, _⟩ => show b + 1 ≤ 7; omega

/-- Ring slot `b` of the row buffers, as a 128 × 128 array. -/
def slotM (b : ℕ) (hb : b < 7) : Memref sig .scVector .vmem S128x128 .f32 :=
  (rV.slice (Rect.unit (s := S7x128x128) ![b, 0, 0] S1x128x128.size (slot_inb b hb)) (fun _ => rfl)).squeeze S128x128 squeezes_S1x128x128_S128x128
/-- Row `j` of the index scratch, as a list of 128 words. -/
def idxRowM (j : ℕ) (hj : j < 25) : Memref sig .scVector .vmem S128 .i32 :=
  (iV.slice (Rect.unit (s := S25x128) ![j, 0] S1x128.size (idxRow_inb j hj)) (fun _ => rfl)).squeeze S128 squeezes_S1x128_S128
/-- The 128 rows of the result from row `o` on. -/
def outM (o : ℕ) (ho : o + 128 ≤ 100000) : Memref sig .scVector .hbm S128x128 .f32 :=
  oV.slice (Rect.unit (s := S100000x128) ![o, 0] S128x128.size (out_inb o ho)) (fun _ => rfl)
/-- The shared table, as the gathers name it (the whole of it, as a slice). -/
def shM : Memref sig .scVector .shared S100x128 .f32 :=
  shV.slice (Rect.unit (s := S100x128) ![0, 0] S100x128.size inb_S100x128_S100x128_0_0) (fun _ => rfl)
/-- The DMA semaphore of the gather into ring slot `b`. -/
def semG (b : ℕ) (hb : b < 7) : DmaSem sig := ((cc0_scratch5.slice (Rect.unit (s := S7) ![b] S1.size (sem_inb b hb))).squeeze S_ squeezes_S1_S_).sem
/-- The DMA semaphore of the copy out of ring slot `b`. -/
def semW (b : ℕ) (hb : b < 7) : DmaSem sig := ((cc0_scratch6.slice (Rect.unit (s := S7) ![b] S1.size (sem_inb b hb))).squeeze S_ squeezes_S1_S_).sem

theorem off_inb (c s j : ℕ) : Cert.Chunks.off c s j + 128 ≤ 100000 := by unfold Cert.Chunks.off; omega

variable [FloatOps F] (L : grid0.Coords)

abbrev TileEff : Type → Type := TpuEff nD τ sig (Elt F) Λ₀ (.scVector ((L 0).castLE hcore0) ((L 1).castLE hsub0))

/-- Wait for the copy out of slot `b`. -/
def waitW (b : ℕ) (hb : b < 7) : Prog (TileEff (F := F) L) PUnit :=
  Prog.lift (.waitDma2 (semW b hb) (slotM b hb) (outM 0 (by omega)) ((View.wordExact_bits rfl).reshape _ _) (View.wordExact_bits rfl))
/-- Start the gather of chunk `j`'s rows of the table into slot `b`. -/
def gatherG (j : ℕ) (hj : j < 25) (b : ℕ) (hb : b < 7) : Prog (TileEff (F := F) L) PUnit :=
  SparseCore.enqueueIndirectGather rfl shM (slotM b hb) gathers_S100x128_S128x128 (idxRowM j hj) rfl (semG b hb) (View.wordExact_bits rfl) rfl (Or.inr rfl)
/-- Wait for the gather into slot `b`. -/
def waitG (b : ℕ) (hb : b < 7) : Prog (TileEff (F := F) L) PUnit :=
  SparseCore.waitIndirectGather (semG b hb) shM (slotM b hb) (View.wordExact_bits rfl) ((View.wordExact_bits rfl).reshape _ _)
/-- Start the copy of slot `b` out to the rows of the result from row `o` on. -/
def copyW (b : ℕ) (hb : b < 7) (o : ℕ) (ho : o + 128 ≤ 100000) : Prog (TileEff (F := F) L) PUnit :=
  Prog.lift (.enqueueDma (slotM b hb) (.here (outM o ho)) (.dma (semW b hb)) ((View.wordExact_bits rfl).reshape _ _) (View.wordExact_bits rfl) ⟨Or.inl rfl, trivial⟩)

/-- The first row of chunk `j` of this subcore. -/
abbrev offL (j : ℕ) : ℕ := Cert.Chunks.off (L 0).val (L 1).val j

/-- Trip `j` of the main loop. -/
def body3 (j : ℕ) (hj : j < 25) : Prog (TileEff (F := F) L) Unit := do
  if 7 ≤ j then do
    waitW L (j % 7) (Nat.mod_lt _ (by decide))
    pure ⟨⟩
  else do
    pure ⟨⟩
  gatherG L j hj (j % 7) (Nat.mod_lt _ (by decide))
  if 2 ≤ j then do
    waitG L ((j - 2) % 7) (Nat.mod_lt _ (by decide))
    copyW L ((j - 2) % 7) (Nat.mod_lt _ (by decide)) (offL L (j - 2)) (off_inb _ _ _)
    pure ⟨⟩
  else do
    pure ⟨⟩
  pure ⟨⟩

/-- Trip `k` of the loop of the last two copies out: chunk `23 + k`. -/
def body4 (k : ℕ) : Prog (TileEff (F := F) L) Unit := do
  waitG L ((k + 23) % 7) (Nat.mod_lt _ (by decide))
  copyW L ((k + 23) % 7) (Nat.mod_lt _ (by decide)) (offL L (k + 23)) (off_inb _ _ _)
  pure ⟨⟩

/-- Trip `k` of the drain: the copy out of chunk `18 + k`. -/
def body5 (k : ℕ) : Prog (TileEff (F := F) L) Unit := do
  waitW L ((k + 18) % 7) (Nat.mod_lt _ (by decide))
  pure ⟨⟩

variable (m : (ℓ : Loc nD τ sig) → Buf (Elt F) ℓ) (d : Dev nD)

/-- What the gather of chunk `j` leaves in a ring slot, whichever slot it is: row `k` of the slot is the row of the table
    that the `k`-th index word of the chunk names. -/
def gath (j : ℕ) : Buf (Elt F) ((V d (cV L) (jV L)).loc cc0_scratch1) :=
  fun y => tbl m d (cV L) (Idealize.ShloMosaic.ValueIdx.ix2
    (Cert.Spec.rowOf (idxOf m d L (Idealize.ShloMosaic.ValueIdx.ix2 (⟨min j 24, by omega⟩ : Fin 25) (⟨(y 1).val, (y 1).isLt⟩ : Fin 128))))
    (⟨(y 2).val, (y 2).isLt⟩ : Fin 128))

end Cert.Proof.KI

end
-- ==== Proof.ResB.lean ====
/-
  One vector subcore's second half, as a state: which chunks' gathers have been started, which of them have been waited
  for and their copies out started, and which copies out have been waited for. Chunk `j` uses ring slot `j mod 7`. The
  three numbers `g ≥ w ≥ d` (at most 7 apart) say where every chunk stands: from `g` on not started, from `w` on its
  gather in flight, from `d` on its copy out in flight, below `d` done. What each chunk holds in each phase is one
  assertion, and each of the three kinds of step changes one chunk's phase.
-/
import proofs.«206633_g8486855377485_cont_9to1_m_27_20_alg».proof.Proof.Canon
import proofs.«206633_g8486855377485_cont_9to1_m_27_20_alg».proof.Proof.LibWmDma
import proofs.«206633_g8486855377485_cont_9to1_m_27_20_alg».proof.Proof.LibWmShares

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

/-! ## The pieces -/

/-- The subcore's read share of its core's shared table, and the part of it the gather on slot `b`'s semaphore borrows. -/
abbrev qSh : PosShare TreeShare := Transfers.shareTokN fullShare (L 1).val
def shSub (b : ℕ) : sProp 𝕄 :=
  (shM.view.loc (V d (cV L) (jV L)) ↦[shM.view.set]{Transfers.shareTokN (qSh L) b} (tbl m d (cV L) : Buf (Elt F) (shM.view.loc (V d (cV L) (jV L)))))
/-- Ring slot `b` at contents `f`. -/
def slotP (b : ℕ) (hb : b < 7) (f : Buf (Elt F) ((V d (cV L) (jV L)).loc cc0_scratch1)) : sProp 𝕄 :=
  ((slotM b hb).view.loc (V d (cV L) (jV L)) ↦[(slotM b hb).view.set]{fullShare} (f : Buf (Elt F) ((slotM b hb).view.loc (V d (cV L) (jV L)))))
/-- Row `j` of the index scratch, holding chunk `j`'s index words. -/
def idxP (j : ℕ) (hj : j < 25) : sProp 𝕄 :=
  ((idxRowM j hj).view.loc (V d (cV L) (jV L)) ↦[(idxRowM j hj).view.set]{fullShare} (idxOf m d L : Buf (Elt F) ((idxRowM j hj).view.loc (V d (cV L) (jV L)))))
/-- The semaphores of slot `b`. -/
abbrev gcell (b : ℕ) (hb : b < 7) : GSem nD τ sig := (V d (cV L) (jV L), SemLoc.dma (semG b hb))
abbrev wcell (b : ℕ) (hb : b < 7) : GSem nD τ sig := (V d (cV L) (jV L), SemLoc.dma (semW b hb))
/-- Slot `b` free: the slot at some contents, both its semaphores at zero, its part of the table share. -/
def freeSlot (b : ℕ) (hb : b < 7) : sProp 𝕄 :=
  iprop((∃ f, slotP d L b hb f) ∗ semVal (gcell d L b hb) 0 ∗ semVal (wcell d L b hb) 0 ∗ shSub m d L b)

/-- The subcore's share of the result in write mode, chunk `j`'s part of it. -/
abbrev qOut (j : ℕ) : PosShare TreeShare := Transfers.shareTokN (qT (L 0).val (L 1).val) j
/-- The rows chunk `j` writes. -/
def chunkSet (j : ℕ) : Finset (Idx (oLoc d)) := Cert.Chunks.chunk (L 0).val (L 1).val j
/-- The same as the copy out addresses them. -/
def outSet (j : ℕ) : Finset (Idx (oLoc d)) := (outM (offL L j) (off_inb _ _ _)).view.set

/-- The gather of chunk `j` in flight: it delivers its slot holding the gathered rows, and gives back the table share's part
    and the index row. -/
def GF (NG : ℕ) (j : ℕ) (hj : j < 25) : sProp 𝕄 :=
  Transfers.Flight (countersEmb : UEmb Counters 𝕄) (V d (cV L) (jV L)) (SemLoc.dma (semG (j % 7) (Nat.mod_lt _ (by decide)))) (none : HIx 1) NG
    iprop(slotP d L (j % 7) (Nat.mod_lt _ (by decide)) (gath L m d j) ∗ shSub m d L (j % 7) ∗ idxP m d L j hj)

/-- The copy out of chunk `j` in flight: it delivers the chunk's rows of the result marked written, and gives back the slot. -/
def WF (NW : ℕ) (j : ℕ) : sProp 𝕄 :=
  Transfers.Flight (countersEmb : UEmb Counters 𝕄) (V d (cV L) (jV L)) (SemLoc.dma (semW (j % 7) (Nat.mod_lt _ (by decide)))) (none : HIx 1) NW
    iprop(willBeTo (Ix := HIx 1) (Name := ℕ) (Lvl := ℕ) (EW (F := F)) ((outM (offL L j) (off_inb _ _ _)).view.loc (V d (cV L) (jV L)))
        (outM (offL L j) (off_inb _ _ _)).view.set (qOut L j) (m (oLoc d)) (tgt m d) (∅ ∪ (outM (offL L j) (off_inb _ _ _)).view.set)
      ∗ slotP d L (j % 7) (Nat.mod_lt _ (by decide)) (gath L m d j))

/-- What chunk `j` holds when `g` gathers have been started, `w` of them waited for (their copies out started) and `d` copies
    out waited for. A chunk below 7 not yet started holds its slot free; a finished chunk holds its slot free until the chunk
    seven later takes it. -/
def chunkSt (NG NW : ℕ) (g w dn : ℕ) (j : ℕ) : sProp 𝕄 :=
  if hj : j < 25 then
    if g ≤ j then iprop(idxP m d L j hj ∗ oWm m d (qOut L j) ∅ ∗ (if j < 7 then freeSlot m d L (j % 7) (Nat.mod_lt _ (by decide)) else iprop(emp)))
    else if w ≤ j then iprop(GF m d L NG j hj ∗ oWm m d (qOut L j) ∅ ∗ semVal (wcell d L (j % 7) (Nat.mod_lt _ (by decide))) 0)
    else if dn ≤ j then iprop(WF m d L NW j
        ∗ willBeTo (Ix := HIx 1) (Name := ℕ) (Lvl := ℕ) (EW (F := F)) (oLoc d) (Finset.univ \ outSet d L j) (qOut L j) (m (oLoc d)) (tgt m d) ∅
        ∗ idxP m d L j hj ∗ semVal (gcell d L (j % 7) (Nat.mod_lt _ (by decide))) 0 ∗ shSub m d L (j % 7))
    else iprop(idxP m d L j hj ∗ oWm m d (qOut L j) (outSet d L j) ∗ (if g ≤ j + 7 then freeSlot m d L (j % 7) (Nat.mod_lt _ (by decide)) else iprop(emp)))
  else iprop(emp)

/-- The state: every chunk's holdings. -/
def St (NG NW : ℕ) (g w dn : ℕ) : sProp 𝕄 := bigSep (Finset.range 25) (chunkSt m d L NG NW g w dn)

end Cert.Proof.KI

end
-- ==== Proof.StepsB.lean ====
/-
  The three kinds of step of a vector subcore's second half, each changing one chunk's phase: waiting for a copy out
  (the chunk is done: its rows of the result are marked written, its slot is free again), starting a gather (a free slot is
  taken), and waiting for a gather and starting the copy out of what it brought (the slot's contents are what the result's
  targets name on the chunk's rows, so write mode admits the copy).
-/
import proofs.«206633_g8486855377485_cont_9to1_m_27_20_alg».proof.Proof.ResB

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

theorem mod7 (n : ℕ) : n % 7 < 7 := Nat.mod_lt _ (by decide)

/-- What the subcore owes, with the waits recorded so far: each is an earlier one or one of the kernel's own. -/
def owesEx (O : CellTallies nD τ sig (HIx 1)) (W : Waits sig (HIx 1)) : sProp 𝕄 :=
  iprop(∃ W', ⌜∀ p ∈ W', p ∈ W ∨ p.2 = none⌝ ∗ owes (V d (cV L) (jV L)) O W')

theorem marks_piece {α : Type} [DecidableEq α] (S : Finset α) : ((∅ ∪ S) ∩ S) ∪ (∅ \ S) = S := by
  ext i; simp

/-- All chunks but `j` stand where they stood when only the number of finished copies out moves past `j`. -/
theorem chunkSt_drain (NG NW g w dn : ℕ) (i : ℕ) (hne : i ≠ dn) :
    chunkSt m d L NG NW g w dn i = chunkSt m d L NG NW g w (dn + 1) i := by
  unfold chunkSt
  by_cases hi25 : i < 25
  · rw [dif_pos hi25, dif_pos hi25]
    by_cases h1 : g ≤ i
    · rw [if_pos h1, if_pos h1]
    · rw [if_neg h1, if_neg h1]
      by_cases h2 : w ≤ i
      · rw [if_pos h2, if_pos h2]
      · rw [if_neg h2, if_neg h2]
        by_cases h3 : dn ≤ i
        · rw [if_pos h3, if_pos (show dn + 1 ≤ i by omega)]
        · rw [if_neg h3, if_neg (show ¬ dn + 1 ≤ i by omega)]
  · rw [dif_neg hi25, dif_neg hi25]

/-- Waiting for the copy out of chunk `dn`: its rows come back marked written and rejoin the rest of its share, its slot is
    free. -/
theorem stepDrain (NG NW : ℕ) (hWcred : (outM 0 (by omega)).view.dmaCredit = NW) (O : CellTallies nD τ sig (HIx 1)) (W : Waits sig (HIx 1))
    (g w dn : ℕ) (hdw : dn < w) (hwg : w ≤ g) (hg : g ≤ 25) (hgd : g ≤ dn + 7)
    {α : Type} (kk : PUnit → Prog (TileEff (F := F) L) α) (Q : α → sProp 𝕄) :
    iprop(Transfers.MayWaits (V d (cV L) (jV L)) (none : HIx 1) O ∗ St m d L NG NW g w dn ∗ owesEx d L O W)
      ⊢ iprop((iprop(St m d L NG NW g w (dn + 1) ∗ owesEx d L O W)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (waitW L (dn % 7) (mod7 _) >>= kk) Q) := by
  have hd25 : dn < 25 := by omega
  have hbefore : chunkSt m d L NG NW g w dn dn = iprop(WF m d L NW dn
        ∗ willBeTo (Ix := HIx 1) (Name := ℕ) (Lvl := ℕ) (EW (F := F)) (oLoc d) (Finset.univ \ outSet d L dn) (qOut L dn) (m (oLoc d)) (tgt m d) ∅
        ∗ idxP m d L dn hd25 ∗ semVal (gcell d L (dn % 7) (mod7 _)) 0 ∗ shSub m d L (dn % 7)) := by
    unfold chunkSt; rw [dif_pos hd25, if_neg (by omega), if_neg (by omega), if_pos (le_refl _)]
  have hafter : chunkSt m d L NG NW g w (dn + 1) dn = iprop(idxP m d L dn hd25 ∗ oWm m d (qOut L dn) (outSet d L dn)
        ∗ freeSlot m d L (dn % 7) (mod7 _)) := by
    unfold chunkSt; rw [dif_pos hd25, if_neg (by omega), if_neg (by omega), if_neg (by omega), if_pos (by omega)]
  have hrest : (bigSep ((Finset.range 25).erase dn) (chunkSt m d L NG NW g w dn) : sProp 𝕄)
      = bigSep ((Finset.range 25).erase dn) (chunkSt m d L NG NW g w (dn + 1)) :=
    bigSep_congr fun i hi => chunkSt_drain m d L NG NW g w dn i (Finset.mem_erase.mp hi).1
  unfold St owesEx
  rw [SparseCore.bigSep_erase' (Φ := chunkSt m d L NG NW g w dn) (Finset.mem_range.mpr hd25),
    SparseCore.bigSep_erase' (Φ := chunkSt m d L NG NW g w (dn + 1)) (Finset.mem_range.mpr hd25), hbefore, hafter, hrest]
  iintro ⟨#Hmw, ⟨⟨Hfl, Hcompl, Hidx, Hg0, Hsh⟩, Hrest⟩, ⟨%W', %hW', HO⟩⟩ Hk
  unfold WF waitW
  rw [Prog.bind_lift]
  iapply (Transfers.wp_waitLocalO countersEmb 𝒱₀ (V d (cV L) (jV L)) none (none : HIx 1) hWcred) $$ [Hfl HO]
  · isplitl [Hfl]; · iexact Hfl
    isplitl [HO]; · iexact HO
    iapply (Transfers.MayWaits.elim (SemLoc.dma (semW (dn % 7) (mod7 _)))) $$ Hmw
  iintro ⟨⟨Hwb, Hslot⟩, Hw0, HO⟩
  ihave Hjoin := (Cert.Lib.willBeTo_rejoin_piece (Finset.subset_univ (outSet d L dn)) (∅ ∪ outSet d L dn) ∅) $$ [Hwb Hcompl]
  · isplitl [Hwb]; · iexact Hwb
    iexact Hcompl
  rw [marks_piece]
  iapply Hk
  isplitr [HO]
  · isplitr [Hrest]
    · isplitl [Hidx]; · iexact Hidx
      isplitl [Hjoin]; · iexact Hjoin
      unfold freeSlot
      isplitl [Hslot]; · iexists _; iexact Hslot
      isplitl [Hg0]; · iexact Hg0
      isplitl [Hw0]; · iexact Hw0
      iexact Hsh
    · iexact Hrest
  · iexists _
    isplitr
    swap; · iexact HO
    ipureintro; intro p hp
    rcases Finset.mem_insert.mp hp with hp | hp
    · exact .inr (hp ▸ rfl)
    · exact hW' p hp

theorem freeSlot_congr {b b' : ℕ} (e : b = b') (hb : b < 7) (hb' : b' < 7) : freeSlot m d L b hb = freeSlot m d L b' hb' := by
  subst e; rfl

/-- All chunks but `g` and the one seven before it stand where they stood when one more gather is started. -/
theorem chunkSt_gather (NG NW g w dn : ℕ) (i : ℕ) (hne : i ≠ g) (hne7 : i + 7 ≠ g) :
    chunkSt m d L NG NW g w dn i = chunkSt m d L NG NW (g + 1) w dn i := by
  unfold chunkSt
  by_cases hi25 : i < 25
  · rw [dif_pos hi25, dif_pos hi25]
    by_cases h1 : g ≤ i
    · rw [if_pos h1, if_pos (show g + 1 ≤ i by omega)]
    · rw [if_neg h1, if_neg (show ¬ g + 1 ≤ i by omega)]
      by_cases h2 : w ≤ i
      · rw [if_pos h2, if_pos h2]
      · rw [if_neg h2, if_neg h2]
        by_cases h3 : dn ≤ i
        · rw [if_pos h3, if_pos h3]
        · rw [if_neg h3, if_neg h3]
          by_cases h4 : g ≤ i + 7
          · rw [if_pos h4, if_pos (show g + 1 ≤ i + 7 by omega)]
          · rw [if_neg h4, if_neg (show ¬ g + 1 ≤ i + 7 by omega)]
  · rw [dif_neg hi25, dif_neg hi25]

/-- All chunks but `w` stand where they stood when one more gather is waited for and its copy out started. -/
theorem chunkSt_copy (NG NW g w dn : ℕ) (i : ℕ) (hne : i ≠ w) :
    chunkSt m d L NG NW g w dn i = chunkSt m d L NG NW g (w + 1) dn i := by
  unfold chunkSt
  by_cases hi25 : i < 25
  · rw [dif_pos hi25, dif_pos hi25]
    by_cases h1 : g ≤ i
    · rw [if_pos h1, if_pos h1]
    · rw [if_neg h1, if_neg h1]
      by_cases h2 : w ≤ i
      · rw [if_pos h2, if_pos (show w + 1 ≤ i by omega)]
      · rw [if_neg h2, if_neg (show ¬ w + 1 ≤ i by omega)]
  · rw [dif_neg hi25, dif_neg hi25]

/-- Starting the gather of chunk `g` into a free slot: the slot, its gather semaphore, the table share's part and the index
    row go into the flight, which will deliver the slot holding the gathered rows. -/
theorem coreGather (NG : ℕ) (g : ℕ) (hg : g < 25)
    (hGsum : ∑ r, ((slotM (g % 7) (mod7 _)).slice (S128x128.rowRect gathers_S100x128_S128x128.axis' r)
      (S128x128.stride_rowRect gathers_S100x128_S128x128.axis' r)).view.dmaCredit = NG)
    (hin : ∀ x, ((idxRowM g hg).view.read (Elt F) (idxOf m d L) x).toNat < S100x128.size gathers_S100x128_S128x128.axis)
    (hval : ∀ fd : Buf (Elt F) ((slotM (g % 7) (mod7 _)).view.loc (V d (cV L) (jV L))),
      ∀ i : Idx ((slotM (g % 7) (mod7 _)).view.loc (V d (cV L) (jV L))), i ∈ (slotM (g % 7) (mod7 _)).view.set →
        (slotM (g % 7) (mod7 _)).view.write (Elt F) fd
          (SparseCore.gatherPayload gathers_S100x128_S128x128 (shM.view.read (Elt F) (tbl m d (cV L)))
            (SparseCore.rows ((idxRowM g hg).view.read (Elt F) (idxOf m d L)) rfl hin)) Finset.univ i = gath L m d g i)
    {α : Type} (kk : PUnit → Prog (TileEff (F := F) L) α) (Q : α → sProp 𝕄) :
    iprop(idxP m d L g hg ∗ freeSlot m d L (g % 7) (mod7 _))
      ⊢ iprop((iprop(GF m d L NG g hg ∗ semVal (wcell d L (g % 7) (mod7 _)) 0)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (gatherG L g hg (g % 7) (mod7 _) >>= kk) Q) := by
  unfold freeSlot slotP idxP shSub gatherG GF
  iintro ⟨Hidx, ⟨%fd, Hslot⟩, Hg0, Hw0, Hsh⟩ Hk
  iapply (SparseCore.wp_indirectGatherLocal countersEmb 𝒱₀ (V d (cV L) (jV L)) none (hg := gathers_S100x128_S128x128) (none : HIx 1)
      NG hGsum (by decide) hin) $$ [Hsh Hslot Hidx Hg0]
  · isplitl [Hsh]; · iexact Hsh
    isplitl [Hslot]; · iexact Hslot
    isplitl [Hidx]; · iexact Hidx
    iexact Hg0
  iintro Hfl
  iapply Hk
  isplitl [Hfl]
  · unfold slotP idxP shSub
    iapply (Transfers.Flight_mono countersEmb (V d (cV L) (jV L)) (sep_mono_l (Entails.of_eq (pointsTo_congr (hval fd))))) $$ Hfl
  · iexact Hw0

/-- The wait for a gather, at the head of a program, is one wait on its semaphore. -/
theorem waitG_bind (b : ℕ) (hb : b < 7) {α : Type} (k : PUnit → Prog (TileEff (F := F) L) α) :
    waitG L b hb >>= k = (Prog.op (TpuEff.waitDma2 (semG b hb) shM (slotM b hb) (View.wordExact_bits rfl) ((View.wordExact_bits rfl).reshape _ _)) k :
      Prog (TileEff (F := F) L) α) := rfl

/-- Waiting for the gather of chunk `w` and starting the copy out of what it brought: the slot holds what the result's targets
    name on the chunk's rows, so the copy is admitted into those rows in write mode; they leave the subcore's share of the
    result until the copy is waited for. -/
theorem coreCopy (NG NW : ℕ) (w : ℕ) (hw : w < 25)
    (hGcred : (slotM (w % 7) (mod7 _)).view.dmaCredit = NG)
    (hWamt : (outM (offL L w) (off_inb _ _ _)).view.amount (SemLoc.dma (semW (w % 7) (mod7 _))) = NW) (hNW0 : 0 < NW)
    (hadm : (outM (offL L w) (off_inb _ _ _)).view.Admitted (Elt F) (tgt m d) ((slotM (w % 7) (mod7 _)).view.read (Elt F) (gath L m d w)) Finset.univ)
    (O : CellTallies nD τ sig (HIx 1)) (W : Waits sig (HIx 1))
    {α : Type} (kk : PUnit → Prog (TileEff (F := F) L) α) (Q : α → sProp 𝕄) :
    iprop(Transfers.MayWaits (V d (cV L) (jV L)) (none : HIx 1) O ∗ (∃ ιwm : ℕ, wmInv (Ix := HIx 1) (Name := ℕ) (Lvl := ℕ) (EW (F := F)) ιwm)
        ∗ (GF m d L NG w hw ∗ oWm m d (qOut L w) ∅ ∗ semVal (wcell d L (w % 7) (mod7 _)) 0) ∗ owesEx d L O W)
      ⊢ iprop((iprop((WF m d L NW w
              ∗ willBeTo (Ix := HIx 1) (Name := ℕ) (Lvl := ℕ) (EW (F := F)) (oLoc d) (Finset.univ \ outSet d L w) (qOut L w) (m (oLoc d)) (tgt m d) ∅
              ∗ idxP m d L w hw ∗ semVal (gcell d L (w % 7) (mod7 _)) 0 ∗ shSub m d L (w % 7)) ∗ owesEx d L O W)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (waitG L (w % 7) (mod7 _) >>= fun _ => copyW L (w % 7) (mod7 _) (offL L w) (off_inb _ _ _) >>= kk) Q) := by
  unfold GF owesEx
  iintro ⟨#Hmw, ⟨%ιwm, #Hwm⟩, ⟨Hfl, Ho, Hw0⟩, ⟨%W', %hW', HO⟩⟩ Hk
  rw [waitG_bind]
  iapply (Transfers.wp_waitLocalO countersEmb 𝒱₀ (V d (cV L) (jV L)) none (none : HIx 1) hGcred) $$ [Hfl HO]
  · isplitl [Hfl]; · iexact Hfl
    isplitl [HO]; · iexact HO
    iapply (Transfers.MayWaits.elim (SemLoc.dma (semG (w % 7) (mod7 _)))) $$ Hmw
  iintro ⟨⟨Hslot, Hsh, Hidx⟩, Hg0, HO⟩
  ihave Hsplit := (Cert.Lib.willBeTo_split_subset (Finset.subset_univ (outSet d L w))).1 $$ Ho
  icases Hsplit with ⟨Hpiece, Hcompl⟩
  unfold copyW
  rw [Prog.bind_lift]
  iapply (Cert.Lib.wp_dmaLocal_willBeTo 𝒱₀ countersEmb (V d (cV L) (jV L)) none (none : HIx 1) NW hWamt hNW0 hadm) $$ [Hslot Hpiece Hw0]
  · unfold slotP
    isplitl [Hslot]; · iexact Hslot
    isplitr; · iexact Hwm
    isplitl [Hpiece]; · iexact Hpiece
    iexact Hw0
  iintro Hfl2
  iapply Hk
  isplitr [HO]
  · unfold WF
    isplitl [Hfl2]; · iexact Hfl2
    isplitl [Hcompl]; · iexact Hcompl
    isplitl [Hidx]; · iexact Hidx
    isplitl [Hg0]; · iexact Hg0
    iexact Hsh
  · iexists _
    isplitr
    swap; · iexact HO
    ipureintro; intro p hp
    rcases Finset.mem_insert.mp hp with hp | hp
    · exact .inr (hp ▸ rfl)
    · exact hW' p hp

/-- One more gather started: chunk `g` takes slot `g mod 7`, its own when `g < 7`, else the one chunk `g - 7` has finished with. -/
theorem stepGather (NG NW : ℕ) (g w dn : ℕ) (hg : g < 25) (hwg : w ≤ g) (hgd : g < dn + 7) (hdw : dn ≤ w)
    (hGsum : ∑ r, ((slotM (g % 7) (mod7 _)).slice (S128x128.rowRect gathers_S100x128_S128x128.axis' r)
      (S128x128.stride_rowRect gathers_S100x128_S128x128.axis' r)).view.dmaCredit = NG)
    (hin : ∀ x, ((idxRowM g hg).view.read (Elt F) (idxOf m d L) x).toNat < S100x128.size gathers_S100x128_S128x128.axis)
    (hval : ∀ fd : Buf (Elt F) ((slotM (g % 7) (mod7 _)).view.loc (V d (cV L) (jV L))),
      ∀ i : Idx ((slotM (g % 7) (mod7 _)).view.loc (V d (cV L) (jV L))), i ∈ (slotM (g % 7) (mod7 _)).view.set →
        (slotM (g % 7) (mod7 _)).view.write (Elt F) fd
          (SparseCore.gatherPayload gathers_S100x128_S128x128 (shM.view.read (Elt F) (tbl m d (cV L)))
            (SparseCore.rows ((idxRowM g hg).view.read (Elt F) (idxOf m d L)) rfl hin)) Finset.univ i = gath L m d g i)
    {α : Type} (kk : PUnit → Prog (TileEff (F := F) L) α) (Q : α → sProp 𝕄) :
    iprop(St m d L NG NW g w dn)
      ⊢ iprop((St m d L NG NW (g + 1) w dn -∗ wp frame (wpE (defs₀ (F := F)) 𝒱₀ (V d (cV L) (jV L)) none) Set.univ (kk ⟨⟩) Q)
          -∗ wp frame (wpE (defs₀ (F := F)) 𝒱₀ (V d (cV L) (jV L)) none) Set.univ (gatherG L g hg (g % 7) (mod7 _) >>= kk) Q) := by
  have hafter : chunkSt m d L NG NW (g + 1) w dn g = iprop(GF m d L NG g hg ∗ oWm m d (qOut L g) ∅ ∗ semVal (wcell d L (g % 7) (mod7 _)) 0) := by
    unfold chunkSt; rw [dif_pos hg, if_neg (show ¬ g + 1 ≤ g by omega), if_pos hwg]
  unfold St
  by_cases h7 : g < 7
  · have hbefore : chunkSt m d L NG NW g w dn g = iprop(idxP m d L g hg ∗ oWm m d (qOut L g) ∅ ∗ freeSlot m d L (g % 7) (mod7 _)) := by
      unfold chunkSt; rw [dif_pos hg, if_pos (le_refl g), if_pos h7]
    have hrest : (bigSep ((Finset.range 25).erase g) (chunkSt m d L NG NW g w dn) : sProp 𝕄)
        = bigSep ((Finset.range 25).erase g) (chunkSt m d L NG NW (g + 1) w dn) :=
      bigSep_congr fun i hi => chunkSt_gather m d L NG NW g w dn i (Finset.mem_erase.mp hi).1 (by omega)
    rw [SparseCore.bigSep_erase' (Φ := chunkSt m d L NG NW g w dn) (Finset.mem_range.mpr hg),
      SparseCore.bigSep_erase' (Φ := chunkSt m d L NG NW (g + 1) w dn) (Finset.mem_range.mpr hg), hbefore, hafter, hrest]
    iintro ⟨⟨Hidx, Ho, Hfree⟩, Hrest⟩ Hk
    iapply (coreGather m d L NG g hg hGsum hin hval kk Q) $$ [Hidx Hfree]
    · isplitl [Hidx]; · iexact Hidx
      iexact Hfree
    iintro ⟨Hfl, Hw0⟩
    iapply Hk
    isplitr [Hrest]
    · isplitl [Hfl]; · iexact Hfl
      isplitl [Ho]; · iexact Ho
      iexact Hw0
    · iexact Hrest
  · have hp : g - 7 < 25 := by omega
    have hpm : g - 7 ∈ (Finset.range 25).erase g := Finset.mem_erase.mpr ⟨by omega, Finset.mem_range.mpr hp⟩
    have hbefore : chunkSt m d L NG NW g w dn g = iprop(idxP m d L g hg ∗ oWm m d (qOut L g) ∅ ∗ iprop(emp)) := by
      unfold chunkSt; rw [dif_pos hg, if_pos (le_refl g), if_neg h7]
    have hbeforeP : chunkSt m d L NG NW g w dn (g - 7) = iprop(idxP m d L (g - 7) hp ∗ oWm m d (qOut L (g - 7)) (outSet d L (g - 7))
        ∗ freeSlot m d L ((g - 7) % 7) (mod7 _)) := by
      unfold chunkSt
      rw [dif_pos hp, if_neg (show ¬ g ≤ g - 7 by omega), if_neg (show ¬ w ≤ g - 7 by omega), if_neg (show ¬ dn ≤ g - 7 by omega),
        if_pos (show g ≤ g - 7 + 7 by omega)]
    have hafterP : chunkSt m d L NG NW (g + 1) w dn (g - 7) = iprop(idxP m d L (g - 7) hp ∗ oWm m d (qOut L (g - 7)) (outSet d L (g - 7))
        ∗ iprop(emp)) := by
      unfold chunkSt
      rw [dif_pos hp, if_neg (show ¬ g + 1 ≤ g - 7 by omega), if_neg (show ¬ w ≤ g - 7 by omega), if_neg (show ¬ dn ≤ g - 7 by omega),
        if_neg (show ¬ g + 1 ≤ g - 7 + 7 by omega)]
    have hrest : (bigSep (((Finset.range 25).erase g).erase (g - 7)) (chunkSt m d L NG NW g w dn) : sProp 𝕄)
        = bigSep (((Finset.range 25).erase g).erase (g - 7)) (chunkSt m d L NG NW (g + 1) w dn) :=
      bigSep_congr fun i hi => chunkSt_gather m d L NG NW g w dn i (Finset.mem_erase.mp (Finset.mem_erase.mp hi).2).1
        (fun e => (Finset.mem_erase.mp hi).1 (by omega))
    rw [SparseCore.bigSep_erase' (Φ := chunkSt m d L NG NW g w dn) (Finset.mem_range.mpr hg),
      SparseCore.bigSep_erase' (Φ := chunkSt m d L NG NW (g + 1) w dn) (Finset.mem_range.mpr hg),
      SparseCore.bigSep_erase' (Φ := chunkSt m d L NG NW g w dn) hpm,
      SparseCore.bigSep_erase' (Φ := chunkSt m d L NG NW (g + 1) w dn) hpm, hbefore, hafter, hbeforeP, hafterP, hrest,
      freeSlot_congr m d L (show (g - 7) % 7 = g % 7 by omega) (mod7 _) (mod7 _)]
    iintro ⟨⟨Hidx, Ho, -⟩, ⟨HidxP, HoP, Hfree⟩, Hrest⟩ Hk
    iapply (coreGather m d L NG g hg hGsum hin hval kk Q) $$ [Hidx Hfree]
    · isplitl [Hidx]; · iexact Hidx
      iexact Hfree
    iintro ⟨Hfl, Hw0⟩
    iapply Hk
    isplitl [Hfl Ho Hw0]
    · isplitl [Hfl]; · iexact Hfl
      isplitl [Ho]; · iexact Ho
      iexact Hw0
    isplitl [HidxP HoP]
    · isplitl [HidxP]; · iexact HidxP
      isplitl [HoP]; · iexact HoP
      iempintro
    · iexact Hrest

/-- One more gather waited for and its copy out started. -/
theorem stepCopy (NG NW : ℕ) (g w dn : ℕ) (hw : w < g) (hg : g ≤ 25) (hdw : dn ≤ w)
    (hGcred : (slotM (w % 7) (mod7 _)).view.dmaCredit = NG)
    (hWamt : (outM (offL L w) (off_inb _ _ _)).view.amount (SemLoc.dma (semW (w % 7) (mod7 _))) = NW) (hNW0 : 0 < NW)
    (hadm : (outM (offL L w) (off_inb _ _ _)).view.Admitted (Elt F) (tgt m d) ((slotM (w % 7) (mod7 _)).view.read (Elt F) (gath L m d w)) Finset.univ)
    (O : CellTallies nD τ sig (HIx 1)) (W : Waits sig (HIx 1))
    {α : Type} (kk : PUnit → Prog (TileEff (F := F) L) α) (Q : α → sProp 𝕄) :
    iprop(Transfers.MayWaits (V d (cV L) (jV L)) (none : HIx 1) O ∗ (∃ ιwm : ℕ, wmInv (Ix := HIx 1) (Name := ℕ) (Lvl := ℕ) (EW (F := F)) ιwm)
        ∗ St m d L NG NW g w dn ∗ owesEx d L O W)
      ⊢ iprop((iprop(St m d L NG NW g (w + 1) dn ∗ owesEx d L O W)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (waitG L (w % 7) (mod7 _) >>= fun _ => copyW L (w % 7) (mod7 _) (offL L w) (off_inb _ _ _) >>= kk) Q) := by
  have hw25 : w < 25 := by omega
  have hbefore : chunkSt m d L NG NW g w dn w = iprop(GF m d L NG w hw25 ∗ oWm m d (qOut L w) ∅ ∗ semVal (wcell d L (w % 7) (mod7 _)) 0) := by
    unfold chunkSt; rw [dif_pos hw25, if_neg (show ¬ g ≤ w by omega), if_pos (le_refl w)]
  have hafter : chunkSt m d L NG NW g (w + 1) dn w = iprop(WF m d L NW w
        ∗ willBeTo (Ix := HIx 1) (Name := ℕ) (Lvl := ℕ) (EW (F := F)) (oLoc d) (Finset.univ \ outSet d L w) (qOut L w) (m (oLoc d)) (tgt m d) ∅
        ∗ idxP m d L w hw25 ∗ semVal (gcell d L (w % 7) (mod7 _)) 0 ∗ shSub m d L (w % 7)) := by
    unfold chunkSt; rw [dif_pos hw25, if_neg (show ¬ g ≤ w by omega), if_neg (show ¬ w + 1 ≤ w by omega), if_pos hdw]
  have hrest : (bigSep ((Finset.range 25).erase w) (chunkSt m d L NG NW g w dn) : sProp 𝕄)
      = bigSep ((Finset.range 25).erase w) (chunkSt m d L NG NW g (w + 1) dn) :=
    bigSep_congr fun i hi => chunkSt_copy m d L NG NW g w dn i (Finset.mem_erase.mp hi).1
  unfold St
  rw [SparseCore.bigSep_erase' (Φ := chunkSt m d L NG NW g w dn) (Finset.mem_range.mpr hw25),
    SparseCore.bigSep_erase' (Φ := chunkSt m d L NG NW g (w + 1) dn) (Finset.mem_range.mpr hw25), hbefore, hafter, hrest]
  iintro ⟨#Hmw, #Hwm, ⟨Hc, Hrest⟩, HO⟩ Hk
  iapply (coreCopy m d L NG NW w hw25 hGcred hWamt hNW0 hadm O W kk Q) $$ [Hc HO]
  · isplitr; · iexact Hmw
    isplitr; · iexact Hwm
    isplitl [Hc]; · iexact Hc
    iexact HO
  iintro ⟨Hc', HO⟩
  iapply Hk
  isplitr [HO]
  · isplitl [Hc']; · iexact Hc'
    iexact Hrest
  · iexact HO

end Cert.Proof.KI

end
-- ==== Proof.GeomBody.lean ====
/-
  The printed loop bodies are the canonical ones. The three loops of the task's second half make 25, 2 and 7 trips. The
  offsets the printed bodies compute have closed forms in the trip `t`: ring slot `t mod 7` and index row `t` for the
  gather a trip starts; from trip 7 on, slot `t mod 7` again for the copy out it first waits for; from trip 2 on, slot
  `(t - 2) mod 7` and the first row of chunk `t - 2` for the gather it then waits for and the copy out it starts; in the
  loop of the last two copies out, slot `(t + 23) mod 7` and the first row of chunk `t + 23`; in the drain, slot
  `(t + 18) mod 7`. The two conditions of the main loop's body hold from trip 7 on and from trip 2 on. An operation over
  a slice is determined by the slice's offsets, whatever the in-bounds evidence: so each printed operation is the canonical
  one at the closed form, and each printed body the canonical body at the trip's number. Last, the semaphores of ring slot
  `b` by their numbers in the subcore's pool: `2 + b` for the gather into it, `9 + b` for the copy out of it.
-/
import proofs.«206633_g8486855377485_cont_9to1_m_27_20_alg».proof.Proof.Canon

set_option synthInstance.maxSize 4096
set_option Elab.async false

noncomputable section

namespace Cert.Proof.KI

open Cert.KernelIdeal Cert.KernelIdeal.Gen

open Idealize.ShloMosaic Idealize.SL.Sem
open Idealize.ShloMosaic.SparseCore (S V T)

variable {F : FTy → Type}

/-! ## Trip counts, conditions, and the offsets under the second condition -/

theorem trips3 : k0_t3_loop.trips = 25 := by decide
theorem trips4 : k0_t4_loop.trips = 2 := by decide
theorem trips5 : k0_t5_loop.trips = 7 := by decide

theorem trip3_lt (t : Fin k0_t3_loop.trips) : t.val < 25 := Nat.lt_of_lt_of_le t.isLt (Nat.le_of_eq trips3)
theorem trip4_lt (t : Fin k0_t4_loop.trips) : t.val < 2 := Nat.lt_of_lt_of_le t.isLt (Nat.le_of_eq trips4)
theorem trip5_lt (t : Fin k0_t5_loop.trips) : t.val < 7 := Nat.lt_of_lt_of_le t.isLt (Nat.le_of_eq trips5)

/-- The main loop's body waits for a copy out from trip 7 on; -/
theorem cond3_iff : ∀ t : Fin k0_t3_loop.trips, k0_cond3 t = 1#1 ↔ 7 ≤ t.val := by decide +kernel
/-- it waits for a gather and starts its copy out from trip 2 on. -/
theorem cond4_iff : ∀ t : Fin k0_t3_loop.trips, k0_cond4 t = 1#1 ↔ 2 ≤ t.val := by decide +kernel

/-- From trip 2 on: the ring slot of chunk `t - 2`, -/
theorem k0_off8_eq : ∀ t : Fin k0_t3_loop.trips, k0_cond4 t = 1#1 → k0_off8 t = ![(t.val - 2) % 7, 0, 0] := by decide +kernel
/-- its semaphores, -/
theorem k0_off9_eq : ∀ t : Fin k0_t3_loop.trips, k0_cond4 t = 1#1 → k0_off9 t = ![(t.val - 2) % 7] := by decide +kernel
/-- and its first row in the result. -/
theorem k0_off10_eq : ∀ (i : grid0.Coords) (t : Fin k0_t3_loop.trips), k0_cond4 t = 1#1 →
    k0_off10 i t = ![min (256 * (i 1).val + 128 * (i 0).val + 4096 * (t.val - 2)) 99872, 0] := by decide +kernel

variable [FloatOps F] (L : grid0.Coords)

/-- The first row of chunk `t + 23`, in the loop of the last two copies out: `4096 t + 94208 = 4096 (t + 23)`. -/
theorem k0_off13_eq_off (t : Fin k0_t4_loop.trips) : k0_off13 L t = ![offL L (t.val + 23), 0] := by
  rw [k0_off13_eq L t]
  have h : min (256 * (L 1).val + 128 * (L 0).val + 4096 * t.val + 94208) 99872 = offL L (t.val + 23) := by
    unfold offL Cert.Chunks.off; omega
  rw [h]

/-! ## An operation over slices at equal offsets is the same operation

Each canonical operation, written out over slices at ARBITRARY offsets with arbitrary in-bounds evidence: at the canonical
offsets it is the canonical operation. -/

theorem waitW_congr (o3 : Fin 3 → ℕ) (h3 : ∀ a, o3 a + S1x128x128.size a ≤ S7x128x128.size a)
    (o4 : Fin 1 → ℕ) (h4 : ∀ a, o4 a + S1.size a ≤ S7.size a) (b : ℕ) (hb : b < 7) (e3 : o3 = ![b, 0, 0]) (e4 : o4 = ![b]) :
    (Prog.lift (.waitDma2 ((cc0_scratch6.slice (Rect.unit (s := S7) o4 S1.size h4)).squeeze S_ squeezes_S1_S_).sem
        ((rV.slice (Rect.unit (s := S7x128x128) o3 S1x128x128.size h3) (fun _ => rfl)).squeeze S128x128 squeezes_S1x128x128_S128x128)
        (oV.slice (Rect.unit (s := S100000x128) ![0, 0] S128x128.size inb_S100000x128_S128x128_0_0) (fun _ => rfl))
        ((View.wordExact_bits rfl).reshape _ _) (View.wordExact_bits rfl)) : Prog (TileEff (F := F) L) PUnit)
      = waitW L b hb := by
  subst e3 e4; rfl

theorem gatherG_congr (o5 : Fin 3 → ℕ) (h5 : ∀ a, o5 a + S1x128x128.size a ≤ S7x128x128.size a)
    (o6 : Fin 2 → ℕ) (h6 : ∀ a, o6 a + S1x128.size a ≤ S25x128.size a)
    (o7 : Fin 1 → ℕ) (h7 : ∀ a, o7 a + S1.size a ≤ S7.size a) (j : ℕ) (hj : j < 25) (b : ℕ) (hb : b < 7)
    (e5 : o5 = ![b, 0, 0]) (e6 : o6 = ![j, 0]) (e7 : o7 = ![b]) :
    (SparseCore.enqueueIndirectGather rfl
        (shV.slice (Rect.unit (s := S100x128) ![0, 0] S100x128.size inb_S100x128_S100x128_0_0) (fun _ => rfl))
        ((rV.slice (Rect.unit (s := S7x128x128) o5 S1x128x128.size h5) (fun _ => rfl)).squeeze S128x128 squeezes_S1x128x128_S128x128)
        gathers_S100x128_S128x128
        ((iV.slice (Rect.unit (s := S25x128) o6 S1x128.size h6) (fun _ => rfl)).squeeze S128 squeezes_S1x128_S128) rfl
        ((cc0_scratch5.slice (Rect.unit (s := S7) o7 S1.size h7)).squeeze S_ squeezes_S1_S_).sem
        (View.wordExact_bits rfl) rfl (Or.inr rfl) : Prog (TileEff (F := F) L) PUnit)
      = gatherG L j hj b hb := by
  subst e5 e6 e7; rfl

theorem waitG_congr (o8 : Fin 3 → ℕ) (h8 : ∀ a, o8 a + S1x128x128.size a ≤ S7x128x128.size a)
    (o9 : Fin 1 → ℕ) (h9 : ∀ a, o9 a + S1.size a ≤ S7.size a) (b : ℕ) (hb : b < 7) (e8 : o8 = ![b, 0, 0]) (e9 : o9 = ![b]) :
    (SparseCore.waitIndirectGather ((cc0_scratch5.slice (Rect.unit (s := S7) o9 S1.size h9)).squeeze S_ squeezes_S1_S_).sem
        (shV.slice (Rect.unit (s := S100x128) ![0, 0] S100x128.size inb_S100x128_S100x128_0_0) (fun _ => rfl))
        ((rV.slice (Rect.unit (s := S7x128x128) o8 S1x128x128.size h8) (fun _ => rfl)).squeeze S128x128 squeezes_S1x128x128_S128x128)
        (View.wordExact_bits rfl) ((View.wordExact_bits rfl).reshape _ _) : Prog (TileEff (F := F) L) PUnit)
      = waitG L b hb := by
  subst e8 e9; rfl

theorem copyW_congr (o8 : Fin 3 → ℕ) (h8 : ∀ a, o8 a + S1x128x128.size a ≤ S7x128x128.size a)
    (o9 : Fin 1 → ℕ) (h9 : ∀ a, o9 a + S1.size a ≤ S7.size a)
    (o10 : Fin 2 → ℕ) (h10 : ∀ a, o10 a + S128x128.size a ≤ S100000x128.size a)
    (b : ℕ) (hb : b < 7) (o : ℕ) (ho : o + 128 ≤ 100000) (e8 : o8 = ![b, 0, 0]) (e9 : o9 = ![b]) (e10 : o10 = ![o, 0]) :
    (Prog.lift (.enqueueDma
        ((rV.slice (Rect.unit (s := S7x128x128) o8 S1x128x128.size h8) (fun _ => rfl)).squeeze S128x128 squeezes_S1x128x128_S128x128)
        (.here (oV.slice (Rect.unit (s := S100000x128) o10 S128x128.size h10) (fun _ => rfl)))
        (.dma ((cc0_scratch6.slice (Rect.unit (s := S7) o9 S1.size h9)).squeeze S_ squeezes_S1_S_).sem)
        ((View.wordExact_bits rfl).reshape _ _) (View.wordExact_bits rfl) ⟨Or.inl rfl, trivial⟩) : Prog (TileEff (F := F) L) PUnit)
      = copyW L b hb o ho := by
  subst e8 e9 e10; rfl

/-! ## The printed bodies are the canonical ones

The canonical body's operations are restated over the printed slices (each at its closed form); what is left differs from
the printed body in in-bounds evidence only. -/

/-- The drain's trip `t` waits for the copy out of chunk `18 + t`. -/
theorem body5_eq (t : Fin k0_t5_loop.trips) (u : Unit) :
    k0_t5_body (F := F) L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 t u
      = body5 L t.val := by
  unfold k0_t5_body body5
  rw [← waitW_congr L (k0_off14 t) (k0_off14_inb t) (k0_off15 t) (k0_off15_inb t) ((t.val + 18) % 7) _ (k0_off14_eq t) (k0_off15_eq t)]

/-- Trip `t` of the loop of the last two copies out waits for the gather of chunk `23 + t` and starts its copy out. -/
theorem body4_eq (t : Fin k0_t4_loop.trips) (u : Unit) :
    k0_t4_body (F := F) L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 t u
      = body4 L t.val := by
  unfold k0_t4_body body4
  rw [← waitG_congr L (k0_off11 t) (k0_off11_inb t) (k0_off12 t) (k0_off12_inb t) ((t.val + 23) % 7) _ (k0_off11_eq t) (k0_off12_eq t),
    ← copyW_congr L (k0_off11 t) (k0_off11_inb t) (k0_off12 t) (k0_off12_inb t) (k0_off13 L t) (k0_off13_inb L t)
        ((t.val + 23) % 7) _ (offL L (t.val + 23)) _ (k0_off11_eq t) (k0_off12_eq t) (k0_off13_eq_off L t)]

/-- Trip `t` of the main loop: by cases on `7 ≤ t` and `2 ≤ t`, which decide the body's two conditions. -/
theorem body3_eq (t : Fin k0_t3_loop.trips) (u : Unit) :
    k0_t3_body (F := F) L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 t u
      = body3 L t.val (trip3_lt t) := by
  unfold k0_t3_body body3
  rw [← gatherG_congr L (k0_off5 t) (k0_off5_inb t) (k0_off6 t) (k0_off6_inb t) (k0_off7 t) (k0_off7_inb t) t.val _ (t.val % 7) _
      (k0_off5_eq t) (k0_off6_eq t) (k0_off7_eq t)]
  by_cases h7 : 7 ≤ t.val
  · -- from trip 7 on both conditions hold
    have h2 : 2 ≤ t.val := by omega
    have hc3 : k0_cond3 t = 1#1 := (cond3_iff t).2 h7
    have hc4 : k0_cond4 t = 1#1 := (cond4_iff t).2 h2
    rw [dif_pos hc3, dif_pos hc4, if_pos h7, if_pos h2]
    rw [← waitW_congr L (k0_off3 t) (k0_off3_inb t hc3) (k0_off4 t) (k0_off4_inb t hc3) (t.val % 7) _ (k0_off3_eq t) (k0_off4_eq t),
      ← waitG_congr L (k0_off8 t) (k0_off8_inb t hc4) (k0_off9 t) (k0_off9_inb t hc4) ((t.val - 2) % 7) _ (k0_off8_eq t hc4) (k0_off9_eq t hc4),
      ← copyW_congr L (k0_off8 t) (k0_off8_inb t hc4) (k0_off9 t) (k0_off9_inb t hc4) (k0_off10 L t) (k0_off10_inb L t hc4)
          ((t.val - 2) % 7) _ (offL L (t.val - 2)) _ (k0_off8_eq t hc4) (k0_off9_eq t hc4) (k0_off10_eq L t hc4)]
  · have hc3 : ¬ k0_cond3 t = 1#1 := fun h => h7 ((cond3_iff t).1 h)
    by_cases h2 : 2 ≤ t.val
    · -- trips 2 to 6: the second condition only
      have hc4 : k0_cond4 t = 1#1 := (cond4_iff t).2 h2
      rw [dif_neg hc3, dif_pos hc4, if_neg h7, if_pos h2]
      rw [← waitG_congr L (k0_off8 t) (k0_off8_inb t hc4) (k0_off9 t) (k0_off9_inb t hc4) ((t.val - 2) % 7) _ (k0_off8_eq t hc4) (k0_off9_eq t hc4),
        ← copyW_congr L (k0_off8 t) (k0_off8_inb t hc4) (k0_off9 t) (k0_off9_inb t hc4) (k0_off10 L t) (k0_off10_inb L t hc4)
            ((t.val - 2) % 7) _ (offL L (t.val - 2)) _ (k0_off8_eq t hc4) (k0_off9_eq t hc4) (k0_off10_eq L t hc4)]
    · -- trips 0 and 1: neither
      have hc4 : ¬ k0_cond4 t = 1#1 := fun h => h2 ((cond4_iff t).1 h)
      rw [dif_neg hc3, dif_neg hc4, if_neg h7, if_neg h2]

/-! ## The semaphores by number

The gathers' seven semaphores are laid on the subcore's pool from number 2 on, the copies' from number 9 on, in row-major
order; an array of rank one numbers its entries by their coordinate, and the slice at offset `b` of one entry names entry
`b`. -/

/-- The semaphore of the gather into ring slot `b` is number `2 + b` of the pool. -/
theorem semG_eq (b : ℕ) (hb : b < 7) : semG b hb = (⟨2 + b, by show 2 + b < 16; omega⟩ : DmaSem sig) := by
  apply Fin.ext
  show 2 + (S7.rowMajor _).val = 2 + b
  rw [Shape.rowMajor_val_one, Rect.emb_apply]
  have key : ∀ x : Fin 1, 2 + (b + 1 * x.val) = 2 + b := fun x => by have := x.isLt; omega
  exact key _

/-- The semaphore of the copy out of ring slot `b` is number `9 + b` of the pool. -/
theorem semW_eq (b : ℕ) (hb : b < 7) : semW b hb = (⟨9 + b, by show 9 + b < 16; omega⟩ : DmaSem sig) := by
  apply Fin.ext
  show 9 + (S7.rowMajor _).val = 9 + b
  rw [Shape.rowMajor_val_one, Rect.emb_apply]
  have key : ∀ x : Fin 1, 9 + (b + 1 * x.val) = 9 + b := fun x => by have := x.isLt; omega
  exact key _

end Cert.Proof.KI

end
-- ==== Proof.LoopsB.lean ====
/-
  The three loops of a vector subcore's second half as walks through the chunk phases: the main loop's trip `t` finishes
  the copy out of chunk `t - 7`, starts the gather of chunk `t` and turns the gather of chunk `t - 2` into its copy out; the
  second loop does the last for chunks 23 and 24; the third finishes the copies out of chunks 18 to 24.
-/
import proofs.«206633_g8486855377485_cont_9to1_m_27_20_alg».proof.Proof.StepsB
import proofs.«206633_g8486855377485_cont_9to1_m_27_20_alg».proof.Proof.GeomBody

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

theorem waitW_idx {b b' : ℕ} (e : b = b') (hb : b < 7) (hb' : b' < 7) : waitW (F := F) L b hb = waitW L b' hb' := by
  subst e; rfl

/-- What every step needs of the transfers: their sizes, that a chunk's index words name rows of the table, what a gather
    brings, and that write mode admits its copy out. -/
structure StepFacts (NG NW : ℕ) : Prop where
  gsum : ∀ (b : ℕ) (hb : b < 7), ∑ r, ((slotM b hb).slice (S128x128.rowRect gathers_S100x128_S128x128.axis' r)
      (S128x128.stride_rowRect gathers_S100x128_S128x128.axis' r)).view.dmaCredit = NG
  gcred : ∀ (b : ℕ) (hb : b < 7), (slotM b hb).view.dmaCredit = NG
  wamt : ∀ (o : ℕ) (ho : o + 128 ≤ 100000) (b : ℕ) (hb : b < 7), (outM o ho).view.amount (SemLoc.dma (semW b hb)) = NW
  wcred : (outM 0 (by omega)).view.dmaCredit = NW
  wpos : 0 < NW
  hin : ∀ (j : ℕ) (hj : j < 25) x, ((idxRowM j hj).view.read (Elt F) (idxOf m d L) x).toNat < S100x128.size gathers_S100x128_S128x128.axis
  hval : ∀ (j : ℕ) (hj : j < 25) (b : ℕ) (hb : b < 7) (fd : Buf (Elt F) ((slotM b hb).view.loc (V d (cV L) (jV L))))
    (i : Idx ((slotM b hb).view.loc (V d (cV L) (jV L)))), i ∈ (slotM b hb).view.set →
      (slotM b hb).view.write (Elt F) fd
        (SparseCore.gatherPayload gathers_S100x128_S128x128 (shM.view.read (Elt F) (tbl m d (cV L)))
          (SparseCore.rows ((idxRowM j hj).view.read (Elt F) (idxOf m d L)) rfl (hin j hj))) Finset.univ i = gath L m d j i
  hadm : ∀ (j : ℕ) (hj : j < 25) (b : ℕ) (hb : b < 7),
    (outM (offL L j) (off_inb _ _ _)).view.Admitted (Elt F) (tgt m d) ((slotM b hb).view.read (Elt F) (gath L m d j)) Finset.univ

variable {NG NW : ℕ} (sf : StepFacts m d L NG NW)
include sf

omit sf in
/-- What the loops carry: the evidence for the waits, the write-mode invariant, the state, what is owed. -/
def LI (O : CellTallies nD τ sig (HIx 1)) (W : Waits sig (HIx 1)) (g w dn : ℕ) : sProp 𝕄 :=
  iprop(Transfers.MayWaits (V d (cV L) (jV L)) (none : HIx 1) O ∗ (∃ ιwm : ℕ, wmInv (Ix := HIx 1) (Name := ℕ) (Lvl := ℕ) (EW (F := F)) ιwm)
    ∗ St m d L NG NW g w dn ∗ owesEx d L O W)

/-- Trip `t` of the main loop. -/
theorem trip3 (O : CellTallies nD τ sig (HIx 1)) (W : Waits sig (HIx 1)) (t : ℕ) (ht : t < 25) :
    LI (NG := NG) (NW := NW) m d L O W t (t - 2) (t - 7)
      ⊢ wp frame (wpE (defs₀ (F := F)) 𝒱₀ (V d (cV L) (jV L)) none) Set.univ (body3 L t ht)
          (fun _ => LI (NG := NG) (NW := NW) m d L O W (t + 1) (t + 1 - 2) (t + 1 - 7)) := by
  unfold LI body3
  iintro ⟨#Hmw, #Hwm, HSt, HO⟩
  by_cases h2 : 2 ≤ t
  · by_cases h7 : 7 ≤ t
    · rw [if_pos h7, if_pos h2]
      simp only [bind_assoc, pure_bind]
      rw [waitW_idx L (show t % 7 = (t - 7) % 7 by omega) (mod7 _) (mod7 _)]
      iapply (stepDrain m d L NG NW sf.wcred O W t (t - 2) (t - 7) (by omega) (by omega) (by omega) (by omega) _ _) $$ [HSt HO]
      · isplitr; · iexact Hmw
        isplitl [HSt]; · iexact HSt
        iexact HO
      iintro ⟨HSt, HO⟩
      iapply (stepGather m d L NG NW t (t - 2) (t - 7 + 1) ht (by omega) (by omega) (by omega) (sf.gsum _ _) (sf.hin t ht) (sf.hval t ht _ _) _ _) $$ HSt
      iintro HSt
      iapply (stepCopy m d L NG NW (t + 1) (t - 2) (t - 7 + 1) (by omega) (by omega) (by omega) (sf.gcred _ _) (sf.wamt _ _ _ _) sf.wpos
        (sf.hadm (t - 2) (by omega) _ _) O W _ _) $$ [HSt HO]
      · isplitr; · iexact Hmw
        isplitr; · iexact Hwm
        isplitl [HSt]; · iexact HSt
        iexact HO
      iintro ⟨HSt, HO⟩
      rw [wp_pure]
      imodintro
      rw [show t + 1 - 2 = t - 2 + 1 by omega, show t + 1 - 7 = t - 7 + 1 by omega]
      isplitr; · iexact Hmw
      isplitr; · iexact Hwm
      isplitl [HSt]; · iexact HSt
      iexact HO
    · rw [if_neg h7, if_pos h2]
      simp only [bind_assoc, pure_bind]
      iapply (stepGather m d L NG NW t (t - 2) (t - 7) ht (by omega) (by omega) (by omega) (sf.gsum _ _) (sf.hin t ht) (sf.hval t ht _ _) _ _) $$ HSt
      iintro HSt
      iapply (stepCopy m d L NG NW (t + 1) (t - 2) (t - 7) (by omega) (by omega) (by omega) (sf.gcred _ _) (sf.wamt _ _ _ _) sf.wpos
        (sf.hadm (t - 2) (by omega) _ _) O W _ _) $$ [HSt HO]
      · isplitr; · iexact Hmw
        isplitr; · iexact Hwm
        isplitl [HSt]; · iexact HSt
        iexact HO
      iintro ⟨HSt, HO⟩
      rw [wp_pure]
      imodintro
      rw [show t + 1 - 2 = t - 2 + 1 by omega, show t + 1 - 7 = t - 7 by omega]
      isplitr; · iexact Hmw
      isplitr; · iexact Hwm
      isplitl [HSt]; · iexact HSt
      iexact HO
  · rw [if_neg (show ¬ 7 ≤ t by omega), if_neg h2]
    simp only [bind_assoc, pure_bind]
    iapply (stepGather m d L NG NW t (t - 2) (t - 7) ht (by omega) (by omega) (by omega) (sf.gsum _ _) (sf.hin t ht) (sf.hval t ht _ _) _ _) $$ HSt
    iintro HSt
    rw [wp_pure]
    imodintro
    rw [show t + 1 - 2 = t - 2 by omega, show t + 1 - 7 = t - 7 by omega]
    isplitr; · iexact Hmw
    isplitr; · iexact Hwm
    isplitl [HSt]; · iexact HSt
    iexact HO

/-- Trip `k` of the loop of the last two copies out. -/
theorem trip4 (O : CellTallies nD τ sig (HIx 1)) (W : Waits sig (HIx 1)) (k : ℕ) (hk : k < 2) :
    LI (NG := NG) (NW := NW) m d L O W 25 (k + 23) 18
      ⊢ wp frame (wpE (defs₀ (F := F)) 𝒱₀ (V d (cV L) (jV L)) none) Set.univ (body4 L k)
          (fun _ => LI (NG := NG) (NW := NW) m d L O W 25 (k + 1 + 23) 18) := by
  unfold LI body4
  iintro ⟨#Hmw, #Hwm, HSt, HO⟩
  simp only [bind_assoc, pure_bind]
  iapply (stepCopy m d L NG NW 25 (k + 23) 18 (by omega) (by omega) (by omega) (sf.gcred _ _) (sf.wamt _ _ _ _) sf.wpos
    (sf.hadm (k + 23) (by omega) _ _) O W _ _) $$ [HSt HO]
  · isplitr; · iexact Hmw
    isplitr; · iexact Hwm
    isplitl [HSt]; · iexact HSt
    iexact HO
  iintro ⟨HSt, HO⟩
  rw [wp_pure]
  imodintro
  rw [show k + 1 + 23 = k + 23 + 1 by omega]
  isplitr; · iexact Hmw
  isplitr; · iexact Hwm
  isplitl [HSt]; · iexact HSt
  iexact HO

/-- Trip `k` of the drain. -/
theorem trip5 (O : CellTallies nD τ sig (HIx 1)) (W : Waits sig (HIx 1)) (k : ℕ) (hk : k < 7) :
    LI (NG := NG) (NW := NW) m d L O W 25 25 (k + 18)
      ⊢ wp frame (wpE (defs₀ (F := F)) 𝒱₀ (V d (cV L) (jV L)) none) Set.univ (body5 L k)
          (fun _ => LI (NG := NG) (NW := NW) m d L O W 25 25 (k + 1 + 18)) := by
  unfold LI body5
  iintro ⟨#Hmw, #Hwm, HSt, HO⟩
  simp only [bind_assoc, pure_bind]
  iapply (stepDrain m d L NG NW sf.wcred O W 25 25 (k + 18) (by omega) (by omega) (by omega) (by omega) _ _) $$ [HSt HO]
  · isplitr; · iexact Hmw
    isplitl [HSt]; · iexact HSt
    iexact HO
  iintro ⟨HSt, HO⟩
  rw [wp_pure]
  imodintro
  rw [show k + 1 + 18 = k + 18 + 1 by omega]
  isplitr; · iexact Hmw
  isplitr; · iexact Hwm
  isplitl [HSt]; · iexact HSt
  iexact HO

/-- The main loop: from nothing started to 25 gathers started, 23 of them waited for, 18 copies out finished. -/
theorem loop3 (O : CellTallies nD τ sig (HIx 1)) (W : Waits sig (HIx 1)) {α : Type} (kk : Unit → Prog (TileEff (F := F) L) α) (Q : α → sProp 𝕄) :
    LI (NG := NG) (NW := NW) m d L O W 0 0 0
      ⊢ iprop((LI (NG := NG) (NW := NW) m d L O W 25 23 18 -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (Scf.Loop.for k0_t3_loop k0_t3_ok ⟨⟩ (k0_t3_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6) >>= kk) Q) := by
  have hbody : ∀ (k : Fin k0_t3_loop.trips) (acc : Unit), LI (NG := NG) (NW := NW) m d L O W k.val (k.val - 2) (k.val - 7)
      ⊢ wp frame (wpE (defs₀ (F := F)) 𝒱₀ (V d (cV L) (jV L)) none) Set.univ
          (k0_t3_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
          (fun _ => LI (NG := NG) (NW := NW) m d L O W (k.val + 1) (k.val + 1 - 2) (k.val + 1 - 7)) := by
    intro k acc
    rw [body3_eq L k acc]
    exact trip3 m d L sf O W k.val (trip3_lt k)
  have h := Scf.wp_for_bind frame (wpE (defs₀ (F := F)) 𝒱₀ (V d (cV L) (jV L)) none) Set.univ k0_t3_loop.lb k0_t3_loop.ub k0_t3_loop.st k0_t3_ok ()
    (k0_t3_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
    (fun k _ => LI (NG := NG) (NW := NW) m d L O W k (k - 2) (k - 7)) hbody (kk := kk) (Q := Q)
  have e : Scf.trips k0_t3_loop.lb k0_t3_loop.ub k0_t3_loop.st = 25 := trips3
  rw [e] at h
  iintro HI Hk
  iapply h $$ [HI]
  · iexact HI
  iintro %acc HI
  iapply Hk
  iexact HI

/-- The loop of the last two copies out. -/
theorem loop4 (O : CellTallies nD τ sig (HIx 1)) (W : Waits sig (HIx 1)) {α : Type} (kk : Unit → Prog (TileEff (F := F) L) α) (Q : α → sProp 𝕄) :
    LI (NG := NG) (NW := NW) m d L O W 25 23 18
      ⊢ iprop((LI (NG := NG) (NW := NW) m d L O W 25 25 18 -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (Scf.Loop.for k0_t4_loop k0_t4_ok ⟨⟩ (k0_t4_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6) >>= kk) Q) := by
  have hbody : ∀ (k : Fin k0_t4_loop.trips) (acc : Unit), LI (NG := NG) (NW := NW) m d L O W 25 (k.val + 23) 18
      ⊢ wp frame (wpE (defs₀ (F := F)) 𝒱₀ (V d (cV L) (jV L)) none) Set.univ
          (k0_t4_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
          (fun _ => LI (NG := NG) (NW := NW) m d L O W 25 (k.val + 1 + 23) 18) := by
    intro k acc
    rw [body4_eq L k acc]
    exact trip4 m d L sf O W k.val (trip4_lt k)
  have h := Scf.wp_for_bind frame (wpE (defs₀ (F := F)) 𝒱₀ (V d (cV L) (jV L)) none) Set.univ k0_t4_loop.lb k0_t4_loop.ub k0_t4_loop.st k0_t4_ok ()
    (k0_t4_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
    (fun k _ => LI (NG := NG) (NW := NW) m d L O W 25 (k + 23) 18) hbody (kk := kk) (Q := Q)
  have e : Scf.trips k0_t4_loop.lb k0_t4_loop.ub k0_t4_loop.st = 2 := trips4
  rw [e] at h
  iintro HI Hk
  iapply h $$ [HI]
  · iexact HI
  iintro %acc HI
  iapply Hk
  iexact HI

/-- The drain of the copies out still in flight. -/
theorem loop5 (O : CellTallies nD τ sig (HIx 1)) (W : Waits sig (HIx 1)) {α : Type} (kk : Unit → Prog (TileEff (F := F) L) α) (Q : α → sProp 𝕄) :
    LI (NG := NG) (NW := NW) m d L O W 25 25 18
      ⊢ iprop((LI (NG := NG) (NW := NW) m d L O W 25 25 25 -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (Scf.Loop.for k0_t5_loop k0_t5_ok ⟨⟩ (k0_t5_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6) >>= kk) Q) := by
  have hbody : ∀ (k : Fin k0_t5_loop.trips) (acc : Unit), LI (NG := NG) (NW := NW) m d L O W 25 25 (k.val + 18)
      ⊢ wp frame (wpE (defs₀ (F := F)) 𝒱₀ (V d (cV L) (jV L)) none) Set.univ
          (k0_t5_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
          (fun _ => LI (NG := NG) (NW := NW) m d L O W 25 25 (k.val + 1 + 18)) := by
    intro k acc
    rw [body5_eq L k acc]
    exact trip5 m d L sf O W k.val (trip5_lt k)
  have h := Scf.wp_for_bind frame (wpE (defs₀ (F := F)) 𝒱₀ (V d (cV L) (jV L)) none) Set.univ k0_t5_loop.lb k0_t5_loop.ub k0_t5_loop.st k0_t5_ok ()
    (k0_t5_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
    (fun k _ => LI (NG := NG) (NW := NW) m d L O W 25 25 (k + 18)) hbody (kk := kk) (Q := Q)
  have e : Scf.trips k0_t5_loop.lb k0_t5_loop.ub k0_t5_loop.st = 7 := trips5
  rw [e] at h
  iintro HI Hk
  iapply h $$ [HI]
  · iexact HI
  iintro %acc HI
  iapply Hk
  iexact HI

end Cert.Proof.KI

end
-- ==== Proof.GeomSets.lean ====
/-
  The geometry of one subcore's second half. The canonical views of the row ring, the index scratch, the result and the
  shared table sit in the buffers they were cut from; the seven ring slots are pairwise disjoint blocks of the row
  buffers and cover them, the twenty-five rows of the index scratch likewise, so holding a buffer outright is holding
  its slots (rows) outright, and back; the 128 rows of the result from the first row of a chunk on are the chunk; the
  gathers' name of the shared table is all of it; and a gather into a slot and a copy out of one each move
  128 × 128 × 32 bits.
-/
import proofs.«206633_g8486855377485_cont_9to1_m_27_20_alg».proof.Proof.Canon
import proofs.«206633_g8486855377485_cont_9to1_m_27_20_alg».proof.Proof.ChunksCover

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (d : Dev nD) (L : grid0.Coords)

/-! ## Where the canonical views sit -/

theorem slotM_loc (b : ℕ) (hb : b < 7) : (slotM b hb).view.loc (V d (cV L) (jV L)) = (V d (cV L) (jV L)).loc cc0_scratch1 := rfl
theorem idxRowM_loc (j : ℕ) (hj : j < 25) : (idxRowM j hj).view.loc (V d (cV L) (jV L)) = (V d (cV L) (jV L)).loc cc0_scratch0 := rfl
theorem outM_loc (o : ℕ) (ho : o + 128 ≤ 100000) : (outM o ho).view.loc (V d (cV L) (jV L)) = oLoc d := rfl
theorem shM_loc : shM.view.loc (V d (cV L) (jV L)) = shLoc d (cV L) := rfl

/-! ## The ring slots: seven disjoint blocks of the row buffers that cover them -/

/-- The elements of ring slot `b`, as indices of the row buffers. -/
abbrev slotSet (b : ℕ) (hb : b < 7) : Finset S7x128x128.Idx := (slotM b hb).view.set

/-- They are those of the unit-stride block at leading coordinate `b`. -/
theorem slotSet_eq_rect (b : ℕ) (hb : b < 7) :
    slotSet b hb = (Rect.unit (s := S7x128x128) ![b, 0, 0] S1x128x128.size (slot_inb b hb)).set := by
  show (((rV).view.slice (Rect.unit (s := S7x128x128) ![b, 0, 0] S1x128x128.size (slot_inb b hb))).reshape S128x128 squeezes_S1x128x128_S128x128.numel_eq).set = _
  rw [View.set_reshape]
  exact View.set_slice_whole _ _

/-- An element of the row buffers lies in slot `b` when its leading coordinate is `b`. -/
theorem mem_slotSet (b : ℕ) (hb : b < 7) (i : S7x128x128.Idx) : i ∈ slotSet b hb ↔ (i 0).val = b := by
  rw [slotSet_eq_rect, Rect.mem_set_unit]
  constructor
  · intro h
    have h0 : b ≤ (i 0).val ∧ (i 0).val < b + 1 := h 0
    omega
  · intro h a
    match a with
    | ⟨0, _⟩ => show b ≤ (i 0).val ∧ (i 0).val < b + 1; omega
    | ⟨1, _⟩ => exact ⟨Nat.zero_le _, by have h : (i 1).val < 128 := (i 1).isLt; show (i 1).val < 0 + 128; omega⟩
    | ⟨2, _⟩ => exact ⟨Nat.zero_le _, by have h : (i 2).val < 128 := (i 2).isLt; show (i 2).val < 0 + 128; omega⟩

/-- Two different slots share no element. -/
theorem slots_disjoint : ∀ b ∈ (Finset.univ : Finset (Fin 7)), ∀ b' ∈ (Finset.univ : Finset (Fin 7)), b ≠ b' →
    Disjoint (slotSet b.val b.isLt) (slotSet b'.val b'.isLt) := by
  intro b _ b' _ h
  refine Finset.disjoint_left.mpr fun i hi hi' => h (Fin.ext ?_)
  rw [mem_slotSet] at hi hi'
  omega

/-- The seven slots cover the row buffers. -/
theorem slots_cover : (Finset.univ : Finset (Fin 7)).biUnion (fun b => slotSet b.val b.isLt) = Finset.univ := by
  ext i
  simp only [Finset.mem_biUnion, Finset.mem_univ, true_and, iff_true]
  exact ⟨⟨(i 0).val, (i 0).isLt⟩, (mem_slotSet _ _ i).mpr rfl⟩

/-- The row buffers held outright are the seven ring slots held outright. -/
theorem rows_split (f : Buf (Elt F) ((V d (cV L) (jV L)).loc cc0_scratch1)) :
    (((V d (cV L) (jV L)).loc cc0_scratch1 ↦{fullShare} f : sProp 𝕄))
      = bigSep Finset.univ fun b : Fin 7 => (slotM b.val b.isLt).view.loc (V d (cV L) (jV L)) ↦[(slotM b.val b.isLt).view.set]{fullShare} f :=
  (congrArg (fun I : Finset S7x128x128.Idx => ((V d (cV L) (jV L)).loc cc0_scratch1 ↦[I]{fullShare} f : sProp 𝕄)) slots_cover.symm).trans
    (pointsTo_biUnion Finset.univ (ℓ := (V d (cV L) (jV L)).loc cc0_scratch1) (fun b : Fin 7 => slotSet b.val b.isLt) slots_disjoint)

/-! ## The index scratch: twenty-five disjoint rows that cover it -/

/-- The elements of row `j` of the index scratch. -/
abbrev idxRowSet (j : ℕ) (hj : j < 25) : Finset S25x128.Idx := (idxRowM j hj).view.set

theorem idxRowSet_eq_rect (j : ℕ) (hj : j < 25) :
    idxRowSet j hj = (Rect.unit (s := S25x128) ![j, 0] S1x128.size (idxRow_inb j hj)).set := by
  show (((iV).view.slice (Rect.unit (s := S25x128) ![j, 0] S1x128.size (idxRow_inb j hj))).reshape S128 squeezes_S1x128_S128.numel_eq).set = _
  rw [View.set_reshape]
  exact View.set_slice_whole _ _

theorem mem_idxRowSet (j : ℕ) (hj : j < 25) (i : S25x128.Idx) : i ∈ idxRowSet j hj ↔ (i 0).val = j := by
  rw [idxRowSet_eq_rect, Rect.mem_set_unit]
  constructor
  · intro h
    have h0 : j ≤ (i 0).val ∧ (i 0).val < j + 1 := h 0
    omega
  · intro h a
    match a with
    | ⟨0, _⟩ => show j ≤ (i 0).val ∧ (i 0).val < j + 1; omega
    | ⟨1, _⟩ => exact ⟨Nat.zero_le _, by have h : (i 1).val < 128 := (i 1).isLt; show (i 1).val < 0 + 128; omega⟩

theorem idxRows_disjoint : ∀ j ∈ (Finset.univ : Finset (Fin 25)), ∀ j' ∈ (Finset.univ : Finset (Fin 25)), j ≠ j' →
    Disjoint (idxRowSet j.val j.isLt) (idxRowSet j'.val j'.isLt) := by
  intro j _ j' _ h
  refine Finset.disjoint_left.mpr fun i hi hi' => h (Fin.ext ?_)
  rw [mem_idxRowSet] at hi hi'
  omega

theorem idxRows_cover : (Finset.univ : Finset (Fin 25)).biUnion (fun j => idxRowSet j.val j.isLt) = Finset.univ := by
  ext i
  simp only [Finset.mem_biUnion, Finset.mem_univ, true_and, iff_true]
  exact ⟨⟨(i 0).val, (i 0).isLt⟩, (mem_idxRowSet _ _ i).mpr rfl⟩

/-- The index scratch held outright is its twenty-five rows held outright. -/
theorem idx_split (f : Buf (Elt F) ((V d (cV L) (jV L)).loc cc0_scratch0)) :
    (((V d (cV L) (jV L)).loc cc0_scratch0 ↦{fullShare} f : sProp 𝕄))
      = bigSep Finset.univ fun j : Fin 25 => (idxRowM j.val j.isLt).view.loc (V d (cV L) (jV L)) ↦[(idxRowM j.val j.isLt).view.set]{fullShare} f :=
  (congrArg (fun I : Finset S25x128.Idx => ((V d (cV L) (jV L)).loc cc0_scratch0 ↦[I]{fullShare} f : sProp 𝕄)) idxRows_cover.symm).trans
    (pointsTo_biUnion Finset.univ (ℓ := (V d (cV L) (jV L)).loc cc0_scratch0) (fun j : Fin 25 => idxRowSet j.val j.isLt) idxRows_disjoint)

/-! ## The result's row blocks and the shared table -/

/-- The elements of the 128 rows of the result from row `o` on. -/
abbrev outMSet (o : ℕ) (ho : o + 128 ≤ 100000) : Finset S100000x128.Idx := (outM o ho).view.set

theorem mem_outMSet (o : ℕ) (ho : o + 128 ≤ 100000) (i : S100000x128.Idx) :
    i ∈ outMSet o ho ↔ o ≤ (i 0).val ∧ (i 0).val < o + 128 := by
  rw [show outMSet o ho = (Rect.unit (s := S100000x128) ![o, 0] S128x128.size (out_inb o ho)).set from View.set_slice_whole _ _,
    Rect.mem_set_unit]
  constructor
  · intro h; exact h 0
  · intro h a
    match a with
    | ⟨0, _⟩ => exact h
    | ⟨1, _⟩ => exact ⟨Nat.zero_le _, by have h : (i 1).val < 128 := (i 1).isLt; show (i 1).val < 0 + 128; omega⟩

theorem outM_set (o : ℕ) (ho : o + 128 ≤ 100000) :
    ∀ i : S100000x128.Idx, i ∈ outMSet o ho ↔ o ≤ (i 0).val ∧ (i 0).val < o + 128 := mem_outMSet o ho

/-- The rows of the result that the copy out of chunk `j` writes are the chunk. -/
theorem outM_set_off (j : ℕ) :
    (outM (offL L j) (off_inb _ _ _)).view.set = (Cert.Chunks.chunk (L 0).val (L 1).val j : Finset (Idx (oLoc d))) :=
  Finset.ext fun i => ((mem_outMSet (offL L j) (off_inb _ _ _) i).trans (Cert.Chunks.mem_chunk (L 0).val (L 1).val j i).symm)

/-- The gathers' name of the shared table covers all of it. -/
theorem shM_set : (shM.view.set : Finset S100x128.Idx) = Finset.univ := by
  have h : (shM.view.set : Finset S100x128.Idx) = (Rect.unit (s := S100x128) ![0, 0] S100x128.size inb_S100x128_S100x128_0_0).set := View.set_slice_whole _ _
  refine h.trans (Finset.eq_univ_iff_forall.mpr fun i => Rect.mem_set_unit.mpr fun a => ?_)
  match a with
  | ⟨0, _⟩ => exact ⟨Nat.zero_le _, by have h : (i 0).val < 100 := (i 0).isLt; show (i 0).val < 0 + 100; omega⟩
  | ⟨1, _⟩ => exact ⟨Nat.zero_le _, by have h : (i 1).val < 128 := (i 1).isLt; show (i 1).val < 0 + 128; omega⟩

/-! ## What the transfers credit their semaphores: the bits moved -/

/-- A gather into a ring slot moves 128 rows of 128 words of 32 bits. -/
def NG : ℕ := 524288
/-- A copy of a ring slot out to the result moves as many. -/
def NW : ℕ := 524288

theorem slot_credit (b : ℕ) (hb : b < 7) : (slotM b hb).view.dmaCredit = NG := rfl

theorem gather_credit (b : ℕ) (hb : b < 7) :
    ∑ r, ((slotM b hb).slice (S128x128.rowRect gathers_S100x128_S128x128.axis' r) (S128x128.stride_rowRect gathers_S100x128_S128x128.axis' r)).view.dmaCredit = NG := by
  show ∑ _r : Fin 128, RefSig.bitCredit (S128x128.rowShape gathers_S100x128_S128x128.axis') .f32 = NG
  rw [Finset.sum_const, Finset.card_univ, Fintype.card_fin]
  rfl

theorem out_amount (o : ℕ) (ho : o + 128 ≤ 100000) (b : ℕ) (hb : b < 7) : (outM o ho).view.amount (.dma (semW b hb)) = NW := rfl
theorem out_credit : (outM 0 (by omega)).view.dmaCredit = NW := rfl

variable [FloatOps F]

/-- The seven ring slots, each held outright at contents of its own, are the row buffers held outright at some contents. -/
theorem rows_join :
    (bigSep Finset.univ fun b : Fin 7 => iprop(∃ f : Buf (Elt F) ((V d (cV L) (jV L)).loc cc0_scratch1),
        (slotM b.val b.isLt).view.loc (V d (cV L) (jV L)) ↦[(slotM b.val b.isLt).view.set]{fullShare} (f : Buf (Elt F) ((slotM b.val b.isLt).view.loc (V d (cV L) (jV L))))))
      ⊢ (iprop(∃ f, (V d (cV L) (jV L)).loc cc0_scratch1 ↦{fullShare} f) : sProp 𝕄) := by
  refine (bigSep_exists_pi Finset.univ (fun (b : Fin 7) (f : Buf (Elt F) ((V d (cV L) (jV L)).loc cc0_scratch1)) =>
    ((V d (cV L) (jV L)).loc cc0_scratch1 ↦[slotSet b.val b.isLt]{fullShare} f : sProp 𝕄))).trans ?_
  iintro ⟨%fs, H⟩
  ihave H' := (pointsTo_biUnion_join Finset.univ (fun b : Fin 7 => slotSet b.val b.isLt) fs (fs 0) slots_disjoint) $$ H
  icases H' with ⟨%g, -, Hg⟩
  rw [slots_cover]
  iexists g; iexact Hg

end Cert.Proof.KI

end
-- ==== Proof.Value.lean ====
/-
  The values of one subcore's second half. Where the canonical views of the row ring, the index scratch, the result and
  the shared table put their indices, and so what they read; every index word of a chunk names a row of the table; the
  gather of chunk `j` into a ring slot writes, at row `k` of the slot, the row of the table that the `k`-th index word of
  the chunk names; and that is what the lookup has at row `k` of the chunk, so the copy of the slot out to the chunk's
  rows of the result is admitted by the result's targets.
-/
import proofs.«206633_g8486855377485_cont_9to1_m_27_20_alg».proof.Proof.Canon
import proofs.«206633_g8486855377485_cont_9to1_m_27_20_alg».proof.Proof.ChunksCover
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

open Idealize.ShloMosaic.ValueIdx

/-! ## Where the canonical views put their indices -/

/-- Entry `(x0, x1)` of ring slot `b` is entry `(b, x0, x1)` of the row buffers. -/
theorem slotM_emb (b : ℕ) (hb : b < 7) (x0 x1 : Fin 128) :
    (slotM b hb).view.emb (ix2 x0 x1) = (ix3 (⟨b, hb⟩ : Fin 7) x0 x1 : S7x128x128.Idx) := by
  show (Rect.unit (s := S7x128x128) ![b, 0, 0] S1x128x128.size (slot_inb b hb)).emb
      (Shape.reshapeEquiv squeezes_S1x128x128_S128x128.numel_eq (ix2 x0 x1)) = _
  rw [reshapeEquiv_ix2_1ab]
  funext a
  apply Fin.ext
  match a with
  | ⟨0, _⟩ => show b + 1 * 0 = b; omega
  | ⟨1, _⟩ => show 0 + 1 * x0.val = x0.val; omega
  | ⟨2, _⟩ => show 0 + 1 * x1.val = x1.val; omega

/-- Entry `k` of row `j` of the index scratch is its entry `(j, k)`. -/
theorem idxRowM_emb (j : ℕ) (hj : j < 25) (k : Fin 128) :
    (idxRowM j hj).view.emb (ix1 k) = (ix2 (⟨j, hj⟩ : Fin 25) k : S25x128.Idx) := by
  have hre : Shape.reshapeEquiv squeezes_S1x128_S128.numel_eq (ix1 k) = (ix2 (⟨0, Nat.one_pos⟩ : Fin 1) k : S1x128.Idx) :=
    Shape.reshapeEquiv_eq_of_rowMajor _ (by
      rw [Shape.rowMajor_val_two, Shape.rowMajor_val_one]
      show 0 * 128 + k.val = k.val
      omega)
  show (Rect.unit (s := S25x128) ![j, 0] S1x128.size (idxRow_inb j hj)).emb
      (Shape.reshapeEquiv squeezes_S1x128_S128.numel_eq (ix1 k)) = _
  rw [hre]
  funext a
  apply Fin.ext
  match a with
  | ⟨0, _⟩ => show j + 1 * 0 = j; omega
  | ⟨1, _⟩ => show 0 + 1 * k.val = k.val; omega

/-- Entry `(x0, x1)` of the 128 rows of the result from row `o` on is entry `(o + x0, x1)` of the result. -/
theorem outM_emb (o : ℕ) (ho : o + 128 ≤ 100000) (x0 x1 : Fin 128) :
    (outM o ho).view.emb (ix2 x0 x1) = (ix2 (⟨o + x0.val, by omega⟩ : Fin 100000) x1 : S100000x128.Idx) := by
  funext a
  apply Fin.ext
  match a with
  | ⟨0, _⟩ => show o + 1 * x0.val = o + x0.val; omega
  | ⟨1, _⟩ => show 0 + 1 * x1.val = x1.val; omega

/-- The gathers' name of the shared table indexes it as it is. -/
theorem shM_emb (y : S100x128.Idx) : shM.view.emb y = y := by
  funext a
  apply Fin.ext
  match a with
  | ⟨0, _⟩ => show 0 + 1 * (y 0).val = (y 0).val; omega
  | ⟨1, _⟩ => show 0 + 1 * (y 1).val = (y 1).val; omega

/-! ## Reading through them -/

section Reads
variable {Val : EltTy → Type}

theorem slotM_read (b : ℕ) (hb : b < 7) (f : (slotM b hb).view.ty.Contents Val) (x0 x1 : Fin 128) :
    (slotM b hb).view.read Val f (ix2 x0 x1) = f (ix3 (⟨b, hb⟩ : Fin 7) x0 x1 : S7x128x128.Idx) := by
  rw [View.read_apply, slotM_emb]; rfl

theorem idxRowM_read (j : ℕ) (hj : j < 25) (f : (idxRowM j hj).view.ty.Contents Val) (k : Fin 128) :
    (idxRowM j hj).view.read Val f (ix1 k) = f (ix2 (⟨j, hj⟩ : Fin 25) k : S25x128.Idx) := by
  rw [View.read_apply, idxRowM_emb]; rfl

theorem outM_read (o : ℕ) (ho : o + 128 ≤ 100000) (f : (outM o ho).view.ty.Contents Val) (x0 x1 : Fin 128) :
    (outM o ho).view.read Val f (ix2 x0 x1) = f (ix2 (⟨o + x0.val, by omega⟩ : Fin 100000) x1 : S100000x128.Idx) := by
  rw [View.read_apply, outM_emb]; rfl

theorem shM_read (f : shM.view.ty.Contents Val) (y : S100x128.Idx) : shM.view.read Val f y = f y := by
  rw [View.read_apply, shM_emb]; rfl

end Reads

variable [FloatOps F] (m : (ℓ : Loc nD τ sig) → Buf (Elt F) ℓ) (d : Dev nD) (L : grid0.Coords)

/-! ## The index words of a chunk -/

/-- Every index word of a chunk names a row of the table. -/
theorem hin_idx (hz : ∀ i, (m (zLoc d) i).toNat < 100) (j : ℕ) (hj : j < 25) :
    ∀ x, ((idxRowM j hj).view.read (Elt F) (idxOf m d L) x).toNat < S100x128.size gathers_S100x128_S128x128.axis := by
  intro x
  exact hz _

/-- The row-major position `k` of a list of 128 is its entry `k`. -/
theorem rowMajor_symm_S128 (k : Fin 128) (h : 128 = S128.numel) : S128.rowMajor.symm (k.cast h) = ix1 k :=
  (Equiv.symm_apply_eq _).mpr (Fin.ext (by rw [Shape.rowMajor_val_one]; rfl))

/-- The row of the table that the `k`-th index word of chunk `j` names. -/
theorem rows_val (hz : ∀ i, (m (zLoc d) i).toNat < 100) (j : ℕ) (hj : j < 25) (k : Fin 128) :
    (SparseCore.rows ((idxRowM j hj).view.read (Elt F) (idxOf m d L)) (o := 128) rfl (hin_idx m d L hz j hj) k).val
      = (Cert.Spec.rowOf (idxOf m d L (ix2 (⟨min j 24, by omega⟩ : Fin 25) k))).val := by
  have hj' : (⟨min j 24, by omega⟩ : Fin 25) = ⟨j, hj⟩ := Fin.ext (Nat.min_eq_left (by omega))
  rw [hj', Cert.Spec.rowOf_val_of_lt (x := idxOf m d L (ix2 (⟨j, hj⟩ : Fin 25) k)) (hz _)]
  have h1 : (idxRowM j hj).view.read (Elt F) (idxOf m d L) (S128.rowMajor.symm (k.cast (rfl : 128 = S128.numel))) = idxOf m d L (ix2 (⟨j, hj⟩ : Fin 25) k) :=
    (congrArg ((idxRowM j hj).view.read (Elt F) (idxOf m d L)) (rowMajor_symm_S128 k rfl)).trans (idxRowM_read j hj (idxOf m d L) k)
  refine Eq.trans (b := BitVec.toNat ((idxRowM j hj).view.read (Elt F) (idxOf m d L) (S128.rowMajor.symm (k.cast (rfl : 128 = S128.numel))))) rfl ?_
  exact congrArg BitVec.toNat h1

/-! ## What a gather leaves in a slot, and that it is what the result's targets name -/

/-- The gather of chunk `j` into a slot writes `gath L m d j` on the slot's elements. -/
theorem gather_val (hz : ∀ i, (m (zLoc d) i).toNat < 100) (j : ℕ) (hj : j < 25) (b : ℕ) (hb : b < 7)
    (fd : Buf (Elt F) ((slotM b hb).view.loc (V d (cV L) (jV L)))) :
    ∀ i ∈ (slotM b hb).view.set,
      (slotM b hb).view.write (Elt F) fd
        (SparseCore.gatherPayload gathers_S100x128_S128x128 (shM.view.read (Elt F) (tbl m d (cV L)))
          (SparseCore.rows ((idxRowM j hj).view.read (Elt F) (idxOf m d L)) rfl (hin_idx m d L hz j hj))) Finset.univ i
        = gath L m d j i := by
  intro i hi
  obtain ⟨x, -, rfl⟩ := Finset.mem_map.mp hi
  obtain ⟨x0, x1, rfl⟩ : ∃ (x0 x1 : Fin 128), x = ix2 x0 x1 := ⟨x 0, x 1, eq_ix2 x⟩
  rw [View.write_emb_of_mem _ _ (Finset.mem_univ _)]
  show SparseCore.gatherPayload gathers_S100x128_S128x128 (shM.view.read (Elt F) (tbl m d (cV L)))
      (SparseCore.rows ((idxRowM j hj).view.read (Elt F) (idxOf m d L)) rfl (hin_idx m d L hz j hj)) (ix2 x0 x1)
    = gath L m d j ((slotM b hb).view.emb (ix2 x0 x1))
  rw [slotM_emb]
  unfold SparseCore.gatherPayload
  refine (shM_read (Val := Elt F) (tbl m d (cV L)) _).trans ?_
  show tbl m d (cV L) _ = tbl m d (cV L) _
  congr 1
  funext a
  apply Fin.ext
  match a with
  | ⟨0, _⟩ =>
    show (gathers_S100x128_S128x128.idx _ (ix2 x0 x1) gathers_S100x128_S128x128.axis).val = _
    rw [Shape.Gathers.idx_axis]
    exact rows_val m d L hz j hj x0
  | ⟨1, _⟩ =>
    exact Shape.Gathers.idx_of_ne gathers_S100x128_S128x128 _ (ix2 x0 x1) ⟨1, by decide⟩ (by decide)

/-- What a slot holds after the gather of chunk `j` is what the result's targets name on the chunk's rows. -/
theorem copy_adm (hz : ∀ i, (m (zLoc d) i).toNat < 100) (j : ℕ) (hj : j < 25) (b : ℕ) (hb : b < 7) :
    (outM (offL L j) (off_inb _ _ _)).view.Admitted (Elt F) (tgt m d) ((slotM b hb).view.read (Elt F) (gath L m d j)) Finset.univ := by
  intro x _ u hu
  obtain ⟨x0, x1, rfl⟩ : ∃ (x0 x1 : Fin 128), x = ix2 x0 x1 := ⟨x 0, x 1, eq_ix2 x⟩
  have hoff : offL L j + 128 ≤ 100000 := off_inb (L 0).val (L 1).val j
  have hlt : offL L j + x0.val ≤ 99999 := by have := x0.isLt; omega
  have hu2 := (outM_read (Val := fun e => Option (Elt F e)) (offL L j) (off_inb _ _ _) (tgt m d) x0 x1).symm.trans hu
  refine (slotM_read b hb (gath L m d j) x0 x1).trans ?_
  have hu' : res m d (ix2 (⟨offL L j + x0.val, by omega⟩ : Fin 100000) x1) = u := Option.some.inj hu2
  rw [← hu']
  have hj' : (⟨min j 24, by omega⟩ : Fin 25) = ⟨j, hj⟩ := Fin.ext (Nat.min_eq_left (by omega))
  show tbl m d (cV L) (ix2 (Cert.Spec.rowOf (idxOf m d L (ix2 (⟨min j 24, by omega⟩ : Fin 25) x0))) x1)
    = Cert.Spec.G (m (wLoc d)) (m (zLoc d)) (ix2 (⟨offL L j + x0.val, by omega⟩ : Fin 100000) x1)
  rw [Cert.Spec.G_apply, hj']
  show m (wLoc d) (ix2 (Cert.Spec.rowOf (m (zLoc d) (ix1 (⟨min (offL L j + x0.val) 99999, by omega⟩ : Fin 100000)))) x1) = _
  have hmin : (⟨min (offL L j + x0.val) 99999, by omega⟩ : Fin 100000) = ⟨offL L j + x0.val, by omega⟩ := Fin.ext (Nat.min_eq_left hlt)
  rw [hmin]

end Cert.Proof.KI

end
-- ==== Proof.EndsB.lean ====
/-
  How one vector subcore's second half is entered and left: bookkeeping only, no program step.

  On entry the subcore holds its index scratch (the 25 index rows landed), its row ring at some contents, its DMA
  semaphores 2 to 15 at zero, its read share of the core's shared table, and its share of the result in write mode with
  nothing marked. These are taken apart into what the 25 chunks hold before any gather is started: each chunk its index
  row and a token of the write-mode share; chunks 0 to 6 also a ring slot at some contents, the slot's two semaphores
  and a part of the table share. What is left of the two shares stays beside the state. On exit every chunk is done:
  each holds its index row and its token, now marked with the chunk's rows, and chunks 18 to 24 hold the seven slots
  (chunk `j` uses slot `j mod 7`, and 18, …, 24 are 4, 5, 6, 0, 1, 2, 3 modulo 7). Joined back, the pieces are what was
  there on entry, with the write-mode share marked with all the subcore's chunks.
-/
import proofs.«206633_g8486855377485_cont_9to1_m_27_20_alg».proof.Proof.ResB
import proofs.«206633_g8486855377485_cont_9to1_m_27_20_alg».proof.Proof.GeomBody
import proofs.«206633_g8486855377485_cont_9to1_m_27_20_alg».proof.Proof.GeomSets

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

/-! ## Each chunk at the two ends -/

theorem chunkSt_init (NG NW j : ℕ) (hj : j < 25) :
    chunkSt m d L NG NW 0 0 0 j
      = iprop(idxP m d L j hj ∗ oWm m d (qOut L j) ∅
          ∗ (if j < 7 then freeSlot m d L (j % 7) (Nat.mod_lt _ (by decide)) else iprop(emp))) := by
  unfold chunkSt
  rw [dif_pos hj, if_pos (Nat.zero_le j)]

theorem chunkSt_final (NG NW j : ℕ) (hj : j < 25) :
    chunkSt m d L NG NW 25 25 25 j
      = iprop(idxP m d L j hj ∗ oWm m d (qOut L j) (outSet d L j)
          ∗ (if 25 ≤ j + 7 then freeSlot m d L (j % 7) (Nat.mod_lt _ (by decide)) else iprop(emp))) := by
  unfold chunkSt
  rw [dif_pos hj, if_neg (by omega), if_neg (by omega), if_neg (by omega)]

/-- The state as a product over the 25 chunks as a finite type. -/
theorem St_fin (NG NW g w dn : ℕ) :
    St m d L NG NW g w dn = bigSep Finset.univ fun j : Fin 25 => chunkSt m d L NG NW g w dn j.val := by
  unfold St
  rw [← Nat.Iio_eq_range, ← Fin.map_valEmbedding_univ, BI.bigSep_map]
  rfl

/-- Chunks `j` of a set on which `j mod 7` is one-to-one and onto the seven slots, read slot by slot. -/
theorem slots_reindex (s : Finset (Fin 25)) (hinj : ∀ a ∈ s, ∀ b ∈ s, a.val % 7 = b.val % 7 → a = b)
    (hsurj : ∀ b : Fin 7, ∃ a ∈ s, a.val % 7 = b.val) (Φ : (b : ℕ) → b < 7 → sProp 𝕄) :
    (bigSep s fun j => Φ (j.val % 7) (Nat.mod_lt _ (by decide))) = bigSep Finset.univ fun b : Fin 7 => Φ b.val b.isLt := by
  have himg : s.image (fun j : Fin 25 => (⟨j.val % 7, Nat.mod_lt _ (by decide)⟩ : Fin 7)) = Finset.univ := by
    ext b
    simp only [Finset.mem_image, Finset.mem_univ, iff_true]
    obtain ⟨a, ha, e⟩ := hsurj b
    exact ⟨a, ha, Fin.ext e⟩
  rw [← himg, SparseCore.bigSep_image_of_injOn (fun a ha b hb e => hinj a ha b hb (congrArg Fin.val e))]

/-! ## The pieces, each as a product over the seven slots or the 25 chunks -/

/-- The seven free slots: the slots at some contents, the gathers' semaphores, the copies' semaphores, the table share's parts. -/
theorem freeSlots_eq :
    (bigSep Finset.univ fun b : Fin 7 => freeSlot m d L b.val b.isLt)
      = iprop((bigSep Finset.univ fun b : Fin 7 => iprop(∃ f, slotP d L b.val b.isLt f))
          ∗ (bigSep Finset.univ fun b : Fin 7 => semVal (gcell d L b.val b.isLt) 0)
          ∗ (bigSep Finset.univ fun b : Fin 7 => semVal (wcell d L b.val b.isLt) 0)
          ∗ (bigSep Finset.univ fun b : Fin 7 => shSub m d L b.val)) := by
  unfold freeSlot
  rw [bigSep_sep', bigSep_sep', bigSep_sep']

/-- Semaphores 2 to 15 are the seven gathers' and the seven copies'. -/
theorem sems_eq :
    (bigSep (Finset.univ.filter fun k : Fin 16 => 2 ≤ k.val) fun k => (semVal (dcell d L k) 0 : sProp 𝕄))
      = iprop((bigSep Finset.univ fun b : Fin 7 => semVal (gcell d L b.val b.isLt) 0)
          ∗ (bigSep Finset.univ fun b : Fin 7 => semVal (wcell d L b.val b.isLt) 0)) := by
  have hset : (Finset.univ.filter fun k : Fin 16 => 2 ≤ k.val)
      = (Finset.univ : Finset (Fin 7)).image (fun b => (⟨2 + b.val, by omega⟩ : Fin 16))
        ∪ (Finset.univ : Finset (Fin 7)).image (fun b => (⟨9 + b.val, by omega⟩ : Fin 16)) := by decide
  have hdis : Disjoint ((Finset.univ : Finset (Fin 7)).image (fun b => (⟨2 + b.val, by omega⟩ : Fin 16)))
      ((Finset.univ : Finset (Fin 7)).image (fun b => (⟨9 + b.val, by omega⟩ : Fin 16))) := by decide
  rw [hset, BI.bigSep_union hdis,
    SparseCore.bigSep_image_of_injOn (fun a _ b _ e => Fin.ext (by have := congrArg Fin.val e; simp only at this; omega)),
    SparseCore.bigSep_image_of_injOn (fun a _ b _ e => Fin.ext (by have := congrArg Fin.val e; simp only at this; omega))]
  refine congrArg₂ BI.sep (bigSep_congr fun b _ => ?_) (bigSep_congr fun b _ => ?_)
  · show semVal ((V d (cV L) (jV L), SemLoc.dma (⟨2 + b.val, _⟩ : DmaSem sig)) : GSem nD τ sig) 0
        = semVal ((V d (cV L) (jV L), SemLoc.dma (semG b.val b.isLt)) : GSem nD τ sig) 0
    rw [semG_eq]
  · show semVal ((V d (cV L) (jV L), SemLoc.dma (⟨9 + b.val, _⟩ : DmaSem sig)) : GSem nD τ sig) 0
        = semVal ((V d (cV L) (jV L), SemLoc.dma (semW b.val b.isLt)) : GSem nD τ sig) 0
    rw [semW_eq]

/-- The shared table at share `q`, as the gathers name it, is the core's shared copy at share `q`. -/
theorem shPts_eq (q : PosShare TreeShare) :
    ((shM.view.loc (V d (cV L) (jV L)) ↦[shM.view.set]{q} (tbl m d (cV L) : Buf (Elt F) (shM.view.loc (V d (cV L) (jV L))))) : sProp 𝕄)
      = (shLoc d (cV L) ↦{q} tbl m d (cV L)) := by
  rw [shM_set]
  rfl

/-- The subcore's read share of the table is seven parts, one per slot, and a remainder. -/
theorem shTok_eq :
    shTok m d (cV L) (L 1).val
      = iprop((shM.view.loc (V d (cV L) (jV L)) ↦[shM.view.set]{Transfers.shareDrop (qSh L) 7}
            (tbl m d (cV L) : Buf (Elt F) (shM.view.loc (V d (cV L) (jV L)))))
          ∗ bigSep Finset.univ fun b : Fin 7 => shSub m d L b.val) := by
  show (shLoc d (cV L) ↦{qSh L} tbl m d (cV L) : sProp 𝕄) = _
  rw [← shPts_eq m d L (qSh L)]
  have h := Transfers.pointsTo_toks (ℓ := shM.view.loc (V d (cV L) (jV L))) (S := shM.view.set)
    (f := (tbl m d (cV L) : Buf (Elt F) (shM.view.loc (V d (cV L) (jV L))))) (Ix := HIx 1) (Name := ℕ) (U := UU F) (Lvl := ℕ) (qSh L) 7
  exact BI.equiv_iff.mp ⟨h.1, h.2⟩

/-- A union of empty sets is empty. -/
theorem biUnion_const_empty {ι α : Type} [DecidableEq α] (s : Finset ι) : s.biUnion (fun _ => (∅ : Finset α)) = ∅ := by
  ext x; simp

/-- A union over `Fin n` of a family given on the naturals is the union over the naturals below `n`. -/
theorem biUnion_fin_range {α : Type} [DecidableEq α] (n : ℕ) (f : ℕ → Finset α) :
    Finset.univ.biUnion (fun j : Fin n => f j.val) = (Finset.range n).biUnion f := by
  ext x
  simp only [Finset.mem_biUnion, Finset.mem_univ, true_and, Finset.mem_range]
  exact ⟨fun ⟨j, hj⟩ => ⟨j.val, j.isLt, hj⟩, fun ⟨j, hj, hx⟩ => ⟨⟨j, hj⟩, hx⟩⟩

/-- The rows chunk `j`'s copy out addresses are the chunk's. -/
theorem outSet_eq (j : ℕ) : outSet d L j = (Cert.Chunks.chunk (L 0).val (L 1).val j : Finset (Idx (oLoc d))) := by
  unfold outSet; exact outM_set_off ..

/-- The write-mode share with no marks is 25 tokens with no marks and a remainder. -/
theorem oWm_init_eq :
    oWm m d (qT (L 0).val (L 1).val) ∅
      = iprop(oWm m d (Transfers.shareDrop (qT (L 0).val (L 1).val) 25) ∅
          ∗ bigSep Finset.univ fun j : Fin 25 => oWm m d (qOut L j.val) ∅) := by
  have h0 := Cert.Lib.willBeTo_toks (Ix := HIx 1) (Name := ℕ) (Lvl := ℕ) (emb := EW (F := F)) (ℓ := oLoc d)
    (I := Finset.univ) (f := m (oLoc d)) (g := tgt m d) (qT (L 0).val (L 1).val) 25 ∅ (fun _ => ∅)
  have h := BI.equiv_iff.mp ⟨h0.1, h0.2⟩
  rw [show (∅ : Finset (Idx (oLoc d))) ∪ Finset.univ.biUnion (fun _ : Fin 25 => (∅ : Finset (Idx (oLoc d)))) = ∅ by
    rw [Finset.empty_union]; exact biUnion_const_empty _] at h
  exact h

/-- The subcore's marks are its 25 chunks' rows as the copies out address them. -/
theorem marks_eq :
    (∅ : Finset (Idx (oLoc d))) ∪ Finset.univ.biUnion (fun j : Fin 25 => outSet d L j.val) = tMarks d (L 0).val (L 1).val := by
  rw [Finset.empty_union, Finset.biUnion_congr rfl (fun j _ => outSet_eq d L j.val), biUnion_fin_range]
  rfl

/-- The write-mode share marked with the subcore's chunks is 25 tokens, each marked with its chunk, and a remainder. -/
theorem oWm_final_eq :
    oWm m d (qT (L 0).val (L 1).val) (tMarks d (L 0).val (L 1).val)
      = iprop(oWm m d (Transfers.shareDrop (qT (L 0).val (L 1).val) 25) ∅
          ∗ bigSep Finset.univ fun j : Fin 25 => oWm m d (qOut L j.val) (outSet d L j.val)) := by
  rw [← marks_eq d L]
  have h0 := Cert.Lib.willBeTo_toks (Ix := HIx 1) (Name := ℕ) (Lvl := ℕ) (emb := EW (F := F)) (ℓ := oLoc d)
    (I := Finset.univ) (f := m (oLoc d)) (g := tgt m d) (qT (L 0).val (L 1).val) 25 ∅ (fun j : Fin 25 => outSet d L j.val)
  exact BI.equiv_iff.mp ⟨h0.1, h0.2⟩

/-! ## The state at the two ends -/

/-- The 25 index rows are the index scratch. -/
theorem idxRows_eq :
    (bigSep Finset.univ fun j : Fin 25 => idxP m d L j.val j.isLt)
      = ((V d (cV L) (jV L)).loc cc0_scratch0 ↦{fullShare} idxOf m d L : sProp 𝕄) := by
  unfold idxP
  exact (idx_split d L (idxOf m d L)).symm

/-- Before any gather the free slots are held by chunks 0 to 6: all seven. -/
theorem slots_init_eq :
    (bigSep Finset.univ fun j : Fin 25 => if j.val < 7 then freeSlot m d L (j.val % 7) (Nat.mod_lt _ (by decide)) else (iprop(emp) : sProp 𝕄))
      = bigSep Finset.univ fun b : Fin 7 => freeSlot m d L b.val b.isLt :=
  (bigSep_filter Finset.univ (fun j : Fin 25 => j.val < 7) (fun j => freeSlot m d L (j.val % 7) (Nat.mod_lt _ (by decide)))).symm.trans
    (slots_reindex (Finset.univ.filter fun j : Fin 25 => j.val < 7) (by decide) (by decide) (fun b hb => freeSlot m d L b hb))

/-- After the last wait the free slots are held by chunks 18 to 24: all seven. -/
theorem slots_final_eq :
    (bigSep Finset.univ fun j : Fin 25 => if 25 ≤ j.val + 7 then freeSlot m d L (j.val % 7) (Nat.mod_lt _ (by decide)) else (iprop(emp) : sProp 𝕄))
      = bigSep Finset.univ fun b : Fin 7 => freeSlot m d L b.val b.isLt :=
  (bigSep_filter Finset.univ (fun j : Fin 25 => 25 ≤ j.val + 7) (fun j => freeSlot m d L (j.val % 7) (Nat.mod_lt _ (by decide)))).symm.trans
    (slots_reindex (Finset.univ.filter fun j : Fin 25 => 25 ≤ j.val + 7) (by decide) (by decide) (fun b hb => freeSlot m d L b hb))

theorem St_init_eq (NG NW : ℕ) :
    St m d L NG NW 0 0 0
      = iprop(((V d (cV L) (jV L)).loc cc0_scratch0 ↦{fullShare} idxOf m d L)
          ∗ (bigSep Finset.univ fun j : Fin 25 => oWm m d (qOut L j.val) ∅)
          ∗ (bigSep Finset.univ fun b : Fin 7 => freeSlot m d L b.val b.isLt)) := by
  rw [St_fin, bigSep_congr (fun j _ => chunkSt_init m d L NG NW j.val j.isLt), bigSep_sep', bigSep_sep', idxRows_eq, slots_init_eq]

theorem St_final_eq (NG NW : ℕ) :
    St m d L NG NW 25 25 25
      = iprop(((V d (cV L) (jV L)).loc cc0_scratch0 ↦{fullShare} idxOf m d L)
          ∗ (bigSep Finset.univ fun j : Fin 25 => oWm m d (qOut L j.val) (outSet d L j.val))
          ∗ (bigSep Finset.univ fun b : Fin 7 => freeSlot m d L b.val b.isLt)) := by
  rw [St_fin, bigSep_congr (fun j _ => chunkSt_final m d L NG NW j.val j.isLt), bigSep_sep', bigSep_sep', idxRows_eq, slots_final_eq]

/-- The row ring at some contents is its seven slots, each at some contents. -/
theorem rows_out :
    (iprop(∃ f, (V d (cV L) (jV L)).loc cc0_scratch1 ↦{fullShare} f) : sProp 𝕄)
      ⊢ bigSep Finset.univ fun b : Fin 7 => iprop(∃ f, slotP d L b.val b.isLt f) := by
  refine exists_elim fun f => ?_
  rw [rows_split d L f]
  exact bigSep_mono fun b _ => exists_intro (Φ := fun f => slotP d L b.val b.isLt f) f

/-- The seven slots, each at some contents, are the row ring at some contents. -/
theorem rows_in :
    (bigSep Finset.univ fun b : Fin 7 => iprop(∃ f, slotP d L b.val b.isLt f))
      ⊢ (iprop(∃ f, (V d (cV L) (jV L)).loc cc0_scratch1 ↦{fullShare} f) : sProp 𝕄) := by
  unfold slotP
  exact rows_join d L

/-! ## Entering and leaving -/

/-- What is left of the subcore's table share and of its write-mode share beside the pieces. -/
def restB : sProp 𝕄 :=
  iprop((shM.view.loc (V d (cV L) (jV L)) ↦[shM.view.set]{Transfers.shareDrop (qSh L) 7} (tbl m d (cV L) : Buf (Elt F) (shM.view.loc (V d (cV L) (jV L)))))
    ∗ oWm m d (Transfers.shareDrop (qT (L 0).val (L 1).val) 25) ∅)

theorem initSt (NG NW : ℕ) :
    iprop(((V d (cV L) (jV L)).loc cc0_scratch0 ↦{fullShare} idxOf m d L) ∗ (∃ f, (V d (cV L) (jV L)).loc cc0_scratch1 ↦{fullShare} f)
        ∗ (bigSep (Finset.univ.filter fun k : Fin 16 => 2 ≤ k.val) fun k => semVal (dcell d L k) 0)
        ∗ shTok m d (cV L) (L 1).val ∗ oWm m d (qT (L 0).val (L 1).val) ∅)
      ⊢ (iprop(St m d L NG NW 0 0 0 ∗ restB m d L) : sProp 𝕄) := by
  rw [St_init_eq, freeSlots_eq, sems_eq, shTok_eq, oWm_init_eq]
  unfold restB
  iintro ⟨HA, HR, ⟨HG, HW⟩, ⟨HsD, HSh⟩, HoD, HOW⟩
  ihave HR' := (rows_out d L) $$ HR
  isplitl [HA HOW HR' HG HW HSh]
  · isplitl [HA]; · iexact HA
    isplitl [HOW]; · iexact HOW
    isplitl [HR']; · iexact HR'
    isplitl [HG]; · iexact HG
    isplitl [HW]; · iexact HW
    iexact HSh
  · isplitl [HsD]; · iexact HsD
    iexact HoD

theorem finalSt (NG NW : ℕ) :
    (iprop(St m d L NG NW 25 25 25 ∗ restB m d L) : sProp 𝕄)
      ⊢ iprop(((V d (cV L) (jV L)).loc cc0_scratch0 ↦{fullShare} idxOf m d L) ∗ (∃ f, (V d (cV L) (jV L)).loc cc0_scratch1 ↦{fullShare} f)
        ∗ (bigSep (Finset.univ.filter fun k : Fin 16 => 2 ≤ k.val) fun k => semVal (dcell d L k) 0)
        ∗ shTok m d (cV L) (L 1).val ∗ oWm m d (qT (L 0).val (L 1).val) (tMarks d (L 0).val (L 1).val)) := by
  rw [St_final_eq, freeSlots_eq, sems_eq, shTok_eq, oWm_final_eq]
  unfold restB
  iintro ⟨⟨HA, HOW, HR, HG, HW, HSh⟩, HsD, HoD⟩
  ihave HR' := (rows_in d L) $$ HR
  isplitl [HA]; · iexact HA
  isplitl [HR']; · iexact HR'
  isplitl [HG HW]
  · isplitl [HG]; · iexact HG
    iexact HW
  isplitl [HsD HSh]
  · isplitl [HsD]; · iexact HsD
    iexact HSh
  isplitl [HoD]; · iexact HoD
  iexact HOW

end Cert.Proof.KI

end
-- ==== Proof.BarrierB.lean ====
/-
  The subcore barrier of the task's second half, as one step. Arriving at the barrier a subcore pays, in every subcore's
  round of its core, the duty it has there; the duty of subcore 0 in subcore `j`'s round hands over subcore `j`'s read
  share of the core's shared table, and every other subcore's duties hand over nothing. Subcore 0 holds the shared table
  whole: it cuts it into sixteen read shares and a remainder, so it has the sixteen payloads of its duties to present and
  keeps the remainder; any other subcore presents sixteen empty payloads. Leaving the barrier a subcore holds the payloads
  of all sixteen duties of its OWN round, of which subcore 0's is its read share of the table. What the subcore owes for the
  barrier is paid, the wait is recorded, and the write-mode invariant, being persistent, is kept.
-/
import proofs.«206633_g8486855377485_cont_9to1_m_27_20_alg».proof.Proof.TileSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) [FloatOps F] (d : Dev nD) (L : grid0.Coords)

/-- The payload of this subcore's duty in subcore `j`'s round: subcore 0's is `j`'s read share of the shared table, -/
theorem payload_zero (h : (L 1).val = 0) (j : Fin (grid0.bound 1)) :
    (bRd (F := F) m).payload (bcell d (cV L) (j.castLE hsub0)) 0 (jV L).val
      = (shLoc d (cV L) ↦{Transfers.shareTok fullShare 16 j} tbl m d (cV L) : sProp 𝕄) := by
  show (if (jV L).val = 0 then shTok m d (cV L) (j.castLE hsub0).val else iprop(emp)) = _
  rw [if_pos (show (jV L).val = 0 from h)]
  rfl

/-- any other subcore's is empty. -/
theorem payload_pos (h : ¬ (L 1).val = 0) (j : Fin (grid0.bound 1)) :
    (bRd (F := F) m).payload (bcell d (cV L) (j.castLE hsub0)) 0 (jV L).val = (iprop(emp) : sProp 𝕄) := by
  show (if (jV L).val = 0 then shTok m d (cV L) (j.castLE hsub0).val else iprop(emp)) = _
  rw [if_neg (show ¬ (jV L).val = 0 from h)]

/-- Before the barrier: the payloads of this subcore's duty in every subcore's round, out of the shared table where
    the subcore is subcore 0 (which keeps the remainder of the table), out of nothing otherwise. -/
theorem pays_intro :
    (if (L 1).val = 0 then iprop(shLoc d (cV L) ↦{fullShare} tbl m d (cV L)) else iprop(emp) : sProp 𝕄)
      ⊢ iprop((bigSep Finset.univ fun j : Fin (grid0.bound 1) => (bRd (F := F) m).payload (bcell d (cV L) (j.castLE hsub0)) 0 (jV L).val)
          ∗ (if (L 1).val = 0 then iprop(shLoc d (cV L) ↦{Transfers.shareDrop fullShare 16} tbl m d (cV L)) else iprop(emp))) := by
  by_cases h : (L 1).val = 0
  · rw [if_pos h, if_pos h, bigSep_congr fun j _ => payload_zero m d L h j]
    iintro H
    ihave H' := (Transfers.pointsTo_toks_split (ℓ := shLoc d (cV L)) (S := Finset.univ) (f := tbl m d (cV L)) fullShare 16) $$ H
    icases H' with ⟨Hd, Ht⟩
    isplitl [Ht]; · iexact Ht
    iexact Hd
  · rw [if_neg h, if_neg h, bigSep_congr fun j _ => payload_pos m d L h j, bigSep_emp']
    iintro -
    isplitl <;> iempintro

/-- After the barrier: among the payloads of the sixteen duties of the subcore's own round is subcore 0's, the subcore's
    read share of the shared table. -/
theorem pays_elim :
    (bigSep ((bRd (F := F) m).duties (bcell d (cV L) (jV L)) 0 \ ∅) fun n => (bRd (F := F) m).payload (bcell d (cV L) (jV L)) 0 n)
      ⊢ (shTok m d (cV L) (L 1).val : sProp 𝕄) := by
  have hmem : 0 ∈ (bRd (F := F) m).duties (bcell d (cV L) (jV L)) 0 \ ∅ :=
    Finset.mem_sdiff.2 ⟨bRd_mem₀ m d (cV L) (jV L) ⟨0, by decide⟩, Finset.notMem_empty _⟩
  have hp : (bRd (F := F) m).payload (bcell d (cV L) (jV L)) 0 0 = (shTok m d (cV L) (L 1).val : sProp 𝕄) := by
    show (if (0 : ℕ) = 0 then shTok m d (cV L) (jV L).val else iprop(emp)) = _
    rw [if_pos rfl]
    rfl
  rw [← hp]
  exact bigSep_elim hmem

/-- The barrier step: from the kit, the shared table where the subcore is subcore 0, and what the subcore owes with its
    sixteen arrivals, to the subcore's read share of the table, the remainder of the table where it is subcore 0, the
    write-mode invariant, and what it owes without the arrivals, the barrier's wait recorded. -/
theorem barrierStep (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    {α : Type} (kk : PUnit → Prog (TpuEff nD τ sig (Elt F) Λ₀ (.scVector ((L 0).castLE hcore0) ((L 1).castLE hsub0))) α) (Q : α → sProp 𝕄) :
    iprop(levAts (K (F := F)).L (K (F := F)).lev ∗ bkit m d (cV L) (jV L)
        ∗ (if (L 1).val = 0 then iprop(shLoc d (cV L) ↦{fullShare} tbl m d (cV L)) else iprop(emp))
        ∗ owes (V d (cV L) (jV L)) (O + oxV d (cV L)) W)
      ⊢ iprop((iprop(shTok m d (cV L) (L 1).val
              ∗ (if (L 1).val = 0 then iprop(shLoc d (cV L) ↦{Transfers.shareDrop fullShare 16} tbl m d (cV L)) else iprop(emp))
              ∗ (∃ ιwm : ℕ, wmInv (Ix := HIx 1) (Name := ℕ) (Lvl := ℕ) (EW (F := F)) ιwm)
              ∗ owes (V d (cV L) (jV L)) O (insert (SemLoc.reg sc_bar0, some 0) W))
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (SparseCore.subcoreBarrier sc_bar0 (grid0.bound 1) hsub0 >>= kk) Q) := by
  unfold bkit
  iintro ⟨#Hlv, ⟨⟨%κ, #Hinv⟩, Htoks, #Hr, Hat, Hcred, #Hwm⟩, Hsh, HO⟩ Hk
  -- the payloads of this subcore's sixteen duties, and what is left of the table
  ihave Hp := (pays_intro m d L) $$ Hsh
  icases Hp with ⟨Hpays, Hrest⟩
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O W) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hr
    isplitl [Hcred]; · iexact Hcred
    isplitl [Hat]; · iexact Hat
    -- the barrier's wait sits below everything the subcore still owes
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, -, -, Hown⟩
  iapply Hk
  isplitl [Hown]; · iapply (pays_elim m d L); iexact Hown
  isplitl [Hrest]; · iexact Hrest
  isplitr; · iexact Hwm
  iexact HO

end Cert.Proof.KI

end
-- ==== Proof.PhaseB.lean ====
/-
  A vector subcore's second half, whole: at the subcore barrier it receives its read share of the core's shared table (from
  subcore 0, which has filled it); it takes its storage apart into per-chunk and per-slot pieces; the three loops walk every
  chunk from "not started" to "done"; and the pieces are put back together, the subcore's share of the result now marked with
  all its chunks' rows.
-/
import proofs.«206633_g8486855377485_cont_9to1_m_27_20_alg».proof.Proof.LoopsB
import proofs.«206633_g8486855377485_cont_9to1_m_27_20_alg».proof.Proof.GeomSets
import proofs.«206633_g8486855377485_cont_9to1_m_27_20_alg».proof.Proof.Value
import proofs.«206633_g8486855377485_cont_9to1_m_27_20_alg».proof.Proof.EndsB
import proofs.«206633_g8486855377485_cont_9to1_m_27_20_alg».proof.Proof.BarrierB

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

/-- The facts every step needs, from the index words being in range. -/
theorem stepFacts (hz : ∀ i, (m (zLoc d) i).toNat < 100) : StepFacts m d L NG NW where
  gsum := gather_credit
  gcred := slot_credit
  wamt := out_amount
  wcred := out_credit
  wpos := by decide
  hin := fun j hj => hin_idx m d L hz j hj
  hval := fun j hj b hb fd i hi => gather_val m d L hz j hj b hb fd i hi
  hadm := fun j hj b hb => copy_adm m d L hz j hj b hb

theorem phaseB (hz : ∀ i, (m (zLoc d) i).toNat < 100) (hF : (K (F := F)).Facts) (O : CellTallies nD τ sig (HIx 1)) (W₁ : Waits sig (HIx 1))
    (hO : ∀ g, O g none = 0) (hOlev : ∀ g ι, 0 < O g ι → 8 * (0 : Fin 1).val + 6 ≤ (K (F := F)).lev g ι) :
    iprop(levAts (K (F := F)).L (K (F := F)).lev ∗ bkit m d (cV L) (jV L) ∗ oWm m d (qT (L 0).val (L 1).val) ∅
        ∗ (if (L 1).val = 0 then iprop(shLoc d (cV L) ↦{fullShare} tbl m d (cV L)) else iprop(emp))
        ∗ ((V d (cV L) (jV L)).loc cc0_scratch0 ↦{fullShare} idxOf m d L) ∗ (∃ f, (V d (cV L) (jV L)).loc cc0_scratch1 ↦{fullShare} f)
        ∗ (bigSep (Finset.univ.filter fun k : Fin 16 => 2 ≤ k.val) fun k => semVal (dcell d L k) 0)
        ∗ owes (V d (cV L) (jV L)) (O + oxV d (cV L)) W₁)
      ⊢ wp frame (wpE (defs₀ (F := F)) 𝒱₀ (V d (cV L) (jV L)) none) Set.univ (progB L)
          fun _ => iprop(oWm m d (qT (L 0).val (L 1).val) (tMarks d (L 0).val (L 1).val) ∗ shTok m d (cV L) (L 1).val
            ∗ (if (L 1).val = 0 then iprop(shLoc d (cV L) ↦{Transfers.shareDrop fullShare 16} tbl m d (cV L)) else iprop(emp))
            ∗ ((V d (cV L) (jV L)).loc cc0_scratch0 ↦{fullShare} idxOf m d L) ∗ (∃ f, (V d (cV L) (jV L)).loc cc0_scratch1 ↦{fullShare} f)
            ∗ (bigSep (Finset.univ.filter fun k : Fin 16 => 2 ≤ k.val) fun k => semVal (dcell d L k) 0)
            ∗ ∃ W', ⌜∀ p ∈ W', p ∈ W₁ ∨ p.2 = none ∨ p.2 = some (0 : Fin 1)⌝ ∗ owes (V d (cV L) (jV L)) O W') := by
  unfold progB
  iintro ⟨#Hlv, Hkit, Ho, Hsh, Hidx, Hrows, Hsems, HO⟩
  -- the barrier: subcore 0 deals the shares of the shared table, every subcore receives its own
  iapply (barrierStep m d L hF O W₁ hO hOlev _ _) $$ [Hkit Hsh HO]
  · isplitr; · iexact Hlv
    isplitl [Hkit]; · iexact Hkit
    isplitl [Hsh]; · iexact Hsh
    iexact HO
  iintro ⟨Htok, Hrest16, #Hwm, HO⟩
  -- the storage taken apart
  ihave Hst := (initSt m d L NG NW) $$ [Hidx Hrows Hsems Htok Ho]
  · isplitl [Hidx]; · iexact Hidx
    isplitl [Hrows]; · iexact Hrows
    isplitl [Hsems]; · iexact Hsems
    isplitl [Htok]; · iexact Htok
    iexact Ho
  icases Hst with ⟨HSt, HrestB⟩
  ihave Hmw := ((K (F := F)).mayWaits_none (thr := V d (cV L) (jV L)) hO) $$ Hlv
  -- the three loops
  iapply (loop3 m d L (stepFacts m d L hz) O (insert (SemLoc.reg sc_bar0, some 0) W₁) _ _) $$ [HSt HO]
  · unfold LI owesEx
    isplitr; · iexact Hmw
    isplitr; · iexact Hwm
    isplitl [HSt]; · iexact HSt
    iexists _
    isplitr
    swap; · iexact HO
    ipureintro; exact fun p hp => .inl hp
  iintro HI
  iapply (loop4 m d L (stepFacts m d L hz) O (insert (SemLoc.reg sc_bar0, some 0) W₁) _ _) $$ HI
  iintro HI
  iapply (loop5 m d L (stepFacts m d L hz) O (insert (SemLoc.reg sc_bar0, some 0) W₁) _ _) $$ HI
  iintro HI
  unfold LI owesEx
  icases HI with ⟨-, -, HSt, ⟨%W', %hW', HO⟩⟩
  rw [wp_pure]
  imodintro
  -- the storage put back together
  ihave Hfin := (finalSt m d L NG NW) $$ [HSt HrestB]
  · isplitl [HSt]; · iexact HSt
    iexact HrestB
  icases Hfin with ⟨Hidx, Hrows, Hsems, Htok, Ho⟩
  isplitl [Ho]; · iexact Ho
  isplitl [Htok]; · iexact Htok
  isplitl [Hrest16]; · iexact Hrest16
  isplitl [Hidx]; · iexact Hidx
  isplitl [Hrows]; · iexact Hrows
  isplitl [Hsems]; · iexact Hsems
  iexists _
  isplitr
  swap; · iexact HO
  ipureintro; intro p hp
  rcases hW' p hp with h | h
  · rcases Finset.mem_insert.mp h with h | h
    · exact .inr (.inr (h ▸ rfl))
    · exact .inl h
  · exact .inr (.inl h)

end Cert.Proof.KI

end
-- ==== Proof.TileBody.lean ====
/-
  One vector subcore's task, whole: its two halves put together. The subcore's own storage is taken apart into the index
  scratch, the row ring and the rest, its sixteen DMA semaphores into the table copy's, the index chunks' and the fourteen
  of the ring. The first half (up to the subcore barrier) fills the index scratch with the subcore's index words and, on
  subcore 0, the core's shared scratch with the table; the second half (from the barrier on) starts from exactly that,
  with the result's write-mode token and the barrier kit, and ends with the token marked with the subcore's chunks and
  the subcore's read share of the shared table. Storage and semaphores are put back together for the task's exit, and the
  waits recorded by the second half on top of the first's are still the caller's, unindexed ones, or the call's own.
-/
import proofs.«206633_g8486855377485_cont_9to1_m_27_20_alg».proof.Proof.Setup
import proofs.«206633_g8486855377485_cont_9to1_m_27_20_alg».proof.Proof.TileSetup
import proofs.«206633_g8486855377485_cont_9to1_m_27_20_alg».proof.Proof.PhaseA
import proofs.«206633_g8486855377485_cont_9to1_m_27_20_alg».proof.Proof.PhaseB

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)
variable [FloatOps F]

/-! ## Regroupings -/

omit [FloatOps F] in
/-- A conjunction held under a condition, taken apart; -/
theorem if_apart (c : Prop) [Decidable c] (A B : sProp 𝕄) :
    (if c then iprop(A ∗ B) else iprop(emp)) ⊢ iprop((if c then A else iprop(emp)) ∗ (if c then B else iprop(emp))) := by
  split
  · exact .rfl
  · iintro H
    isplitl [H]; · iexact H
    iempintro
omit [FloatOps F] in
/-- and put together. -/
theorem if_together (c : Prop) [Decidable c] (A B : sProp 𝕄) :
    iprop((if c then A else iprop(emp)) ∗ (if c then B else iprop(emp))) ⊢ (if c then iprop(A ∗ B) else iprop(emp)) := by
  split
  · exact .rfl
  · iintro ⟨H, -⟩
    iexact H

omit [FloatOps F] in
/-- Sixteen conjuncts as the first, the second and the fourteen from the third on. -/
theorem bigSep_fin16_two (Φ : Fin 16 → sProp 𝕄) :
    bigSep Finset.univ Φ = iprop(Φ 0 ∗ Φ 1 ∗ bigSep (Finset.univ.filter fun k : Fin 16 => 2 ≤ k.val) Φ) :=
  (congrArg (fun s => bigSep s Φ)
    (show (Finset.univ : Finset (Fin 16)) = insert 0 (insert 1 (Finset.univ.filter fun k : Fin 16 => 2 ≤ k.val)) by decide)).trans
    (by rw [SparseCore.bigSep_insert' (by decide), SparseCore.bigSep_insert' (by decide)])

omit [FloatOps F] in
/-- The subcore's semaphores at zero: the table copy's, the index chunks', the ring's. -/
theorem ownSems0_V₂ (d : Dev nD) (L : grid0.Coords) :
    (ownSems0 (V d (cV L) (jV L)) : sProp 𝕄)
      = iprop(semVal (dcell d L 0) 0 ∗ semVal (dcell d L 1) 0 ∗ bigSep (Finset.univ.filter fun k : Fin 16 => 2 ≤ k.val) fun k => semVal (dcell d L k) 0) :=
  (ownSems0_V d L).trans (bigSep_fin16_two _)

/-! ## The task -/

theorem tile_body (d : Dev nD) (L : grid0.Coords) (hz : ∀ i, (m (zLoc d) i).toNat < 100) (hF : (K (F := F)).Facts) (O : CellTallies nD τ sig (HIx 1)) (W : Waits sig (HIx 1)) (hO : ∀ g, O g none = 0) (hOlev : ∀ g ι, 0 < O g ι → 8 * (0 : Fin 1).val + 6 ≤ (K (F := F)).lev g ι) :
    iprop(levAts (K (F := F)).L (K (F := F)).lev ∗ bkit m d (cV L) (jV L)
        ∗ (zPts m d (qT (L 0).val (L 1).val) ∗ oWm m d (qT (L 0).val (L 1).val) ∅ ∗ if (L 1).val = 0 then iprop(wPts m d (qC (L 0).val) ∗ ∃ f, shLoc d (cV L) ↦{fullShare} f) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
          fun _ => iprop((zPts m d (qT (L 0).val (L 1).val) ∗ oWm m d (qT (L 0).val (L 1).val) (tMarks d (L 0).val (L 1).val) ∗ shTok m d (cV L) (L 1).val
              ∗ if (L 1).val = 0 then iprop(wPts m d (qC (L 0).val) ∗ shLoc d (cV L) ↦{Transfers.shareDrop fullShare 16} tbl m d (cV L)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0_k_eq_parts.{1}, (K (F := F)).scopedBufs_V hF d (cV L) (jV L), SparseCore.Cfg.scopedSems0_V d (cV L) (jV L), ownSems0_V₂ d L, ownBufs_V d L]
  have hO' : ∀ g, (O + oxV d (cV L)) g none = 0 := fun g => by
    show O g none + oxV d (cV L) g none = 0
    rw [hO g, oxV_none]
  iintro ⟨#Hlev, Hkit, ⟨Hz, Ho, Hif⟩, ⟨Hs0, Hs1, Hbr⟩, ⟨Hd0, Hd1, Hdr⟩, Howes⟩
  -- the first half, the second as what follows it
  iapply (phaseA d L m hF (O + oxV d (cV L)) W hO' (fun _ => progB L) _) $$ [Hz Hif Hs0 Hd0 Hd1 Howes]
  · isplitr; · iexact Hlev
    isplitl [Hz]; · iexact Hz
    isplitl [Hif]; · iexact Hif
    isplitl [Hs0]; · iexact Hs0
    isplitl [Hd0]; · iexact Hd0
    isplitl [Hd1]; · iexact Hd1
    iexact Howes
  iintro ⟨Hz, Hif, Hs0, Hd0, Hd1, ⟨%W₁, %hW₁, Howes⟩⟩
  -- subcore 0 keeps its share of the table aside; the filled shared scratch goes on
  ihave Hif' := (if_apart _ _ _) $$ Hif
  icases Hif' with ⟨Hw, Hsh⟩
  iapply (wp_wand_r frame _ Set.univ)
  isplitl [Hkit Ho Hsh Hs0 Hs1 Hdr Howes]
  · iapply (phaseB m d L hz hF O W₁ hO hOlev)
    isplitr; · iexact Hlev
    isplitl [Hkit]; · iexact Hkit
    isplitl [Ho]; · iexact Ho
    isplitl [Hsh]; · iexact Hsh
    isplitl [Hs0]; · iexact Hs0
    isplitl [Hs1]; · iexact Hs1
    isplitl [Hdr]; · iexact Hdr
    iexact Howes
  iintro %_ ⟨Ho, Htok, Hsh, Hs0, Hs1, Hdr, ⟨%W', %hW', Howes⟩⟩
  -- what the task brings back
  isplitl [Hz Ho Htok Hw Hsh]
  · isplitl [Hz]; · iexact Hz
    isplitl [Ho]; · iexact Ho
    isplitl [Htok]; · iexact Htok
    iapply (if_together _ _ _)
    isplitl [Hw]; · iexact Hw
    iexact Hsh
  -- the subcore's storage and semaphores, whole again
  isplitl [Hs0 Hs1 Hbr]
  · isplitl [Hs0]; · iexists _; iexact Hs0
    isplitl [Hs1]; · iexact Hs1
    iexact Hbr
  isplitl [Hd0 Hd1 Hdr]
  · isplitl [Hd0]; · iexact Hd0
    isplitl [Hd1]; · iexact Hd1
    iexact Hdr
  -- the waits: the second half's on top of the first's
  iexists W'
  isplitr
  · ipureintro
    intro p hp
    rcases hW' p hp with h | h | h
    · rcases hW₁ p h with h' | h'
      · exact .inl h'
      · exact .inr (.inl h')
    · exact .inr (.inl h)
    · exact .inr (.inr h)
  iexact Howes

end Cert.Proof.KI

end
-- ==== Proof.Tile.lean ====
/-
  Every vector subcore's obligation, from the one proof of the task at a symbolic grid point. The call runs, on subcore
  `s` of core `c`, the kernel function at the grid point `(c, s)`; what the launch deals that subcore (its barrier kit, its
  read token of the index array, its write-mode token of the result, and for subcore 0 the core's share of the table and the
  shared scratch) and what it must bring back are the task's own pre- and postcondition read at that point.
-/
import proofs.«206633_g8486855377485_cont_9to1_m_27_20_alg».proof.Proof.Setup
import proofs.«206633_g8486855377485_cont_9to1_m_27_20_alg».proof.Proof.TileSetup
import proofs.«206633_g8486855377485_cont_9to1_m_27_20_alg».proof.Proof.TileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)
variable [FloatOps F]

/-! ## The obligation -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the kernel function at its grid point, on the whole arrays and its scratch. -/
theorem defs₀_vector (c : Fin τ.nSC) (s : Fin τ.nSub) :
    defs₀ (F := F) (.scVector c s) 0 ()
      = SparseCore.onTile hcore0 hsub0 (fun c s => cc0_k (coordsV c s)
          zV (Memref.isWhole_whole _) wV (Memref.isWhole_whole _) oV (Memref.isWhole_whole _) iV (Memref.isWhole_whole _) rV (Memref.isWhole_whole _) shV (Memref.isWhole_whole _)
          cc0_scratch3 cc0_scratch4 cc0_scratch5 cc0_scratch6) ⟨⟩ c s := rfl

set_option maxRecDepth 16384 in
/-- Every subcore's task, from the task's proof at its grid point, given every index word names a row of the table. -/
theorem tileObl (hz : ∀ (d : Dev nD) i, (m (zLoc d) i).toNat < 100) (hF : (K (F := F)).Facts) :
    (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (hz d) hF O W hO hOlev

end Cert.Proof.KI

end
-- ==== Proof.K_TileSetup.lean ====
/-
  One vector subcore's view of the lookup kernel: the arrays and scratch buffers as its task addresses them, its sixteen
  DMA semaphores, and its own storage taken apart into the index scratch, the row ring and the rest.
-/
import proofs.«206633_g8486855377485_cont_9to1_m_27_20_alg».proof.Proof.K_Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

/-- The index array, the table and the result in HBM, and the task's scratch: the index chunks, the ring of row buffers,
    the core's shared copy of the table — as the kernel function's arguments. -/
abbrev zV : Memref sig .scVector .hbm S100000 .i32 := Memref.whole main_arg0_scv
abbrev wV : Memref sig .scVector .hbm S100x128 .f32 := Memref.whole main_arg7_scv
abbrev oV : Memref sig .scVector .hbm S100000x128 .f32 := Memref.whole main_v0_scv
abbrev iV : Memref sig .scVector .vmem S25x128 .i32 := Memref.whole cc0_scratch0
abbrev rV : Memref sig .scVector .vmem S7x128x128 .f32 := Memref.whole cc0_scratch1
abbrev shV : Memref sig .scVector .shared S100x128 .f32 := Memref.whole cc0_scratch2

abbrev cV (L : grid0.Coords) : Fin τ.nSC := (L 0).castLE hcore0
abbrev jV (L : grid0.Coords) : Fin τ.nSub := (L 1).castLE hsub0

variable (d : Dev nD) (L : grid0.Coords)

/-- The subcore's DMA semaphore number `k`: 0 the table copy's, 1 the index chunks', 2 + b the gather into ring slot `b`,
    9 + b the copy out of ring slot `b`. -/
abbrev dcell (k : Fin 16) : GSem nD τ sig := (V d (cV L) (jV L), .dma k)

theorem ownCells_V (c : Fin τ.nSC) (i : Fin τ.nSub) :
    ownCells (sig := sig) (V d c i) = Finset.univ.image fun k : Fin 16 => ((V d c i, SemLoc.dma k) : GSem nD τ sig) := by
  ext ⟨t, sm⟩
  simp only [mem_ownCells, Finset.mem_image, Finset.mem_univ, true_and]
  constructor
  · rintro ⟨h1, h⟩
    cases h1
    cases sm with
    | reg s =>
      have hs : ∀ s : Sem sig, (SemLoc.reg s : SemLoc sig).isScoped .scVector = false := by decide
      exact absurd (show (SemLoc.reg s : SemLoc sig).isScoped .scVector = true from h) (by rw [hs s]; exact Bool.false_ne_true)
    | dma k => exact ⟨k, rfl⟩
  · rintro ⟨k, hk⟩
    cases hk
    have hk : ∀ k : Fin 16, (SemLoc.dma k : SemLoc sig).isScoped .scVector = true := by decide
    exact ⟨rfl, hk k⟩

/-- The subcore's scoped semaphores at zero are its sixteen DMA semaphores at zero. -/
theorem ownSems0_V :
    (ownSems0 (V d (cV L) (jV L)) : sProp 𝕄) = bigSep Finset.univ fun k : Fin 16 => semVal (dcell d L k) 0 := by
  unfold SparseCore.Cfg.ownSems0
  rw [ownCells_V, SparseCore.bigSep_image_of_injOn (fun a _ b _ e => SemLoc.dma.inj (Prod.mk.inj e).2)]

/-- The index scratch and the row ring are among the subcore's own buffers: each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun h => by
        have h2 : (1 : ℕ) = 0 := congrArg (fun b : DevRef τ sig => b.idx.val) h
        exact absurd h2 (by decide), SparseCore.Cfg.mem_ownRefs_of_owner (p := Proc.scVector (cV L) (jV L)) (b := (Proc.scVector (cV L) (jV L)).devRef cc0_scratch1) rfl⟩)]

variable (m : (ℓ : Loc nD τ sig) → Buf (Elt F) ℓ)

/-- What the index scratch holds once the subcore's chunks of the index array have landed: row `j` is the 128 index words
    from the first row of chunk `j` on. -/
def idxOf (m : (ℓ : Loc nD τ sig) → Buf (Elt F) ℓ) (d : Dev nD) (L : grid0.Coords) : Buf (Elt F) ((V d (cV L) (jV L)).loc cc0_scratch0) :=
  fun y => m (zLoc d) (Idealize.ShloMosaic.ValueIdx.ix1 (⟨min (Cert.Chunks.off (L 0).val (L 1).val (y 0).val + (y 1).val) 99999, by omega⟩ : Fin 100000))

variable [FloatOps F]

/-- The task from the subcore barrier on: the barrier, the pipelined gathers and copies out, the last two copies out, the
    drain of the copies still in flight. -/
def progB : Prog (TpuEff nD τ sig (Elt F) Λ₀ (.scVector ((L 0).castLE hcore0) ((L 1).castLE hsub0))) PUnit := do
  SparseCore.subcoreBarrier sc_bar0 (grid0.bound 1) hsub0
  Scf.Loop.for k0_t3_loop k0_t3_ok ⟨⟩ (k0_t3_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  Scf.Loop.for k0_t4_loop k0_t4_ok ⟨⟩ (k0_t4_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  Scf.Loop.for k0_t5_loop k0_t5_ok ⟨⟩ (k0_t5_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  pure ⟨⟩

/-- The task up to the barrier: subcore 0 starts the table's copy into the shared scratch, every subcore starts its 25 index
    chunks' copies and waits for them, subcore 0 waits for the table's; then the rest. -/
def progA {α : Type} (kk : PUnit → Prog (TpuEff nD τ sig (Elt F) Λ₀ (.scVector ((L 0).castLE hcore0) ((L 1).castLE hsub0))) α) :
    Prog (TpuEff nD τ sig (Elt F) Λ₀ (.scVector ((L 0).castLE hcore0) ((L 1).castLE hsub0))) α := do
  let arg1 : BitVec 32 := BitVec.ofNat 32 (L 1).val
  let v2 : BitVec 1 := Scalar.cmpi .eq arg1 0#32
  let v3 : BitVec 32 := Scalar.extui v2
  let v4 : BitVec 1 := Scalar.cmpi .ne v3 0#32
  if k0_h1 : v4 = 1#1 then do
    Prog.lift (.enqueueDma wV (.here shV) (.dma cc0_scratch3.sem) (Memref.isWhole_whole _).wordExact (Memref.isWhole_whole _).wordExact ⟨Or.inl rfl, trivial⟩)
    pure ⟨⟩
  else do
    pure ⟨⟩
  Scf.Loop.for k0_t1_loop k0_t1_ok ⟨⟩ (k0_t1_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  Scf.Loop.for k0_t2_loop k0_t2_ok ⟨⟩ (k0_t2_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
  let v7 : BitVec 1 := Scalar.cmpi .eq arg1 0#32
  let v8 : BitVec 32 := Scalar.extui v7
  let v9 : BitVec 1 := Scalar.cmpi .ne v8 0#32
  if k0_h2 : v9 = 1#1 then do
    Prog.lift (.waitDma2 cc0_scratch3.sem wV shV (Memref.isWhole_whole _).wordExact (Memref.isWhole_whole _).wordExact)
    pure ⟨⟩
  else do
    pure ⟨⟩
  kk ⟨⟩

set_option maxRecDepth 65536 in
/-- The kernel function is the first part followed by the second. -/
theorem cc0_k_eq_parts :
    cc0_k (F := F) L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6
      = progA L (fun _ => progB L) := rfl

end Cert.Proof.KB

end
-- ==== Proof.K_PhaseA.lean ====
/-
  The first half of one vector subcore's task, up to the subcore barrier. Subcore 0 of each core starts one copy of the
  whole table into the core's shared scratch; every subcore starts 25 copies on one DMA semaphore — copy `k` moves the 128
  index words of its chunk `k` into row `k` of its index scratch —, waits 25 times on that semaphore, and subcore 0 then
  waits for the table's copy. Nothing is read or written between the starts and the waits, so the 25 copies are counted
  together: the first 24 waits learn nothing, the last one learns that every copy has landed. The index array is read by all
  25 copies at once, each under a read token of the subcore's share; the rows of the index scratch are disjoint and cover it.
  What comes out: the shares as they went in, the shared scratch holding the table, the index scratch holding, at row `k`
  and lane `l`, the index word at row `off k + l` of the index array.
-/
import proofs.«206633_g8486855377485_cont_9to1_m_27_20_alg».proof.Proof.K_TileSetup
import Idealize.ShloMosaic.Lib.Batch
import Idealize.ShloMosaic.Lib.Ring
import proofs.«206633_g8486855377485_cont_9to1_m_27_20_alg».proof.Proof.ChunksCover

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (d : Dev nD) (L : grid0.Coords)

theorem v4_pos (h : (L 1).val = 0) :
    Scalar.cmpi .ne (Scalar.extui (Scalar.cmpi .eq (BitVec.ofNat 32 (L 1).val) 0#32) : BitVec 32) 0#32 = 1#1 := by
  rw [h]; decide

theorem v4_neg (h : (L 1).val ≠ 0) :
    ¬ (Scalar.cmpi .ne (Scalar.extui (Scalar.cmpi .eq (BitVec.ofNat 32 (L 1).val) 0#32) : BitVec 32) 0#32 = 1#1) := by
  have h16 : (L 1).val < 16 := (L 1).isLt
  generalize (L 1).val = n at h h16
  interval_cases n <;> first | exact absurd rfl h | decide

theorem t1_trips : k0_t1_loop.trips = 25 := by decide +kernel
theorem t2_trips : k0_t2_loop.trips = 25 := by decide +kernel

/-- Row `k` of the index scratch, as trip `k` of the issue loop addresses it. -/
def rowM (k : Fin k0_t1_loop.trips) : Memref sig .scVector .vmem S128 .i32 :=
  ((iV).slice (Rect.unit (s := S25x128) (k0_off1 k) S1x128.size (k0_off1_inb k)) (fun _ => rfl)).squeeze S128 squeezes_S1x128_S128
/-- Chunk `k` of the index array, as trip `k` addresses it. -/
def zM (k : Fin k0_t1_loop.trips) : Memref sig .scVector .hbm S128 .i32 :=
  (zV).slice (Rect.unit (s := S100000) (k0_off2 L k) S128.size (k0_off2_inb L k)) (fun _ => rfl)

/-- What one chunk's copy counts on its semaphore: the bits of 128 words. -/
abbrev NN : ℕ := 4096

variable (m : (ℓ : Loc nD τ sig) → Buf (Elt F) ℓ)

/-- Row `k` of the index scratch owned, at some contents. -/
abbrev rowOwn (k : Fin k0_t1_loop.trips) : sProp 𝕄 :=
  iprop(∃ g, (rowM k).view.loc (V d (cV L) (jV L)) ↦[(rowM k).view.set]{fullShare} g)
/-- Chunk `k` of the index array under read token `k` of the subcore's share. -/
abbrev zPiece (k : Fin k0_t1_loop.trips) : sProp 𝕄 :=
  (zM L k).view.loc (V d (cV L) (jV L)) ↦[(zM L k).view.set]{Transfers.shareTokN (qT (L 0).val (L 1).val) k.val}
    m ((zM L k).view.loc (V d (cV L) (jV L)))
/-- Row `k` with chunk `k` landed in it. -/
abbrev rowLanded (k : Fin k0_t1_loop.trips) : sProp 𝕄 :=
  (rowM k).view.loc (V d (cV L) (jV L)) ↦[(rowM k).view.set]{fullShare}
    (rowM k).view.writes (Elt F) (m ((rowM k).view.loc (V d (cV L) (jV L))))
      [⟨Rect.whole S128, ReadAs.same.apply ((zM L k).view.read (Elt F) (m ((zM L k).view.loc (V d (cV L) (jV L)))))⟩]
/-- What copy `k` delivers: row `k` landed, and its piece of the index array back. -/
abbrev DD (k : Fin k0_t1_loop.trips) : sProp 𝕄 := iprop(rowLanded d L m k ∗ zPiece d L m k)
/-- The 25 copies on the chunks' semaphore: `j` started, `u` units waited for. -/
abbrev batch (j u : ℕ) : sProp 𝕄 :=
  Transfers.Batch (countersEmb : UEmb Counters 𝕄) (V d (cV L) (jV L)) (.dma cc0_scratch4.sem) (none : HIx 1) NN (DD d L m) j u

/-- Before trip `k` of the issue loop: `k` copies started, the rows and the pieces from `k` on still in hand. -/
def issueAt (k : ℕ) (_ : Unit) : sProp 𝕄 :=
  iprop(batch d L m k 0 ∗ bigSep (Ring.rangeSet k0_t1_loop.trips k k0_t1_loop.trips) (rowOwn d L)
    ∗ bigSep (Ring.rangeSet k0_t1_loop.trips k k0_t1_loop.trips) (zPiece d L m))

instance DD_storable (k : Fin k0_t1_loop.trips) : BI.Storable (upEmb : UEmb _ 𝕄) (DD d L m k) := by
  unfold DD rowLanded zPiece; infer_instance

/-- Before trip `k` of the drain loop: the waits so far recorded; before the last trip has run, all 25 copies started and
    `k` of them waited for; after it, the semaphore at zero and every copy's delivery. -/
def drainInv (O' : CellTallies nD τ sig (HIx 1)) (W : Waits sig (HIx 1)) (k : ℕ) (_ : Unit) : sProp 𝕄 :=
  iprop(⌜k ≤ k0_t2_loop.trips⌝ ∗ Transfers.MayWaits (V d (cV L) (jV L)) (default : HIx 1) O'
    ∗ (∃ W', ⌜∀ p ∈ W', p ∈ W ∨ p.2 = none⌝ ∗ owes (V d (cV L) (jV L)) O' W')
    ∗ (if k < k0_t2_loop.trips then batch d L m k0_t1_loop.trips (k * NN)
       else iprop(semVal (V d (cV L) (jV L), SemLoc.dma cc0_scratch4.sem) 0 ∗ bigSep Finset.univ (DD d L m))))

/-! ### The rows of the index scratch -/

/-- Row `k`'s elements. -/
abbrev rset (k : Fin k0_t1_loop.trips) : Finset S25x128.Idx :=
  (Rect.unit (s := S25x128) (k0_off1 k) S1x128.size (k0_off1_inb k)).set

theorem rset_eq (k : Fin k0_t1_loop.trips) : (rowM k).view.set = rset k := by
  unfold rowM; exact (View.set_reshape _ _).trans (View.set_slice_whole _ _)

/-- Row `k`'s elements: the scratch's at leading index `k`. -/
theorem mem_rset (k : Fin k0_t1_loop.trips) (y : S25x128.Idx) : y ∈ rset k ↔ (y 0).val = k.val := by
  rw [Rect.mem_set_unit, k0_off1_eq k]
  have h1 : (y 1).val < 128 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 128; omega

theorem rset_disjoint : ∀ b b' : Fin k0_t1_loop.trips, b ≠ b' → Disjoint (rset b) (rset b') := fun b b' hne => by
  rw [Finset.disjoint_left]; intro y hy hy'
  rw [mem_rset] at hy hy'; exact hne (Fin.ext (by omega))

theorem rset_cover : (Finset.univ : Finset (Fin k0_t1_loop.trips)).biUnion rset = Finset.univ := by
  ext y; simp only [Finset.mem_biUnion, Finset.mem_univ, true_and, iff_true]
  have h0 : (y 0).val < 25 := (y 0).isLt
  exact ⟨⟨(y 0).val, by rw [t1_trips]; exact h0⟩, (mem_rset _ _).mpr rfl⟩

/-- Where element `j` of row `k` sits in the scratch. -/
theorem rowM_emb (k : Fin k0_t1_loop.trips) (j : S128.Idx) (y : S25x128.Idx) (hy : y = (rowM k).view.emb j) :
    (y 0).val = k.val ∧ (y 1).val = (j 0).val := by
  subst hy
  have e := k0_off1_eq k
  have hc := Shape.reshapeEquiv_cons_one (n := 1) (d := ![128]) squeezes_S1x128_S128.numel_eq j
  constructor
  · show (k0_off1 k) 0 + 1 * ((Shape.reshapeEquiv squeezes_S1x128_S128.numel_eq j) 0).val = k.val
    rw [hc, e]; show k.val + 1 * 0 = k.val; omega
  · show (k0_off1 k) 1 + 1 * ((Shape.reshapeEquiv squeezes_S1x128_S128.numel_eq j) 1).val = (j 0).val
    rw [hc, e]; show 0 + 1 * (j 0).val = (j 0).val; omega

/-- Where element `j` of chunk `k` sits in the index array. -/
theorem zM_emb (k : Fin k0_t1_loop.trips) (j : S128.Idx) (y : S100000.Idx) (hy : y = (zM L k).view.emb j) :
    (y 0).val = Cert.Chunks.off (L 0).val (L 1).val k.val + (j 0).val := by
  subst hy
  have e := k0_off2_eq L k
  show (k0_off2 L k) 0 + 1 * (j 0).val = _
  rw [e]; unfold Cert.Chunks.off
  show min (256 * (L 1).val + 128 * (L 0).val + 4096 * k.val) 99872 + 1 * (j 0).val
    = min (256 * (L 1).val + 128 * (L 0).val + 4096 * k.val) 99872 + (j 0).val
  omega

/-- The fetched indices at an element of row `k`: the index array's word at the matching place of chunk `k`. -/
theorem idx_eq (k : Fin k0_t1_loop.trips) (j : S128.Idx) (y : S25x128.Idx) (z : S100000.Idx)
    (hy0 : (y 0).val = k.val) (hy1 : (y 1).val = (j 0).val)
    (hz : (z 0).val = Cert.Chunks.off (L 0).val (L 1).val k.val + (j 0).val) :
    m (zLoc d) z = idxOf m d L y := by
  have hj : (j 0).val < 128 := (j 0).isLt
  have hle := Cert.Chunks.off_le (L 0).val (L 1).val k.val
  unfold idxOf
  refine congrArg (m (zLoc d)) ?_
  funext a
  obtain rfl : a = 0 := Subsingleton.elim _ _
  apply Fin.ext
  show (z 0).val = min (Cert.Chunks.off (L 0).val (L 1).val (y 0).val + (y 1).val) 99999
  rw [hy0, hy1, hz]; omega

/-- What lands in row `k` is row `k` of the fetched indices. -/
theorem row_value (k : Fin k0_t1_loop.trips) :
    ∀ i ∈ (rowM k).view.set, (rowM k).view.writes (Elt F) (m ((rowM k).view.loc (V d (cV L) (jV L))))
      [⟨Rect.whole S128, ReadAs.same.apply ((zM L k).view.read (Elt F) (m ((zM L k).view.loc (V d (cV L) (jV L)))))⟩] i
        = idxOf m d L i := by
  intro i hi
  obtain ⟨j, -, rfl⟩ := Finset.mem_map.mp hi
  have h := congrFun (View.read_writes_whole (rowM k).view (m ((rowM k).view.loc (V d (cV L) (jV L))))
    (ReadAs.same.apply ((zM L k).view.read (Elt F) (m ((zM L k).view.loc (V d (cV L) (jV L))))))) j
  refine ((cast_eq _ _).symm.trans h).trans ?_
  show (zM L k).view.read (Elt F) (m ((zM L k).view.loc (V d (cV L) (jV L)))) j = _
  refine (cast_eq _ _).trans ?_
  obtain ⟨h0, h1⟩ := rowM_emb k j _ rfl
  exact idx_eq d L m k j _ _ h0 h1 (zM_emb L k j _ rfl)

/-! ### The index scratch as its rows, the subcore's share of the index array as read tokens -/

/-- The index scratch held whole is its 25 rows held. -/
theorem iV_rows (f : Buf (Elt F) ((V d (cV L) (jV L)).loc cc0_scratch0)) :
    ((V d (cV L) (jV L)).loc cc0_scratch0 ↦{fullShare} f : sProp 𝕄)
      = bigSep Finset.univ (fun k : Fin k0_t1_loop.trips => ((V d (cV L) (jV L)).loc cc0_scratch0 ↦[rset k]{fullShare} f : sProp 𝕄)) :=
  Ring.pointsTo_blocks (ℓ := (V d (cV L) (jV L)).loc cc0_scratch0) (q := fullShare) rset rset_disjoint rset_cover f

theorem rows_own (f : Buf (Elt F) ((V d (cV L) (jV L)).loc cc0_scratch0)) :
    ((V d (cV L) (jV L)).loc cc0_scratch0 ↦{fullShare} f : sProp 𝕄) ⊢ bigSep Finset.univ (rowOwn d L) := by
  rw [iV_rows]
  refine BI.bigSep_mono fun k _ => ?_
  show ((V d (cV L) (jV L)).loc cc0_scratch0 ↦[rset k]{fullShare} f : sProp 𝕄) ⊢ rowOwn d L k
  unfold rowOwn; rw [rset_eq]; iintro H; iexists f; iexact H

/-- The rows with the chunks landed are the scratch holding the fetched indices. -/
theorem rows_back :
    (bigSep Finset.univ (rowLanded d L m) : sProp 𝕄) ⊢ (V d (cV L) (jV L)).loc cc0_scratch0 ↦{fullShare} idxOf m d L := by
  rw [iV_rows d L (idxOf m d L)]
  refine BI.bigSep_mono fun k _ => ?_
  show rowLanded d L m k ⊢ ((V d (cV L) (jV L)).loc cc0_scratch0 ↦[rset k]{fullShare} idxOf m d L : sProp 𝕄)
  unfold rowLanded
  refine (Entails.of_eq (pointsTo_congr (row_value d L m k))).trans ?_
  rw [rset_eq]; exact .rfl

/-- The rest of read token `k`: the index array outside chunk `k`. -/
abbrev zRestTok (k : Fin k0_t1_loop.trips) : sProp 𝕄 :=
  zLoc d ↦[Finset.univ \ (zM L k).view.set]{Transfers.shareTokN (qT (L 0).val (L 1).val) k.val} m (zLoc d)

/-- Read token `k` is its chunk's piece and the rest. -/
theorem z_tok (k : Fin k0_t1_loop.trips) :
    (zLoc d ↦{Transfers.shareTok (qT (L 0).val (L 1).val) k0_t1_loop.trips k} m (zLoc d) : sProp 𝕄)
      = iprop(zPiece d L m k ∗ zRestTok d L m k) :=
  have h := pointsTo_split_subset (Ix := HIx 1) (Name := ℕ) (U := UU F) (Lvl := ℕ) (ℓ := zLoc d) (I := (zM L k).view.set) (S := Finset.univ)
    (q := Transfers.shareTok (qT (L 0).val (L 1).val) k0_t1_loop.trips k) (f := m (zLoc d)) (Finset.subset_univ _)
  h.1.antisymm h.2

/-- The subcore's share of the index array: 25 read tokens, each its chunk's piece and the rest, and what is left. -/
theorem z_split :
    (zPts m d (qT (L 0).val (L 1).val) : sProp 𝕄)
      = iprop((zLoc d ↦{Transfers.shareDrop (qT (L 0).val (L 1).val) k0_t1_loop.trips} m (zLoc d))
          ∗ bigSep Finset.univ (zPiece d L m) ∗ bigSep Finset.univ (zRestTok d L m)) := by
  have h := Transfers.pointsTo_toks (Ix := HIx 1) (Name := ℕ) (U := UU F) (Lvl := ℕ) (ℓ := zLoc d) (S := Finset.univ) (f := m (zLoc d))
    (qT (L 0).val (L 1).val) k0_t1_loop.trips
  have e : (iprop(bigSep Finset.univ (zPiece d L m) ∗ bigSep Finset.univ (zRestTok d L m)) : sProp 𝕄)
      = bigSep Finset.univ (fun k : Fin k0_t1_loop.trips =>
          (zLoc d ↦{Transfers.shareTok (qT (L 0).val (L 1).val) k0_t1_loop.trips k} m (zLoc d) : sProp 𝕄)) :=
    ((BI.bigSep_sep _ _ _).symm).trans (BI.bigSep_congr (fun k _ => (z_tok d L m k).symm))
  rw [e]
  exact h.1.antisymm h.2

variable [FloatOps F]

set_option maxHeartbeats 2000000 in
/-- One trip of the issue loop: row `k` and piece `k` taken off the heads of their runs, copy `k` started. -/
theorem issue_step (k : Fin k0_t1_loop.trips) (acc : Unit) :
    issueAt d L m k acc ⊢ wp frame (wpE (defs₀ (F := F)) 𝒱₀ (V d (cV L) (jV L)) none) Set.univ
      (k0_t1_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
      (issueAt d L m (k.val + 1)) := by
  have hk := k.isLt
  unfold issueAt
  rw [Ring.bigSep_rangeSet_head (Φ := rowOwn d L) (by omega) (by omega), Ring.bigSep_rangeSet_head (Φ := zPiece d L m) (by omega) (by omega)]
  unfold rowOwn
  iintro ⟨HB, ⟨⟨%g, HR⟩, HRs⟩, HZ, HZs⟩
  sl_unfold [k0_t1_body]
  sl_exec
  sl_step
  isplitl [HB]; · iexact HB
  isplitl [HRs]; · iexact HRs
  iexact HZs

set_option maxHeartbeats 2000000 in
/-- One trip of the drain loop: a wait that hands back nothing, or — the last — the semaphore and every delivery. -/
theorem drain_step (O' : CellTallies nD τ sig (HIx 1)) (W : Waits sig (HIx 1)) (k : Fin k0_t2_loop.trips) (acc : Unit) :
    drainInv d L m O' W k acc ⊢ wp frame (wpE (defs₀ (F := F)) 𝒱₀ (V d (cV L) (jV L)) none) Set.univ
      (k0_t2_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
      (drainInv d L m O' W (k.val + 1)) := by
  have hk : k.val < k0_t2_loop.trips := k.isLt
  have e1 := t1_trips; have e2 := t2_trips
  unfold drainInv
  simp only [if_pos hk]
  rcases Nat.lt_or_ge (k.val + 1) k0_t2_loop.trips with h1 | h1
  · simp only [if_pos h1]
    iintro ⟨-, #Hmw, ⟨%W', %hW', HO⟩, HB⟩
    sl_unfold [k0_t2_body]
    sl_exec
    sl_step
    isplitr; · ipureintro; omega
    isplitr; · iexact Hmw
    isplitl [HO]
    · iexists _; isplitr
      swap; · iexact HO
      ipureintro; intro p hp
      rcases Finset.mem_insert.mp hp with hp | hp
      · exact .inr (hp ▸ rfl)
      · exact hW' p hp
    rw [Nat.succ_mul]
    iexact HB
  · simp only [if_neg (Nat.not_lt.mpr h1)]
    iintro ⟨-, #Hmw, ⟨%W', %hW', HO⟩, HB⟩
    sl_unfold [k0_t2_body]
    sl_exec
    sl_step
    isplitr; · ipureintro; omega
    isplitr; · iexact Hmw
    isplitl [HO]
    · iexists _; isplitr
      swap; · iexact HO
      ipureintro; intro p hp
      rcases Finset.mem_insert.mp hp with hp | hp
      · exact .inr (hp ▸ rfl)
      · exact hW' p hp
    isplitl [HB]; · iexact HB
    iexact HB_all

set_option maxHeartbeats 4000000 in
theorem phaseA_neg (hF : (K (F := F)).Facts) (O' : CellTallies nD τ sig (HIx 1)) (W : Waits sig (HIx 1)) (hO' : ∀ g, O' g none = 0)
    (h0 : (L 1).val ≠ 0)
    {α : Type} (kk : PUnit → Prog (TpuEff nD τ sig (Elt F) Λ₀ (.scVector ((L 0).castLE hcore0) ((L 1).castLE hsub0))) α) (Q : α → sProp 𝕄) :
    iprop(levAts (K (F := F)).L (K (F := F)).lev
        ∗ zPts m d (qT (L 0).val (L 1).val)
        ∗ (∃ f, (V d (cV L) (jV L)).loc cc0_scratch0 ↦{fullShare} f)
        ∗ semVal (dcell d L 0) 0 ∗ semVal (dcell d L 1) 0
        ∗ owes (V d (cV L) (jV L)) O' W)
      ⊢ iprop((iprop(zPts m d (qT (L 0).val (L 1).val)
              ∗ ((V d (cV L) (jV L)).loc cc0_scratch0 ↦{fullShare} idxOf m d L)
              ∗ semVal (dcell d L 0) 0 ∗ semVal (dcell d L 1) 0
              ∗ ∃ W', ⌜∀ p ∈ W', p ∈ W ∨ p.2 = none⌝ ∗ owes (V d (cV L) (jV L)) O' W')
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (progA L kk) Q) := by
  have e1 := t1_trips; have e2 := t2_trips
  iintro ⟨#Hlv, Hz, ⟨%fi, Hi⟩, Hc0, Hc1, HO⟩ Hk
  ihave Hmw := (show levAts (K (F := F)).L (K (F := F)).lev ⊢ Transfers.MayWaits (V d (cV L) (jV L)) (default : HIx 1) O' from
    (K (F := F)).mayWaits_none (thr := V d (cV L) (jV L)) hO') $$ Hlv
  ihave Hrows := (rows_own d L fi) $$ Hi
  ihave Hz' := (Entails.of_eq (z_split d L m)) $$ Hz
  icases Hz' with ⟨Hzd, Hzp, Hzr⟩
  ihave Hc1' := (show (semVal (dcell d L 1) 0 : sProp 𝕄) ⊢ semVal (V d (cV L) (jV L), SemLoc.dma cc0_scratch4.sem) 0 from Entails.of_eq rfl) $$ Hc1
  imod (Transfers.batch_alloc' (Lvl := ℕ) (countersEmb : UEmb Counters 𝕄) (V d (cV L) (jV L)) (none : HIx 1) NN (DD d L m)
    (sm := .dma cc0_scratch4.sem) (E := Set.univ)) $$ Hc1' with HB
  have hn := v4_neg L h0
  sl_unfold [progA]
  sl_exec

  sl_for (issueAt d L m) $$ [HB Hrows Hzp]
  · intro k acc; exact issue_step d L m k acc
  · unfold issueAt
    rw [Ring.rangeSet_univ]
    isplitl [HB]; · iexact HB
    isplitl [Hrows]; · iexact Hrows
    iexact Hzp
  iintro %acc HI
  ihave HB := (show issueAt d L m (Scf.trips k0_t1_loop.lb k0_t1_loop.ub k0_t1_loop.st) acc ⊢ batch d L m k0_t1_loop.trips 0 from by
      unfold issueAt
      rw [show Scf.trips k0_t1_loop.lb k0_t1_loop.ub k0_t1_loop.st = k0_t1_loop.trips from rfl,
        Ring.bigSep_rangeSet_empty le_rfl, Ring.bigSep_rangeSet_empty le_rfl]
      iintro ⟨H, -, -⟩; iexact H) $$ HI
  sl_for (drainInv d L m O' W) $$ [HB HO]
  · intro k acc; exact drain_step d L m O' W k acc
  · unfold drainInv
    rw [if_pos (show 0 < k0_t2_loop.trips by omega)]
    isplitr; · ipureintro; omega
    isplitr; · iexact Hmw
    isplitl [HO]
    · iexists W; isplitr
      · ipureintro; exact fun p hp => .inl hp
      · iexact HO
    rw [Nat.zero_mul]; iexact HB
  iintro %acc2 HL
  ihave HL' := (show drainInv d L m O' W (Scf.trips k0_t2_loop.lb k0_t2_loop.ub k0_t2_loop.st) acc2
      ⊢ iprop((∃ W', ⌜∀ p ∈ W', p ∈ W ∨ p.2 = none⌝ ∗ owes (V d (cV L) (jV L)) O' W')
          ∗ semVal (V d (cV L) (jV L), SemLoc.dma cc0_scratch4.sem) 0 ∗ bigSep Finset.univ (DD d L m)) from by
      unfold drainInv
      rw [if_neg (Nat.lt_irrefl _)]
      iintro ⟨-, -, HO, Hc, Hall⟩
      isplitl [HO]; · iexact HO
      isplitl [Hc] <;> iassumption) $$ HL
  icases HL' with ⟨⟨%W', %hW', HO⟩, Hc1, Hall⟩
  ihave Hd := (show bigSep Finset.univ (DD d L m) ⊢ iprop(bigSep Finset.univ (rowLanded d L m) ∗ bigSep Finset.univ (zPiece d L m))
    from Entails.of_eq (BI.bigSep_sep _ _ _)) $$ Hall
  icases Hd with ⟨Hrows, Hzp⟩
  ihave Hi := (rows_back d L m) $$ Hrows
  ihave Hz := (show iprop((zLoc d ↦{Transfers.shareDrop (qT (L 0).val (L 1).val) k0_t1_loop.trips} m (zLoc d))
          ∗ bigSep Finset.univ (zPiece d L m) ∗ bigSep Finset.univ (zRestTok d L m)) ⊢ zPts m d (qT (L 0).val (L 1).val)
    from Entails.of_eq (z_split d L m).symm) $$ [Hzd Hzp Hzr]
  · isplitl [Hzd]; · iexact Hzd
    isplitl [Hzp]; · iexact Hzp
    iexact Hzr
  ihave Hc1' := (show (semVal (V d (cV L) (jV L), SemLoc.dma cc0_scratch4.sem) 0 : sProp 𝕄) ⊢ semVal (dcell d L 1) 0 from Entails.of_eq rfl) $$ Hc1
  sl_exec
  iapply Hk
  isplitl [Hz]; · iexact Hz
  isplitl [Hi]; · iexact Hi
  isplitl [Hc0]; · iexact Hc0
  isplitl [Hc1']; · iexact Hc1'
  iexists W'; isplitr
  · ipureintro; exact hW'
  · iexact HO

set_option maxHeartbeats 4000000 in
theorem phaseA_pos (hF : (K (F := F)).Facts) (O' : CellTallies nD τ sig (HIx 1)) (W : Waits sig (HIx 1)) (hO' : ∀ g, O' g none = 0)
    (h0 : (L 1).val = 0)
    {α : Type} (kk : PUnit → Prog (TpuEff nD τ sig (Elt F) Λ₀ (.scVector ((L 0).castLE hcore0) ((L 1).castLE hsub0))) α) (Q : α → sProp 𝕄) :
    iprop(levAts (K (F := F)).L (K (F := F)).lev
        ∗ zPts m d (qT (L 0).val (L 1).val)
        ∗ (wPts m d (qC (L 0).val) ∗ ∃ f, shLoc d (cV L) ↦{fullShare} f)
        ∗ (∃ f, (V d (cV L) (jV L)).loc cc0_scratch0 ↦{fullShare} f)
        ∗ semVal (dcell d L 0) 0 ∗ semVal (dcell d L 1) 0
        ∗ owes (V d (cV L) (jV L)) O' W)
      ⊢ iprop((iprop(zPts m d (qT (L 0).val (L 1).val)
              ∗ (wPts m d (qC (L 0).val) ∗ shLoc d (cV L) ↦{fullShare} tbl m d (cV L))
              ∗ ((V d (cV L) (jV L)).loc cc0_scratch0 ↦{fullShare} idxOf m d L)
              ∗ semVal (dcell d L 0) 0 ∗ semVal (dcell d L 1) 0
              ∗ ∃ W', ⌜∀ p ∈ W', p ∈ W ∨ p.2 = none⌝ ∗ owes (V d (cV L) (jV L)) O' W')
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (progA L kk) Q) := by
  have e1 := t1_trips; have e2 := t2_trips
  iintro ⟨#Hlv, Hz, ⟨Hw, ⟨%fsh, Hsh⟩⟩, ⟨%fi, Hi⟩, Hc0, Hc1, HO⟩ Hk
  ihave Hmw := (show levAts (K (F := F)).L (K (F := F)).lev ⊢ Transfers.MayWaits (V d (cV L) (jV L)) (default : HIx 1) O' from
    (K (F := F)).mayWaits_none (thr := V d (cV L) (jV L)) hO') $$ Hlv
  ihave Hrows := (rows_own d L fi) $$ Hi
  ihave Hz' := (Entails.of_eq (z_split d L m)) $$ Hz
  icases Hz' with ⟨Hzd, Hzp, Hzr⟩
  ihave Hc1' := (show (semVal (dcell d L 1) 0 : sProp 𝕄) ⊢ semVal (V d (cV L) (jV L), SemLoc.dma cc0_scratch4.sem) 0 from Entails.of_eq rfl) $$ Hc1
  imod (Transfers.batch_alloc' (Lvl := ℕ) (countersEmb : UEmb Counters 𝕄) (V d (cV L) (jV L)) (none : HIx 1) NN (DD d L m)
    (sm := .dma cc0_scratch4.sem) (E := Set.univ)) $$ Hc1' with HB
  ihave Hw' := (show wPts m d (qC (L 0).val) ⊢ ((wV).view.loc (V d (cV L) (jV L)) ↦{qC (L 0).val} m (wLoc d) : sProp 𝕄) from .rfl) $$ Hw
  ihave Hsh' := (show (shLoc d (cV L) ↦{fullShare} fsh : sProp 𝕄) ⊢ ((shV).view.loc (V d (cV L) (jV L)) ↦{fullShare} fsh) from .rfl) $$ Hsh
  ihave Hc0' := (show (semVal (dcell d L 0) 0 : sProp 𝕄) ⊢ semVal (V d (cV L) (jV L), SemLoc.dma cc0_scratch3.sem) 0 from Entails.of_eq rfl) $$ Hc0
  have hp := v4_pos L h0
  sl_unfold [progA]
  sl_exec

  sl_for (issueAt d L m) $$ [HB Hrows Hzp]
  · intro k acc; exact issue_step d L m k acc
  · unfold issueAt
    rw [Ring.rangeSet_univ]
    isplitl [HB]; · iexact HB
    isplitl [Hrows]; · iexact Hrows
    iexact Hzp
  iintro %acc HI
  ihave HB := (show issueAt d L m (Scf.trips k0_t1_loop.lb k0_t1_loop.ub k0_t1_loop.st) acc ⊢ batch d L m k0_t1_loop.trips 0 from by
      unfold issueAt
      rw [show Scf.trips k0_t1_loop.lb k0_t1_loop.ub k0_t1_loop.st = k0_t1_loop.trips from rfl,
        Ring.bigSep_rangeSet_empty le_rfl, Ring.bigSep_rangeSet_empty le_rfl]
      iintro ⟨H, -, -⟩; iexact H) $$ HI
  sl_for (drainInv d L m O' W) $$ [HB HO]
  · intro k acc; exact drain_step d L m O' W k acc
  · unfold drainInv
    rw [if_pos (show 0 < k0_t2_loop.trips by omega)]
    isplitr; · ipureintro; omega
    isplitr; · iexact Hmw
    isplitl [HO]
    · iexists W; isplitr
      · ipureintro; exact fun p hp => .inl hp
      · iexact HO
    rw [Nat.zero_mul]; iexact HB
  iintro %acc2 HL
  ihave HL' := (show drainInv d L m O' W (Scf.trips k0_t2_loop.lb k0_t2_loop.ub k0_t2_loop.st) acc2
      ⊢ iprop((∃ W', ⌜∀ p ∈ W', p ∈ W ∨ p.2 = none⌝ ∗ owes (V d (cV L) (jV L)) O' W')
          ∗ semVal (V d (cV L) (jV L), SemLoc.dma cc0_scratch4.sem) 0 ∗ bigSep Finset.univ (DD d L m)) from by
      unfold drainInv
      rw [if_neg (Nat.lt_irrefl _)]
      iintro ⟨-, -, HO, Hc, Hall⟩
      isplitl [HO]; · iexact HO
      isplitl [Hc] <;> iassumption) $$ HL
  icases HL' with ⟨⟨%W', %hW', HO⟩, Hc1, Hall⟩
  ihave Hd := (show bigSep Finset.univ (DD d L m) ⊢ iprop(bigSep Finset.univ (rowLanded d L m) ∗ bigSep Finset.univ (zPiece d L m))
    from Entails.of_eq (BI.bigSep_sep _ _ _)) $$ Hall
  icases Hd with ⟨Hrows, Hzp⟩
  ihave Hi := (rows_back d L m) $$ Hrows
  ihave Hz := (show iprop((zLoc d ↦{Transfers.shareDrop (qT (L 0).val (L 1).val) k0_t1_loop.trips} m (zLoc d))
          ∗ bigSep Finset.univ (zPiece d L m) ∗ bigSep Finset.univ (zRestTok d L m)) ⊢ zPts m d (qT (L 0).val (L 1).val)
    from Entails.of_eq (z_split d L m).symm) $$ [Hzd Hzp Hzr]
  · isplitl [Hzd]; · iexact Hzd
    isplitl [Hzp]; · iexact Hzp
    iexact Hzr
  ihave Hc1' := (show (semVal (V d (cV L) (jV L), SemLoc.dma cc0_scratch4.sem) 0 : sProp 𝕄) ⊢ semVal (dcell d L 1) 0 from Entails.of_eq rfl) $$ Hc1
  sl_exec
  ihave Hsh := (show ((shV).view.loc (V d (cV L) (jV L)) ↦{fullShare} View.write (Elt F) (shV).view fsh (phaseA_pos.sl.dma0 d m) Finset.univ : sProp 𝕄)
      ⊢ shLoc d (cV L) ↦{fullShare} tbl m d (cV L) from Entails.of_eq (by rw [View.write_whole_univ]; rfl)) $$ Hsh'
  ihave Hw := (show ((wV).view.loc (V d (cV L) (jV L)) ↦{qC (L 0).val} m (wLoc d) : sProp 𝕄) ⊢ wPts m d (qC (L 0).val) from .rfl) $$ Hw'
  ihave Hc0 := (show (semVal (V d (cV L) (jV L), SemLoc.dma (⟨0, _⟩ : DmaSem sig)) 0 : sProp 𝕄) ⊢ semVal (dcell d L 0) 0 from Entails.of_eq rfl) $$ Hc0'
  iapply Hk
  isplitl [Hz]; · iexact Hz
  isplitl [Hw Hsh]
  · isplitl [Hw]; · iexact Hw
    iexact Hsh
  isplitl [Hi]; · iexact Hi
  isplitl [Hc0]; · iexact Hc0
  isplitl [Hc1']; · iexact Hc1'
  iexists _; isplitr
  swap; · iexact HO
  ipureintro; intro p hp
  rcases Finset.mem_insert.mp hp with hp | hp
  · exact .inr (hp ▸ rfl)
  · exact hW' p hp

set_option maxHeartbeats 4000000 in
/-- The task up to the barrier: from the levels, the subcore's share of the index array, for subcore 0 the core's share of the
    table and the core's shared scratch, the index scratch, the two semaphores at zero and what the subcore owes, the first
    half runs to: the shares as they were, the shared scratch holding the table, the index scratch holding the subcore's
    index chunks, the semaphores at zero again, the waits recorded at no handshake's index — and goes on with the rest. -/
theorem phaseA (hF : (K (F := F)).Facts) (O' : CellTallies nD τ sig (HIx 1)) (W : Waits sig (HIx 1)) (hO' : ∀ g, O' g none = 0)
    {α : Type} (kk : PUnit → Prog (TpuEff nD τ sig (Elt F) Λ₀ (.scVector ((L 0).castLE hcore0) ((L 1).castLE hsub0))) α) (Q : α → sProp 𝕄) :
    iprop(levAts (K (F := F)).L (K (F := F)).lev
        ∗ zPts m d (qT (L 0).val (L 1).val)
        ∗ (if (L 1).val = 0 then iprop(wPts m d (qC (L 0).val) ∗ ∃ f, shLoc d (cV L) ↦{fullShare} f) else iprop(emp))
        ∗ (∃ f, (V d (cV L) (jV L)).loc cc0_scratch0 ↦{fullShare} f)
        ∗ semVal (dcell d L 0) 0 ∗ semVal (dcell d L 1) 0
        ∗ owes (V d (cV L) (jV L)) O' W)
      ⊢ iprop((iprop(zPts m d (qT (L 0).val (L 1).val)
              ∗ (if (L 1).val = 0 then iprop(wPts m d (qC (L 0).val) ∗ shLoc d (cV L) ↦{fullShare} tbl m d (cV L)) else iprop(emp))
              ∗ ((V d (cV L) (jV L)).loc cc0_scratch0 ↦{fullShare} idxOf m d L)
              ∗ semVal (dcell d L 0) 0 ∗ semVal (dcell d L 1) 0
              ∗ ∃ W', ⌜∀ p ∈ W', p ∈ W ∨ p.2 = none⌝ ∗ owes (V d (cV L) (jV L)) O' W')
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (progA L kk) Q) := by
  by_cases h0 : (L 1).val = 0
  · simp only [if_pos h0]
    exact phaseA_pos d L m hF O' W hO' h0 kk Q
  · simp only [if_neg h0]
    iintro ⟨#Hlv, Hz, -, Hi, Hc0, Hc1, HO⟩ Hk
    iapply (phaseA_neg d L m hF O' W hO' h0 kk Q) $$ [Hz Hi Hc0 Hc1 HO]
    · isplitr; · iexact Hlv
      isplitl [Hz]; · iexact Hz
      isplitl [Hi]; · iexact Hi
      isplitl [Hc0]; · iexact Hc0
      isplitl [Hc1]; · iexact Hc1
      iexact HO
    iintro ⟨Hz, Hi, Hc0, Hc1, HO⟩
    iapply Hk
    isplitl [Hz]; · iexact Hz
    isplitr; · iempintro
    isplitl [Hi]; · iexact Hi
    isplitl [Hc0]; · iexact Hc0
    isplitl [Hc1]; · iexact Hc1
    iexact HO

end Cert.Proof.KB

end
-- ==== Proof.K_Canon.lean ====
/-
  The task's second half over canonical names. Ring slot `b` of the row buffers, row `j` of the index scratch, the 128 rows
  of the result from row `o` on, and the DMA semaphores of slot `b` (one for the gather into it, one for the copy out of
  it) are each named once, by a natural number; the three loops' bodies are then restated over these names with the trip
  as a natural number: trip `j` of the main loop waits for the copy out of slot `j mod 7` (from trip 7 on), starts the
  gather of chunk `j` into it, and (from trip 2 on) waits for the gather of chunk `j - 2` and starts its copy out.
-/
import proofs.«206633_g8486855377485_cont_9to1_m_27_20_alg».proof.Proof.K_TileSetup

noncomputable section

namespace Cert.Proof.KB

open Cert.Kernel Cert.Kernel.Gen

open Idealize.ShloMosaic Idealize.SL.Sem
open Idealize.ShloMosaic.SparseCore (S V T)

variable {F : FTy → Type}

/-! ## Canonical names -/

theorem slot_inb (b : ℕ) (hb : b < 7) : ∀ a, (![b, 0, 0] : Fin 3 → Nat) a + S1x128x128.size a ≤ S7x128x128.size a := by
  intro a; match a with
  | ⟨0, _⟩ => show b + 1 ≤ 7; omega
  | ⟨1, _⟩ => show 0 + 128 ≤ 128; omega
  | ⟨2, _⟩ => show 0 + 128 ≤ 128; omega
theorem idxRow_inb (j : ℕ) (hj : j < 25) : ∀ a, (![j, 0] : Fin 2 → Nat) a + S1x128.size a ≤ S25x128.size a := by
  intro a; match a with
  | ⟨0, _⟩ => show j + 1 ≤ 25; omega
  | ⟨1, _⟩ => show 0 + 128 ≤ 128; omega
theorem out_inb (o : ℕ) (ho : o + 128 ≤ 100000) : ∀ a, (![o, 0] : Fin 2 → Nat) a + S128x128.size a ≤ S100000x128.size a := by
  intro a; match a with
  | ⟨0, _⟩ => show o + 128 ≤ 100000; omega
  | ⟨1, _⟩ => show 0 + 128 ≤ 128; omega
theorem sem_inb (b : ℕ) (hb : b < 7) : ∀ a, (![b] : Fin 1 → Nat) a + S1.size a ≤ S7.size a := by
  intro a; match a with
  | ⟨0, _⟩ => show b + 1 ≤ 7; omega

/-- Ring slot `b` of the row buffers, as a 128 × 128 array. -/
def slotM (b : ℕ) (hb : b < 7) : Memref sig .scVector .vmem S128x128 .f32 :=
  (rV.slice (Rect.unit (s := S7x128x128) ![b, 0, 0] S1x128x128.size (slot_inb b hb)) (fun _ => rfl)).squeeze S128x128 squeezes_S1x128x128_S128x128
/-- Row `j` of the index scratch, as a list of 128 words. -/
def idxRowM (j : ℕ) (hj : j < 25) : Memref sig .scVector .vmem S128 .i32 :=
  (iV.slice (Rect.unit (s := S25x128) ![j, 0] S1x128.size (idxRow_inb j hj)) (fun _ => rfl)).squeeze S128 squeezes_S1x128_S128
/-- The 128 rows of the result from row `o` on. -/
def outM (o : ℕ) (ho : o + 128 ≤ 100000) : Memref sig .scVector .hbm S128x128 .f32 :=
  oV.slice (Rect.unit (s := S100000x128) ![o, 0] S128x128.size (out_inb o ho)) (fun _ => rfl)
/-- The shared table, as the gathers name it (the whole of it, as a slice). -/
def shM : Memref sig .scVector .shared S100x128 .f32 :=
  shV.slice (Rect.unit (s := S100x128) ![0, 0] S100x128.size inb_S100x128_S100x128_0_0) (fun _ => rfl)
/-- The DMA semaphore of the gather into ring slot `b`. -/
def semG (b : ℕ) (hb : b < 7) : DmaSem sig := ((cc0_scratch5.slice (Rect.unit (s := S7) ![b] S1.size (sem_inb b hb))).squeeze S_ squeezes_S1_S_).sem
/-- The DMA semaphore of the copy out of ring slot `b`. -/
def semW (b : ℕ) (hb : b < 7) : DmaSem sig := ((cc0_scratch6.slice (Rect.unit (s := S7) ![b] S1.size (sem_inb b hb))).squeeze S_ squeezes_S1_S_).sem

theorem off_inb (c s j : ℕ) : Cert.Chunks.off c s j + 128 ≤ 100000 := by unfold Cert.Chunks.off; omega

variable [FloatOps F] (L : grid0.Coords)

abbrev TileEff : Type → Type := TpuEff nD τ sig (Elt F) Λ₀ (.scVector ((L 0).castLE hcore0) ((L 1).castLE hsub0))

/-- Wait for the copy out of slot `b`. -/
def waitW (b : ℕ) (hb : b < 7) : Prog (TileEff (F := F) L) PUnit :=
  Prog.lift (.waitDma2 (semW b hb) (slotM b hb) (outM 0 (by omega)) ((View.wordExact_bits rfl).reshape _ _) (View.wordExact_bits rfl))
/-- Start the gather of chunk `j`'s rows of the table into slot `b`. -/
def gatherG (j : ℕ) (hj : j < 25) (b : ℕ) (hb : b < 7) : Prog (TileEff (F := F) L) PUnit :=
  SparseCore.enqueueIndirectGather rfl shM (slotM b hb) gathers_S100x128_S128x128 (idxRowM j hj) rfl (semG b hb) (View.wordExact_bits rfl) rfl (Or.inr rfl)
/-- Wait for the gather into slot `b`. -/
def waitG (b : ℕ) (hb : b < 7) : Prog (TileEff (F := F) L) PUnit :=
  SparseCore.waitIndirectGather (semG b hb) shM (slotM b hb) (View.wordExact_bits rfl) ((View.wordExact_bits rfl).reshape _ _)
/-- Start the copy of slot `b` out to the rows of the result from row `o` on. -/
def copyW (b : ℕ) (hb : b < 7) (o : ℕ) (ho : o + 128 ≤ 100000) : Prog (TileEff (F := F) L) PUnit :=
  Prog.lift (.enqueueDma (slotM b hb) (.here (outM o ho)) (.dma (semW b hb)) ((View.wordExact_bits rfl).reshape _ _) (View.wordExact_bits rfl) ⟨Or.inl rfl, trivial⟩)

/-- The first row of chunk `j` of this subcore. -/
abbrev offL (j : ℕ) : ℕ := Cert.Chunks.off (L 0).val (L 1).val j

/-- Trip `j` of the main loop. -/
def body3 (j : ℕ) (hj : j < 25) : Prog (TileEff (F := F) L) Unit := do
  if 7 ≤ j then do
    waitW L (j % 7) (Nat.mod_lt _ (by decide))
    pure ⟨⟩
  else do
    pure ⟨⟩
  gatherG L j hj (j % 7) (Nat.mod_lt _ (by decide))
  if 2 ≤ j then do
    waitG L ((j - 2) % 7) (Nat.mod_lt _ (by decide))
    copyW L ((j - 2) % 7) (Nat.mod_lt _ (by decide)) (offL L (j - 2)) (off_inb _ _ _)
    pure ⟨⟩
  else do
    pure ⟨⟩
  pure ⟨⟩

/-- Trip `k` of the loop of the last two copies out: chunk `23 + k`. -/
def body4 (k : ℕ) : Prog (TileEff (F := F) L) Unit := do
  waitG L ((k + 23) % 7) (Nat.mod_lt _ (by decide))
  copyW L ((k + 23) % 7) (Nat.mod_lt _ (by decide)) (offL L (k + 23)) (off_inb _ _ _)
  pure ⟨⟩

/-- Trip `k` of the drain: the copy out of chunk `18 + k`. -/
def body5 (k : ℕ) : Prog (TileEff (F := F) L) Unit := do
  waitW L ((k + 18) % 7) (Nat.mod_lt _ (by decide))
  pure ⟨⟩

variable (m : (ℓ : Loc nD τ sig) → Buf (Elt F) ℓ) (d : Dev nD)

/-- What the gather of chunk `j` leaves in a ring slot, whichever slot it is: row `k` of the slot is the row of the table
    that the `k`-th index word of the chunk names. -/
def gath (j : ℕ) : Buf (Elt F) ((V d (cV L) (jV L)).loc cc0_scratch1) :=
  fun y => tbl m d (cV L) (Idealize.ShloMosaic.ValueIdx.ix2
    (Cert.Spec.rowOf (idxOf m d L (Idealize.ShloMosaic.ValueIdx.ix2 (⟨min j 24, by omega⟩ : Fin 25) (⟨(y 1).val, (y 1).isLt⟩ : Fin 128))))
    (⟨(y 2).val, (y 2).isLt⟩ : Fin 128))

end Cert.Proof.KB

end
-- ==== Proof.K_ResB.lean ====
/-
  One vector subcore's second half, as a state: which chunks' gathers have been started, which of them have been waited
  for and their copies out started, and which copies out have been waited for. Chunk `j` uses ring slot `j mod 7`. The
  three numbers `g ≥ w ≥ d` (at most 7 apart) say where every chunk stands: from `g` on not started, from `w` on its
  gather in flight, from `d` on its copy out in flight, below `d` done. What each chunk holds in each phase is one
  assertion, and each of the three kinds of step changes one chunk's phase.
-/
import proofs.«206633_g8486855377485_cont_9to1_m_27_20_alg».proof.Proof.K_Canon
import proofs.«206633_g8486855377485_cont_9to1_m_27_20_alg».proof.Proof.LibWmDma
import proofs.«206633_g8486855377485_cont_9to1_m_27_20_alg».proof.Proof.LibWmShares

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

/-! ## The pieces -/

/-- The subcore's read share of its core's shared table, and the part of it the gather on slot `b`'s semaphore borrows. -/
abbrev qSh : PosShare TreeShare := Transfers.shareTokN fullShare (L 1).val
def shSub (b : ℕ) : sProp 𝕄 :=
  (shM.view.loc (V d (cV L) (jV L)) ↦[shM.view.set]{Transfers.shareTokN (qSh L) b} (tbl m d (cV L) : Buf (Elt F) (shM.view.loc (V d (cV L) (jV L)))))
/-- Ring slot `b` at contents `f`. -/
def slotP (b : ℕ) (hb : b < 7) (f : Buf (Elt F) ((V d (cV L) (jV L)).loc cc0_scratch1)) : sProp 𝕄 :=
  ((slotM b hb).view.loc (V d (cV L) (jV L)) ↦[(slotM b hb).view.set]{fullShare} (f : Buf (Elt F) ((slotM b hb).view.loc (V d (cV L) (jV L)))))
/-- Row `j` of the index scratch, holding chunk `j`'s index words. -/
def idxP (j : ℕ) (hj : j < 25) : sProp 𝕄 :=
  ((idxRowM j hj).view.loc (V d (cV L) (jV L)) ↦[(idxRowM j hj).view.set]{fullShare} (idxOf m d L : Buf (Elt F) ((idxRowM j hj).view.loc (V d (cV L) (jV L)))))
/-- The semaphores of slot `b`. -/
abbrev gcell (b : ℕ) (hb : b < 7) : GSem nD τ sig := (V d (cV L) (jV L), SemLoc.dma (semG b hb))
abbrev wcell (b : ℕ) (hb : b < 7) : GSem nD τ sig := (V d (cV L) (jV L), SemLoc.dma (semW b hb))
/-- Slot `b` free: the slot at some contents, both its semaphores at zero, its part of the table share. -/
def freeSlot (b : ℕ) (hb : b < 7) : sProp 𝕄 :=
  iprop((∃ f, slotP d L b hb f) ∗ semVal (gcell d L b hb) 0 ∗ semVal (wcell d L b hb) 0 ∗ shSub m d L b)

/-- The subcore's share of the result in write mode, chunk `j`'s part of it. -/
abbrev qOut (j : ℕ) : PosShare TreeShare := Transfers.shareTokN (qT (L 0).val (L 1).val) j
/-- The rows chunk `j` writes. -/
def chunkSet (j : ℕ) : Finset (Idx (oLoc d)) := Cert.Chunks.chunk (L 0).val (L 1).val j
/-- The same as the copy out addresses them. -/
def outSet (j : ℕ) : Finset (Idx (oLoc d)) := (outM (offL L j) (off_inb _ _ _)).view.set

/-- The gather of chunk `j` in flight: it delivers its slot holding the gathered rows, and gives back the table share's part
    and the index row. -/
def GF (NG : ℕ) (j : ℕ) (hj : j < 25) : sProp 𝕄 :=
  Transfers.Flight (countersEmb : UEmb Counters 𝕄) (V d (cV L) (jV L)) (SemLoc.dma (semG (j % 7) (Nat.mod_lt _ (by decide)))) (none : HIx 1) NG
    iprop(slotP d L (j % 7) (Nat.mod_lt _ (by decide)) (gath L m d j) ∗ shSub m d L (j % 7) ∗ idxP m d L j hj)

/-- The copy out of chunk `j` in flight: it delivers the chunk's rows of the result marked written, and gives back the slot. -/
def WF (NW : ℕ) (j : ℕ) : sProp 𝕄 :=
  Transfers.Flight (countersEmb : UEmb Counters 𝕄) (V d (cV L) (jV L)) (SemLoc.dma (semW (j % 7) (Nat.mod_lt _ (by decide)))) (none : HIx 1) NW
    iprop(willBeTo (Ix := HIx 1) (Name := ℕ) (Lvl := ℕ) (EW (F := F)) ((outM (offL L j) (off_inb _ _ _)).view.loc (V d (cV L) (jV L)))
        (outM (offL L j) (off_inb _ _ _)).view.set (qOut L j) (m (oLoc d)) (tgt m d) (∅ ∪ (outM (offL L j) (off_inb _ _ _)).view.set)
      ∗ slotP d L (j % 7) (Nat.mod_lt _ (by decide)) (gath L m d j))

/-- What chunk `j` holds when `g` gathers have been started, `w` of them waited for (their copies out started) and `d` copies
    out waited for. A chunk below 7 not yet started holds its slot free; a finished chunk holds its slot free until the chunk
    seven later takes it. -/
def chunkSt (NG NW : ℕ) (g w dn : ℕ) (j : ℕ) : sProp 𝕄 :=
  if hj : j < 25 then
    if g ≤ j then iprop(idxP m d L j hj ∗ oWm m d (qOut L j) ∅ ∗ (if j < 7 then freeSlot m d L (j % 7) (Nat.mod_lt _ (by decide)) else iprop(emp)))
    else if w ≤ j then iprop(GF m d L NG j hj ∗ oWm m d (qOut L j) ∅ ∗ semVal (wcell d L (j % 7) (Nat.mod_lt _ (by decide))) 0)
    else if dn ≤ j then iprop(WF m d L NW j
        ∗ willBeTo (Ix := HIx 1) (Name := ℕ) (Lvl := ℕ) (EW (F := F)) (oLoc d) (Finset.univ \ outSet d L j) (qOut L j) (m (oLoc d)) (tgt m d) ∅
        ∗ idxP m d L j hj ∗ semVal (gcell d L (j % 7) (Nat.mod_lt _ (by decide))) 0 ∗ shSub m d L (j % 7))
    else iprop(idxP m d L j hj ∗ oWm m d (qOut L j) (outSet d L j) ∗ (if g ≤ j + 7 then freeSlot m d L (j % 7) (Nat.mod_lt _ (by decide)) else iprop(emp)))
  else iprop(emp)

/-- The state: every chunk's holdings. -/
def St (NG NW : ℕ) (g w dn : ℕ) : sProp 𝕄 := bigSep (Finset.range 25) (chunkSt m d L NG NW g w dn)

end Cert.Proof.KB

end
-- ==== Proof.K_StepsB.lean ====
/-
  The three kinds of step of a vector subcore's second half, each changing one chunk's phase: waiting for a copy out
  (the chunk is done: its rows of the result are marked written, its slot is free again), starting a gather (a free slot is
  taken), and waiting for a gather and starting the copy out of what it brought (the slot's contents are what the result's
  targets name on the chunk's rows, so write mode admits the copy).
-/
import proofs.«206633_g8486855377485_cont_9to1_m_27_20_alg».proof.Proof.K_ResB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

theorem mod7 (n : ℕ) : n % 7 < 7 := Nat.mod_lt _ (by decide)

/-- What the subcore owes, with the waits recorded so far: each is an earlier one or one of the kernel's own. -/
def owesEx (O : CellTallies nD τ sig (HIx 1)) (W : Waits sig (HIx 1)) : sProp 𝕄 :=
  iprop(∃ W', ⌜∀ p ∈ W', p ∈ W ∨ p.2 = none⌝ ∗ owes (V d (cV L) (jV L)) O W')

theorem marks_piece {α : Type} [DecidableEq α] (S : Finset α) : ((∅ ∪ S) ∩ S) ∪ (∅ \ S) = S := by
  ext i; simp

/-- All chunks but `j` stand where they stood when only the number of finished copies out moves past `j`. -/
theorem chunkSt_drain (NG NW g w dn : ℕ) (i : ℕ) (hne : i ≠ dn) :
    chunkSt m d L NG NW g w dn i = chunkSt m d L NG NW g w (dn + 1) i := by
  unfold chunkSt
  by_cases hi25 : i < 25
  · rw [dif_pos hi25, dif_pos hi25]
    by_cases h1 : g ≤ i
    · rw [if_pos h1, if_pos h1]
    · rw [if_neg h1, if_neg h1]
      by_cases h2 : w ≤ i
      · rw [if_pos h2, if_pos h2]
      · rw [if_neg h2, if_neg h2]
        by_cases h3 : dn ≤ i
        · rw [if_pos h3, if_pos (show dn + 1 ≤ i by omega)]
        · rw [if_neg h3, if_neg (show ¬ dn + 1 ≤ i by omega)]
  · rw [dif_neg hi25, dif_neg hi25]

/-- Waiting for the copy out of chunk `dn`: its rows come back marked written and rejoin the rest of its share, its slot is
    free. -/
theorem stepDrain (NG NW : ℕ) (hWcred : (outM 0 (by omega)).view.dmaCredit = NW) (O : CellTallies nD τ sig (HIx 1)) (W : Waits sig (HIx 1))
    (g w dn : ℕ) (hdw : dn < w) (hwg : w ≤ g) (hg : g ≤ 25) (hgd : g ≤ dn + 7)
    {α : Type} (kk : PUnit → Prog (TileEff (F := F) L) α) (Q : α → sProp 𝕄) :
    iprop(Transfers.MayWaits (V d (cV L) (jV L)) (none : HIx 1) O ∗ St m d L NG NW g w dn ∗ owesEx d L O W)
      ⊢ iprop((iprop(St m d L NG NW g w (dn + 1) ∗ owesEx d L O W)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (waitW L (dn % 7) (mod7 _) >>= kk) Q) := by
  have hd25 : dn < 25 := by omega
  have hbefore : chunkSt m d L NG NW g w dn dn = iprop(WF m d L NW dn
        ∗ willBeTo (Ix := HIx 1) (Name := ℕ) (Lvl := ℕ) (EW (F := F)) (oLoc d) (Finset.univ \ outSet d L dn) (qOut L dn) (m (oLoc d)) (tgt m d) ∅
        ∗ idxP m d L dn hd25 ∗ semVal (gcell d L (dn % 7) (mod7 _)) 0 ∗ shSub m d L (dn % 7)) := by
    unfold chunkSt; rw [dif_pos hd25, if_neg (by omega), if_neg (by omega), if_pos (le_refl _)]
  have hafter : chunkSt m d L NG NW g w (dn + 1) dn = iprop(idxP m d L dn hd25 ∗ oWm m d (qOut L dn) (outSet d L dn)
        ∗ freeSlot m d L (dn % 7) (mod7 _)) := by
    unfold chunkSt; rw [dif_pos hd25, if_neg (by omega), if_neg (by omega), if_neg (by omega), if_pos (by omega)]
  have hrest : (bigSep ((Finset.range 25).erase dn) (chunkSt m d L NG NW g w dn) : sProp 𝕄)
      = bigSep ((Finset.range 25).erase dn) (chunkSt m d L NG NW g w (dn + 1)) :=
    bigSep_congr fun i hi => chunkSt_drain m d L NG NW g w dn i (Finset.mem_erase.mp hi).1
  unfold St owesEx
  rw [SparseCore.bigSep_erase' (Φ := chunkSt m d L NG NW g w dn) (Finset.mem_range.mpr hd25),
    SparseCore.bigSep_erase' (Φ := chunkSt m d L NG NW g w (dn + 1)) (Finset.mem_range.mpr hd25), hbefore, hafter, hrest]
  iintro ⟨#Hmw, ⟨⟨Hfl, Hcompl, Hidx, Hg0, Hsh⟩, Hrest⟩, ⟨%W', %hW', HO⟩⟩ Hk
  unfold WF waitW
  rw [Prog.bind_lift]
  iapply (Transfers.wp_waitLocalO countersEmb 𝒱₀ (V d (cV L) (jV L)) none (none : HIx 1) hWcred) $$ [Hfl HO]
  · isplitl [Hfl]; · iexact Hfl
    isplitl [HO]; · iexact HO
    iapply (Transfers.MayWaits.elim (SemLoc.dma (semW (dn % 7) (mod7 _)))) $$ Hmw
  iintro ⟨⟨Hwb, Hslot⟩, Hw0, HO⟩
  ihave Hjoin := (Cert.Lib.willBeTo_rejoin_piece (Finset.subset_univ (outSet d L dn)) (∅ ∪ outSet d L dn) ∅) $$ [Hwb Hcompl]
  · isplitl [Hwb]; · iexact Hwb
    iexact Hcompl
  rw [marks_piece]
  iapply Hk
  isplitr [HO]
  · isplitr [Hrest]
    · isplitl [Hidx]; · iexact Hidx
      isplitl [Hjoin]; · iexact Hjoin
      unfold freeSlot
      isplitl [Hslot]; · iexists _; iexact Hslot
      isplitl [Hg0]; · iexact Hg0
      isplitl [Hw0]; · iexact Hw0
      iexact Hsh
    · iexact Hrest
  · iexists _
    isplitr
    swap; · iexact HO
    ipureintro; intro p hp
    rcases Finset.mem_insert.mp hp with hp | hp
    · exact .inr (hp ▸ rfl)
    · exact hW' p hp

theorem freeSlot_congr {b b' : ℕ} (e : b = b') (hb : b < 7) (hb' : b' < 7) : freeSlot m d L b hb = freeSlot m d L b' hb' := by
  subst e; rfl

/-- All chunks but `g` and the one seven before it stand where they stood when one more gather is started. -/
theorem chunkSt_gather (NG NW g w dn : ℕ) (i : ℕ) (hne : i ≠ g) (hne7 : i + 7 ≠ g) :
    chunkSt m d L NG NW g w dn i = chunkSt m d L NG NW (g + 1) w dn i := by
  unfold chunkSt
  by_cases hi25 : i < 25
  · rw [dif_pos hi25, dif_pos hi25]
    by_cases h1 : g ≤ i
    · rw [if_pos h1, if_pos (show g + 1 ≤ i by omega)]
    · rw [if_neg h1, if_neg (show ¬ g + 1 ≤ i by omega)]
      by_cases h2 : w ≤ i
      · rw [if_pos h2, if_pos h2]
      · rw [if_neg h2, if_neg h2]
        by_cases h3 : dn ≤ i
        · rw [if_pos h3, if_pos h3]
        · rw [if_neg h3, if_neg h3]
          by_cases h4 : g ≤ i + 7
          · rw [if_pos h4, if_pos (show g + 1 ≤ i + 7 by omega)]
          · rw [if_neg h4, if_neg (show ¬ g + 1 ≤ i + 7 by omega)]
  · rw [dif_neg hi25, dif_neg hi25]

/-- All chunks but `w` stand where they stood when one more gather is waited for and its copy out started. -/
theorem chunkSt_copy (NG NW g w dn : ℕ) (i : ℕ) (hne : i ≠ w) :
    chunkSt m d L NG NW g w dn i = chunkSt m d L NG NW g (w + 1) dn i := by
  unfold chunkSt
  by_cases hi25 : i < 25
  · rw [dif_pos hi25, dif_pos hi25]
    by_cases h1 : g ≤ i
    · rw [if_pos h1, if_pos h1]
    · rw [if_neg h1, if_neg h1]
      by_cases h2 : w ≤ i
      · rw [if_pos h2, if_pos (show w + 1 ≤ i by omega)]
      · rw [if_neg h2, if_neg (show ¬ w + 1 ≤ i by omega)]
  · rw [dif_neg hi25, dif_neg hi25]

/-- Starting the gather of chunk `g` into a free slot: the slot, its gather semaphore, the table share's part and the index
    row go into the flight, which will deliver the slot holding the gathered rows. -/
theorem coreGather (NG : ℕ) (g : ℕ) (hg : g < 25)
    (hGsum : ∑ r, ((slotM (g % 7) (mod7 _)).slice (S128x128.rowRect gathers_S100x128_S128x128.axis' r)
      (S128x128.stride_rowRect gathers_S100x128_S128x128.axis' r)).view.dmaCredit = NG)
    (hin : ∀ x, ((idxRowM g hg).view.read (Elt F) (idxOf m d L) x).toNat < S100x128.size gathers_S100x128_S128x128.axis)
    (hval : ∀ fd : Buf (Elt F) ((slotM (g % 7) (mod7 _)).view.loc (V d (cV L) (jV L))),
      ∀ i : Idx ((slotM (g % 7) (mod7 _)).view.loc (V d (cV L) (jV L))), i ∈ (slotM (g % 7) (mod7 _)).view.set →
        (slotM (g % 7) (mod7 _)).view.write (Elt F) fd
          (SparseCore.gatherPayload gathers_S100x128_S128x128 (shM.view.read (Elt F) (tbl m d (cV L)))
            (SparseCore.rows ((idxRowM g hg).view.read (Elt F) (idxOf m d L)) rfl hin)) Finset.univ i = gath L m d g i)
    {α : Type} (kk : PUnit → Prog (TileEff (F := F) L) α) (Q : α → sProp 𝕄) :
    iprop(idxP m d L g hg ∗ freeSlot m d L (g % 7) (mod7 _))
      ⊢ iprop((iprop(GF m d L NG g hg ∗ semVal (wcell d L (g % 7) (mod7 _)) 0)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (gatherG L g hg (g % 7) (mod7 _) >>= kk) Q) := by
  unfold freeSlot slotP idxP shSub gatherG GF
  iintro ⟨Hidx, ⟨%fd, Hslot⟩, Hg0, Hw0, Hsh⟩ Hk
  iapply (SparseCore.wp_indirectGatherLocal countersEmb 𝒱₀ (V d (cV L) (jV L)) none (hg := gathers_S100x128_S128x128) (none : HIx 1)
      NG hGsum (by decide) hin) $$ [Hsh Hslot Hidx Hg0]
  · isplitl [Hsh]; · iexact Hsh
    isplitl [Hslot]; · iexact Hslot
    isplitl [Hidx]; · iexact Hidx
    iexact Hg0
  iintro Hfl
  iapply Hk
  isplitl [Hfl]
  · unfold slotP idxP shSub
    iapply (Transfers.Flight_mono countersEmb (V d (cV L) (jV L)) (sep_mono_l (Entails.of_eq (pointsTo_congr (hval fd))))) $$ Hfl
  · iexact Hw0

/-- The wait for a gather, at the head of a program, is one wait on its semaphore. -/
theorem waitG_bind (b : ℕ) (hb : b < 7) {α : Type} (k : PUnit → Prog (TileEff (F := F) L) α) :
    waitG L b hb >>= k = (Prog.op (TpuEff.waitDma2 (semG b hb) shM (slotM b hb) (View.wordExact_bits rfl) ((View.wordExact_bits rfl).reshape _ _)) k :
      Prog (TileEff (F := F) L) α) := rfl

/-- Waiting for the gather of chunk `w` and starting the copy out of what it brought: the slot holds what the result's targets
    name on the chunk's rows, so the copy is admitted into those rows in write mode; they leave the subcore's share of the
    result until the copy is waited for. -/
theorem coreCopy (NG NW : ℕ) (w : ℕ) (hw : w < 25)
    (hGcred : (slotM (w % 7) (mod7 _)).view.dmaCredit = NG)
    (hWamt : (outM (offL L w) (off_inb _ _ _)).view.amount (SemLoc.dma (semW (w % 7) (mod7 _))) = NW) (hNW0 : 0 < NW)
    (hadm : (outM (offL L w) (off_inb _ _ _)).view.Admitted (Elt F) (tgt m d) ((slotM (w % 7) (mod7 _)).view.read (Elt F) (gath L m d w)) Finset.univ)
    (O : CellTallies nD τ sig (HIx 1)) (W : Waits sig (HIx 1))
    {α : Type} (kk : PUnit → Prog (TileEff (F := F) L) α) (Q : α → sProp 𝕄) :
    iprop(Transfers.MayWaits (V d (cV L) (jV L)) (none : HIx 1) O ∗ (∃ ιwm : ℕ, wmInv (Ix := HIx 1) (Name := ℕ) (Lvl := ℕ) (EW (F := F)) ιwm)
        ∗ (GF m d L NG w hw ∗ oWm m d (qOut L w) ∅ ∗ semVal (wcell d L (w % 7) (mod7 _)) 0) ∗ owesEx d L O W)
      ⊢ iprop((iprop((WF m d L NW w
              ∗ willBeTo (Ix := HIx 1) (Name := ℕ) (Lvl := ℕ) (EW (F := F)) (oLoc d) (Finset.univ \ outSet d L w) (qOut L w) (m (oLoc d)) (tgt m d) ∅
              ∗ idxP m d L w hw ∗ semVal (gcell d L (w % 7) (mod7 _)) 0 ∗ shSub m d L (w % 7)) ∗ owesEx d L O W)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (waitG L (w % 7) (mod7 _) >>= fun _ => copyW L (w % 7) (mod7 _) (offL L w) (off_inb _ _ _) >>= kk) Q) := by
  unfold GF owesEx
  iintro ⟨#Hmw, ⟨%ιwm, #Hwm⟩, ⟨Hfl, Ho, Hw0⟩, ⟨%W', %hW', HO⟩⟩ Hk
  rw [waitG_bind]
  iapply (Transfers.wp_waitLocalO countersEmb 𝒱₀ (V d (cV L) (jV L)) none (none : HIx 1) hGcred) $$ [Hfl HO]
  · isplitl [Hfl]; · iexact Hfl
    isplitl [HO]; · iexact HO
    iapply (Transfers.MayWaits.elim (SemLoc.dma (semG (w % 7) (mod7 _)))) $$ Hmw
  iintro ⟨⟨Hslot, Hsh, Hidx⟩, Hg0, HO⟩
  ihave Hsplit := (Cert.Lib.willBeTo_split_subset (Finset.subset_univ (outSet d L w))).1 $$ Ho
  icases Hsplit with ⟨Hpiece, Hcompl⟩
  unfold copyW
  rw [Prog.bind_lift]
  iapply (Cert.Lib.wp_dmaLocal_willBeTo 𝒱₀ countersEmb (V d (cV L) (jV L)) none (none : HIx 1) NW hWamt hNW0 hadm) $$ [Hslot Hpiece Hw0]
  · unfold slotP
    isplitl [Hslot]; · iexact Hslot
    isplitr; · iexact Hwm
    isplitl [Hpiece]; · iexact Hpiece
    iexact Hw0
  iintro Hfl2
  iapply Hk
  isplitr [HO]
  · unfold WF
    isplitl [Hfl2]; · iexact Hfl2
    isplitl [Hcompl]; · iexact Hcompl
    isplitl [Hidx]; · iexact Hidx
    isplitl [Hg0]; · iexact Hg0
    iexact Hsh
  · iexists _
    isplitr
    swap; · iexact HO
    ipureintro; intro p hp
    rcases Finset.mem_insert.mp hp with hp | hp
    · exact .inr (hp ▸ rfl)
    · exact hW' p hp

/-- One more gather started: chunk `g` takes slot `g mod 7`, its own when `g < 7`, else the one chunk `g - 7` has finished with. -/
theorem stepGather (NG NW : ℕ) (g w dn : ℕ) (hg : g < 25) (hwg : w ≤ g) (hgd : g < dn + 7) (hdw : dn ≤ w)
    (hGsum : ∑ r, ((slotM (g % 7) (mod7 _)).slice (S128x128.rowRect gathers_S100x128_S128x128.axis' r)
      (S128x128.stride_rowRect gathers_S100x128_S128x128.axis' r)).view.dmaCredit = NG)
    (hin : ∀ x, ((idxRowM g hg).view.read (Elt F) (idxOf m d L) x).toNat < S100x128.size gathers_S100x128_S128x128.axis)
    (hval : ∀ fd : Buf (Elt F) ((slotM (g % 7) (mod7 _)).view.loc (V d (cV L) (jV L))),
      ∀ i : Idx ((slotM (g % 7) (mod7 _)).view.loc (V d (cV L) (jV L))), i ∈ (slotM (g % 7) (mod7 _)).view.set →
        (slotM (g % 7) (mod7 _)).view.write (Elt F) fd
          (SparseCore.gatherPayload gathers_S100x128_S128x128 (shM.view.read (Elt F) (tbl m d (cV L)))
            (SparseCore.rows ((idxRowM g hg).view.read (Elt F) (idxOf m d L)) rfl hin)) Finset.univ i = gath L m d g i)
    {α : Type} (kk : PUnit → Prog (TileEff (F := F) L) α) (Q : α → sProp 𝕄) :
    iprop(St m d L NG NW g w dn)
      ⊢ iprop((St m d L NG NW (g + 1) w dn -∗ wp frame (wpE (defs₀ (F := F)) 𝒱₀ (V d (cV L) (jV L)) none) Set.univ (kk ⟨⟩) Q)
          -∗ wp frame (wpE (defs₀ (F := F)) 𝒱₀ (V d (cV L) (jV L)) none) Set.univ (gatherG L g hg (g % 7) (mod7 _) >>= kk) Q) := by
  have hafter : chunkSt m d L NG NW (g + 1) w dn g = iprop(GF m d L NG g hg ∗ oWm m d (qOut L g) ∅ ∗ semVal (wcell d L (g % 7) (mod7 _)) 0) := by
    unfold chunkSt; rw [dif_pos hg, if_neg (show ¬ g + 1 ≤ g by omega), if_pos hwg]
  unfold St
  by_cases h7 : g < 7
  · have hbefore : chunkSt m d L NG NW g w dn g = iprop(idxP m d L g hg ∗ oWm m d (qOut L g) ∅ ∗ freeSlot m d L (g % 7) (mod7 _)) := by
      unfold chunkSt; rw [dif_pos hg, if_pos (le_refl g), if_pos h7]
    have hrest : (bigSep ((Finset.range 25).erase g) (chunkSt m d L NG NW g w dn) : sProp 𝕄)
        = bigSep ((Finset.range 25).erase g) (chunkSt m d L NG NW (g + 1) w dn) :=
      bigSep_congr fun i hi => chunkSt_gather m d L NG NW g w dn i (Finset.mem_erase.mp hi).1 (by omega)
    rw [SparseCore.bigSep_erase' (Φ := chunkSt m d L NG NW g w dn) (Finset.mem_range.mpr hg),
      SparseCore.bigSep_erase' (Φ := chunkSt m d L NG NW (g + 1) w dn) (Finset.mem_range.mpr hg), hbefore, hafter, hrest]
    iintro ⟨⟨Hidx, Ho, Hfree⟩, Hrest⟩ Hk
    iapply (coreGather m d L NG g hg hGsum hin hval kk Q) $$ [Hidx Hfree]
    · isplitl [Hidx]; · iexact Hidx
      iexact Hfree
    iintro ⟨Hfl, Hw0⟩
    iapply Hk
    isplitr [Hrest]
    · isplitl [Hfl]; · iexact Hfl
      isplitl [Ho]; · iexact Ho
      iexact Hw0
    · iexact Hrest
  · have hp : g - 7 < 25 := by omega
    have hpm : g - 7 ∈ (Finset.range 25).erase g := Finset.mem_erase.mpr ⟨by omega, Finset.mem_range.mpr hp⟩
    have hbefore : chunkSt m d L NG NW g w dn g = iprop(idxP m d L g hg ∗ oWm m d (qOut L g) ∅ ∗ iprop(emp)) := by
      unfold chunkSt; rw [dif_pos hg, if_pos (le_refl g), if_neg h7]
    have hbeforeP : chunkSt m d L NG NW g w dn (g - 7) = iprop(idxP m d L (g - 7) hp ∗ oWm m d (qOut L (g - 7)) (outSet d L (g - 7))
        ∗ freeSlot m d L ((g - 7) % 7) (mod7 _)) := by
      unfold chunkSt
      rw [dif_pos hp, if_neg (show ¬ g ≤ g - 7 by omega), if_neg (show ¬ w ≤ g - 7 by omega), if_neg (show ¬ dn ≤ g - 7 by omega),
        if_pos (show g ≤ g - 7 + 7 by omega)]
    have hafterP : chunkSt m d L NG NW (g + 1) w dn (g - 7) = iprop(idxP m d L (g - 7) hp ∗ oWm m d (qOut L (g - 7)) (outSet d L (g - 7))
        ∗ iprop(emp)) := by
      unfold chunkSt
      rw [dif_pos hp, if_neg (show ¬ g + 1 ≤ g - 7 by omega), if_neg (show ¬ w ≤ g - 7 by omega), if_neg (show ¬ dn ≤ g - 7 by omega),
        if_neg (show ¬ g + 1 ≤ g - 7 + 7 by omega)]
    have hrest : (bigSep (((Finset.range 25).erase g).erase (g - 7)) (chunkSt m d L NG NW g w dn) : sProp 𝕄)
        = bigSep (((Finset.range 25).erase g).erase (g - 7)) (chunkSt m d L NG NW (g + 1) w dn) :=
      bigSep_congr fun i hi => chunkSt_gather m d L NG NW g w dn i (Finset.mem_erase.mp (Finset.mem_erase.mp hi).2).1
        (fun e => (Finset.mem_erase.mp hi).1 (by omega))
    rw [SparseCore.bigSep_erase' (Φ := chunkSt m d L NG NW g w dn) (Finset.mem_range.mpr hg),
      SparseCore.bigSep_erase' (Φ := chunkSt m d L NG NW (g + 1) w dn) (Finset.mem_range.mpr hg),
      SparseCore.bigSep_erase' (Φ := chunkSt m d L NG NW g w dn) hpm,
      SparseCore.bigSep_erase' (Φ := chunkSt m d L NG NW (g + 1) w dn) hpm, hbefore, hafter, hbeforeP, hafterP, hrest,
      freeSlot_congr m d L (show (g - 7) % 7 = g % 7 by omega) (mod7 _) (mod7 _)]
    iintro ⟨⟨Hidx, Ho, -⟩, ⟨HidxP, HoP, Hfree⟩, Hrest⟩ Hk
    iapply (coreGather m d L NG g hg hGsum hin hval kk Q) $$ [Hidx Hfree]
    · isplitl [Hidx]; · iexact Hidx
      iexact Hfree
    iintro ⟨Hfl, Hw0⟩
    iapply Hk
    isplitl [Hfl Ho Hw0]
    · isplitl [Hfl]; · iexact Hfl
      isplitl [Ho]; · iexact Ho
      iexact Hw0
    isplitl [HidxP HoP]
    · isplitl [HidxP]; · iexact HidxP
      isplitl [HoP]; · iexact HoP
      iempintro
    · iexact Hrest

/-- One more gather waited for and its copy out started. -/
theorem stepCopy (NG NW : ℕ) (g w dn : ℕ) (hw : w < g) (hg : g ≤ 25) (hdw : dn ≤ w)
    (hGcred : (slotM (w % 7) (mod7 _)).view.dmaCredit = NG)
    (hWamt : (outM (offL L w) (off_inb _ _ _)).view.amount (SemLoc.dma (semW (w % 7) (mod7 _))) = NW) (hNW0 : 0 < NW)
    (hadm : (outM (offL L w) (off_inb _ _ _)).view.Admitted (Elt F) (tgt m d) ((slotM (w % 7) (mod7 _)).view.read (Elt F) (gath L m d w)) Finset.univ)
    (O : CellTallies nD τ sig (HIx 1)) (W : Waits sig (HIx 1))
    {α : Type} (kk : PUnit → Prog (TileEff (F := F) L) α) (Q : α → sProp 𝕄) :
    iprop(Transfers.MayWaits (V d (cV L) (jV L)) (none : HIx 1) O ∗ (∃ ιwm : ℕ, wmInv (Ix := HIx 1) (Name := ℕ) (Lvl := ℕ) (EW (F := F)) ιwm)
        ∗ St m d L NG NW g w dn ∗ owesEx d L O W)
      ⊢ iprop((iprop(St m d L NG NW g (w + 1) dn ∗ owesEx d L O W)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (waitG L (w % 7) (mod7 _) >>= fun _ => copyW L (w % 7) (mod7 _) (offL L w) (off_inb _ _ _) >>= kk) Q) := by
  have hw25 : w < 25 := by omega
  have hbefore : chunkSt m d L NG NW g w dn w = iprop(GF m d L NG w hw25 ∗ oWm m d (qOut L w) ∅ ∗ semVal (wcell d L (w % 7) (mod7 _)) 0) := by
    unfold chunkSt; rw [dif_pos hw25, if_neg (show ¬ g ≤ w by omega), if_pos (le_refl w)]
  have hafter : chunkSt m d L NG NW g (w + 1) dn w = iprop(WF m d L NW w
        ∗ willBeTo (Ix := HIx 1) (Name := ℕ) (Lvl := ℕ) (EW (F := F)) (oLoc d) (Finset.univ \ outSet d L w) (qOut L w) (m (oLoc d)) (tgt m d) ∅
        ∗ idxP m d L w hw25 ∗ semVal (gcell d L (w % 7) (mod7 _)) 0 ∗ shSub m d L (w % 7)) := by
    unfold chunkSt; rw [dif_pos hw25, if_neg (show ¬ g ≤ w by omega), if_neg (show ¬ w + 1 ≤ w by omega), if_pos hdw]
  have hrest : (bigSep ((Finset.range 25).erase w) (chunkSt m d L NG NW g w dn) : sProp 𝕄)
      = bigSep ((Finset.range 25).erase w) (chunkSt m d L NG NW g (w + 1) dn) :=
    bigSep_congr fun i hi => chunkSt_copy m d L NG NW g w dn i (Finset.mem_erase.mp hi).1
  unfold St
  rw [SparseCore.bigSep_erase' (Φ := chunkSt m d L NG NW g w dn) (Finset.mem_range.mpr hw25),
    SparseCore.bigSep_erase' (Φ := chunkSt m d L NG NW g (w + 1) dn) (Finset.mem_range.mpr hw25), hbefore, hafter, hrest]
  iintro ⟨#Hmw, #Hwm, ⟨Hc, Hrest⟩, HO⟩ Hk
  iapply (coreCopy m d L NG NW w hw25 hGcred hWamt hNW0 hadm O W kk Q) $$ [Hc HO]
  · isplitr; · iexact Hmw
    isplitr; · iexact Hwm
    isplitl [Hc]; · iexact Hc
    iexact HO
  iintro ⟨Hc', HO⟩
  iapply Hk
  isplitr [HO]
  · isplitl [Hc']; · iexact Hc'
    iexact Hrest
  · iexact HO

end Cert.Proof.KB

end
-- ==== Proof.K_GeomBody.lean ====
/-
  The printed loop bodies are the canonical ones. The three loops of the task's second half make 25, 2 and 7 trips. The
  offsets the printed bodies compute have closed forms in the trip `t`: ring slot `t mod 7` and index row `t` for the
  gather a trip starts; from trip 7 on, slot `t mod 7` again for the copy out it first waits for; from trip 2 on, slot
  `(t - 2) mod 7` and the first row of chunk `t - 2` for the gather it then waits for and the copy out it starts; in the
  loop of the last two copies out, slot `(t + 23) mod 7` and the first row of chunk `t + 23`; in the drain, slot
  `(t + 18) mod 7`. The two conditions of the main loop's body hold from trip 7 on and from trip 2 on. An operation over
  a slice is determined by the slice's offsets, whatever the in-bounds evidence: so each printed operation is the canonical
  one at the closed form, and each printed body the canonical body at the trip's number. Last, the semaphores of ring slot
  `b` by their numbers in the subcore's pool: `2 + b` for the gather into it, `9 + b` for the copy out of it.
-/
import proofs.«206633_g8486855377485_cont_9to1_m_27_20_alg».proof.Proof.K_Canon

set_option synthInstance.maxSize 4096
set_option Elab.async false

noncomputable section

namespace Cert.Proof.KB

open Cert.Kernel Cert.Kernel.Gen

open Idealize.ShloMosaic Idealize.SL.Sem
open Idealize.ShloMosaic.SparseCore (S V T)

variable {F : FTy → Type}

/-! ## Trip counts, conditions, and the offsets under the second condition -/

theorem trips3 : k0_t3_loop.trips = 25 := by decide
theorem trips4 : k0_t4_loop.trips = 2 := by decide
theorem trips5 : k0_t5_loop.trips = 7 := by decide

theorem trip3_lt (t : Fin k0_t3_loop.trips) : t.val < 25 := Nat.lt_of_lt_of_le t.isLt (Nat.le_of_eq trips3)
theorem trip4_lt (t : Fin k0_t4_loop.trips) : t.val < 2 := Nat.lt_of_lt_of_le t.isLt (Nat.le_of_eq trips4)
theorem trip5_lt (t : Fin k0_t5_loop.trips) : t.val < 7 := Nat.lt_of_lt_of_le t.isLt (Nat.le_of_eq trips5)

/-- The main loop's body waits for a copy out from trip 7 on; -/
theorem cond3_iff : ∀ t : Fin k0_t3_loop.trips, k0_cond3 t = 1#1 ↔ 7 ≤ t.val := by decide +kernel
/-- it waits for a gather and starts its copy out from trip 2 on. -/
theorem cond4_iff : ∀ t : Fin k0_t3_loop.trips, k0_cond4 t = 1#1 ↔ 2 ≤ t.val := by decide +kernel

/-- From trip 2 on: the ring slot of chunk `t - 2`, -/
theorem k0_off8_eq : ∀ t : Fin k0_t3_loop.trips, k0_cond4 t = 1#1 → k0_off8 t = ![(t.val - 2) % 7, 0, 0] := by decide +kernel
/-- its semaphores, -/
theorem k0_off9_eq : ∀ t : Fin k0_t3_loop.trips, k0_cond4 t = 1#1 → k0_off9 t = ![(t.val - 2) % 7] := by decide +kernel
/-- and its first row in the result. -/
theorem k0_off10_eq : ∀ (i : grid0.Coords) (t : Fin k0_t3_loop.trips), k0_cond4 t = 1#1 →
    k0_off10 i t = ![min (256 * (i 1).val + 128 * (i 0).val + 4096 * (t.val - 2)) 99872, 0] := by decide +kernel

variable [FloatOps F] (L : grid0.Coords)

/-- The first row of chunk `t + 23`, in the loop of the last two copies out: `4096 t + 94208 = 4096 (t + 23)`. -/
theorem k0_off13_eq_off (t : Fin k0_t4_loop.trips) : k0_off13 L t = ![offL L (t.val + 23), 0] := by
  rw [k0_off13_eq L t]
  have h : min (256 * (L 1).val + 128 * (L 0).val + 4096 * t.val + 94208) 99872 = offL L (t.val + 23) := by
    unfold offL Cert.Chunks.off; omega
  rw [h]

/-! ## An operation over slices at equal offsets is the same operation

Each canonical operation, written out over slices at ARBITRARY offsets with arbitrary in-bounds evidence: at the canonical
offsets it is the canonical operation. -/

theorem waitW_congr (o3 : Fin 3 → ℕ) (h3 : ∀ a, o3 a + S1x128x128.size a ≤ S7x128x128.size a)
    (o4 : Fin 1 → ℕ) (h4 : ∀ a, o4 a + S1.size a ≤ S7.size a) (b : ℕ) (hb : b < 7) (e3 : o3 = ![b, 0, 0]) (e4 : o4 = ![b]) :
    (Prog.lift (.waitDma2 ((cc0_scratch6.slice (Rect.unit (s := S7) o4 S1.size h4)).squeeze S_ squeezes_S1_S_).sem
        ((rV.slice (Rect.unit (s := S7x128x128) o3 S1x128x128.size h3) (fun _ => rfl)).squeeze S128x128 squeezes_S1x128x128_S128x128)
        (oV.slice (Rect.unit (s := S100000x128) ![0, 0] S128x128.size inb_S100000x128_S128x128_0_0) (fun _ => rfl))
        ((View.wordExact_bits rfl).reshape _ _) (View.wordExact_bits rfl)) : Prog (TileEff (F := F) L) PUnit)
      = waitW L b hb := by
  subst e3 e4; rfl

theorem gatherG_congr (o5 : Fin 3 → ℕ) (h5 : ∀ a, o5 a + S1x128x128.size a ≤ S7x128x128.size a)
    (o6 : Fin 2 → ℕ) (h6 : ∀ a, o6 a + S1x128.size a ≤ S25x128.size a)
    (o7 : Fin 1 → ℕ) (h7 : ∀ a, o7 a + S1.size a ≤ S7.size a) (j : ℕ) (hj : j < 25) (b : ℕ) (hb : b < 7)
    (e5 : o5 = ![b, 0, 0]) (e6 : o6 = ![j, 0]) (e7 : o7 = ![b]) :
    (SparseCore.enqueueIndirectGather rfl
        (shV.slice (Rect.unit (s := S100x128) ![0, 0] S100x128.size inb_S100x128_S100x128_0_0) (fun _ => rfl))
        ((rV.slice (Rect.unit (s := S7x128x128) o5 S1x128x128.size h5) (fun _ => rfl)).squeeze S128x128 squeezes_S1x128x128_S128x128)
        gathers_S100x128_S128x128
        ((iV.slice (Rect.unit (s := S25x128) o6 S1x128.size h6) (fun _ => rfl)).squeeze S128 squeezes_S1x128_S128) rfl
        ((cc0_scratch5.slice (Rect.unit (s := S7) o7 S1.size h7)).squeeze S_ squeezes_S1_S_).sem
        (View.wordExact_bits rfl) rfl (Or.inr rfl) : Prog (TileEff (F := F) L) PUnit)
      = gatherG L j hj b hb := by
  subst e5 e6 e7; rfl

theorem waitG_congr (o8 : Fin 3 → ℕ) (h8 : ∀ a, o8 a + S1x128x128.size a ≤ S7x128x128.size a)
    (o9 : Fin 1 → ℕ) (h9 : ∀ a, o9 a + S1.size a ≤ S7.size a) (b : ℕ) (hb : b < 7) (e8 : o8 = ![b, 0, 0]) (e9 : o9 = ![b]) :
    (SparseCore.waitIndirectGather ((cc0_scratch5.slice (Rect.unit (s := S7) o9 S1.size h9)).squeeze S_ squeezes_S1_S_).sem
        (shV.slice (Rect.unit (s := S100x128) ![0, 0] S100x128.size inb_S100x128_S100x128_0_0) (fun _ => rfl))
        ((rV.slice (Rect.unit (s := S7x128x128) o8 S1x128x128.size h8) (fun _ => rfl)).squeeze S128x128 squeezes_S1x128x128_S128x128)
        (View.wordExact_bits rfl) ((View.wordExact_bits rfl).reshape _ _) : Prog (TileEff (F := F) L) PUnit)
      = waitG L b hb := by
  subst e8 e9; rfl

theorem copyW_congr (o8 : Fin 3 → ℕ) (h8 : ∀ a, o8 a + S1x128x128.size a ≤ S7x128x128.size a)
    (o9 : Fin 1 → ℕ) (h9 : ∀ a, o9 a + S1.size a ≤ S7.size a)
    (o10 : Fin 2 → ℕ) (h10 : ∀ a, o10 a + S128x128.size a ≤ S100000x128.size a)
    (b : ℕ) (hb : b < 7) (o : ℕ) (ho : o + 128 ≤ 100000) (e8 : o8 = ![b, 0, 0]) (e9 : o9 = ![b]) (e10 : o10 = ![o, 0]) :
    (Prog.lift (.enqueueDma
        ((rV.slice (Rect.unit (s := S7x128x128) o8 S1x128x128.size h8) (fun _ => rfl)).squeeze S128x128 squeezes_S1x128x128_S128x128)
        (.here (oV.slice (Rect.unit (s := S100000x128) o10 S128x128.size h10) (fun _ => rfl)))
        (.dma ((cc0_scratch6.slice (Rect.unit (s := S7) o9 S1.size h9)).squeeze S_ squeezes_S1_S_).sem)
        ((View.wordExact_bits rfl).reshape _ _) (View.wordExact_bits rfl) ⟨Or.inl rfl, trivial⟩) : Prog (TileEff (F := F) L) PUnit)
      = copyW L b hb o ho := by
  subst e8 e9 e10; rfl

/-! ## The printed bodies are the canonical ones

The canonical body's operations are restated over the printed slices (each at its closed form); what is left differs from
the printed body in in-bounds evidence only. -/

/-- The drain's trip `t` waits for the copy out of chunk `18 + t`. -/
theorem body5_eq (t : Fin k0_t5_loop.trips) (u : Unit) :
    k0_t5_body (F := F) L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 t u
      = body5 L t.val := by
  unfold k0_t5_body body5
  rw [← waitW_congr L (k0_off14 t) (k0_off14_inb t) (k0_off15 t) (k0_off15_inb t) ((t.val + 18) % 7) _ (k0_off14_eq t) (k0_off15_eq t)]

/-- Trip `t` of the loop of the last two copies out waits for the gather of chunk `23 + t` and starts its copy out. -/
theorem body4_eq (t : Fin k0_t4_loop.trips) (u : Unit) :
    k0_t4_body (F := F) L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 t u
      = body4 L t.val := by
  unfold k0_t4_body body4
  rw [← waitG_congr L (k0_off11 t) (k0_off11_inb t) (k0_off12 t) (k0_off12_inb t) ((t.val + 23) % 7) _ (k0_off11_eq t) (k0_off12_eq t),
    ← copyW_congr L (k0_off11 t) (k0_off11_inb t) (k0_off12 t) (k0_off12_inb t) (k0_off13 L t) (k0_off13_inb L t)
        ((t.val + 23) % 7) _ (offL L (t.val + 23)) _ (k0_off11_eq t) (k0_off12_eq t) (k0_off13_eq_off L t)]

/-- Trip `t` of the main loop: by cases on `7 ≤ t` and `2 ≤ t`, which decide the body's two conditions. -/
theorem body3_eq (t : Fin k0_t3_loop.trips) (u : Unit) :
    k0_t3_body (F := F) L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 t u
      = body3 L t.val (trip3_lt t) := by
  unfold k0_t3_body body3
  rw [← gatherG_congr L (k0_off5 t) (k0_off5_inb t) (k0_off6 t) (k0_off6_inb t) (k0_off7 t) (k0_off7_inb t) t.val _ (t.val % 7) _
      (k0_off5_eq t) (k0_off6_eq t) (k0_off7_eq t)]
  by_cases h7 : 7 ≤ t.val
  · -- from trip 7 on both conditions hold
    have h2 : 2 ≤ t.val := by omega
    have hc3 : k0_cond3 t = 1#1 := (cond3_iff t).2 h7
    have hc4 : k0_cond4 t = 1#1 := (cond4_iff t).2 h2
    rw [dif_pos hc3, dif_pos hc4, if_pos h7, if_pos h2]
    rw [← waitW_congr L (k0_off3 t) (k0_off3_inb t hc3) (k0_off4 t) (k0_off4_inb t hc3) (t.val % 7) _ (k0_off3_eq t) (k0_off4_eq t),
      ← waitG_congr L (k0_off8 t) (k0_off8_inb t hc4) (k0_off9 t) (k0_off9_inb t hc4) ((t.val - 2) % 7) _ (k0_off8_eq t hc4) (k0_off9_eq t hc4),
      ← copyW_congr L (k0_off8 t) (k0_off8_inb t hc4) (k0_off9 t) (k0_off9_inb t hc4) (k0_off10 L t) (k0_off10_inb L t hc4)
          ((t.val - 2) % 7) _ (offL L (t.val - 2)) _ (k0_off8_eq t hc4) (k0_off9_eq t hc4) (k0_off10_eq L t hc4)]
  · have hc3 : ¬ k0_cond3 t = 1#1 := fun h => h7 ((cond3_iff t).1 h)
    by_cases h2 : 2 ≤ t.val
    · -- trips 2 to 6: the second condition only
      have hc4 : k0_cond4 t = 1#1 := (cond4_iff t).2 h2
      rw [dif_neg hc3, dif_pos hc4, if_neg h7, if_pos h2]
      rw [← waitG_congr L (k0_off8 t) (k0_off8_inb t hc4) (k0_off9 t) (k0_off9_inb t hc4) ((t.val - 2) % 7) _ (k0_off8_eq t hc4) (k0_off9_eq t hc4),
        ← copyW_congr L (k0_off8 t) (k0_off8_inb t hc4) (k0_off9 t) (k0_off9_inb t hc4) (k0_off10 L t) (k0_off10_inb L t hc4)
            ((t.val - 2) % 7) _ (offL L (t.val - 2)) _ (k0_off8_eq t hc4) (k0_off9_eq t hc4) (k0_off10_eq L t hc4)]
    · -- trips 0 and 1: neither
      have hc4 : ¬ k0_cond4 t = 1#1 := fun h => h2 ((cond4_iff t).1 h)
      rw [dif_neg hc3, dif_neg hc4, if_neg h7, if_neg h2]

/-! ## The semaphores by number

The gathers' seven semaphores are laid on the subcore's pool from number 2 on, the copies' from number 9 on, in row-major
order; an array of rank one numbers its entries by their coordinate, and the slice at offset `b` of one entry names entry
`b`. -/

/-- The semaphore of the gather into ring slot `b` is number `2 + b` of the pool. -/
theorem semG_eq (b : ℕ) (hb : b < 7) : semG b hb = (⟨2 + b, by show 2 + b < 16; omega⟩ : DmaSem sig) := by
  apply Fin.ext
  show 2 + (S7.rowMajor _).val = 2 + b
  rw [Shape.rowMajor_val_one, Rect.emb_apply]
  have key : ∀ x : Fin 1, 2 + (b + 1 * x.val) = 2 + b := fun x => by have := x.isLt; omega
  exact key _

/-- The semaphore of the copy out of ring slot `b` is number `9 + b` of the pool. -/
theorem semW_eq (b : ℕ) (hb : b < 7) : semW b hb = (⟨9 + b, by show 9 + b < 16; omega⟩ : DmaSem sig) := by
  apply Fin.ext
  show 9 + (S7.rowMajor _).val = 9 + b
  rw [Shape.rowMajor_val_one, Rect.emb_apply]
  have key : ∀ x : Fin 1, 9 + (b + 1 * x.val) = 9 + b := fun x => by have := x.isLt; omega
  exact key _

end Cert.Proof.KB

end
-- ==== Proof.K_LoopsB.lean ====
/-
  The three loops of a vector subcore's second half as walks through the chunk phases: the main loop's trip `t` finishes
  the copy out of chunk `t - 7`, starts the gather of chunk `t` and turns the gather of chunk `t - 2` into its copy out; the
  second loop does the last for chunks 23 and 24; the third finishes the copies out of chunks 18 to 24.
-/
import proofs.«206633_g8486855377485_cont_9to1_m_27_20_alg».proof.Proof.K_StepsB
import proofs.«206633_g8486855377485_cont_9to1_m_27_20_alg».proof.Proof.K_GeomBody

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

theorem waitW_idx {b b' : ℕ} (e : b = b') (hb : b < 7) (hb' : b' < 7) : waitW (F := F) L b hb = waitW L b' hb' := by
  subst e; rfl

/-- What every step needs of the transfers: their sizes, that a chunk's index words name rows of the table, what a gather
    brings, and that write mode admits its copy out. -/
structure StepFacts (NG NW : ℕ) : Prop where
  gsum : ∀ (b : ℕ) (hb : b < 7), ∑ r, ((slotM b hb).slice (S128x128.rowRect gathers_S100x128_S128x128.axis' r)
      (S128x128.stride_rowRect gathers_S100x128_S128x128.axis' r)).view.dmaCredit = NG
  gcred : ∀ (b : ℕ) (hb : b < 7), (slotM b hb).view.dmaCredit = NG
  wamt : ∀ (o : ℕ) (ho : o + 128 ≤ 100000) (b : ℕ) (hb : b < 7), (outM o ho).view.amount (SemLoc.dma (semW b hb)) = NW
  wcred : (outM 0 (by omega)).view.dmaCredit = NW
  wpos : 0 < NW
  hin : ∀ (j : ℕ) (hj : j < 25) x, ((idxRowM j hj).view.read (Elt F) (idxOf m d L) x).toNat < S100x128.size gathers_S100x128_S128x128.axis
  hval : ∀ (j : ℕ) (hj : j < 25) (b : ℕ) (hb : b < 7) (fd : Buf (Elt F) ((slotM b hb).view.loc (V d (cV L) (jV L))))
    (i : Idx ((slotM b hb).view.loc (V d (cV L) (jV L)))), i ∈ (slotM b hb).view.set →
      (slotM b hb).view.write (Elt F) fd
        (SparseCore.gatherPayload gathers_S100x128_S128x128 (shM.view.read (Elt F) (tbl m d (cV L)))
          (SparseCore.rows ((idxRowM j hj).view.read (Elt F) (idxOf m d L)) rfl (hin j hj))) Finset.univ i = gath L m d j i
  hadm : ∀ (j : ℕ) (hj : j < 25) (b : ℕ) (hb : b < 7),
    (outM (offL L j) (off_inb _ _ _)).view.Admitted (Elt F) (tgt m d) ((slotM b hb).view.read (Elt F) (gath L m d j)) Finset.univ

variable {NG NW : ℕ} (sf : StepFacts m d L NG NW)
include sf

omit sf in
/-- What the loops carry: the evidence for the waits, the write-mode invariant, the state, what is owed. -/
def LI (O : CellTallies nD τ sig (HIx 1)) (W : Waits sig (HIx 1)) (g w dn : ℕ) : sProp 𝕄 :=
  iprop(Transfers.MayWaits (V d (cV L) (jV L)) (none : HIx 1) O ∗ (∃ ιwm : ℕ, wmInv (Ix := HIx 1) (Name := ℕ) (Lvl := ℕ) (EW (F := F)) ιwm)
    ∗ St m d L NG NW g w dn ∗ owesEx d L O W)

/-- Trip `t` of the main loop. -/
theorem trip3 (O : CellTallies nD τ sig (HIx 1)) (W : Waits sig (HIx 1)) (t : ℕ) (ht : t < 25) :
    LI (NG := NG) (NW := NW) m d L O W t (t - 2) (t - 7)
      ⊢ wp frame (wpE (defs₀ (F := F)) 𝒱₀ (V d (cV L) (jV L)) none) Set.univ (body3 L t ht)
          (fun _ => LI (NG := NG) (NW := NW) m d L O W (t + 1) (t + 1 - 2) (t + 1 - 7)) := by
  unfold LI body3
  iintro ⟨#Hmw, #Hwm, HSt, HO⟩
  by_cases h2 : 2 ≤ t
  · by_cases h7 : 7 ≤ t
    · rw [if_pos h7, if_pos h2]
      simp only [bind_assoc, pure_bind]
      rw [waitW_idx L (show t % 7 = (t - 7) % 7 by omega) (mod7 _) (mod7 _)]
      iapply (stepDrain m d L NG NW sf.wcred O W t (t - 2) (t - 7) (by omega) (by omega) (by omega) (by omega) _ _) $$ [HSt HO]
      · isplitr; · iexact Hmw
        isplitl [HSt]; · iexact HSt
        iexact HO
      iintro ⟨HSt, HO⟩
      iapply (stepGather m d L NG NW t (t - 2) (t - 7 + 1) ht (by omega) (by omega) (by omega) (sf.gsum _ _) (sf.hin t ht) (sf.hval t ht _ _) _ _) $$ HSt
      iintro HSt
      iapply (stepCopy m d L NG NW (t + 1) (t - 2) (t - 7 + 1) (by omega) (by omega) (by omega) (sf.gcred _ _) (sf.wamt _ _ _ _) sf.wpos
        (sf.hadm (t - 2) (by omega) _ _) O W _ _) $$ [HSt HO]
      · isplitr; · iexact Hmw
        isplitr; · iexact Hwm
        isplitl [HSt]; · iexact HSt
        iexact HO
      iintro ⟨HSt, HO⟩
      rw [wp_pure]
      imodintro
      rw [show t + 1 - 2 = t - 2 + 1 by omega, show t + 1 - 7 = t - 7 + 1 by omega]
      isplitr; · iexact Hmw
      isplitr; · iexact Hwm
      isplitl [HSt]; · iexact HSt
      iexact HO
    · rw [if_neg h7, if_pos h2]
      simp only [bind_assoc, pure_bind]
      iapply (stepGather m d L NG NW t (t - 2) (t - 7) ht (by omega) (by omega) (by omega) (sf.gsum _ _) (sf.hin t ht) (sf.hval t ht _ _) _ _) $$ HSt
      iintro HSt
      iapply (stepCopy m d L NG NW (t + 1) (t - 2) (t - 7) (by omega) (by omega) (by omega) (sf.gcred _ _) (sf.wamt _ _ _ _) sf.wpos
        (sf.hadm (t - 2) (by omega) _ _) O W _ _) $$ [HSt HO]
      · isplitr; · iexact Hmw
        isplitr; · iexact Hwm
        isplitl [HSt]; · iexact HSt
        iexact HO
      iintro ⟨HSt, HO⟩
      rw [wp_pure]
      imodintro
      rw [show t + 1 - 2 = t - 2 + 1 by omega, show t + 1 - 7 = t - 7 by omega]
      isplitr; · iexact Hmw
      isplitr; · iexact Hwm
      isplitl [HSt]; · iexact HSt
      iexact HO
  · rw [if_neg (show ¬ 7 ≤ t by omega), if_neg h2]
    simp only [bind_assoc, pure_bind]
    iapply (stepGather m d L NG NW t (t - 2) (t - 7) ht (by omega) (by omega) (by omega) (sf.gsum _ _) (sf.hin t ht) (sf.hval t ht _ _) _ _) $$ HSt
    iintro HSt
    rw [wp_pure]
    imodintro
    rw [show t + 1 - 2 = t - 2 by omega, show t + 1 - 7 = t - 7 by omega]
    isplitr; · iexact Hmw
    isplitr; · iexact Hwm
    isplitl [HSt]; · iexact HSt
    iexact HO

/-- Trip `k` of the loop of the last two copies out. -/
theorem trip4 (O : CellTallies nD τ sig (HIx 1)) (W : Waits sig (HIx 1)) (k : ℕ) (hk : k < 2) :
    LI (NG := NG) (NW := NW) m d L O W 25 (k + 23) 18
      ⊢ wp frame (wpE (defs₀ (F := F)) 𝒱₀ (V d (cV L) (jV L)) none) Set.univ (body4 L k)
          (fun _ => LI (NG := NG) (NW := NW) m d L O W 25 (k + 1 + 23) 18) := by
  unfold LI body4
  iintro ⟨#Hmw, #Hwm, HSt, HO⟩
  simp only [bind_assoc, pure_bind]
  iapply (stepCopy m d L NG NW 25 (k + 23) 18 (by omega) (by omega) (by omega) (sf.gcred _ _) (sf.wamt _ _ _ _) sf.wpos
    (sf.hadm (k + 23) (by omega) _ _) O W _ _) $$ [HSt HO]
  · isplitr; · iexact Hmw
    isplitr; · iexact Hwm
    isplitl [HSt]; · iexact HSt
    iexact HO
  iintro ⟨HSt, HO⟩
  rw [wp_pure]
  imodintro
  rw [show k + 1 + 23 = k + 23 + 1 by omega]
  isplitr; · iexact Hmw
  isplitr; · iexact Hwm
  isplitl [HSt]; · iexact HSt
  iexact HO

/-- Trip `k` of the drain. -/
theorem trip5 (O : CellTallies nD τ sig (HIx 1)) (W : Waits sig (HIx 1)) (k : ℕ) (hk : k < 7) :
    LI (NG := NG) (NW := NW) m d L O W 25 25 (k + 18)
      ⊢ wp frame (wpE (defs₀ (F := F)) 𝒱₀ (V d (cV L) (jV L)) none) Set.univ (body5 L k)
          (fun _ => LI (NG := NG) (NW := NW) m d L O W 25 25 (k + 1 + 18)) := by
  unfold LI body5
  iintro ⟨#Hmw, #Hwm, HSt, HO⟩
  simp only [bind_assoc, pure_bind]
  iapply (stepDrain m d L NG NW sf.wcred O W 25 25 (k + 18) (by omega) (by omega) (by omega) (by omega) _ _) $$ [HSt HO]
  · isplitr; · iexact Hmw
    isplitl [HSt]; · iexact HSt
    iexact HO
  iintro ⟨HSt, HO⟩
  rw [wp_pure]
  imodintro
  rw [show k + 1 + 18 = k + 18 + 1 by omega]
  isplitr; · iexact Hmw
  isplitr; · iexact Hwm
  isplitl [HSt]; · iexact HSt
  iexact HO

/-- The main loop: from nothing started to 25 gathers started, 23 of them waited for, 18 copies out finished. -/
theorem loop3 (O : CellTallies nD τ sig (HIx 1)) (W : Waits sig (HIx 1)) {α : Type} (kk : Unit → Prog (TileEff (F := F) L) α) (Q : α → sProp 𝕄) :
    LI (NG := NG) (NW := NW) m d L O W 0 0 0
      ⊢ iprop((LI (NG := NG) (NW := NW) m d L O W 25 23 18 -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (Scf.Loop.for k0_t3_loop k0_t3_ok ⟨⟩ (k0_t3_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6) >>= kk) Q) := by
  have hbody : ∀ (k : Fin k0_t3_loop.trips) (acc : Unit), LI (NG := NG) (NW := NW) m d L O W k.val (k.val - 2) (k.val - 7)
      ⊢ wp frame (wpE (defs₀ (F := F)) 𝒱₀ (V d (cV L) (jV L)) none) Set.univ
          (k0_t3_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
          (fun _ => LI (NG := NG) (NW := NW) m d L O W (k.val + 1) (k.val + 1 - 2) (k.val + 1 - 7)) := by
    intro k acc
    rw [body3_eq L k acc]
    exact trip3 m d L sf O W k.val (trip3_lt k)
  have h := Scf.wp_for_bind frame (wpE (defs₀ (F := F)) 𝒱₀ (V d (cV L) (jV L)) none) Set.univ k0_t3_loop.lb k0_t3_loop.ub k0_t3_loop.st k0_t3_ok ()
    (k0_t3_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
    (fun k _ => LI (NG := NG) (NW := NW) m d L O W k (k - 2) (k - 7)) hbody (kk := kk) (Q := Q)
  have e : Scf.trips k0_t3_loop.lb k0_t3_loop.ub k0_t3_loop.st = 25 := trips3
  rw [e] at h
  iintro HI Hk
  iapply h $$ [HI]
  · iexact HI
  iintro %acc HI
  iapply Hk
  iexact HI

/-- The loop of the last two copies out. -/
theorem loop4 (O : CellTallies nD τ sig (HIx 1)) (W : Waits sig (HIx 1)) {α : Type} (kk : Unit → Prog (TileEff (F := F) L) α) (Q : α → sProp 𝕄) :
    LI (NG := NG) (NW := NW) m d L O W 25 23 18
      ⊢ iprop((LI (NG := NG) (NW := NW) m d L O W 25 25 18 -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (Scf.Loop.for k0_t4_loop k0_t4_ok ⟨⟩ (k0_t4_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6) >>= kk) Q) := by
  have hbody : ∀ (k : Fin k0_t4_loop.trips) (acc : Unit), LI (NG := NG) (NW := NW) m d L O W 25 (k.val + 23) 18
      ⊢ wp frame (wpE (defs₀ (F := F)) 𝒱₀ (V d (cV L) (jV L)) none) Set.univ
          (k0_t4_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
          (fun _ => LI (NG := NG) (NW := NW) m d L O W 25 (k.val + 1 + 23) 18) := by
    intro k acc
    rw [body4_eq L k acc]
    exact trip4 m d L sf O W k.val (trip4_lt k)
  have h := Scf.wp_for_bind frame (wpE (defs₀ (F := F)) 𝒱₀ (V d (cV L) (jV L)) none) Set.univ k0_t4_loop.lb k0_t4_loop.ub k0_t4_loop.st k0_t4_ok ()
    (k0_t4_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
    (fun k _ => LI (NG := NG) (NW := NW) m d L O W 25 (k + 23) 18) hbody (kk := kk) (Q := Q)
  have e : Scf.trips k0_t4_loop.lb k0_t4_loop.ub k0_t4_loop.st = 2 := trips4
  rw [e] at h
  iintro HI Hk
  iapply h $$ [HI]
  · iexact HI
  iintro %acc HI
  iapply Hk
  iexact HI

/-- The drain of the copies out still in flight. -/
theorem loop5 (O : CellTallies nD τ sig (HIx 1)) (W : Waits sig (HIx 1)) {α : Type} (kk : Unit → Prog (TileEff (F := F) L) α) (Q : α → sProp 𝕄) :
    LI (NG := NG) (NW := NW) m d L O W 25 25 18
      ⊢ iprop((LI (NG := NG) (NW := NW) m d L O W 25 25 25 -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (Scf.Loop.for k0_t5_loop k0_t5_ok ⟨⟩ (k0_t5_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6) >>= kk) Q) := by
  have hbody : ∀ (k : Fin k0_t5_loop.trips) (acc : Unit), LI (NG := NG) (NW := NW) m d L O W 25 25 (k.val + 18)
      ⊢ wp frame (wpE (defs₀ (F := F)) 𝒱₀ (V d (cV L) (jV L)) none) Set.univ
          (k0_t5_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6 k acc)
          (fun _ => LI (NG := NG) (NW := NW) m d L O W 25 25 (k.val + 1 + 18)) := by
    intro k acc
    rw [body5_eq L k acc]
    exact trip5 m d L sf O W k.val (trip5_lt k)
  have h := Scf.wp_for_bind frame (wpE (defs₀ (F := F)) 𝒱₀ (V d (cV L) (jV L)) none) Set.univ k0_t5_loop.lb k0_t5_loop.ub k0_t5_loop.st k0_t5_ok ()
    (k0_t5_body L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
    (fun k _ => LI (NG := NG) (NW := NW) m d L O W 25 25 (k + 18)) hbody (kk := kk) (Q := Q)
  have e : Scf.trips k0_t5_loop.lb k0_t5_loop.ub k0_t5_loop.st = 7 := trips5
  rw [e] at h
  iintro HI Hk
  iapply h $$ [HI]
  · iexact HI
  iintro %acc HI
  iapply Hk
  iexact HI

end Cert.Proof.KB

end
-- ==== Proof.K_GeomSets.lean ====
/-
  The geometry of one subcore's second half. The canonical views of the row ring, the index scratch, the result and the
  shared table sit in the buffers they were cut from; the seven ring slots are pairwise disjoint blocks of the row
  buffers and cover them, the twenty-five rows of the index scratch likewise, so holding a buffer outright is holding
  its slots (rows) outright, and back; the 128 rows of the result from the first row of a chunk on are the chunk; the
  gathers' name of the shared table is all of it; and a gather into a slot and a copy out of one each move
  128 × 128 × 32 bits.
-/
import proofs.«206633_g8486855377485_cont_9to1_m_27_20_alg».proof.Proof.K_Canon
import proofs.«206633_g8486855377485_cont_9to1_m_27_20_alg».proof.Proof.ChunksCover

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (d : Dev nD) (L : grid0.Coords)

/-! ## Where the canonical views sit -/

theorem slotM_loc (b : ℕ) (hb : b < 7) : (slotM b hb).view.loc (V d (cV L) (jV L)) = (V d (cV L) (jV L)).loc cc0_scratch1 := rfl
theorem idxRowM_loc (j : ℕ) (hj : j < 25) : (idxRowM j hj).view.loc (V d (cV L) (jV L)) = (V d (cV L) (jV L)).loc cc0_scratch0 := rfl
theorem outM_loc (o : ℕ) (ho : o + 128 ≤ 100000) : (outM o ho).view.loc (V d (cV L) (jV L)) = oLoc d := rfl
theorem shM_loc : shM.view.loc (V d (cV L) (jV L)) = shLoc d (cV L) := rfl

/-! ## The ring slots: seven disjoint blocks of the row buffers that cover them -/

/-- The elements of ring slot `b`, as indices of the row buffers. -/
abbrev slotSet (b : ℕ) (hb : b < 7) : Finset S7x128x128.Idx := (slotM b hb).view.set

/-- They are those of the unit-stride block at leading coordinate `b`. -/
theorem slotSet_eq_rect (b : ℕ) (hb : b < 7) :
    slotSet b hb = (Rect.unit (s := S7x128x128) ![b, 0, 0] S1x128x128.size (slot_inb b hb)).set := by
  show (((rV).view.slice (Rect.unit (s := S7x128x128) ![b, 0, 0] S1x128x128.size (slot_inb b hb))).reshape S128x128 squeezes_S1x128x128_S128x128.numel_eq).set = _
  rw [View.set_reshape]
  exact View.set_slice_whole _ _

/-- An element of the row buffers lies in slot `b` when its leading coordinate is `b`. -/
theorem mem_slotSet (b : ℕ) (hb : b < 7) (i : S7x128x128.Idx) : i ∈ slotSet b hb ↔ (i 0).val = b := by
  rw [slotSet_eq_rect, Rect.mem_set_unit]
  constructor
  · intro h
    have h0 : b ≤ (i 0).val ∧ (i 0).val < b + 1 := h 0
    omega
  · intro h a
    match a with
    | ⟨0, _⟩ => show b ≤ (i 0).val ∧ (i 0).val < b + 1; omega
    | ⟨1, _⟩ => exact ⟨Nat.zero_le _, by have h : (i 1).val < 128 := (i 1).isLt; show (i 1).val < 0 + 128; omega⟩
    | ⟨2, _⟩ => exact ⟨Nat.zero_le _, by have h : (i 2).val < 128 := (i 2).isLt; show (i 2).val < 0 + 128; omega⟩

/-- Two different slots share no element. -/
theorem slots_disjoint : ∀ b ∈ (Finset.univ : Finset (Fin 7)), ∀ b' ∈ (Finset.univ : Finset (Fin 7)), b ≠ b' →
    Disjoint (slotSet b.val b.isLt) (slotSet b'.val b'.isLt) := by
  intro b _ b' _ h
  refine Finset.disjoint_left.mpr fun i hi hi' => h (Fin.ext ?_)
  rw [mem_slotSet] at hi hi'
  omega

/-- The seven slots cover the row buffers. -/
theorem slots_cover : (Finset.univ : Finset (Fin 7)).biUnion (fun b => slotSet b.val b.isLt) = Finset.univ := by
  ext i
  simp only [Finset.mem_biUnion, Finset.mem_univ, true_and, iff_true]
  exact ⟨⟨(i 0).val, (i 0).isLt⟩, (mem_slotSet _ _ i).mpr rfl⟩

/-- The row buffers held outright are the seven ring slots held outright. -/
theorem rows_split (f : Buf (Elt F) ((V d (cV L) (jV L)).loc cc0_scratch1)) :
    (((V d (cV L) (jV L)).loc cc0_scratch1 ↦{fullShare} f : sProp 𝕄))
      = bigSep Finset.univ fun b : Fin 7 => (slotM b.val b.isLt).view.loc (V d (cV L) (jV L)) ↦[(slotM b.val b.isLt).view.set]{fullShare} f :=
  (congrArg (fun I : Finset S7x128x128.Idx => ((V d (cV L) (jV L)).loc cc0_scratch1 ↦[I]{fullShare} f : sProp 𝕄)) slots_cover.symm).trans
    (pointsTo_biUnion Finset.univ (ℓ := (V d (cV L) (jV L)).loc cc0_scratch1) (fun b : Fin 7 => slotSet b.val b.isLt) slots_disjoint)

/-! ## The index scratch: twenty-five disjoint rows that cover it -/

/-- The elements of row `j` of the index scratch. -/
abbrev idxRowSet (j : ℕ) (hj : j < 25) : Finset S25x128.Idx := (idxRowM j hj).view.set

theorem idxRowSet_eq_rect (j : ℕ) (hj : j < 25) :
    idxRowSet j hj = (Rect.unit (s := S25x128) ![j, 0] S1x128.size (idxRow_inb j hj)).set := by
  show (((iV).view.slice (Rect.unit (s := S25x128) ![j, 0] S1x128.size (idxRow_inb j hj))).reshape S128 squeezes_S1x128_S128.numel_eq).set = _
  rw [View.set_reshape]
  exact View.set_slice_whole _ _

theorem mem_idxRowSet (j : ℕ) (hj : j < 25) (i : S25x128.Idx) : i ∈ idxRowSet j hj ↔ (i 0).val = j := by
  rw [idxRowSet_eq_rect, Rect.mem_set_unit]
  constructor
  · intro h
    have h0 : j ≤ (i 0).val ∧ (i 0).val < j + 1 := h 0
    omega
  · intro h a
    match a with
    | ⟨0, _⟩ => show j ≤ (i 0).val ∧ (i 0).val < j + 1; omega
    | ⟨1, _⟩ => exact ⟨Nat.zero_le _, by have h : (i 1).val < 128 := (i 1).isLt; show (i 1).val < 0 + 128; omega⟩

theorem idxRows_disjoint : ∀ j ∈ (Finset.univ : Finset (Fin 25)), ∀ j' ∈ (Finset.univ : Finset (Fin 25)), j ≠ j' →
    Disjoint (idxRowSet j.val j.isLt) (idxRowSet j'.val j'.isLt) := by
  intro j _ j' _ h
  refine Finset.disjoint_left.mpr fun i hi hi' => h (Fin.ext ?_)
  rw [mem_idxRowSet] at hi hi'
  omega

theorem idxRows_cover : (Finset.univ : Finset (Fin 25)).biUnion (fun j => idxRowSet j.val j.isLt) = Finset.univ := by
  ext i
  simp only [Finset.mem_biUnion, Finset.mem_univ, true_and, iff_true]
  exact ⟨⟨(i 0).val, (i 0).isLt⟩, (mem_idxRowSet _ _ i).mpr rfl⟩

/-- The index scratch held outright is its twenty-five rows held outright. -/
theorem idx_split (f : Buf (Elt F) ((V d (cV L) (jV L)).loc cc0_scratch0)) :
    (((V d (cV L) (jV L)).loc cc0_scratch0 ↦{fullShare} f : sProp 𝕄))
      = bigSep Finset.univ fun j : Fin 25 => (idxRowM j.val j.isLt).view.loc (V d (cV L) (jV L)) ↦[(idxRowM j.val j.isLt).view.set]{fullShare} f :=
  (congrArg (fun I : Finset S25x128.Idx => ((V d (cV L) (jV L)).loc cc0_scratch0 ↦[I]{fullShare} f : sProp 𝕄)) idxRows_cover.symm).trans
    (pointsTo_biUnion Finset.univ (ℓ := (V d (cV L) (jV L)).loc cc0_scratch0) (fun j : Fin 25 => idxRowSet j.val j.isLt) idxRows_disjoint)

/-! ## The result's row blocks and the shared table -/

/-- The elements of the 128 rows of the result from row `o` on. -/
abbrev outMSet (o : ℕ) (ho : o + 128 ≤ 100000) : Finset S100000x128.Idx := (outM o ho).view.set

theorem mem_outMSet (o : ℕ) (ho : o + 128 ≤ 100000) (i : S100000x128.Idx) :
    i ∈ outMSet o ho ↔ o ≤ (i 0).val ∧ (i 0).val < o + 128 := by
  rw [show outMSet o ho = (Rect.unit (s := S100000x128) ![o, 0] S128x128.size (out_inb o ho)).set from View.set_slice_whole _ _,
    Rect.mem_set_unit]
  constructor
  · intro h; exact h 0
  · intro h a
    match a with
    | ⟨0, _⟩ => exact h
    | ⟨1, _⟩ => exact ⟨Nat.zero_le _, by have h : (i 1).val < 128 := (i 1).isLt; show (i 1).val < 0 + 128; omega⟩

theorem outM_set (o : ℕ) (ho : o + 128 ≤ 100000) :
    ∀ i : S100000x128.Idx, i ∈ outMSet o ho ↔ o ≤ (i 0).val ∧ (i 0).val < o + 128 := mem_outMSet o ho

/-- The rows of the result that the copy out of chunk `j` writes are the chunk. -/
theorem outM_set_off (j : ℕ) :
    (outM (offL L j) (off_inb _ _ _)).view.set = (Cert.Chunks.chunk (L 0).val (L 1).val j : Finset (Idx (oLoc d))) :=
  Finset.ext fun i => ((mem_outMSet (offL L j) (off_inb _ _ _) i).trans (Cert.Chunks.mem_chunk (L 0).val (L 1).val j i).symm)

/-- The gathers' name of the shared table covers all of it. -/
theorem shM_set : (shM.view.set : Finset S100x128.Idx) = Finset.univ := by
  have h : (shM.view.set : Finset S100x128.Idx) = (Rect.unit (s := S100x128) ![0, 0] S100x128.size inb_S100x128_S100x128_0_0).set := View.set_slice_whole _ _
  refine h.trans (Finset.eq_univ_iff_forall.mpr fun i => Rect.mem_set_unit.mpr fun a => ?_)
  match a with
  | ⟨0, _⟩ => exact ⟨Nat.zero_le _, by have h : (i 0).val < 100 := (i 0).isLt; show (i 0).val < 0 + 100; omega⟩
  | ⟨1, _⟩ => exact ⟨Nat.zero_le _, by have h : (i 1).val < 128 := (i 1).isLt; show (i 1).val < 0 + 128; omega⟩

/-! ## What the transfers credit their semaphores: the bits moved -/

/-- A gather into a ring slot moves 128 rows of 128 words of 32 bits. -/
def NG : ℕ := 524288
/-- A copy of a ring slot out to the result moves as many. -/
def NW : ℕ := 524288

theorem slot_credit (b : ℕ) (hb : b < 7) : (slotM b hb).view.dmaCredit = NG := rfl

theorem gather_credit (b : ℕ) (hb : b < 7) :
    ∑ r, ((slotM b hb).slice (S128x128.rowRect gathers_S100x128_S128x128.axis' r) (S128x128.stride_rowRect gathers_S100x128_S128x128.axis' r)).view.dmaCredit = NG := by
  show ∑ _r : Fin 128, RefSig.bitCredit (S128x128.rowShape gathers_S100x128_S128x128.axis') .f32 = NG
  rw [Finset.sum_const, Finset.card_univ, Fintype.card_fin]
  rfl

theorem out_amount (o : ℕ) (ho : o + 128 ≤ 100000) (b : ℕ) (hb : b < 7) : (outM o ho).view.amount (.dma (semW b hb)) = NW := rfl
theorem out_credit : (outM 0 (by omega)).view.dmaCredit = NW := rfl

variable [FloatOps F]

/-- The seven ring slots, each held outright at contents of its own, are the row buffers held outright at some contents. -/
theorem rows_join :
    (bigSep Finset.univ fun b : Fin 7 => iprop(∃ f : Buf (Elt F) ((V d (cV L) (jV L)).loc cc0_scratch1),
        (slotM b.val b.isLt).view.loc (V d (cV L) (jV L)) ↦[(slotM b.val b.isLt).view.set]{fullShare} (f : Buf (Elt F) ((slotM b.val b.isLt).view.loc (V d (cV L) (jV L))))))
      ⊢ (iprop(∃ f, (V d (cV L) (jV L)).loc cc0_scratch1 ↦{fullShare} f) : sProp 𝕄) := by
  refine (bigSep_exists_pi Finset.univ (fun (b : Fin 7) (f : Buf (Elt F) ((V d (cV L) (jV L)).loc cc0_scratch1)) =>
    ((V d (cV L) (jV L)).loc cc0_scratch1 ↦[slotSet b.val b.isLt]{fullShare} f : sProp 𝕄))).trans ?_
  iintro ⟨%fs, H⟩
  ihave H' := (pointsTo_biUnion_join Finset.univ (fun b : Fin 7 => slotSet b.val b.isLt) fs (fs 0) slots_disjoint) $$ H
  icases H' with ⟨%g, -, Hg⟩
  rw [slots_cover]
  iexists g; iexact Hg

end Cert.Proof.KB

end
-- ==== Proof.K_Value.lean ====
/-
  The values of one subcore's second half. Where the canonical views of the row ring, the index scratch, the result and
  the shared table put their indices, and so what they read; every index word of a chunk names a row of the table; the
  gather of chunk `j` into a ring slot writes, at row `k` of the slot, the row of the table that the `k`-th index word of
  the chunk names; and that is what the lookup has at row `k` of the chunk, so the copy of the slot out to the chunk's
  rows of the result is admitted by the result's targets.
-/
import proofs.«206633_g8486855377485_cont_9to1_m_27_20_alg».proof.Proof.K_Canon
import proofs.«206633_g8486855377485_cont_9to1_m_27_20_alg».proof.Proof.ChunksCover
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

open Idealize.ShloMosaic.ValueIdx

/-! ## Where the canonical views put their indices -/

/-- Entry `(x0, x1)` of ring slot `b` is entry `(b, x0, x1)` of the row buffers. -/
theorem slotM_emb (b : ℕ) (hb : b < 7) (x0 x1 : Fin 128) :
    (slotM b hb).view.emb (ix2 x0 x1) = (ix3 (⟨b, hb⟩ : Fin 7) x0 x1 : S7x128x128.Idx) := by
  show (Rect.unit (s := S7x128x128) ![b, 0, 0] S1x128x128.size (slot_inb b hb)).emb
      (Shape.reshapeEquiv squeezes_S1x128x128_S128x128.numel_eq (ix2 x0 x1)) = _
  rw [reshapeEquiv_ix2_1ab]
  funext a
  apply Fin.ext
  match a with
  | ⟨0, _⟩ => show b + 1 * 0 = b; omega
  | ⟨1, _⟩ => show 0 + 1 * x0.val = x0.val; omega
  | ⟨2, _⟩ => show 0 + 1 * x1.val = x1.val; omega

/-- Entry `k` of row `j` of the index scratch is its entry `(j, k)`. -/
theorem idxRowM_emb (j : ℕ) (hj : j < 25) (k : Fin 128) :
    (idxRowM j hj).view.emb (ix1 k) = (ix2 (⟨j, hj⟩ : Fin 25) k : S25x128.Idx) := by
  have hre : Shape.reshapeEquiv squeezes_S1x128_S128.numel_eq (ix1 k) = (ix2 (⟨0, Nat.one_pos⟩ : Fin 1) k : S1x128.Idx) :=
    Shape.reshapeEquiv_eq_of_rowMajor _ (by
      rw [Shape.rowMajor_val_two, Shape.rowMajor_val_one]
      show 0 * 128 + k.val = k.val
      omega)
  show (Rect.unit (s := S25x128) ![j, 0] S1x128.size (idxRow_inb j hj)).emb
      (Shape.reshapeEquiv squeezes_S1x128_S128.numel_eq (ix1 k)) = _
  rw [hre]
  funext a
  apply Fin.ext
  match a with
  | ⟨0, _⟩ => show j + 1 * 0 = j; omega
  | ⟨1, _⟩ => show 0 + 1 * k.val = k.val; omega

/-- Entry `(x0, x1)` of the 128 rows of the result from row `o` on is entry `(o + x0, x1)` of the result. -/
theorem outM_emb (o : ℕ) (ho : o + 128 ≤ 100000) (x0 x1 : Fin 128) :
    (outM o ho).view.emb (ix2 x0 x1) = (ix2 (⟨o + x0.val, by omega⟩ : Fin 100000) x1 : S100000x128.Idx) := by
  funext a
  apply Fin.ext
  match a with
  | ⟨0, _⟩ => show o + 1 * x0.val = o + x0.val; omega
  | ⟨1, _⟩ => show 0 + 1 * x1.val = x1.val; omega

/-- The gathers' name of the shared table indexes it as it is. -/
theorem shM_emb (y : S100x128.Idx) : shM.view.emb y = y := by
  funext a
  apply Fin.ext
  match a with
  | ⟨0, _⟩ => show 0 + 1 * (y 0).val = (y 0).val; omega
  | ⟨1, _⟩ => show 0 + 1 * (y 1).val = (y 1).val; omega

/-! ## Reading through them -/

section Reads
variable {Val : EltTy → Type}

theorem slotM_read (b : ℕ) (hb : b < 7) (f : (slotM b hb).view.ty.Contents Val) (x0 x1 : Fin 128) :
    (slotM b hb).view.read Val f (ix2 x0 x1) = f (ix3 (⟨b, hb⟩ : Fin 7) x0 x1 : S7x128x128.Idx) := by
  rw [View.read_apply, slotM_emb]; rfl

theorem idxRowM_read (j : ℕ) (hj : j < 25) (f : (idxRowM j hj).view.ty.Contents Val) (k : Fin 128) :
    (idxRowM j hj).view.read Val f (ix1 k) = f (ix2 (⟨j, hj⟩ : Fin 25) k : S25x128.Idx) := by
  rw [View.read_apply, idxRowM_emb]; rfl

theorem outM_read (o : ℕ) (ho : o + 128 ≤ 100000) (f : (outM o ho).view.ty.Contents Val) (x0 x1 : Fin 128) :
    (outM o ho).view.read Val f (ix2 x0 x1) = f (ix2 (⟨o + x0.val, by omega⟩ : Fin 100000) x1 : S100000x128.Idx) := by
  rw [View.read_apply, outM_emb]; rfl

theorem shM_read (f : shM.view.ty.Contents Val) (y : S100x128.Idx) : shM.view.read Val f y = f y := by
  rw [View.read_apply, shM_emb]; rfl

end Reads

variable [FloatOps F] (m : (ℓ : Loc nD τ sig) → Buf (Elt F) ℓ) (d : Dev nD) (L : grid0.Coords)

/-! ## The index words of a chunk -/

/-- Every index word of a chunk names a row of the table. -/
theorem hin_idx (hz : ∀ i, (m (zLoc d) i).toNat < 100) (j : ℕ) (hj : j < 25) :
    ∀ x, ((idxRowM j hj).view.read (Elt F) (idxOf m d L) x).toNat < S100x128.size gathers_S100x128_S128x128.axis := by
  intro x
  exact hz _

/-- The row-major position `k` of a list of 128 is its entry `k`. -/
theorem rowMajor_symm_S128 (k : Fin 128) (h : 128 = S128.numel) : S128.rowMajor.symm (k.cast h) = ix1 k :=
  (Equiv.symm_apply_eq _).mpr (Fin.ext (by rw [Shape.rowMajor_val_one]; rfl))

/-- The row of the table that the `k`-th index word of chunk `j` names. -/
theorem rows_val (hz : ∀ i, (m (zLoc d) i).toNat < 100) (j : ℕ) (hj : j < 25) (k : Fin 128) :
    (SparseCore.rows ((idxRowM j hj).view.read (Elt F) (idxOf m d L)) (o := 128) rfl (hin_idx m d L hz j hj) k).val
      = (Cert.Spec.rowOf (idxOf m d L (ix2 (⟨min j 24, by omega⟩ : Fin 25) k))).val := by
  have hj' : (⟨min j 24, by omega⟩ : Fin 25) = ⟨j, hj⟩ := Fin.ext (Nat.min_eq_left (by omega))
  rw [hj', Cert.Spec.rowOf_val_of_lt (x := idxOf m d L (ix2 (⟨j, hj⟩ : Fin 25) k)) (hz _)]
  have h1 : (idxRowM j hj).view.read (Elt F) (idxOf m d L) (S128.rowMajor.symm (k.cast (rfl : 128 = S128.numel))) = idxOf m d L (ix2 (⟨j, hj⟩ : Fin 25) k) :=
    (congrArg ((idxRowM j hj).view.read (Elt F) (idxOf m d L)) (rowMajor_symm_S128 k rfl)).trans (idxRowM_read j hj (idxOf m d L) k)
  refine Eq.trans (b := BitVec.toNat ((idxRowM j hj).view.read (Elt F) (idxOf m d L) (S128.rowMajor.symm (k.cast (rfl : 128 = S128.numel))))) rfl ?_
  exact congrArg BitVec.toNat h1

/-! ## What a gather leaves in a slot, and that it is what the result's targets name -/

/-- The gather of chunk `j` into a slot writes `gath L m d j` on the slot's elements. -/
theorem gather_val (hz : ∀ i, (m (zLoc d) i).toNat < 100) (j : ℕ) (hj : j < 25) (b : ℕ) (hb : b < 7)
    (fd : Buf (Elt F) ((slotM b hb).view.loc (V d (cV L) (jV L)))) :
    ∀ i ∈ (slotM b hb).view.set,
      (slotM b hb).view.write (Elt F) fd
        (SparseCore.gatherPayload gathers_S100x128_S128x128 (shM.view.read (Elt F) (tbl m d (cV L)))
          (SparseCore.rows ((idxRowM j hj).view.read (Elt F) (idxOf m d L)) rfl (hin_idx m d L hz j hj))) Finset.univ i
        = gath L m d j i := by
  intro i hi
  obtain ⟨x, -, rfl⟩ := Finset.mem_map.mp hi
  obtain ⟨x0, x1, rfl⟩ : ∃ (x0 x1 : Fin 128), x = ix2 x0 x1 := ⟨x 0, x 1, eq_ix2 x⟩
  rw [View.write_emb_of_mem _ _ (Finset.mem_univ _)]
  show SparseCore.gatherPayload gathers_S100x128_S128x128 (shM.view.read (Elt F) (tbl m d (cV L)))
      (SparseCore.rows ((idxRowM j hj).view.read (Elt F) (idxOf m d L)) rfl (hin_idx m d L hz j hj)) (ix2 x0 x1)
    = gath L m d j ((slotM b hb).view.emb (ix2 x0 x1))
  rw [slotM_emb]
  unfold SparseCore.gatherPayload
  refine (shM_read (Val := Elt F) (tbl m d (cV L)) _).trans ?_
  show tbl m d (cV L) _ = tbl m d (cV L) _
  congr 1
  funext a
  apply Fin.ext
  match a with
  | ⟨0, _⟩ =>
    show (gathers_S100x128_S128x128.idx _ (ix2 x0 x1) gathers_S100x128_S128x128.axis).val = _
    rw [Shape.Gathers.idx_axis]
    exact rows_val m d L hz j hj x0
  | ⟨1, _⟩ =>
    exact Shape.Gathers.idx_of_ne gathers_S100x128_S128x128 _ (ix2 x0 x1) ⟨1, by decide⟩ (by decide)

/-- What a slot holds after the gather of chunk `j` is what the result's targets name on the chunk's rows. -/
theorem copy_adm (hz : ∀ i, (m (zLoc d) i).toNat < 100) (j : ℕ) (hj : j < 25) (b : ℕ) (hb : b < 7) :
    (outM (offL L j) (off_inb _ _ _)).view.Admitted (Elt F) (tgt m d) ((slotM b hb).view.read (Elt F) (gath L m d j)) Finset.univ := by
  intro x _ u hu
  obtain ⟨x0, x1, rfl⟩ : ∃ (x0 x1 : Fin 128), x = ix2 x0 x1 := ⟨x 0, x 1, eq_ix2 x⟩
  have hoff : offL L j + 128 ≤ 100000 := off_inb (L 0).val (L 1).val j
  have hlt : offL L j + x0.val ≤ 99999 := by have := x0.isLt; omega
  have hu2 := (outM_read (Val := fun e => Option (Elt F e)) (offL L j) (off_inb _ _ _) (tgt m d) x0 x1).symm.trans hu
  refine (slotM_read b hb (gath L m d j) x0 x1).trans ?_
  have hu' : res m d (ix2 (⟨offL L j + x0.val, by omega⟩ : Fin 100000) x1) = u := Option.some.inj hu2
  rw [← hu']
  have hj' : (⟨min j 24, by omega⟩ : Fin 25) = ⟨j, hj⟩ := Fin.ext (Nat.min_eq_left (by omega))
  show tbl m d (cV L) (ix2 (Cert.Spec.rowOf (idxOf m d L (ix2 (⟨min j 24, by omega⟩ : Fin 25) x0))) x1)
    = Cert.Spec.G (m (wLoc d)) (m (zLoc d)) (ix2 (⟨offL L j + x0.val, by omega⟩ : Fin 100000) x1)
  rw [Cert.Spec.G_apply, hj']
  show m (wLoc d) (ix2 (Cert.Spec.rowOf (m (zLoc d) (ix1 (⟨min (offL L j + x0.val) 99999, by omega⟩ : Fin 100000)))) x1) = _
  have hmin : (⟨min (offL L j + x0.val) 99999, by omega⟩ : Fin 100000) = ⟨offL L j + x0.val, by omega⟩ := Fin.ext (Nat.min_eq_left hlt)
  rw [hmin]

end Cert.Proof.KB

end
-- ==== Proof.K_EndsB.lean ====
/-
  How one vector subcore's second half is entered and left: bookkeeping only, no program step.

  On entry the subcore holds its index scratch (the 25 index rows landed), its row ring at some contents, its DMA
  semaphores 2 to 15 at zero, its read share of the core's shared table, and its share of the result in write mode with
  nothing marked. These are taken apart into what the 25 chunks hold before any gather is started: each chunk its index
  row and a token of the write-mode share; chunks 0 to 6 also a ring slot at some contents, the slot's two semaphores
  and a part of the table share. What is left of the two shares stays beside the state. On exit every chunk is done:
  each holds its index row and its token, now marked with the chunk's rows, and chunks 18 to 24 hold the seven slots
  (chunk `j` uses slot `j mod 7`, and 18, …, 24 are 4, 5, 6, 0, 1, 2, 3 modulo 7). Joined back, the pieces are what was
  there on entry, with the write-mode share marked with all the subcore's chunks.
-/
import proofs.«206633_g8486855377485_cont_9to1_m_27_20_alg».proof.Proof.K_ResB
import proofs.«206633_g8486855377485_cont_9to1_m_27_20_alg».proof.Proof.K_GeomBody
import proofs.«206633_g8486855377485_cont_9to1_m_27_20_alg».proof.Proof.K_GeomSets

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

/-! ## Each chunk at the two ends -/

theorem chunkSt_init (NG NW j : ℕ) (hj : j < 25) :
    chunkSt m d L NG NW 0 0 0 j
      = iprop(idxP m d L j hj ∗ oWm m d (qOut L j) ∅
          ∗ (if j < 7 then freeSlot m d L (j % 7) (Nat.mod_lt _ (by decide)) else iprop(emp))) := by
  unfold chunkSt
  rw [dif_pos hj, if_pos (Nat.zero_le j)]

theorem chunkSt_final (NG NW j : ℕ) (hj : j < 25) :
    chunkSt m d L NG NW 25 25 25 j
      = iprop(idxP m d L j hj ∗ oWm m d (qOut L j) (outSet d L j)
          ∗ (if 25 ≤ j + 7 then freeSlot m d L (j % 7) (Nat.mod_lt _ (by decide)) else iprop(emp))) := by
  unfold chunkSt
  rw [dif_pos hj, if_neg (by omega), if_neg (by omega), if_neg (by omega)]

/-- The state as a product over the 25 chunks as a finite type. -/
theorem St_fin (NG NW g w dn : ℕ) :
    St m d L NG NW g w dn = bigSep Finset.univ fun j : Fin 25 => chunkSt m d L NG NW g w dn j.val := by
  unfold St
  rw [← Nat.Iio_eq_range, ← Fin.map_valEmbedding_univ, BI.bigSep_map]
  rfl

/-- Chunks `j` of a set on which `j mod 7` is one-to-one and onto the seven slots, read slot by slot. -/
theorem slots_reindex (s : Finset (Fin 25)) (hinj : ∀ a ∈ s, ∀ b ∈ s, a.val % 7 = b.val % 7 → a = b)
    (hsurj : ∀ b : Fin 7, ∃ a ∈ s, a.val % 7 = b.val) (Φ : (b : ℕ) → b < 7 → sProp 𝕄) :
    (bigSep s fun j => Φ (j.val % 7) (Nat.mod_lt _ (by decide))) = bigSep Finset.univ fun b : Fin 7 => Φ b.val b.isLt := by
  have himg : s.image (fun j : Fin 25 => (⟨j.val % 7, Nat.mod_lt _ (by decide)⟩ : Fin 7)) = Finset.univ := by
    ext b
    simp only [Finset.mem_image, Finset.mem_univ, iff_true]
    obtain ⟨a, ha, e⟩ := hsurj b
    exact ⟨a, ha, Fin.ext e⟩
  rw [← himg, SparseCore.bigSep_image_of_injOn (fun a ha b hb e => hinj a ha b hb (congrArg Fin.val e))]

/-! ## The pieces, each as a product over the seven slots or the 25 chunks -/

/-- The seven free slots: the slots at some contents, the gathers' semaphores, the copies' semaphores, the table share's parts. -/
theorem freeSlots_eq :
    (bigSep Finset.univ fun b : Fin 7 => freeSlot m d L b.val b.isLt)
      = iprop((bigSep Finset.univ fun b : Fin 7 => iprop(∃ f, slotP d L b.val b.isLt f))
          ∗ (bigSep Finset.univ fun b : Fin 7 => semVal (gcell d L b.val b.isLt) 0)
          ∗ (bigSep Finset.univ fun b : Fin 7 => semVal (wcell d L b.val b.isLt) 0)
          ∗ (bigSep Finset.univ fun b : Fin 7 => shSub m d L b.val)) := by
  unfold freeSlot
  rw [bigSep_sep', bigSep_sep', bigSep_sep']

/-- Semaphores 2 to 15 are the seven gathers' and the seven copies'. -/
theorem sems_eq :
    (bigSep (Finset.univ.filter fun k : Fin 16 => 2 ≤ k.val) fun k => (semVal (dcell d L k) 0 : sProp 𝕄))
      = iprop((bigSep Finset.univ fun b : Fin 7 => semVal (gcell d L b.val b.isLt) 0)
          ∗ (bigSep Finset.univ fun b : Fin 7 => semVal (wcell d L b.val b.isLt) 0)) := by
  have hset : (Finset.univ.filter fun k : Fin 16 => 2 ≤ k.val)
      = (Finset.univ : Finset (Fin 7)).image (fun b => (⟨2 + b.val, by omega⟩ : Fin 16))
        ∪ (Finset.univ : Finset (Fin 7)).image (fun b => (⟨9 + b.val, by omega⟩ : Fin 16)) := by decide
  have hdis : Disjoint ((Finset.univ : Finset (Fin 7)).image (fun b => (⟨2 + b.val, by omega⟩ : Fin 16)))
      ((Finset.univ : Finset (Fin 7)).image (fun b => (⟨9 + b.val, by omega⟩ : Fin 16))) := by decide
  rw [hset, BI.bigSep_union hdis,
    SparseCore.bigSep_image_of_injOn (fun a _ b _ e => Fin.ext (by have := congrArg Fin.val e; simp only at this; omega)),
    SparseCore.bigSep_image_of_injOn (fun a _ b _ e => Fin.ext (by have := congrArg Fin.val e; simp only at this; omega))]
  refine congrArg₂ BI.sep (bigSep_congr fun b _ => ?_) (bigSep_congr fun b _ => ?_)
  · show semVal ((V d (cV L) (jV L), SemLoc.dma (⟨2 + b.val, _⟩ : DmaSem sig)) : GSem nD τ sig) 0
        = semVal ((V d (cV L) (jV L), SemLoc.dma (semG b.val b.isLt)) : GSem nD τ sig) 0
    rw [semG_eq]
  · show semVal ((V d (cV L) (jV L), SemLoc.dma (⟨9 + b.val, _⟩ : DmaSem sig)) : GSem nD τ sig) 0
        = semVal ((V d (cV L) (jV L), SemLoc.dma (semW b.val b.isLt)) : GSem nD τ sig) 0
    rw [semW_eq]

/-- The shared table at share `q`, as the gathers name it, is the core's shared copy at share `q`. -/
theorem shPts_eq (q : PosShare TreeShare) :
    ((shM.view.loc (V d (cV L) (jV L)) ↦[shM.view.set]{q} (tbl m d (cV L) : Buf (Elt F) (shM.view.loc (V d (cV L) (jV L))))) : sProp 𝕄)
      = (shLoc d (cV L) ↦{q} tbl m d (cV L)) := by
  rw [shM_set]
  rfl

/-- The subcore's read share of the table is seven parts, one per slot, and a remainder. -/
theorem shTok_eq :
    shTok m d (cV L) (L 1).val
      = iprop((shM.view.loc (V d (cV L) (jV L)) ↦[shM.view.set]{Transfers.shareDrop (qSh L) 7}
            (tbl m d (cV L) : Buf (Elt F) (shM.view.loc (V d (cV L) (jV L)))))
          ∗ bigSep Finset.univ fun b : Fin 7 => shSub m d L b.val) := by
  show (shLoc d (cV L) ↦{qSh L} tbl m d (cV L) : sProp 𝕄) = _
  rw [← shPts_eq m d L (qSh L)]
  have h := Transfers.pointsTo_toks (ℓ := shM.view.loc (V d (cV L) (jV L))) (S := shM.view.set)
    (f := (tbl m d (cV L) : Buf (Elt F) (shM.view.loc (V d (cV L) (jV L))))) (Ix := HIx 1) (Name := ℕ) (U := UU F) (Lvl := ℕ) (qSh L) 7
  exact BI.equiv_iff.mp ⟨h.1, h.2⟩

/-- A union of empty sets is empty. -/
theorem biUnion_const_empty {ι α : Type} [DecidableEq α] (s : Finset ι) : s.biUnion (fun _ => (∅ : Finset α)) = ∅ := by
  ext x; simp

/-- A union over `Fin n` of a family given on the naturals is the union over the naturals below `n`. -/
theorem biUnion_fin_range {α : Type} [DecidableEq α] (n : ℕ) (f : ℕ → Finset α) :
    Finset.univ.biUnion (fun j : Fin n => f j.val) = (Finset.range n).biUnion f := by
  ext x
  simp only [Finset.mem_biUnion, Finset.mem_univ, true_and, Finset.mem_range]
  exact ⟨fun ⟨j, hj⟩ => ⟨j.val, j.isLt, hj⟩, fun ⟨j, hj, hx⟩ => ⟨⟨j, hj⟩, hx⟩⟩

/-- The rows chunk `j`'s copy out addresses are the chunk's. -/
theorem outSet_eq (j : ℕ) : outSet d L j = (Cert.Chunks.chunk (L 0).val (L 1).val j : Finset (Idx (oLoc d))) := by
  unfold outSet; exact outM_set_off ..

/-- The write-mode share with no marks is 25 tokens with no marks and a remainder. -/
theorem oWm_init_eq :
    oWm m d (qT (L 0).val (L 1).val) ∅
      = iprop(oWm m d (Transfers.shareDrop (qT (L 0).val (L 1).val) 25) ∅
          ∗ bigSep Finset.univ fun j : Fin 25 => oWm m d (qOut L j.val) ∅) := by
  have h0 := Cert.Lib.willBeTo_toks (Ix := HIx 1) (Name := ℕ) (Lvl := ℕ) (emb := EW (F := F)) (ℓ := oLoc d)
    (I := Finset.univ) (f := m (oLoc d)) (g := tgt m d) (qT (L 0).val (L 1).val) 25 ∅ (fun _ => ∅)
  have h := BI.equiv_iff.mp ⟨h0.1, h0.2⟩
  rw [show (∅ : Finset (Idx (oLoc d))) ∪ Finset.univ.biUnion (fun _ : Fin 25 => (∅ : Finset (Idx (oLoc d)))) = ∅ by
    rw [Finset.empty_union]; exact biUnion_const_empty _] at h
  exact h

/-- The subcore's marks are its 25 chunks' rows as the copies out address them. -/
theorem marks_eq :
    (∅ : Finset (Idx (oLoc d))) ∪ Finset.univ.biUnion (fun j : Fin 25 => outSet d L j.val) = tMarks d (L 0).val (L 1).val := by
  rw [Finset.empty_union, Finset.biUnion_congr rfl (fun j _ => outSet_eq d L j.val), biUnion_fin_range]
  rfl

/-- The write-mode share marked with the subcore's chunks is 25 tokens, each marked with its chunk, and a remainder. -/
theorem oWm_final_eq :
    oWm m d (qT (L 0).val (L 1).val) (tMarks d (L 0).val (L 1).val)
      = iprop(oWm m d (Transfers.shareDrop (qT (L 0).val (L 1).val) 25) ∅
          ∗ bigSep Finset.univ fun j : Fin 25 => oWm m d (qOut L j.val) (outSet d L j.val)) := by
  rw [← marks_eq d L]
  have h0 := Cert.Lib.willBeTo_toks (Ix := HIx 1) (Name := ℕ) (Lvl := ℕ) (emb := EW (F := F)) (ℓ := oLoc d)
    (I := Finset.univ) (f := m (oLoc d)) (g := tgt m d) (qT (L 0).val (L 1).val) 25 ∅ (fun j : Fin 25 => outSet d L j.val)
  exact BI.equiv_iff.mp ⟨h0.1, h0.2⟩

/-! ## The state at the two ends -/

/-- The 25 index rows are the index scratch. -/
theorem idxRows_eq :
    (bigSep Finset.univ fun j : Fin 25 => idxP m d L j.val j.isLt)
      = ((V d (cV L) (jV L)).loc cc0_scratch0 ↦{fullShare} idxOf m d L : sProp 𝕄) := by
  unfold idxP
  exact (idx_split d L (idxOf m d L)).symm

/-- Before any gather the free slots are held by chunks 0 to 6: all seven. -/
theorem slots_init_eq :
    (bigSep Finset.univ fun j : Fin 25 => if j.val < 7 then freeSlot m d L (j.val % 7) (Nat.mod_lt _ (by decide)) else (iprop(emp) : sProp 𝕄))
      = bigSep Finset.univ fun b : Fin 7 => freeSlot m d L b.val b.isLt :=
  (bigSep_filter Finset.univ (fun j : Fin 25 => j.val < 7) (fun j => freeSlot m d L (j.val % 7) (Nat.mod_lt _ (by decide)))).symm.trans
    (slots_reindex (Finset.univ.filter fun j : Fin 25 => j.val < 7) (by decide) (by decide) (fun b hb => freeSlot m d L b hb))

/-- After the last wait the free slots are held by chunks 18 to 24: all seven. -/
theorem slots_final_eq :
    (bigSep Finset.univ fun j : Fin 25 => if 25 ≤ j.val + 7 then freeSlot m d L (j.val % 7) (Nat.mod_lt _ (by decide)) else (iprop(emp) : sProp 𝕄))
      = bigSep Finset.univ fun b : Fin 7 => freeSlot m d L b.val b.isLt :=
  (bigSep_filter Finset.univ (fun j : Fin 25 => 25 ≤ j.val + 7) (fun j => freeSlot m d L (j.val % 7) (Nat.mod_lt _ (by decide)))).symm.trans
    (slots_reindex (Finset.univ.filter fun j : Fin 25 => 25 ≤ j.val + 7) (by decide) (by decide) (fun b hb => freeSlot m d L b hb))

theorem St_init_eq (NG NW : ℕ) :
    St m d L NG NW 0 0 0
      = iprop(((V d (cV L) (jV L)).loc cc0_scratch0 ↦{fullShare} idxOf m d L)
          ∗ (bigSep Finset.univ fun j : Fin 25 => oWm m d (qOut L j.val) ∅)
          ∗ (bigSep Finset.univ fun b : Fin 7 => freeSlot m d L b.val b.isLt)) := by
  rw [St_fin, bigSep_congr (fun j _ => chunkSt_init m d L NG NW j.val j.isLt), bigSep_sep', bigSep_sep', idxRows_eq, slots_init_eq]

theorem St_final_eq (NG NW : ℕ) :
    St m d L NG NW 25 25 25
      = iprop(((V d (cV L) (jV L)).loc cc0_scratch0 ↦{fullShare} idxOf m d L)
          ∗ (bigSep Finset.univ fun j : Fin 25 => oWm m d (qOut L j.val) (outSet d L j.val))
          ∗ (bigSep Finset.univ fun b : Fin 7 => freeSlot m d L b.val b.isLt)) := by
  rw [St_fin, bigSep_congr (fun j _ => chunkSt_final m d L NG NW j.val j.isLt), bigSep_sep', bigSep_sep', idxRows_eq, slots_final_eq]

/-- The row ring at some contents is its seven slots, each at some contents. -/
theorem rows_out :
    (iprop(∃ f, (V d (cV L) (jV L)).loc cc0_scratch1 ↦{fullShare} f) : sProp 𝕄)
      ⊢ bigSep Finset.univ fun b : Fin 7 => iprop(∃ f, slotP d L b.val b.isLt f) := by
  refine exists_elim fun f => ?_
  rw [rows_split d L f]
  exact bigSep_mono fun b _ => exists_intro (Φ := fun f => slotP d L b.val b.isLt f) f

/-- The seven slots, each at some contents, are the row ring at some contents. -/
theorem rows_in :
    (bigSep Finset.univ fun b : Fin 7 => iprop(∃ f, slotP d L b.val b.isLt f))
      ⊢ (iprop(∃ f, (V d (cV L) (jV L)).loc cc0_scratch1 ↦{fullShare} f) : sProp 𝕄) := by
  unfold slotP
  exact rows_join d L

/-! ## Entering and leaving -/

/-- What is left of the subcore's table share and of its write-mode share beside the pieces. -/
def restB : sProp 𝕄 :=
  iprop((shM.view.loc (V d (cV L) (jV L)) ↦[shM.view.set]{Transfers.shareDrop (qSh L) 7} (tbl m d (cV L) : Buf (Elt F) (shM.view.loc (V d (cV L) (jV L)))))
    ∗ oWm m d (Transfers.shareDrop (qT (L 0).val (L 1).val) 25) ∅)

theorem initSt (NG NW : ℕ) :
    iprop(((V d (cV L) (jV L)).loc cc0_scratch0 ↦{fullShare} idxOf m d L) ∗ (∃ f, (V d (cV L) (jV L)).loc cc0_scratch1 ↦{fullShare} f)
        ∗ (bigSep (Finset.univ.filter fun k : Fin 16 => 2 ≤ k.val) fun k => semVal (dcell d L k) 0)
        ∗ shTok m d (cV L) (L 1).val ∗ oWm m d (qT (L 0).val (L 1).val) ∅)
      ⊢ (iprop(St m d L NG NW 0 0 0 ∗ restB m d L) : sProp 𝕄) := by
  rw [St_init_eq, freeSlots_eq, sems_eq, shTok_eq, oWm_init_eq]
  unfold restB
  iintro ⟨HA, HR, ⟨HG, HW⟩, ⟨HsD, HSh⟩, HoD, HOW⟩
  ihave HR' := (rows_out d L) $$ HR
  isplitl [HA HOW HR' HG HW HSh]
  · isplitl [HA]; · iexact HA
    isplitl [HOW]; · iexact HOW
    isplitl [HR']; · iexact HR'
    isplitl [HG]; · iexact HG
    isplitl [HW]; · iexact HW
    iexact HSh
  · isplitl [HsD]; · iexact HsD
    iexact HoD

theorem finalSt (NG NW : ℕ) :
    (iprop(St m d L NG NW 25 25 25 ∗ restB m d L) : sProp 𝕄)
      ⊢ iprop(((V d (cV L) (jV L)).loc cc0_scratch0 ↦{fullShare} idxOf m d L) ∗ (∃ f, (V d (cV L) (jV L)).loc cc0_scratch1 ↦{fullShare} f)
        ∗ (bigSep (Finset.univ.filter fun k : Fin 16 => 2 ≤ k.val) fun k => semVal (dcell d L k) 0)
        ∗ shTok m d (cV L) (L 1).val ∗ oWm m d (qT (L 0).val (L 1).val) (tMarks d (L 0).val (L 1).val)) := by
  rw [St_final_eq, freeSlots_eq, sems_eq, shTok_eq, oWm_final_eq]
  unfold restB
  iintro ⟨⟨HA, HOW, HR, HG, HW, HSh⟩, HsD, HoD⟩
  ihave HR' := (rows_in d L) $$ HR
  isplitl [HA]; · iexact HA
  isplitl [HR']; · iexact HR'
  isplitl [HG HW]
  · isplitl [HG]; · iexact HG
    iexact HW
  isplitl [HsD HSh]
  · isplitl [HsD]; · iexact HsD
    iexact HSh
  isplitl [HoD]; · iexact HoD
  iexact HOW

end Cert.Proof.KB

end
-- ==== Proof.K_BarrierB.lean ====
/-
  The subcore barrier of the task's second half, as one step. Arriving at the barrier a subcore pays, in every subcore's
  round of its core, the duty it has there; the duty of subcore 0 in subcore `j`'s round hands over subcore `j`'s read
  share of the core's shared table, and every other subcore's duties hand over nothing. Subcore 0 holds the shared table
  whole: it cuts it into sixteen read shares and a remainder, so it has the sixteen payloads of its duties to present and
  keeps the remainder; any other subcore presents sixteen empty payloads. Leaving the barrier a subcore holds the payloads
  of all sixteen duties of its OWN round, of which subcore 0's is its read share of the table. What the subcore owes for the
  barrier is paid, the wait is recorded, and the write-mode invariant, being persistent, is kept.
-/
import proofs.«206633_g8486855377485_cont_9to1_m_27_20_alg».proof.Proof.K_TileSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) [FloatOps F] (d : Dev nD) (L : grid0.Coords)

/-- The payload of this subcore's duty in subcore `j`'s round: subcore 0's is `j`'s read share of the shared table, -/
theorem payload_zero (h : (L 1).val = 0) (j : Fin (grid0.bound 1)) :
    (bRd (F := F) m).payload (bcell d (cV L) (j.castLE hsub0)) 0 (jV L).val
      = (shLoc d (cV L) ↦{Transfers.shareTok fullShare 16 j} tbl m d (cV L) : sProp 𝕄) := by
  show (if (jV L).val = 0 then shTok m d (cV L) (j.castLE hsub0).val else iprop(emp)) = _
  rw [if_pos (show (jV L).val = 0 from h)]
  rfl

/-- any other subcore's is empty. -/
theorem payload_pos (h : ¬ (L 1).val = 0) (j : Fin (grid0.bound 1)) :
    (bRd (F := F) m).payload (bcell d (cV L) (j.castLE hsub0)) 0 (jV L).val = (iprop(emp) : sProp 𝕄) := by
  show (if (jV L).val = 0 then shTok m d (cV L) (j.castLE hsub0).val else iprop(emp)) = _
  rw [if_neg (show ¬ (jV L).val = 0 from h)]

/-- Before the barrier: the payloads of this subcore's duty in every subcore's round, out of the shared table where
    the subcore is subcore 0 (which keeps the remainder of the table), out of nothing otherwise. -/
theorem pays_intro :
    (if (L 1).val = 0 then iprop(shLoc d (cV L) ↦{fullShare} tbl m d (cV L)) else iprop(emp) : sProp 𝕄)
      ⊢ iprop((bigSep Finset.univ fun j : Fin (grid0.bound 1) => (bRd (F := F) m).payload (bcell d (cV L) (j.castLE hsub0)) 0 (jV L).val)
          ∗ (if (L 1).val = 0 then iprop(shLoc d (cV L) ↦{Transfers.shareDrop fullShare 16} tbl m d (cV L)) else iprop(emp))) := by
  by_cases h : (L 1).val = 0
  · rw [if_pos h, if_pos h, bigSep_congr fun j _ => payload_zero m d L h j]
    iintro H
    ihave H' := (Transfers.pointsTo_toks_split (ℓ := shLoc d (cV L)) (S := Finset.univ) (f := tbl m d (cV L)) fullShare 16) $$ H
    icases H' with ⟨Hd, Ht⟩
    isplitl [Ht]; · iexact Ht
    iexact Hd
  · rw [if_neg h, if_neg h, bigSep_congr fun j _ => payload_pos m d L h j, bigSep_emp']
    iintro -
    isplitl <;> iempintro

/-- After the barrier: among the payloads of the sixteen duties of the subcore's own round is subcore 0's, the subcore's
    read share of the shared table. -/
theorem pays_elim :
    (bigSep ((bRd (F := F) m).duties (bcell d (cV L) (jV L)) 0 \ ∅) fun n => (bRd (F := F) m).payload (bcell d (cV L) (jV L)) 0 n)
      ⊢ (shTok m d (cV L) (L 1).val : sProp 𝕄) := by
  have hmem : 0 ∈ (bRd (F := F) m).duties (bcell d (cV L) (jV L)) 0 \ ∅ :=
    Finset.mem_sdiff.2 ⟨bRd_mem₀ m d (cV L) (jV L) ⟨0, by decide⟩, Finset.notMem_empty _⟩
  have hp : (bRd (F := F) m).payload (bcell d (cV L) (jV L)) 0 0 = (shTok m d (cV L) (L 1).val : sProp 𝕄) := by
    show (if (0 : ℕ) = 0 then shTok m d (cV L) (jV L).val else iprop(emp)) = _
    rw [if_pos rfl]
    rfl
  rw [← hp]
  exact bigSep_elim hmem

/-- The barrier step: from the kit, the shared table where the subcore is subcore 0, and what the subcore owes with its
    sixteen arrivals, to the subcore's read share of the table, the remainder of the table where it is subcore 0, the
    write-mode invariant, and what it owes without the arrivals, the barrier's wait recorded. -/
theorem barrierStep (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    {α : Type} (kk : PUnit → Prog (TpuEff nD τ sig (Elt F) Λ₀ (.scVector ((L 0).castLE hcore0) ((L 1).castLE hsub0))) α) (Q : α → sProp 𝕄) :
    iprop(levAts (K (F := F)).L (K (F := F)).lev ∗ bkit m d (cV L) (jV L)
        ∗ (if (L 1).val = 0 then iprop(shLoc d (cV L) ↦{fullShare} tbl m d (cV L)) else iprop(emp))
        ∗ owes (V d (cV L) (jV L)) (O + oxV d (cV L)) W)
      ⊢ iprop((iprop(shTok m d (cV L) (L 1).val
              ∗ (if (L 1).val = 0 then iprop(shLoc d (cV L) ↦{Transfers.shareDrop fullShare 16} tbl m d (cV L)) else iprop(emp))
              ∗ (∃ ιwm : ℕ, wmInv (Ix := HIx 1) (Name := ℕ) (Lvl := ℕ) (EW (F := F)) ιwm)
              ∗ owes (V d (cV L) (jV L)) O (insert (SemLoc.reg sc_bar0, some 0) W))
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (SparseCore.subcoreBarrier sc_bar0 (grid0.bound 1) hsub0 >>= kk) Q) := by
  unfold bkit
  iintro ⟨#Hlv, ⟨⟨%κ, #Hinv⟩, Htoks, #Hr, Hat, Hcred, #Hwm⟩, Hsh, HO⟩ Hk
  -- the payloads of this subcore's sixteen duties, and what is left of the table
  ihave Hp := (pays_intro m d L) $$ Hsh
  icases Hp with ⟨Hpays, Hrest⟩
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O W) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hr
    isplitl [Hcred]; · iexact Hcred
    isplitl [Hat]; · iexact Hat
    -- the barrier's wait sits below everything the subcore still owes
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, -, -, Hown⟩
  iapply Hk
  isplitl [Hown]; · iapply (pays_elim m d L); iexact Hown
  isplitl [Hrest]; · iexact Hrest
  isplitr; · iexact Hwm
  iexact HO

end Cert.Proof.KB

end
-- ==== Proof.K_PhaseB.lean ====
/-
  A vector subcore's second half, whole: at the subcore barrier it receives its read share of the core's shared table (from
  subcore 0, which has filled it); it takes its storage apart into per-chunk and per-slot pieces; the three loops walk every
  chunk from "not started" to "done"; and the pieces are put back together, the subcore's share of the result now marked with
  all its chunks' rows.
-/
import proofs.«206633_g8486855377485_cont_9to1_m_27_20_alg».proof.Proof.K_LoopsB
import proofs.«206633_g8486855377485_cont_9to1_m_27_20_alg».proof.Proof.K_GeomSets
import proofs.«206633_g8486855377485_cont_9to1_m_27_20_alg».proof.Proof.K_Value
import proofs.«206633_g8486855377485_cont_9to1_m_27_20_alg».proof.Proof.K_EndsB
import proofs.«206633_g8486855377485_cont_9to1_m_27_20_alg».proof.Proof.K_BarrierB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (d : Dev nD) (L : grid0.Coords)

/-- The facts every step needs, from the index words being in range. -/
theorem stepFacts (hz : ∀ i, (m (zLoc d) i).toNat < 100) : StepFacts m d L NG NW where
  gsum := gather_credit
  gcred := slot_credit
  wamt := out_amount
  wcred := out_credit
  wpos := by decide
  hin := fun j hj => hin_idx m d L hz j hj
  hval := fun j hj b hb fd i hi => gather_val m d L hz j hj b hb fd i hi
  hadm := fun j hj b hb => copy_adm m d L hz j hj b hb

theorem phaseB (hz : ∀ i, (m (zLoc d) i).toNat < 100) (hF : (K (F := F)).Facts) (O : CellTallies nD τ sig (HIx 1)) (W₁ : Waits sig (HIx 1))
    (hO : ∀ g, O g none = 0) (hOlev : ∀ g ι, 0 < O g ι → 8 * (0 : Fin 1).val + 6 ≤ (K (F := F)).lev g ι) :
    iprop(levAts (K (F := F)).L (K (F := F)).lev ∗ bkit m d (cV L) (jV L) ∗ oWm m d (qT (L 0).val (L 1).val) ∅
        ∗ (if (L 1).val = 0 then iprop(shLoc d (cV L) ↦{fullShare} tbl m d (cV L)) else iprop(emp))
        ∗ ((V d (cV L) (jV L)).loc cc0_scratch0 ↦{fullShare} idxOf m d L) ∗ (∃ f, (V d (cV L) (jV L)).loc cc0_scratch1 ↦{fullShare} f)
        ∗ (bigSep (Finset.univ.filter fun k : Fin 16 => 2 ≤ k.val) fun k => semVal (dcell d L k) 0)
        ∗ owes (V d (cV L) (jV L)) (O + oxV d (cV L)) W₁)
      ⊢ wp frame (wpE (defs₀ (F := F)) 𝒱₀ (V d (cV L) (jV L)) none) Set.univ (progB L)
          fun _ => iprop(oWm m d (qT (L 0).val (L 1).val) (tMarks d (L 0).val (L 1).val) ∗ shTok m d (cV L) (L 1).val
            ∗ (if (L 1).val = 0 then iprop(shLoc d (cV L) ↦{Transfers.shareDrop fullShare 16} tbl m d (cV L)) else iprop(emp))
            ∗ ((V d (cV L) (jV L)).loc cc0_scratch0 ↦{fullShare} idxOf m d L) ∗ (∃ f, (V d (cV L) (jV L)).loc cc0_scratch1 ↦{fullShare} f)
            ∗ (bigSep (Finset.univ.filter fun k : Fin 16 => 2 ≤ k.val) fun k => semVal (dcell d L k) 0)
            ∗ ∃ W', ⌜∀ p ∈ W', p ∈ W₁ ∨ p.2 = none ∨ p.2 = some (0 : Fin 1)⌝ ∗ owes (V d (cV L) (jV L)) O W') := by
  unfold progB
  iintro ⟨#Hlv, Hkit, Ho, Hsh, Hidx, Hrows, Hsems, HO⟩
  -- the barrier: subcore 0 deals the shares of the shared table, every subcore receives its own
  iapply (barrierStep m d L hF O W₁ hO hOlev _ _) $$ [Hkit Hsh HO]
  · isplitr; · iexact Hlv
    isplitl [Hkit]; · iexact Hkit
    isplitl [Hsh]; · iexact Hsh
    iexact HO
  iintro ⟨Htok, Hrest16, #Hwm, HO⟩
  -- the storage taken apart
  ihave Hst := (initSt m d L NG NW) $$ [Hidx Hrows Hsems Htok Ho]
  · isplitl [Hidx]; · iexact Hidx
    isplitl [Hrows]; · iexact Hrows
    isplitl [Hsems]; · iexact Hsems
    isplitl [Htok]; · iexact Htok
    iexact Ho
  icases Hst with ⟨HSt, HrestB⟩
  ihave Hmw := ((K (F := F)).mayWaits_none (thr := V d (cV L) (jV L)) hO) $$ Hlv
  -- the three loops
  iapply (loop3 m d L (stepFacts m d L hz) O (insert (SemLoc.reg sc_bar0, some 0) W₁) _ _) $$ [HSt HO]
  · unfold LI owesEx
    isplitr; · iexact Hmw
    isplitr; · iexact Hwm
    isplitl [HSt]; · iexact HSt
    iexists _
    isplitr
    swap; · iexact HO
    ipureintro; exact fun p hp => .inl hp
  iintro HI
  iapply (loop4 m d L (stepFacts m d L hz) O (insert (SemLoc.reg sc_bar0, some 0) W₁) _ _) $$ HI
  iintro HI
  iapply (loop5 m d L (stepFacts m d L hz) O (insert (SemLoc.reg sc_bar0, some 0) W₁) _ _) $$ HI
  iintro HI
  unfold LI owesEx
  icases HI with ⟨-, -, HSt, ⟨%W', %hW', HO⟩⟩
  rw [wp_pure]
  imodintro
  -- the storage put back together
  ihave Hfin := (finalSt m d L NG NW) $$ [HSt HrestB]
  · isplitl [HSt]; · iexact HSt
    iexact HrestB
  icases Hfin with ⟨Hidx, Hrows, Hsems, Htok, Ho⟩
  isplitl [Ho]; · iexact Ho
  isplitl [Htok]; · iexact Htok
  isplitl [Hrest16]; · iexact Hrest16
  isplitl [Hidx]; · iexact Hidx
  isplitl [Hrows]; · iexact Hrows
  isplitl [Hsems]; · iexact Hsems
  iexists _
  isplitr
  swap; · iexact HO
  ipureintro; intro p hp
  rcases hW' p hp with h | h
  · rcases Finset.mem_insert.mp h with h | h
    · exact .inr (.inr (h ▸ rfl))
    · exact .inl h
  · exact .inr (.inl h)

end Cert.Proof.KB

end
-- ==== Proof.K_TileBody.lean ====
/-
  One vector subcore's task, whole: its two halves put together. The subcore's own storage is taken apart into the index
  scratch, the row ring and the rest, its sixteen DMA semaphores into the table copy's, the index chunks' and the fourteen
  of the ring. The first half (up to the subcore barrier) fills the index scratch with the subcore's index words and, on
  subcore 0, the core's shared scratch with the table; the second half (from the barrier on) starts from exactly that,
  with the result's write-mode token and the barrier kit, and ends with the token marked with the subcore's chunks and
  the subcore's read share of the shared table. Storage and semaphores are put back together for the task's exit, and the
  waits recorded by the second half on top of the first's are still the caller's, unindexed ones, or the call's own.
-/
import proofs.«206633_g8486855377485_cont_9to1_m_27_20_alg».proof.Proof.K_Setup
import proofs.«206633_g8486855377485_cont_9to1_m_27_20_alg».proof.Proof.K_TileSetup
import proofs.«206633_g8486855377485_cont_9to1_m_27_20_alg».proof.Proof.K_PhaseA
import proofs.«206633_g8486855377485_cont_9to1_m_27_20_alg».proof.Proof.K_PhaseB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)
variable [FloatOps F]

/-! ## Regroupings -/

omit [FloatOps F] in
/-- A conjunction held under a condition, taken apart; -/
theorem if_apart (c : Prop) [Decidable c] (A B : sProp 𝕄) :
    (if c then iprop(A ∗ B) else iprop(emp)) ⊢ iprop((if c then A else iprop(emp)) ∗ (if c then B else iprop(emp))) := by
  split
  · exact .rfl
  · iintro H
    isplitl [H]; · iexact H
    iempintro
omit [FloatOps F] in
/-- and put together. -/
theorem if_together (c : Prop) [Decidable c] (A B : sProp 𝕄) :
    iprop((if c then A else iprop(emp)) ∗ (if c then B else iprop(emp))) ⊢ (if c then iprop(A ∗ B) else iprop(emp)) := by
  split
  · exact .rfl
  · iintro ⟨H, -⟩
    iexact H

omit [FloatOps F] in
/-- Sixteen conjuncts as the first, the second and the fourteen from the third on. -/
theorem bigSep_fin16_two (Φ : Fin 16 → sProp 𝕄) :
    bigSep Finset.univ Φ = iprop(Φ 0 ∗ Φ 1 ∗ bigSep (Finset.univ.filter fun k : Fin 16 => 2 ≤ k.val) Φ) :=
  (congrArg (fun s => bigSep s Φ)
    (show (Finset.univ : Finset (Fin 16)) = insert 0 (insert 1 (Finset.univ.filter fun k : Fin 16 => 2 ≤ k.val)) by decide)).trans
    (by rw [SparseCore.bigSep_insert' (by decide), SparseCore.bigSep_insert' (by decide)])

omit [FloatOps F] in
/-- The subcore's semaphores at zero: the table copy's, the index chunks', the ring's. -/
theorem ownSems0_V₂ (d : Dev nD) (L : grid0.Coords) :
    (ownSems0 (V d (cV L) (jV L)) : sProp 𝕄)
      = iprop(semVal (dcell d L 0) 0 ∗ semVal (dcell d L 1) 0 ∗ bigSep (Finset.univ.filter fun k : Fin 16 => 2 ≤ k.val) fun k => semVal (dcell d L k) 0) :=
  (ownSems0_V d L).trans (bigSep_fin16_two _)

/-! ## The task -/

theorem tile_body (d : Dev nD) (L : grid0.Coords) (hz : ∀ i, (m (zLoc d) i).toNat < 100) (hF : (K (F := F)).Facts) (O : CellTallies nD τ sig (HIx 1)) (W : Waits sig (HIx 1)) (hO : ∀ g, O g none = 0) (hOlev : ∀ g ι, 0 < O g ι → 8 * (0 : Fin 1).val + 6 ≤ (K (F := F)).lev g ι) :
    iprop(levAts (K (F := F)).L (K (F := F)).lev ∗ bkit m d (cV L) (jV L)
        ∗ (zPts m d (qT (L 0).val (L 1).val) ∗ oWm m d (qT (L 0).val (L 1).val) ∅ ∗ if (L 1).val = 0 then iprop(wPts m d (qC (L 0).val) ∗ ∃ f, shLoc d (cV L) ↦{fullShare} f) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L zV (Memref.isWhole_whole _) wV (Memref.isWhole_whole _) oV (Memref.isWhole_whole _) iV (Memref.isWhole_whole _) rV (Memref.isWhole_whole _) shV (Memref.isWhole_whole _) cc0_scratch3 cc0_scratch4 cc0_scratch5 cc0_scratch6)
          fun _ => iprop((zPts m d (qT (L 0).val (L 1).val) ∗ oWm m d (qT (L 0).val (L 1).val) (tMarks d (L 0).val (L 1).val) ∗ shTok m d (cV L) (L 1).val
              ∗ if (L 1).val = 0 then iprop(wPts m d (qC (L 0).val) ∗ shLoc d (cV L) ↦{Transfers.shareDrop fullShare 16} tbl m d (cV L)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0_k_eq_parts.{1}, (K (F := F)).scopedBufs_V hF d (cV L) (jV L), SparseCore.Cfg.scopedSems0_V d (cV L) (jV L), ownSems0_V₂ d L, ownBufs_V d L]
  have hO' : ∀ g, (O + oxV d (cV L)) g none = 0 := fun g => by
    show O g none + oxV d (cV L) g none = 0
    rw [hO g, oxV_none]
  iintro ⟨#Hlev, Hkit, ⟨Hz, Ho, Hif⟩, ⟨Hs0, Hs1, Hbr⟩, ⟨Hd0, Hd1, Hdr⟩, Howes⟩
  -- the first half, the second as what follows it
  iapply (phaseA d L m hF (O + oxV d (cV L)) W hO' (fun _ => progB L) _) $$ [Hz Hif Hs0 Hd0 Hd1 Howes]
  · isplitr; · iexact Hlev
    isplitl [Hz]; · iexact Hz
    isplitl [Hif]; · iexact Hif
    isplitl [Hs0]; · iexact Hs0
    isplitl [Hd0]; · iexact Hd0
    isplitl [Hd1]; · iexact Hd1
    iexact Howes
  iintro ⟨Hz, Hif, Hs0, Hd0, Hd1, ⟨%W₁, %hW₁, Howes⟩⟩
  -- subcore 0 keeps its share of the table aside; the filled shared scratch goes on
  ihave Hif' := (if_apart _ _ _) $$ Hif
  icases Hif' with ⟨Hw, Hsh⟩
  iapply (wp_wand_r frame _ Set.univ)
  isplitl [Hkit Ho Hsh Hs0 Hs1 Hdr Howes]
  · iapply (phaseB m d L hz hF O W₁ hO hOlev)
    isplitr; · iexact Hlev
    isplitl [Hkit]; · iexact Hkit
    isplitl [Ho]; · iexact Ho
    isplitl [Hsh]; · iexact Hsh
    isplitl [Hs0]; · iexact Hs0
    isplitl [Hs1]; · iexact Hs1
    isplitl [Hdr]; · iexact Hdr
    iexact Howes
  iintro %_ ⟨Ho, Htok, Hsh, Hs0, Hs1, Hdr, ⟨%W', %hW', Howes⟩⟩
  -- what the task brings back
  isplitl [Hz Ho Htok Hw Hsh]
  · isplitl [Hz]; · iexact Hz
    isplitl [Ho]; · iexact Ho
    isplitl [Htok]; · iexact Htok
    iapply (if_together _ _ _)
    isplitl [Hw]; · iexact Hw
    iexact Hsh
  -- the subcore's storage and semaphores, whole again
  isplitl [Hs0 Hs1 Hbr]
  · isplitl [Hs0]; · iexists _; iexact Hs0
    isplitl [Hs1]; · iexact Hs1
    iexact Hbr
  isplitl [Hd0 Hd1 Hdr]
  · isplitl [Hd0]; · iexact Hd0
    isplitl [Hd1]; · iexact Hd1
    iexact Hdr
  -- the waits: the second half's on top of the first's
  iexists W'
  isplitr
  · ipureintro
    intro p hp
    rcases hW' p hp with h | h | h
    · rcases hW₁ p h with h' | h'
      · exact .inl h'
      · exact .inr (.inl h')
    · exact .inr (.inl h)
    · exact .inr (.inr h)
  iexact Howes

end Cert.Proof.KB

end
-- ==== Proof.K_Tile.lean ====
/-
  Every vector subcore's obligation, from the one proof of the task at a symbolic grid point. The call runs, on subcore
  `s` of core `c`, the kernel function at the grid point `(c, s)`; what the launch deals that subcore (its barrier kit, its
  read token of the index array, its write-mode token of the result, and for subcore 0 the core's share of the table and the
  shared scratch) and what it must bring back are the task's own pre- and postcondition read at that point.
-/
import proofs.«206633_g8486855377485_cont_9to1_m_27_20_alg».proof.Proof.K_Setup
import proofs.«206633_g8486855377485_cont_9to1_m_27_20_alg».proof.Proof.K_TileSetup
import proofs.«206633_g8486855377485_cont_9to1_m_27_20_alg».proof.Proof.K_TileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

variable (m : (ℓ : Loc nD τ sig) → Buf (Elt F) ℓ) (ρ : Dev nD → PrngReg)
variable [FloatOps F]

/-! ## The obligation -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the kernel function at its grid point, on the whole arrays and its scratch. -/
theorem defs₀_vector (c : Fin τ.nSC) (s : Fin τ.nSub) :
    defs₀ (F := F) (.scVector c s) 0 ()
      = SparseCore.onTile hcore0 hsub0 (fun c s => cc0_k (coordsV c s)
          zV (Memref.isWhole_whole _) wV (Memref.isWhole_whole _) oV (Memref.isWhole_whole _) iV (Memref.isWhole_whole _) rV (Memref.isWhole_whole _) shV (Memref.isWhole_whole _)
          cc0_scratch3 cc0_scratch4 cc0_scratch5 cc0_scratch6) ⟨⟩ c s := rfl

set_option maxRecDepth 16384 in
/-- Every subcore's task, from the task's proof at its grid point, given every index word names a row of the table. -/
theorem tileObl (hz : ∀ (d : Dev nD) i, (m (zLoc d) i).toNat < 100) (hF : (K (F := F)).Facts) :
    (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (hz d) hF O W hO hOlev

end Cert.Proof.KB

end
-- ==== Proof.lean ====
/-
  The proof of `Cert.Claim` (proofs.«206633_g8486855377485_cont_9to1_m_27_20_alg».proof.Defs).

  Both programs compute an embedding lookup: row `r` of the result is the row of the 100-row table that the `r`-th index
  word names, and the eight arguments come back as they were. The reference does it in one gather. The kernel does it on
  the 32 vector subcores of the device's two SparseCores: subcore `s` of core `c` takes the chunks of 128 rows numbered
  `2 s + c + 32 j`, `j < 25` (a chunk that would run past the last row is moved back, so the last chunks overlap and are
  written twice with equal values); it fetches its index words, subcore 0 of each core fills the core's shared copy of
  the table, all sixteen meet at the subcore barrier, and each then gathers the rows its indices name out of the shared
  copy, through a ring of seven buffers, and copies them out to its chunks of the result.

  The kernel's run names the result outright — it is the lookup `Cert.Spec.G` of the table at the indices — given that
  every index word is below 100, which the precondition says (`Cert.RefSide.z_range`). The three frames are the two
  programs' runs with the result forgotten: the kernel's read at the word-level instance for the program as printed and
  at the extended-real instance for its idealization (the same text: no operation was rewritten, so `preserves` has
  nothing to state), the reference's from its own run. For `algebraic` both runs end at the same function of the arguments: the
  reference's run gives the lookup of its own table at its own indices, which are the kernel's by hypothesis.
-/
import proofs.«206633_g8486855377485_cont_9to1_m_27_20_alg».proof.Defs
import proofs.«206633_g8486855377485_cont_9to1_m_27_20_alg».proof.Proof.Gen.Kernel
import proofs.«206633_g8486855377485_cont_9to1_m_27_20_alg».proof.Proof.Gen.Kernel.Skeleton
import proofs.«206633_g8486855377485_cont_9to1_m_27_20_alg».proof.Proof.Gen.KernelIdeal
import proofs.«206633_g8486855377485_cont_9to1_m_27_20_alg».proof.Proof.Gen.KernelIdeal.Skeleton
import proofs.«206633_g8486855377485_cont_9to1_m_27_20_alg».proof.Proof.Gen.ReferenceIdeal
import proofs.«206633_g8486855377485_cont_9to1_m_27_20_alg».proof.Proof.Gen.Pre_input_domain
import Idealize.ShloMosaic.Adequacy
import Idealize.ShloMosaic.Init
import proofs.«206633_g8486855377485_cont_9to1_m_27_20_alg».proof.Proof.Range
import proofs.«206633_g8486855377485_cont_9to1_m_27_20_alg».proof.Proof.RefRun
import proofs.«206633_g8486855377485_cont_9to1_m_27_20_alg».proof.Proof.Launch
import proofs.«206633_g8486855377485_cont_9to1_m_27_20_alg».proof.Proof.K_Launch
import proofs.«206633_g8486855377485_cont_9to1_m_27_20_alg».proof.Proof.Tile
import proofs.«206633_g8486855377485_cont_9to1_m_27_20_alg».proof.Proof.K_Tile

noncomputable section

namespace Cert.Proof

open Idealize.ShloMosaic Idealize.SL.Sem

/-- The kernel as printed, read at the word level: it runs, and the arguments are unchanged. -/
theorem frame_Kernel : Cert.frame_Kernel (hKernel := Cert.Kernel.Gen.facts) (hPre_input_domain := Cert.Pre_input_domain.Gen.facts) :=
  fun m g hpre =>
    (θ_run Cert.Kernel.defs _ _).mono (fun _ h c => (h c).2)
      (KB.run_main (F := Bits) m g (KB.tileObl m (fun d => Cert.RefSide.z_range _ _ _ _ _ _ _ _ (hpre d)) KB.facts))

/-- Its idealization, read over the extended reals: likewise. -/
theorem frame_KernelIdeal : Cert.frame_KernelIdeal (hKernelIdeal := Cert.KernelIdeal.Gen.facts) (hPre_input_domain := Cert.Pre_input_domain.Gen.facts) :=
  fun m g hpre =>
    (θ_run Cert.KernelIdeal.defs _ _).mono (fun _ h c => (h c).2)
      (KI.run_main (F := Ideal) m g (KI.tileObl m (fun d => Cert.RefSide.z_range _ _ _ _ _ _ _ _ (hpre d)) KI.facts))

/-- The reference: likewise, from its own run. -/
theorem frame_ReferenceIdeal : Cert.frame_ReferenceIdeal (hReferenceIdeal := Cert.ReferenceIdeal.Gen.facts) (hPre_input_domain := Cert.Pre_input_domain.Gen.facts) :=
  fun m g hpre =>
    (θ_run Cert.ReferenceIdeal.defs _ _).mono (fun _ h c => (h c).2)
      (Cert.RefSide.run m g (fun c => Cert.RefSide.z_range _ _ _ _ _ _ _ _ (hpre c)))

/-- Over the extended reals the two programs end with the same result, the lookup of the table at the indices, and with
    their arguments unchanged. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hz : ∀ (d : Dev Cert.KernelIdeal.nD) i, (m (KI.zLoc d) i).toNat < 100 :=
    fun d => Cert.RefSide.z_range _ _ _ _ _ _ _ _ (hpre d)
  -- the reference's index words are the kernel's
  have hz' : ∀ (c : Dev Cert.ReferenceIdeal.nD) i,
      (m' ((c.tc : Thread Cert.ReferenceIdeal.nD Cert.ReferenceIdeal.τ).loc Cert.ReferenceIdeal.main_arg0) i).toNat < 100 :=
    fun c i => by rw [(hagree c).1]; exact hz c i
  refine ⟨fun c => KI.res m c,
    fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg4),
    fun c => m ((c.tc : Thread Cert.KernelIdeal.nD Cert.KernelIdeal.τ).loc Cert.KernelIdeal.main_arg5),
    fun c => m ((c.tc : Thread Cert.KernelIdeal.nD Cert.KernelIdeal.τ).loc Cert.KernelIdeal.main_arg6),
    ?_, ?_⟩
  · -- the kernel's run, its post read twice for the arguments
    refine (θ_run Cert.KernelIdeal.defs _ _).mono (fun _ h c => ?_) (KI.run_main (F := Ideal) m g (KI.tileObl m hz KI.facts))
    obtain ⟨r, a0, a1, a2, a3, a4, a5, a6, a7⟩ := h c
    exact ⟨r, a0, a1, a2, a3, a4, a5, a6, a0, a1, a2, a3, a4, a5, a6, a7⟩
  · -- the reference's run: the lookup of its own table at its own indices, which are the kernel's
    refine (θ_run Cert.ReferenceIdeal.defs _ _).mono (fun _ h c => ?_) (Cert.RefSide.run m' g' hz')
    obtain ⟨r, a0, a1, a2, a3, a4, a5, a6, a7⟩ := h c
    obtain ⟨e0, e1, e2, e3, e4, e5, e6, e7⟩ := hagree c
    exact ⟨r.trans (congrArg₂ Cert.Spec.G e7 e0), a0.trans e0, a1.trans e1, a2.trans e2, a3.trans e3, a4.trans e4, a5.trans e5, a6.trans e6,
      a0, a1, a2, a3, a4, a5, a6, a7⟩

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
